-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S64x64x3x3 : Shape := ⟨4, ![64, 64, 3, 3]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S8x64x64x64 .f32) (main_arg1 : FVec F S64x64x3x3 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S8x64x64x64 : Shape := ⟨4, ![8, 64, 64, 64]⟩
abbrev S64x64x3x3 : Shape := ⟨4, ![64, 64, 3, 3]⟩
abbrev S_ : Shape := ⟨0, ![]⟩
abbrev S8x64x66x66 : Shape := ⟨4, ![8, 64, 66, 66]⟩
abbrev S1x64x66x66 : Shape := ⟨4, ![1, 64, 66, 66]⟩
abbrev S1x64x64x64 : Shape := ⟨4, ![1, 64, 64, 64]⟩
abbrev S64x8x64 : Shape := ⟨3, ![64, 8, 64]⟩
abbrev S1x8x8x64 : Shape := ⟨4, ![1, 8, 8, 64]⟩
abbrev S8x8x64 : Shape := ⟨3, ![8, 8, 64]⟩
abbrev S64x8x1x1 : Shape := ⟨4, ![64, 8, 1, 1]⟩
abbrev S64x8 : Shape := ⟨2, ![64, 8]⟩
abbrev S64x8x8x64 : Shape := ⟨4, ![64, 8, 8, 64]⟩
abbrev S1x64x8x64 : Shape := ⟨4, ![1, 64, 8, 64]⟩

abbrev nBuf : Space → Nat
  | .hbm => 6
  | .vmem => 5
  | .smem => 0
  | _ => 0

abbrev bufTy : (tb : Table) → Fin (tcTables nBuf tb) → BufTy
  | .hbm, ⟨0, _⟩ => ⟨S8x64x64x64, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S8x64x66x66, .f32⟩
  | .hbm, ⟨5, _⟩ => ⟨S8x64x64x64, .f32⟩
  | .local _ .vmem, ⟨0, _⟩ => ⟨S1x64x66x66, .f32⟩
  | .local _ .vmem, ⟨1, _⟩ => ⟨S1x64x66x66, .f32⟩
  | .local _ .vmem, ⟨2, _⟩ => ⟨S64x64x3x3, .f32⟩
  | .local _ .vmem, ⟨3, _⟩ => ⟨S1x64x64x64, .f32⟩
  | .local _ .vmem, ⟨4, _⟩ => ⟨S1x64x64x64, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) : Fin 4 → Nat :=
  let c0_317 : Index := 0#32
  let c0_i32 : BitVec 32 := 0#32
  let c1_i32 : BitVec 32 := 1#32
  let arg4 : BitVec 32 := Scf.iv c0_i32 c1_i32 k0_t1
  let c8_i32_316 : BitVec 32 := 8#32
  let v176 : BitVec 32 := Scalar.muli arg4 c8_i32_316
  let v177 : Index := Scalar.indexCast v176
  let c0_318 : Index := 0#32
  let c0_319 : Index := 0#32
  ![0, v177.toNat, 0, 0]
def k0_off2 (k0_t1 : Fin k0_t1_loop.trips) : Fin 4 → Nat :=
  let c0_321 : Index := 0#32
  let c0_i32 : BitVec 32 := 0#32
  let c1_i32 : BitVec 32 := 1#32
  let arg4 : BitVec 32 := Scf.iv c0_i32 c1_i32 k0_t1
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t2_loop : Scf.Loop 32 :=
  let c0_i32_1 : BitVec 32 := 0#32
  let c8_i32_2 : BitVec 32 := 8#32
  let v3 : BitVec 32 := Scalar.addi c0_i32_1 c8_i32_2
  let c1_i32_3 : BitVec 32 := 1#32
  ⟨c0_i32_1, v3, c1_i32_3⟩
def k0_off3 (k0_t2 : Fin k0_t2_loop.trips) : Fin 4 → Nat :=
  let c0_317 : Index := 0#32
  let c0_i32_1 : BitVec 32 := 0#32
  let c1_i32_3 : BitVec 32 := 1#32
  let arg4 : BitVec 32 := Scf.iv c0_i32_1 c1_i32_3 k0_t2
  let c8_i32_316 : BitVec 32 := 8#32
  let v176 : BitVec 32 := Scalar.muli arg4 c8_i32_316
  let v177 : Index := Scalar.indexCast v176
  let c0_318 : Index := 0#32
  let c1 : Index := 1#32
  ![0, v177.toNat, 0, 1]
def k0_off4 (k0_t2 : Fin k0_t2_loop.trips) : Fin 4 → Nat :=
  let c0_320 : Index := 0#32
  let c0_i32_1 : BitVec 32 := 0#32
  let c1_i32_3 : BitVec 32 := 1#32
  let arg4 : BitVec 32 := Scf.iv c0_i32_1 c1_i32_3 k0_t2
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t3_loop : Scf.Loop 32 :=
  let c0_i32_5 : BitVec 32 := 0#32
  let c8_i32_6 : BitVec 32 := 8#32
  let v5 : BitVec 32 := Scalar.addi c0_i32_5 c8_i32_6
  let c1_i32_7 : BitVec 32 := 1#32
  ⟨c0_i32_5, v5, c1_i32_7⟩
def k0_off5 (k0_t3 : Fin k0_t3_loop.trips) : Fin 4 → Nat :=
  let c0_317 : Index := 0#32
  let c0_i32_5 : BitVec 32 := 0#32
  let c1_i32_7 : BitVec 32 := 1#32
  let arg4 : BitVec 32 := Scf.iv c0_i32_5 c1_i32_7 k0_t3
  let c8_i32_316 : BitVec 32 := 8#32
  let v176 : BitVec 32 := Scalar.muli arg4 c8_i32_316
  let v177 : Index := Scalar.indexCast v176
  let c0_318 : Index := 0#32
  let c2 : Index := 2#32
  ![0, v177.toNat, 0, 2]
def k0_off6 (k0_t3 : Fin k0_t3_loop.trips) : Fin 4 → Nat :=
  let c0_320 : Index := 0#32
  let c0_i32_5 : BitVec 32 := 0#32
  let c1_i32_7 : BitVec 32 := 1#32
  let arg4 : BitVec 32 := Scf.iv c0_i32_5 c1_i32_7 k0_t3
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t4_loop : Scf.Loop 32 :=
  let c0_i32_9 : BitVec 32 := 0#32
  let c8_i32_10 : BitVec 32 := 8#32
  let v7 : BitVec 32 := Scalar.addi c0_i32_9 c8_i32_10
  let c1_i32_11 : BitVec 32 := 1#32
  ⟨c0_i32_9, v7, c1_i32_11⟩
def k0_off7 (k0_t4 : Fin k0_t4_loop.trips) : Fin 4 → Nat :=
  let c0_317 : Index := 0#32
  let c0_i32_9 : BitVec 32 := 0#32
  let c1_i32_11 : BitVec 32 := 1#32
  let arg4 : BitVec 32 := Scf.iv c0_i32_9 c1_i32_11 k0_t4
  let c8_i32_316 : BitVec 32 := 8#32
  let v176 : BitVec 32 := Scalar.muli arg4 c8_i32_316
  let v177 : Index := Scalar.indexCast v176
  let c1 : Index := 1#32
  let c0_318 : Index := 0#32
  ![0, v177.toNat, 1, 0]
def k0_off8 (k0_t4 : Fin k0_t4_loop.trips) : Fin 4 → Nat :=
  let c0_320 : Index := 0#32
  let c0_i32_9 : BitVec 32 := 0#32
  let c1_i32_11 : BitVec 32 := 1#32
  let arg4 : BitVec 32 := Scf.iv c0_i32_9 c1_i32_11 k0_t4
  let c8_i32_319 : BitVec 32 := 8#32
  let v180 : BitVec 32 := Scalar.muli arg4 c8_i32_319
  let v181 : Index := Scalar.indexCast v180
  let c1_321 : Index := 1#32
  let c0_322 : Index := 0#32
  ![0, v181.toNat, 1, 0]
@[reducible] def k0_t5_loop : Scf.Loop 32 :=
  let c0_i32_13 : BitVec 32 := 0#32
  let c8_i32_14 : BitVec 32 := 8#32
  let v9 : BitVec 32 := Scalar.addi c0_i32_13 c8_i32_14
  let c1_i32_15 : BitVec 32 := 1#32
  ⟨c0_i32_13, v9, c1_i32_15⟩
def k0_off9 (k0_t5 : Fin k0_t5_loop.trips) : Fin 4 → Nat :=
  let c0_317 : Index := 0#32
  let c0_i32_13 : BitVec 32 := 0#32
  let c1_i32_15 : BitVec 32 := 1#32
  let arg4 : BitVec 32 := Scf.iv c0_i32_13 c1_i32_15 k0_t5
  let c8_i32_316 : BitVec 32 := 8#32
  let v176 : BitVec 32 := Scalar.muli arg4 c8_i32_316
  let v177 : Index := Scalar.indexCast v176
  let c1 : Index := 1#32
  let c1_318 : Index := 1#32
  ![0, v177.toNat, 1, 1]
def k0_off10 (k0_t5 : Fin k0_t5_loop.trips) : Fin 4 → Nat :=
  let c0_320 : Index := 0#32
  let c0_i32_13 : BitVec 32 := 0#32
  let c1_i32_15 : BitVec 32 := 1#32
  let arg4 : BitVec 32 := Scf.iv c0_i32_13 c1_i32_15 k0_t5
  let c8_i32_319 : BitVec 32 := 8#32
  let v180 : BitVec 32 := Scalar.muli arg4 c8_i32_319
  let v181 : Index := Scalar.indexCast v180
  let c1_321 : Index := 1#32
  let c1_322 : Index := 1#32
  ![0, v181.toNat, 1, 1]
@[reducible] def k0_t6_loop : Scf.Loop 32 :=
  let c0_i32_17 : BitVec 32 := 0#32
  let c8_i32_18 : BitVec 32 := 8#32
  let v11 : BitVec 32 := Scalar.addi c0_i32_17 c8_i32_18
  let c1_i32_19 : BitVec 32 := 1#32
  ⟨c0_i32_17, v11, c1_i32_19⟩
def k0_off11 (k0_t6 : Fin k0_t6_loop.trips) : Fin 4 → Nat :=
  let c0_317 : Index := 0#32
  let c0_i32_17 : BitVec 32 := 0#32
  let c1_i32_19 : BitVec 32 := 1#32
  let arg4 : BitVec 32 := Scf.iv c0_i32_17 c1_i32_19 k0_t6
  let c8_i32_316 : BitVec 32 := 8#32
  let v176 : BitVec 32 := Scalar.muli arg4 c8_i32_316
  let v177 : Index := Scalar.indexCast v176
  let c1 : Index := 1#32
  let c2 : Index := 2#32
  ![0, v177.toNat, 1, 2]
def k0_off12 (k0_t6 : Fin k0_t6_loop.trips) : Fin 4 → Nat :=
  let c0_319 : Index := 0#32
  let c0_i32_17 : BitVec 32 := 0#32
  let c1_i32_19 : BitVec 32 := 1#32
  let arg4 : BitVec 32 := Scf.iv c0_i32_17 c1_i32_19 k0_t6
  let c8_i32_318 : BitVec 32 := 8#32
  let v180 : BitVec 32 := Scalar.muli arg4 c8_i32_318
  let v181 : Index := Scalar.indexCast v180
  let c1_320 : Index := 1#32
  let c2_321 : Index := 2#32
  ![0, v181.toNat, 1, 2]
@[reducible] def k0_t7_loop : Scf.Loop 32 :=
  let c0_i32_21 : BitVec 32 := 0#32
  let c8_i32_22 : BitVec 32 := 8#32
  let v13 : BitVec 32 := Scalar.addi c0_i32_21 c8_i32_22
  let c1_i32_23 : BitVec 32 := 1#32
  ⟨c0_i32_21, v13, c1_i32_23⟩
def k0_off13 (k0_t7 : Fin k0_t7_loop.trips) : Fin 4 → Nat :=
  let c0_317 : Index := 0#32
  let c0_i32_21 : BitVec 32 := 0#32
  let c1_i32_23 : BitVec 32 := 1#32
  let arg4 : BitVec 32 := Scf.iv c0_i32_21 c1_i32_23 k0_t7
  let c8_i32_316 : BitVec 32 := 8#32
  let v176 : BitVec 32 := Scalar.muli arg4 c8_i32_316
  let v177 : Index := Scalar.indexCast v176
  let c2 : Index := 2#32
  let c0_318 : Index := 0#32
  ![0, v177.toNat, 2, 0]
def k0_off14 (k0_t7 : Fin k0_t7_loop.trips) : Fin 4 → Nat :=
  let c0_320 : Index := 0#32
  let c0_i32_21 : BitVec 32 := 0#32
  let c1_i32_23 : BitVec 32 := 1#32
  let arg4 : BitVec 32 := Scf.iv c0_i32_21 c1_i32_23 k0_t7
  let c8_i32_319 : BitVec 32 := 8#32
  let v180 : BitVec 32 := Scalar.muli arg4 c8_i32_319
  let v181 : Index := Scalar.indexCast v180
  let c2_321 : Index := 2#32
  let c0_322 : Index := 0#32
  ![0, v181.toNat, 2, 0]
@[reducible] def k0_t8_loop : Scf.Loop 32 :=
  let c0_i32_25 : BitVec 32 := 0#32
  let c8_i32_26 : BitVec 32 := 8#32
  let v15 : BitVec 32 := Scalar.addi c0_i32_25 c8_i32_26
  let c1_i32_27 : BitVec 32 := 1#32
  ⟨c0_i32_25, v15, c1_i32_27⟩
def k0_off15 (k0_t8 : Fin k0_t8_loop.trips) : Fin 4 → Nat :=
  let c0_317 : Index := 0#32
  let c0_i32_25 : BitVec 32 := 0#32
  let c1_i32_27 : BitVec 32 := 1#32
  let arg4 : BitVec 32 := Scf.iv c0_i32_25 c1_i32_27 k0_t8
  let c8_i32_316 : BitVec 32 := 8#32
  let v176 : BitVec 32 := Scalar.muli arg4 c8_i32_316
  let v177 : Index := Scalar.indexCast v176
  let c2 : Index := 2#32
  let c1 : Index := 1#32
  ![0, v177.toNat, 2, 1]
def k0_off16 (k0_t8 : Fin k0_t8_loop.trips) : Fin 4 → Nat :=
  let c0_319 : Index := 0#32
  let c0_i32_25 : BitVec 32 := 0#32
  let c1_i32_27 : BitVec 32 := 1#32
  let arg4 : BitVec 32 := Scf.iv c0_i32_25 c1_i32_27 k0_t8
  let c8_i32_318 : BitVec 32 := 8#32
  let v180 : BitVec 32 := Scalar.muli arg4 c8_i32_318
  let v181 : Index := Scalar.indexCast v180
  let c2_320 : Index := 2#32
  let c1_321 : Index := 1#32
  ![0, v181.toNat, 2, 1]
@[reducible] def k0_t9_loop : Scf.Loop 32 :=
  let c0_i32_29 : BitVec 32 := 0#32
  let c8_i32_30 : BitVec 32 := 8#32
  let v17 : BitVec 32 := Scalar.addi c0_i32_29 c8_i32_30
  let c1_i32_31 : BitVec 32 := 1#32
  ⟨c0_i32_29, v17, c1_i32_31⟩
def k0_off17 (k0_t9 : Fin k0_t9_loop.trips) : Fin 4 → Nat :=
  let c0_317 : Index := 0#32
  let c0_i32_29 : BitVec 32 := 0#32
  let c1_i32_31 : BitVec 32 := 1#32
  let arg4 : BitVec 32 := Scf.iv c0_i32_29 c1_i32_31 k0_t9
  let c8_i32_316 : BitVec 32 := 8#32
  let v176 : BitVec 32 := Scalar.muli arg4 c8_i32_316
  let v177 : Index := Scalar.indexCast v176
  let c2 : Index := 2#32
  let c2_318 : Index := 2#32
  ![0, v177.toNat, 2, 2]
def k0_off18 (k0_t9 : Fin k0_t9_loop.trips) : Fin 4 → Nat :=
  let c0_320 : Index := 0#32
  let c0_i32_29 : BitVec 32 := 0#32
  let c1_i32_31 : BitVec 32 := 1#32
  let arg4 : BitVec 32 := Scf.iv c0_i32_29 c1_i32_31 k0_t9
  let c8_i32_319 : BitVec 32 := 8#32
  let v180 : BitVec 32 := Scalar.muli arg4 c8_i32_319
  let v181 : Index := Scalar.indexCast v180
  let c2_321 : Index := 2#32
  let c2_322 : Index := 2#32
  ![0, v181.toNat, 2, 2]
@[reducible] def k0_t10_loop : Scf.Loop 32 :=
  let c0_i32_37 : BitVec 32 := 0#32
  let c8_i32_38 : BitVec 32 := 8#32
  let v23 : BitVec 32 := Scalar.addi c0_i32_37 c8_i32_38
  let c1_i32_39 : BitVec 32 := 1#32
  ⟨c0_i32_37, v23, c1_i32_39⟩
def k0_off19 (k0_t10 : Fin k0_t10_loop.trips) : Fin 4 → Nat :=
  let c0_317 : Index := 0#32
  let c0_i32_37 : BitVec 32 := 0#32
  let c1_i32_39 : BitVec 32 := 1#32
  let arg4 : BitVec 32 := Scf.iv c0_i32_37 c1_i32_39 k0_t10
  let c8_i32_316 : BitVec 32 := 8#32
  let v176 : BitVec 32 := Scalar.muli arg4 c8_i32_316
  let v177 : Index := Scalar.indexCast v176
  let c8_318 : Index := 8#32
  let c0_319 : Index := 0#32
  ![0, v177.toNat, 8, 0]
def k0_off20 (k0_t10 : Fin k0_t10_loop.trips) : Fin 4 → Nat :=
  let c0_321 : Index := 0#32
  let c0_i32_37 : BitVec 32 := 0#32
  let c1_i32_39 : BitVec 32 := 1#32
  let arg4 : BitVec 32 := Scf.iv c0_i32_37 c1_i32_39 k0_t10
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t11_loop : Scf.Loop 32 :=
  let c0_i32_41 : BitVec 32 := 0#32
  let c8_i32_42 : BitVec 32 := 8#32
  let v25 : BitVec 32 := Scalar.addi c0_i32_41 c8_i32_42
  let c1_i32_43 : BitVec 32 := 1#32
  ⟨c0_i32_41, v25, c1_i32_43⟩
def k0_off21 (k0_t11 : Fin k0_t11_loop.trips) : Fin 4 → Nat :=
  let c0_317 : Index := 0#32
  let c0_i32_41 : BitVec 32 := 0#32
  let c1_i32_43 : BitVec 32 := 1#32
  let arg4 : BitVec 32 := Scf.iv c0_i32_41 c1_i32_43 k0_t11
  let c8_i32_316 : BitVec 32 := 8#32
  let v176 : BitVec 32 := Scalar.muli arg4 c8_i32_316
  let v177 : Index := Scalar.indexCast v176
  let c8_318 : Index := 8#32
  let c1 : Index := 1#32
  ![0, v177.toNat, 8, 1]
def k0_off22 (k0_t11 : Fin k0_t11_loop.trips) : Fin 4 → Nat :=
  let c0_320 : Index := 0#32
  let c0_i32_41 : BitVec 32 := 0#32
  let c1_i32_43 : BitVec 32 := 1#32
  let arg4 : BitVec 32 := Scf.iv c0_i32_41 c1_i32_43 k0_t11
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t12_loop : Scf.Loop 32 :=
  let c0_i32_45 : BitVec 32 := 0#32
  let c8_i32_46 : BitVec 32 := 8#32
  let v27 : BitVec 32 := Scalar.addi c0_i32_45 c8_i32_46
  let c1_i32_47 : BitVec 32 := 1#32
  ⟨c0_i32_45, v27, c1_i32_47⟩
def k0_off23 (k0_t12 : Fin k0_t12_loop.trips) : Fin 4 → Nat :=
  let c0_317 : Index := 0#32
  let c0_i32_45 : BitVec 32 := 0#32
  let c1_i32_47 : BitVec 32 := 1#32
  let arg4 : BitVec 32 := Scf.iv c0_i32_45 c1_i32_47 k0_t12
  let c8_i32_316 : BitVec 32 := 8#32
  let v176 : BitVec 32 := Scalar.muli arg4 c8_i32_316
  let v177 : Index := Scalar.indexCast v176
  let c8_318 : Index := 8#32
  let c2 : Index := 2#32
  ![0, v177.toNat, 8, 2]
def k0_off24 (k0_t12 : Fin k0_t12_loop.trips) : Fin 4 → Nat :=
  let c0_320 : Index := 0#32
  let c0_i32_45 : BitVec 32 := 0#32
  let c1_i32_47 : BitVec 32 := 1#32
  let arg4 : BitVec 32 := Scf.iv c0_i32_45 c1_i32_47 k0_t12
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t13_loop : Scf.Loop 32 :=
  let c0_i32_49 : BitVec 32 := 0#32
  let c8_i32_50 : BitVec 32 := 8#32
  let v29 : BitVec 32 := Scalar.addi c0_i32_49 c8_i32_50
  let c1_i32_51 : BitVec 32 := 1#32
  ⟨c0_i32_49, v29, c1_i32_51⟩
def k0_off25 (k0_t13 : Fin k0_t13_loop.trips) : Fin 4 → Nat :=
  let c0_317 : Index := 0#32
  let c0_i32_49 : BitVec 32 := 0#32
  let c1_i32_51 : BitVec 32 := 1#32
  let arg4 : BitVec 32 := Scf.iv c0_i32_49 c1_i32_51 k0_t13
  let c8_i32_316 : BitVec 32 := 8#32
  let v176 : BitVec 32 := Scalar.muli arg4 c8_i32_316
  let v177 : Index := Scalar.indexCast v176
  let c9 : Index := 9#32
  let c0_318 : Index := 0#32
  ![0, v177.toNat, 9, 0]
def k0_off26 (k0_t13 : Fin k0_t13_loop.trips) : Fin 4 → Nat :=
  let c0_320 : Index := 0#32
  let c0_i32_49 : BitVec 32 := 0#32
  let c1_i32_51 : BitVec 32 := 1#32
  let arg4 : BitVec 32 := Scf.iv c0_i32_49 c1_i32_51 k0_t13
  let c8_i32_319 : BitVec 32 := 8#32
  let v180 : BitVec 32 := Scalar.muli arg4 c8_i32_319
  let v181 : Index := Scalar.indexCast v180
  let c1 : Index := 1#32
  let c0_321 : Index := 0#32
  ![0, v181.toNat, 1, 0]
@[reducible] def k0_t14_loop : Scf.Loop 32 :=
  let c0_i32_53 : BitVec 32 := 0#32
  let c8_i32_54 : BitVec 32 := 8#32
  let v31 : BitVec 32 := Scalar.addi c0_i32_53 c8_i32_54
  let c1_i32_55 : BitVec 32 := 1#32
  ⟨c0_i32_53, v31, c1_i32_55⟩
def k0_off27 (k0_t14 : Fin k0_t14_loop.trips) : Fin 4 → Nat :=
  let c0_317 : Index := 0#32
  let c0_i32_53 : BitVec 32 := 0#32
  let c1_i32_55 : BitVec 32 := 1#32
  let arg4 : BitVec 32 := Scf.iv c0_i32_53 c1_i32_55 k0_t14
  let c8_i32_316 : BitVec 32 := 8#32
  let v176 : BitVec 32 := Scalar.muli arg4 c8_i32_316
  let v177 : Index := Scalar.indexCast v176
  let c9 : Index := 9#32
  let c1 : Index := 1#32
  ![0, v177.toNat, 9, 1]
def k0_off28 (k0_t14 : Fin k0_t14_loop.trips) : Fin 4 → Nat :=
  let c0_319 : Index := 0#32
  let c0_i32_53 : BitVec 32 := 0#32
  let c1_i32_55 : BitVec 32 := 1#32
  let arg4 : BitVec 32 := Scf.iv c0_i32_53 c1_i32_55 k0_t14
  let c8_i32_318 : BitVec 32 := 8#32
  let v180 : BitVec 32 := Scalar.muli arg4 c8_i32_318
  let v181 : Index := Scalar.indexCast v180
  let c1_320 : Index := 1#32
  let c1_321 : Index := 1#32
  ![0, v181.toNat, 1, 1]
@[reducible] def k0_t15_loop : Scf.Loop 32 :=
  let c0_i32_57 : BitVec 32 := 0#32
  let c8_i32_58 : BitVec 32 := 8#32
  let v33 : BitVec 32 := Scalar.addi c0_i32_57 c8_i32_58
  let c1_i32_59 : BitVec 32 := 1#32
  ⟨c0_i32_57, v33, c1_i32_59⟩
def k0_off29 (k0_t15 : Fin k0_t15_loop.trips) : Fin 4 → Nat :=
  let c0_317 : Index := 0#32
  let c0_i32_57 : BitVec 32 := 0#32
  let c1_i32_59 : BitVec 32 := 1#32
  let arg4 : BitVec 32 := Scf.iv c0_i32_57 c1_i32_59 k0_t15
  let c8_i32_316 : BitVec 32 := 8#32
  let v176 : BitVec 32 := Scalar.muli arg4 c8_i32_316
  let v177 : Index := Scalar.indexCast v176
  let c9 : Index := 9#32
  let c2 : Index := 2#32
  ![0, v177.toNat, 9, 2]
def k0_off30 (k0_t15 : Fin k0_t15_loop.trips) : Fin 4 → Nat :=
  let c0_319 : Index := 0#32
  let c0_i32_57 : BitVec 32 := 0#32
  let c1_i32_59 : BitVec 32 := 1#32
  let arg4 : BitVec 32 := Scf.iv c0_i32_57 c1_i32_59 k0_t15
  let c8_i32_318 : BitVec 32 := 8#32
  let v180 : BitVec 32 := Scalar.muli arg4 c8_i32_318
  let v181 : Index := Scalar.indexCast v180
  let c1 : Index := 1#32
  let c2_320 : Index := 2#32
  ![0, v181.toNat, 1, 2]
@[reducible] def k0_t16_loop : Scf.Loop 32 :=
  let c0_i32_61 : BitVec 32 := 0#32
  let c8_i32_62 : BitVec 32 := 8#32
  let v35 : BitVec 32 := Scalar.addi c0_i32_61 c8_i32_62
  let c1_i32_63 : BitVec 32 := 1#32
  ⟨c0_i32_61, v35, c1_i32_63⟩
def k0_off31 (k0_t16 : Fin k0_t16_loop.trips) : Fin 4 → Nat :=
  let c0_317 : Index := 0#32
  let c0_i32_61 : BitVec 32 := 0#32
  let c1_i32_63 : BitVec 32 := 1#32
  let arg4 : BitVec 32 := Scf.iv c0_i32_61 c1_i32_63 k0_t16
  let c8_i32_316 : BitVec 32 := 8#32
  let v176 : BitVec 32 := Scalar.muli arg4 c8_i32_316
  let v177 : Index := Scalar.indexCast v176
  let c10 : Index := 10#32
  let c0_318 : Index := 0#32
  ![0, v177.toNat, 10, 0]
def k0_off32 (k0_t16 : Fin k0_t16_loop.trips) : Fin 4 → Nat :=
  let c0_320 : Index := 0#32
  let c0_i32_61 : BitVec 32 := 0#32
  let c1_i32_63 : BitVec 32 := 1#32
  let arg4 : BitVec 32 := Scf.iv c0_i32_61 c1_i32_63 k0_t16
  let c8_i32_319 : BitVec 32 := 8#32
  let v180 : BitVec 32 := Scalar.muli arg4 c8_i32_319
  let v181 : Index := Scalar.indexCast v180
  let c2 : Index := 2#32
  let c0_321 : Index := 0#32
  ![0, v181.toNat, 2, 0]
@[reducible] def k0_t17_loop : Scf.Loop 32 :=
  let c0_i32_65 : BitVec 32 := 0#32
  let c8_i32_66 : BitVec 32 := 8#32
  let v37 : BitVec 32 := Scalar.addi c0_i32_65 c8_i32_66
  let c1_i32_67 : BitVec 32 := 1#32
  ⟨c0_i32_65, v37, c1_i32_67⟩
def k0_off33 (k0_t17 : Fin k0_t17_loop.trips) : Fin 4 → Nat :=
  let c0_317 : Index := 0#32
  let c0_i32_65 : BitVec 32 := 0#32
  let c1_i32_67 : BitVec 32 := 1#32
  let arg4 : BitVec 32 := Scf.iv c0_i32_65 c1_i32_67 k0_t17
  let c8_i32_316 : BitVec 32 := 8#32
  let v176 : BitVec 32 := Scalar.muli arg4 c8_i32_316
  let v177 : Index := Scalar.indexCast v176
  let c10 : Index := 10#32
  let c1 : Index := 1#32
  ![0, v177.toNat, 10, 1]
def k0_off34 (k0_t17 : Fin k0_t17_loop.trips) : Fin 4 → Nat :=
  let c0_319 : Index := 0#32
  let c0_i32_65 : BitVec 32 := 0#32
  let c1_i32_67 : BitVec 32 := 1#32
  let arg4 : BitVec 32 := Scf.iv c0_i32_65 c1_i32_67 k0_t17
  let c8_i32_318 : BitVec 32 := 8#32
  let v180 : BitVec 32 := Scalar.muli arg4 c8_i32_318
  let v181 : Index := Scalar.indexCast v180
  let c2 : Index := 2#32
  let c1_320 : Index := 1#32
  ![0, v181.toNat, 2, 1]
@[reducible] def k0_t18_loop : Scf.Loop 32 :=
  let c0_i32_69 : BitVec 32 := 0#32
  let c8_i32_70 : BitVec 32 := 8#32
  let v39 : BitVec 32 := Scalar.addi c0_i32_69 c8_i32_70
  let c1_i32_71 : BitVec 32 := 1#32
  ⟨c0_i32_69, v39, c1_i32_71⟩
def k0_off35 (k0_t18 : Fin k0_t18_loop.trips) : Fin 4 → Nat :=
  let c0_317 : Index := 0#32
  let c0_i32_69 : BitVec 32 := 0#32
  let c1_i32_71 : BitVec 32 := 1#32
  let arg4 : BitVec 32 := Scf.iv c0_i32_69 c1_i32_71 k0_t18
  let c8_i32_316 : BitVec 32 := 8#32
  let v176 : BitVec 32 := Scalar.muli arg4 c8_i32_316
  let v177 : Index := Scalar.indexCast v176
  let c10 : Index := 10#32
  let c2 : Index := 2#32
  ![0, v177.toNat, 10, 2]
def k0_off36 (k0_t18 : Fin k0_t18_loop.trips) : Fin 4 → Nat :=
  let c0_319 : Index := 0#32
  let c0_i32_69 : BitVec 32 := 0#32
  let c1_i32_71 : BitVec 32 := 1#32
  let arg4 : BitVec 32 := Scf.iv c0_i32_69 c1_i32_71 k0_t18
  let c8_i32_318 : BitVec 32 := 8#32
  let v180 : BitVec 32 := Scalar.muli arg4 c8_i32_318
  let v181 : Index := Scalar.indexCast v180
  let c2_320 : Index := 2#32
  let c2_321 : Index := 2#32
  ![0, v181.toNat, 2, 2]
@[reducible] def k0_t19_loop : Scf.Loop 32 :=
  let c0_i32_77 : BitVec 32 := 0#32
  let c8_i32_78 : BitVec 32 := 8#32
  let v45 : BitVec 32 := Scalar.addi c0_i32_77 c8_i32_78
  let c1_i32_79 : BitVec 32 := 1#32
  ⟨c0_i32_77, v45, c1_i32_79⟩
def k0_off37 (k0_t19 : Fin k0_t19_loop.trips) : Fin 4 → Nat :=
  let c0_317 : Index := 0#32
  let c0_i32_77 : BitVec 32 := 0#32
  let c1_i32_79 : BitVec 32 := 1#32
  let arg4 : BitVec 32 := Scf.iv c0_i32_77 c1_i32_79 k0_t19
  let c8_i32_316 : BitVec 32 := 8#32
  let v176 : BitVec 32 := Scalar.muli arg4 c8_i32_316
  let v177 : Index := Scalar.indexCast v176
  let c16_318 : Index := 16#32
  let c0_319 : Index := 0#32
  ![0, v177.toNat, 16, 0]
def k0_off38 (k0_t19 : Fin k0_t19_loop.trips) : Fin 4 → Nat :=
  let c0_321 : Index := 0#32
  let c0_i32_77 : BitVec 32 := 0#32
  let c1_i32_79 : BitVec 32 := 1#32
  let arg4 : BitVec 32 := Scf.iv c0_i32_77 c1_i32_79 k0_t19
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t20_loop : Scf.Loop 32 :=
  let c0_i32_81 : BitVec 32 := 0#32
  let c8_i32_82 : BitVec 32 := 8#32
  let v47 : BitVec 32 := Scalar.addi c0_i32_81 c8_i32_82
  let c1_i32_83 : BitVec 32 := 1#32
  ⟨c0_i32_81, v47, c1_i32_83⟩
def k0_off39 (k0_t20 : Fin k0_t20_loop.trips) : Fin 4 → Nat :=
  let c0_317 : Index := 0#32
  let c0_i32_81 : BitVec 32 := 0#32
  let c1_i32_83 : BitVec 32 := 1#32
  let arg4 : BitVec 32 := Scf.iv c0_i32_81 c1_i32_83 k0_t20
  let c8_i32_316 : BitVec 32 := 8#32
  let v176 : BitVec 32 := Scalar.muli arg4 c8_i32_316
  let v177 : Index := Scalar.indexCast v176
  let c16_318 : Index := 16#32
  let c1 : Index := 1#32
  ![0, v177.toNat, 16, 1]
def k0_off40 (k0_t20 : Fin k0_t20_loop.trips) : Fin 4 → Nat :=
  let c0_320 : Index := 0#32
  let c0_i32_81 : BitVec 32 := 0#32
  let c1_i32_83 : BitVec 32 := 1#32
  let arg4 : BitVec 32 := Scf.iv c0_i32_81 c1_i32_83 k0_t20
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t21_loop : Scf.Loop 32 :=
  let c0_i32_85 : BitVec 32 := 0#32
  let c8_i32_86 : BitVec 32 := 8#32
  let v49 : BitVec 32 := Scalar.addi c0_i32_85 c8_i32_86
  let c1_i32_87 : BitVec 32 := 1#32
  ⟨c0_i32_85, v49, c1_i32_87⟩
def k0_off41 (k0_t21 : Fin k0_t21_loop.trips) : Fin 4 → Nat :=
  let c0_317 : Index := 0#32
  let c0_i32_85 : BitVec 32 := 0#32
  let c1_i32_87 : BitVec 32 := 1#32
  let arg4 : BitVec 32 := Scf.iv c0_i32_85 c1_i32_87 k0_t21
  let c8_i32_316 : BitVec 32 := 8#32
  let v176 : BitVec 32 := Scalar.muli arg4 c8_i32_316
  let v177 : Index := Scalar.indexCast v176
  let c16_318 : Index := 16#32
  let c2 : Index := 2#32
  ![0, v177.toNat, 16, 2]
def k0_off42 (k0_t21 : Fin k0_t21_loop.trips) : Fin 4 → Nat :=
  let c0_320 : Index := 0#32
  let c0_i32_85 : BitVec 32 := 0#32
  let c1_i32_87 : BitVec 32 := 1#32
  let arg4 : BitVec 32 := Scf.iv c0_i32_85 c1_i32_87 k0_t21
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t22_loop : Scf.Loop 32 :=
  let c0_i32_89 : BitVec 32 := 0#32
  let c8_i32_90 : BitVec 32 := 8#32
  let v51 : BitVec 32 := Scalar.addi c0_i32_89 c8_i32_90
  let c1_i32_91 : BitVec 32 := 1#32
  ⟨c0_i32_89, v51, c1_i32_91⟩
def k0_off43 (k0_t22 : Fin k0_t22_loop.trips) : Fin 4 → Nat :=
  let c0_317 : Index := 0#32
  let c0_i32_89 : BitVec 32 := 0#32
  let c1_i32_91 : BitVec 32 := 1#32
  let arg4 : BitVec 32 := Scf.iv c0_i32_89 c1_i32_91 k0_t22
  let c8_i32_316 : BitVec 32 := 8#32
  let v176 : BitVec 32 := Scalar.muli arg4 c8_i32_316
  let v177 : Index := Scalar.indexCast v176
  let c17 : Index := 17#32
  let c0_318 : Index := 0#32
  ![0, v177.toNat, 17, 0]
def k0_off44 (k0_t22 : Fin k0_t22_loop.trips) : Fin 4 → Nat :=
  let c0_320 : Index := 0#32
  let c0_i32_89 : BitVec 32 := 0#32
  let c1_i32_91 : BitVec 32 := 1#32
  let arg4 : BitVec 32 := Scf.iv c0_i32_89 c1_i32_91 k0_t22
  let c8_i32_319 : BitVec 32 := 8#32
  let v180 : BitVec 32 := Scalar.muli arg4 c8_i32_319
  let v181 : Index := Scalar.indexCast v180
  let c1 : Index := 1#32
  let c0_321 : Index := 0#32
  ![0, v181.toNat, 1, 0]
@[reducible] def k0_t23_loop : Scf.Loop 32 :=
  let c0_i32_93 : BitVec 32 := 0#32
  let c8_i32_94 : BitVec 32 := 8#32
  let v53 : BitVec 32 := Scalar.addi c0_i32_93 c8_i32_94
  let c1_i32_95 : BitVec 32 := 1#32
  ⟨c0_i32_93, v53, c1_i32_95⟩
def k0_off45 (k0_t23 : Fin k0_t23_loop.trips) : Fin 4 → Nat :=
  let c0_317 : Index := 0#32
  let c0_i32_93 : BitVec 32 := 0#32
  let c1_i32_95 : BitVec 32 := 1#32
  let arg4 : BitVec 32 := Scf.iv c0_i32_93 c1_i32_95 k0_t23
  let c8_i32_316 : BitVec 32 := 8#32
  let v176 : BitVec 32 := Scalar.muli arg4 c8_i32_316
  let v177 : Index := Scalar.indexCast v176
  let c17 : Index := 17#32
  let c1 : Index := 1#32
  ![0, v177.toNat, 17, 1]
def k0_off46 (k0_t23 : Fin k0_t23_loop.trips) : Fin 4 → Nat :=
  let c0_319 : Index := 0#32
  let c0_i32_93 : BitVec 32 := 0#32
  let c1_i32_95 : BitVec 32 := 1#32
  let arg4 : BitVec 32 := Scf.iv c0_i32_93 c1_i32_95 k0_t23
  let c8_i32_318 : BitVec 32 := 8#32
  let v180 : BitVec 32 := Scalar.muli arg4 c8_i32_318
  let v181 : Index := Scalar.indexCast v180
  let c1_320 : Index := 1#32
  let c1_321 : Index := 1#32
  ![0, v181.toNat, 1, 1]
@[reducible] def k0_t24_loop : Scf.Loop 32 :=
  let c0_i32_97 : BitVec 32 := 0#32
  let c8_i32_98 : BitVec 32 := 8#32
  let v55 : BitVec 32 := Scalar.addi c0_i32_97 c8_i32_98
  let c1_i32_99 : BitVec 32 := 1#32
  ⟨c0_i32_97, v55, c1_i32_99⟩
def k0_off47 (k0_t24 : Fin k0_t24_loop.trips) : Fin 4 → Nat :=
  let c0_317 : Index := 0#32
  let c0_i32_97 : BitVec 32 := 0#32
  let c1_i32_99 : BitVec 32 := 1#32
  let arg4 : BitVec 32 := Scf.iv c0_i32_97 c1_i32_99 k0_t24
  let c8_i32_316 : BitVec 32 := 8#32
  let v176 : BitVec 32 := Scalar.muli arg4 c8_i32_316
  let v177 : Index := Scalar.indexCast v176
  let c17 : Index := 17#32
  let c2 : Index := 2#32
  ![0, v177.toNat, 17, 2]
def k0_off48 (k0_t24 : Fin k0_t24_loop.trips) : Fin 4 → Nat :=
  let c0_319 : Index := 0#32
  let c0_i32_97 : BitVec 32 := 0#32
  let c1_i32_99 : BitVec 32 := 1#32
  let arg4 : BitVec 32 := Scf.iv c0_i32_97 c1_i32_99 k0_t24
  let c8_i32_318 : BitVec 32 := 8#32
  let v180 : BitVec 32 := Scalar.muli arg4 c8_i32_318
  let v181 : Index := Scalar.indexCast v180
  let c1 : Index := 1#32
  let c2_320 : Index := 2#32
  ![0, v181.toNat, 1, 2]
@[reducible] def k0_t25_loop : Scf.Loop 32 :=
  let c0_i32_101 : BitVec 32 := 0#32
  let c8_i32_102 : BitVec 32 := 8#32
  let v57 : BitVec 32 := Scalar.addi c0_i32_101 c8_i32_102
  let c1_i32_103 : BitVec 32 := 1#32
  ⟨c0_i32_101, v57, c1_i32_103⟩
def k0_off49 (k0_t25 : Fin k0_t25_loop.trips) : Fin 4 → Nat :=
  let c0_317 : Index := 0#32
  let c0_i32_101 : BitVec 32 := 0#32
  let c1_i32_103 : BitVec 32 := 1#32
  let arg4 : BitVec 32 := Scf.iv c0_i32_101 c1_i32_103 k0_t25
  let c8_i32_316 : BitVec 32 := 8#32
  let v176 : BitVec 32 := Scalar.muli arg4 c8_i32_316
  let v177 : Index := Scalar.indexCast v176
  let c18 : Index := 18#32
  let c0_318 : Index := 0#32
  ![0, v177.toNat, 18, 0]
def k0_off50 (k0_t25 : Fin k0_t25_loop.trips) : Fin 4 → Nat :=
  let c0_320 : Index := 0#32
  let c0_i32_101 : BitVec 32 := 0#32
  let c1_i32_103 : BitVec 32 := 1#32
  let arg4 : BitVec 32 := Scf.iv c0_i32_101 c1_i32_103 k0_t25
  let c8_i32_319 : BitVec 32 := 8#32
  let v180 : BitVec 32 := Scalar.muli arg4 c8_i32_319
  let v181 : Index := Scalar.indexCast v180
  let c2 : Index := 2#32
  let c0_321 : Index := 0#32
  ![0, v181.toNat, 2, 0]
@[reducible] def k0_t26_loop : Scf.Loop 32 :=
  let c0_i32_105 : BitVec 32 := 0#32
  let c8_i32_106 : BitVec 32 := 8#32
  let v59 : BitVec 32 := Scalar.addi c0_i32_105 c8_i32_106
  let c1_i32_107 : BitVec 32 := 1#32
  ⟨c0_i32_105, v59, c1_i32_107⟩
def k0_off51 (k0_t26 : Fin k0_t26_loop.trips) : Fin 4 → Nat :=
  let c0_317 : Index := 0#32
  let c0_i32_105 : BitVec 32 := 0#32
  let c1_i32_107 : BitVec 32 := 1#32
  let arg4 : BitVec 32 := Scf.iv c0_i32_105 c1_i32_107 k0_t26
  let c8_i32_316 : BitVec 32 := 8#32
  let v176 : BitVec 32 := Scalar.muli arg4 c8_i32_316
  let v177 : Index := Scalar.indexCast v176
  let c18 : Index := 18#32
  let c1 : Index := 1#32
  ![0, v177.toNat, 18, 1]
def k0_off52 (k0_t26 : Fin k0_t26_loop.trips) : Fin 4 → Nat :=
  let c0_319 : Index := 0#32
  let c0_i32_105 : BitVec 32 := 0#32
  let c1_i32_107 : BitVec 32 := 1#32
  let arg4 : BitVec 32 := Scf.iv c0_i32_105 c1_i32_107 k0_t26
  let c8_i32_318 : BitVec 32 := 8#32
  let v180 : BitVec 32 := Scalar.muli arg4 c8_i32_318
  let v181 : Index := Scalar.indexCast v180
  let c2 : Index := 2#32
  let c1_320 : Index := 1#32
  ![0, v181.toNat, 2, 1]
@[reducible] def k0_t27_loop : Scf.Loop 32 :=
  let c0_i32_109 : BitVec 32 := 0#32
  let c8_i32_110 : BitVec 32 := 8#32
  let v61 : BitVec 32 := Scalar.addi c0_i32_109 c8_i32_110
  let c1_i32_111 : BitVec 32 := 1#32
  ⟨c0_i32_109, v61, c1_i32_111⟩
def k0_off53 (k0_t27 : Fin k0_t27_loop.trips) : Fin 4 → Nat :=
  let c0_317 : Index := 0#32
  let c0_i32_109 : BitVec 32 := 0#32
  let c1_i32_111 : BitVec 32 := 1#32
  let arg4 : BitVec 32 := Scf.iv c0_i32_109 c1_i32_111 k0_t27
  let c8_i32_316 : BitVec 32 := 8#32
  let v176 : BitVec 32 := Scalar.muli arg4 c8_i32_316
  let v177 : Index := Scalar.indexCast v176
  let c18 : Index := 18#32
  let c2 : Index := 2#32
  ![0, v177.toNat, 18, 2]
def k0_off54 (k0_t27 : Fin k0_t27_loop.trips) : Fin 4 → Nat :=
  let c0_319 : Index := 0#32
  let c0_i32_109 : BitVec 32 := 0#32
  let c1_i32_111 : BitVec 32 := 1#32
  let arg4 : BitVec 32 := Scf.iv c0_i32_109 c1_i32_111 k0_t27
  let c8_i32_318 : BitVec 32 := 8#32
  let v180 : BitVec 32 := Scalar.muli arg4 c8_i32_318
  let v181 : Index := Scalar.indexCast v180
  let c2_320 : Index := 2#32
  let c2_321 : Index := 2#32
  ![0, v181.toNat, 2, 2]
@[reducible] def k0_t28_loop : Scf.Loop 32 :=
  let c0_i32_117 : BitVec 32 := 0#32
  let c8_i32_118 : BitVec 32 := 8#32
  let v67 : BitVec 32 := Scalar.addi c0_i32_117 c8_i32_118
  let c1_i32_119 : BitVec 32 := 1#32
  ⟨c0_i32_117, v67, c1_i32_119⟩
def k0_off55 (k0_t28 : Fin k0_t28_loop.trips) : Fin 4 → Nat :=
  let c0_317 : Index := 0#32
  let c0_i32_117 : BitVec 32 := 0#32
  let c1_i32_119 : BitVec 32 := 1#32
  let arg4 : BitVec 32 := Scf.iv c0_i32_117 c1_i32_119 k0_t28
  let c8_i32_316 : BitVec 32 := 8#32
  let v176 : BitVec 32 := Scalar.muli arg4 c8_i32_316
  let v177 : Index := Scalar.indexCast v176
  let c24_318 : Index := 24#32
  let c0_319 : Index := 0#32
  ![0, v177.toNat, 24, 0]
def k0_off56 (k0_t28 : Fin k0_t28_loop.trips) : Fin 4 → Nat :=
  let c0_321 : Index := 0#32
  let c0_i32_117 : BitVec 32 := 0#32
  let c1_i32_119 : BitVec 32 := 1#32
  let arg4 : BitVec 32 := Scf.iv c0_i32_117 c1_i32_119 k0_t28
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t29_loop : Scf.Loop 32 :=
  let c0_i32_121 : BitVec 32 := 0#32
  let c8_i32_122 : BitVec 32 := 8#32
  let v69 : BitVec 32 := Scalar.addi c0_i32_121 c8_i32_122
  let c1_i32_123 : BitVec 32 := 1#32
  ⟨c0_i32_121, v69, c1_i32_123⟩
def k0_off57 (k0_t29 : Fin k0_t29_loop.trips) : Fin 4 → Nat :=
  let c0_317 : Index := 0#32
  let c0_i32_121 : BitVec 32 := 0#32
  let c1_i32_123 : BitVec 32 := 1#32
  let arg4 : BitVec 32 := Scf.iv c0_i32_121 c1_i32_123 k0_t29
  let c8_i32_316 : BitVec 32 := 8#32
  let v176 : BitVec 32 := Scalar.muli arg4 c8_i32_316
  let v177 : Index := Scalar.indexCast v176
  let c24_318 : Index := 24#32
  let c1 : Index := 1#32
  ![0, v177.toNat, 24, 1]
def k0_off58 (k0_t29 : Fin k0_t29_loop.trips) : Fin 4 → Nat :=
  let c0_320 : Index := 0#32
  let c0_i32_121 : BitVec 32 := 0#32
  let c1_i32_123 : BitVec 32 := 1#32
  let arg4 : BitVec 32 := Scf.iv c0_i32_121 c1_i32_123 k0_t29
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t30_loop : Scf.Loop 32 :=
  let c0_i32_125 : BitVec 32 := 0#32
  let c8_i32_126 : BitVec 32 := 8#32
  let v71 : BitVec 32 := Scalar.addi c0_i32_125 c8_i32_126
  let c1_i32_127 : BitVec 32 := 1#32
  ⟨c0_i32_125, v71, c1_i32_127⟩
def k0_off59 (k0_t30 : Fin k0_t30_loop.trips) : Fin 4 → Nat :=
  let c0_317 : Index := 0#32
  let c0_i32_125 : BitVec 32 := 0#32
  let c1_i32_127 : BitVec 32 := 1#32
  let arg4 : BitVec 32 := Scf.iv c0_i32_125 c1_i32_127 k0_t30
  let c8_i32_316 : BitVec 32 := 8#32
  let v176 : BitVec 32 := Scalar.muli arg4 c8_i32_316
  let v177 : Index := Scalar.indexCast v176
  let c24_318 : Index := 24#32
  let c2 : Index := 2#32
  ![0, v177.toNat, 24, 2]
def k0_off60 (k0_t30 : Fin k0_t30_loop.trips) : Fin 4 → Nat :=
  let c0_320 : Index := 0#32
  let c0_i32_125 : BitVec 32 := 0#32
  let c1_i32_127 : BitVec 32 := 1#32
  let arg4 : BitVec 32 := Scf.iv c0_i32_125 c1_i32_127 k0_t30
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t31_loop : Scf.Loop 32 :=
  let c0_i32_129 : BitVec 32 := 0#32
  let c8_i32_130 : BitVec 32 := 8#32
  let v73 : BitVec 32 := Scalar.addi c0_i32_129 c8_i32_130
  let c1_i32_131 : BitVec 32 := 1#32
  ⟨c0_i32_129, v73, c1_i32_131⟩
def k0_off61 (k0_t31 : Fin k0_t31_loop.trips) : Fin 4 → Nat :=
  let c0_317 : Index := 0#32
  let c0_i32_129 : BitVec 32 := 0#32
  let c1_i32_131 : BitVec 32 := 1#32
  let arg4 : BitVec 32 := Scf.iv c0_i32_129 c1_i32_131 k0_t31
  let c8_i32_316 : BitVec 32 := 8#32
  let v176 : BitVec 32 := Scalar.muli arg4 c8_i32_316
  let v177 : Index := Scalar.indexCast v176
  let c25 : Index := 25#32
  let c0_318 : Index := 0#32
  ![0, v177.toNat, 25, 0]
def k0_off62 (k0_t31 : Fin k0_t31_loop.trips) : Fin 4 → Nat :=
  let c0_320 : Index := 0#32
  let c0_i32_129 : BitVec 32 := 0#32
  let c1_i32_131 : BitVec 32 := 1#32
  let arg4 : BitVec 32 := Scf.iv c0_i32_129 c1_i32_131 k0_t31
  let c8_i32_319 : BitVec 32 := 8#32
  let v180 : BitVec 32 := Scalar.muli arg4 c8_i32_319
  let v181 : Index := Scalar.indexCast v180
  let c1 : Index := 1#32
  let c0_321 : Index := 0#32
  ![0, v181.toNat, 1, 0]
@[reducible] def k0_t32_loop : Scf.Loop 32 :=
  let c0_i32_133 : BitVec 32 := 0#32
  let c8_i32_134 : BitVec 32 := 8#32
  let v75 : BitVec 32 := Scalar.addi c0_i32_133 c8_i32_134
  let c1_i32_135 : BitVec 32 := 1#32
  ⟨c0_i32_133, v75, c1_i32_135⟩
def k0_off63 (k0_t32 : Fin k0_t32_loop.trips) : Fin 4 → Nat :=
  let c0_317 : Index := 0#32
  let c0_i32_133 : BitVec 32 := 0#32
  let c1_i32_135 : BitVec 32 := 1#32
  let arg4 : BitVec 32 := Scf.iv c0_i32_133 c1_i32_135 k0_t32
  let c8_i32_316 : BitVec 32 := 8#32
  let v176 : BitVec 32 := Scalar.muli arg4 c8_i32_316
  let v177 : Index := Scalar.indexCast v176
  let c25 : Index := 25#32
  let c1 : Index := 1#32
  ![0, v177.toNat, 25, 1]
def k0_off64 (k0_t32 : Fin k0_t32_loop.trips) : Fin 4 → Nat :=
  let c0_319 : Index := 0#32
  let c0_i32_133 : BitVec 32 := 0#32
  let c1_i32_135 : BitVec 32 := 1#32
  let arg4 : BitVec 32 := Scf.iv c0_i32_133 c1_i32_135 k0_t32
  let c8_i32_318 : BitVec 32 := 8#32
  let v180 : BitVec 32 := Scalar.muli arg4 c8_i32_318
  let v181 : Index := Scalar.indexCast v180
  let c1_320 : Index := 1#32
  let c1_321 : Index := 1#32
  ![0, v181.toNat, 1, 1]
@[reducible] def k0_t33_loop : Scf.Loop 32 :=
  let c0_i32_137 : BitVec 32 := 0#32
  let c8_i32_138 : BitVec 32 := 8#32
  let v77 : BitVec 32 := Scalar.addi c0_i32_137 c8_i32_138
  let c1_i32_139 : BitVec 32 := 1#32
  ⟨c0_i32_137, v77, c1_i32_139⟩
def k0_off65 (k0_t33 : Fin k0_t33_loop.trips) : Fin 4 → Nat :=
  let c0_317 : Index := 0#32
  let c0_i32_137 : BitVec 32 := 0#32
  let c1_i32_139 : BitVec 32 := 1#32
  let arg4 : BitVec 32 := Scf.iv c0_i32_137 c1_i32_139 k0_t33
  let c8_i32_316 : BitVec 32 := 8#32
  let v176 : BitVec 32 := Scalar.muli arg4 c8_i32_316
  let v177 : Index := Scalar.indexCast v176
  let c25 : Index := 25#32
  let c2 : Index := 2#32
  ![0, v177.toNat, 25, 2]
def k0_off66 (k0_t33 : Fin k0_t33_loop.trips) : Fin 4 → Nat :=
  let c0_319 : Index := 0#32
  let c0_i32_137 : BitVec 32 := 0#32
  let c1_i32_139 : BitVec 32 := 1#32
  let arg4 : BitVec 32 := Scf.iv c0_i32_137 c1_i32_139 k0_t33
  let c8_i32_318 : BitVec 32 := 8#32
  let v180 : BitVec 32 := Scalar.muli arg4 c8_i32_318
  let v181 : Index := Scalar.indexCast v180
  let c1 : Index := 1#32
  let c2_320 : Index := 2#32
  ![0, v181.toNat, 1, 2]
@[reducible] def k0_t34_loop : Scf.Loop 32 :=
  let c0_i32_141 : BitVec 32 := 0#32
  let c8_i32_142 : BitVec 32 := 8#32
  let v79 : BitVec 32 := Scalar.addi c0_i32_141 c8_i32_142
  let c1_i32_143 : BitVec 32 := 1#32
  ⟨c0_i32_141, v79, c1_i32_143⟩
def k0_off67 (k0_t34 : Fin k0_t34_loop.trips) : Fin 4 → Nat :=
  let c0_317 : Index := 0#32
  let c0_i32_141 : BitVec 32 := 0#32
  let c1_i32_143 : BitVec 32 := 1#32
  let arg4 : BitVec 32 := Scf.iv c0_i32_141 c1_i32_143 k0_t34
  let c8_i32_316 : BitVec 32 := 8#32
  let v176 : BitVec 32 := Scalar.muli arg4 c8_i32_316
  let v177 : Index := Scalar.indexCast v176
  let c26 : Index := 26#32
  let c0_318 : Index := 0#32
  ![0, v177.toNat, 26, 0]
def k0_off68 (k0_t34 : Fin k0_t34_loop.trips) : Fin 4 → Nat :=
  let c0_320 : Index := 0#32
  let c0_i32_141 : BitVec 32 := 0#32
  let c1_i32_143 : BitVec 32 := 1#32
  let arg4 : BitVec 32 := Scf.iv c0_i32_141 c1_i32_143 k0_t34
  let c8_i32_319 : BitVec 32 := 8#32
  let v180 : BitVec 32 := Scalar.muli arg4 c8_i32_319
  let v181 : Index := Scalar.indexCast v180
  let c2 : Index := 2#32
  let c0_321 : Index := 0#32
  ![0, v181.toNat, 2, 0]
@[reducible] def k0_t35_loop : Scf.Loop 32 :=
  let c0_i32_145 : BitVec 32 := 0#32
  let c8_i32_146 : BitVec 32 := 8#32
  let v81 : BitVec 32 := Scalar.addi c0_i32_145 c8_i32_146
  let c1_i32_147 : BitVec 32 := 1#32
  ⟨c0_i32_145, v81, c1_i32_147⟩
def k0_off69 (k0_t35 : Fin k0_t35_loop.trips) : Fin 4 → Nat :=
  let c0_317 : Index := 0#32
  let c0_i32_145 : BitVec 32 := 0#32
  let c1_i32_147 : BitVec 32 := 1#32
  let arg4 : BitVec 32 := Scf.iv c0_i32_145 c1_i32_147 k0_t35
  let c8_i32_316 : BitVec 32 := 8#32
  let v176 : BitVec 32 := Scalar.muli arg4 c8_i32_316
  let v177 : Index := Scalar.indexCast v176
  let c26 : Index := 26#32
  let c1 : Index := 1#32
  ![0, v177.toNat, 26, 1]
def k0_off70 (k0_t35 : Fin k0_t35_loop.trips) : Fin 4 → Nat :=
  let c0_319 : Index := 0#32
  let c0_i32_145 : BitVec 32 := 0#32
  let c1_i32_147 : BitVec 32 := 1#32
  let arg4 : BitVec 32 := Scf.iv c0_i32_145 c1_i32_147 k0_t35
  let c8_i32_318 : BitVec 32 := 8#32
  let v180 : BitVec 32 := Scalar.muli arg4 c8_i32_318
  let v181 : Index := Scalar.indexCast v180
  let c2 : Index := 2#32
  let c1_320 : Index := 1#32
  ![0, v181.toNat, 2, 1]
@[reducible] def k0_t36_loop : Scf.Loop 32 :=
  let c0_i32_149 : BitVec 32 := 0#32
  let c8_i32_150 : BitVec 32 := 8#32
  let v83 : BitVec 32 := Scalar.addi c0_i32_149 c8_i32_150
  let c1_i32_151 : BitVec 32 := 1#32
  ⟨c0_i32_149, v83, c1_i32_151⟩
def k0_off71 (k0_t36 : Fin k0_t36_loop.trips) : Fin 4 → Nat :=
  let c0_317 : Index := 0#32
  let c0_i32_149 : BitVec 32 := 0#32
  let c1_i32_151 : BitVec 32 := 1#32
  let arg4 : BitVec 32 := Scf.iv c0_i32_149 c1_i32_151 k0_t36
  let c8_i32_316 : BitVec 32 := 8#32
  let v176 : BitVec 32 := Scalar.muli arg4 c8_i32_316
  let v177 : Index := Scalar.indexCast v176
  let c26 : Index := 26#32
  let c2 : Index := 2#32
  ![0, v177.toNat, 26, 2]
def k0_off72 (k0_t36 : Fin k0_t36_loop.trips) : Fin 4 → Nat :=
  let c0_319 : Index := 0#32
  let c0_i32_149 : BitVec 32 := 0#32
  let c1_i32_151 : BitVec 32 := 1#32
  let arg4 : BitVec 32 := Scf.iv c0_i32_149 c1_i32_151 k0_t36
  let c8_i32_318 : BitVec 32 := 8#32
  let v180 : BitVec 32 := Scalar.muli arg4 c8_i32_318
  let v181 : Index := Scalar.indexCast v180
  let c2_320 : Index := 2#32
  let c2_321 : Index := 2#32
  ![0, v181.toNat, 2, 2]
@[reducible] def k0_t37_loop : Scf.Loop 32 :=
  let c0_i32_157 : BitVec 32 := 0#32
  let c8_i32_158 : BitVec 32 := 8#32
  let v89 : BitVec 32 := Scalar.addi c0_i32_157 c8_i32_158
  let c1_i32_159 : BitVec 32 := 1#32
  ⟨c0_i32_157, v89, c1_i32_159⟩
def k0_off73 (k0_t37 : Fin k0_t37_loop.trips) : Fin 4 → Nat :=
  let c0_317 : Index := 0#32
  let c0_i32_157 : BitVec 32 := 0#32
  let c1_i32_159 : BitVec 32 := 1#32
  let arg4 : BitVec 32 := Scf.iv c0_i32_157 c1_i32_159 k0_t37
  let c8_i32_316 : BitVec 32 := 8#32
  let v176 : BitVec 32 := Scalar.muli arg4 c8_i32_316
  let v177 : Index := Scalar.indexCast v176
  let c32_318 : Index := 32#32
  let c0_319 : Index := 0#32
  ![0, v177.toNat, 32, 0]
def k0_off74 (k0_t37 : Fin k0_t37_loop.trips) : Fin 4 → Nat :=
  let c0_321 : Index := 0#32
  let c0_i32_157 : BitVec 32 := 0#32
  let c1_i32_159 : BitVec 32 := 1#32
  let arg4 : BitVec 32 := Scf.iv c0_i32_157 c1_i32_159 k0_t37
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t38_loop : Scf.Loop 32 :=
  let c0_i32_161 : BitVec 32 := 0#32
  let c8_i32_162 : BitVec 32 := 8#32
  let v91 : BitVec 32 := Scalar.addi c0_i32_161 c8_i32_162
  let c1_i32_163 : BitVec 32 := 1#32
  ⟨c0_i32_161, v91, c1_i32_163⟩
def k0_off75 (k0_t38 : Fin k0_t38_loop.trips) : Fin 4 → Nat :=
  let c0_317 : Index := 0#32
  let c0_i32_161 : BitVec 32 := 0#32
  let c1_i32_163 : BitVec 32 := 1#32
  let arg4 : BitVec 32 := Scf.iv c0_i32_161 c1_i32_163 k0_t38
  let c8_i32_316 : BitVec 32 := 8#32
  let v176 : BitVec 32 := Scalar.muli arg4 c8_i32_316
  let v177 : Index := Scalar.indexCast v176
  let c32_318 : Index := 32#32
  let c1 : Index := 1#32
  ![0, v177.toNat, 32, 1]
def k0_off76 (k0_t38 : Fin k0_t38_loop.trips) : Fin 4 → Nat :=
  let c0_320 : Index := 0#32
  let c0_i32_161 : BitVec 32 := 0#32
  let c1_i32_163 : BitVec 32 := 1#32
  let arg4 : BitVec 32 := Scf.iv c0_i32_161 c1_i32_163 k0_t38
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t39_loop : Scf.Loop 32 :=
  let c0_i32_165 : BitVec 32 := 0#32
  let c8_i32_166 : BitVec 32 := 8#32
  let v93 : BitVec 32 := Scalar.addi c0_i32_165 c8_i32_166
  let c1_i32_167 : BitVec 32 := 1#32
  ⟨c0_i32_165, v93, c1_i32_167⟩
def k0_off77 (k0_t39 : Fin k0_t39_loop.trips) : Fin 4 → Nat :=
  let c0_317 : Index := 0#32
  let c0_i32_165 : BitVec 32 := 0#32
  let c1_i32_167 : BitVec 32 := 1#32
  let arg4 : BitVec 32 := Scf.iv c0_i32_165 c1_i32_167 k0_t39
  let c8_i32_316 : BitVec 32 := 8#32
  let v176 : BitVec 32 := Scalar.muli arg4 c8_i32_316
  let v177 : Index := Scalar.indexCast v176
  let c32_318 : Index := 32#32
  let c2 : Index := 2#32
  ![0, v177.toNat, 32, 2]
def k0_off78 (k0_t39 : Fin k0_t39_loop.trips) : Fin 4 → Nat :=
  let c0_320 : Index := 0#32
  let c0_i32_165 : BitVec 32 := 0#32
  let c1_i32_167 : BitVec 32 := 1#32
  let arg4 : BitVec 32 := Scf.iv c0_i32_165 c1_i32_167 k0_t39
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t40_loop : Scf.Loop 32 :=
  let c0_i32_169 : BitVec 32 := 0#32
  let c8_i32_170 : BitVec 32 := 8#32
  let v95 : BitVec 32 := Scalar.addi c0_i32_169 c8_i32_170
  let c1_i32_171 : BitVec 32 := 1#32
  ⟨c0_i32_169, v95, c1_i32_171⟩
def k0_off79 (k0_t40 : Fin k0_t40_loop.trips) : Fin 4 → Nat :=
  let c0_317 : Index := 0#32
  let c0_i32_169 : BitVec 32 := 0#32
  let c1_i32_171 : BitVec 32 := 1#32
  let arg4 : BitVec 32 := Scf.iv c0_i32_169 c1_i32_171 k0_t40
  let c8_i32_316 : BitVec 32 := 8#32
  let v176 : BitVec 32 := Scalar.muli arg4 c8_i32_316
  let v177 : Index := Scalar.indexCast v176
  let c33 : Index := 33#32
  let c0_318 : Index := 0#32
  ![0, v177.toNat, 33, 0]
def k0_off80 (k0_t40 : Fin k0_t40_loop.trips) : Fin 4 → Nat :=
  let c0_320 : Index := 0#32
  let c0_i32_169 : BitVec 32 := 0#32
  let c1_i32_171 : BitVec 32 := 1#32
  let arg4 : BitVec 32 := Scf.iv c0_i32_169 c1_i32_171 k0_t40
  let c8_i32_319 : BitVec 32 := 8#32
  let v180 : BitVec 32 := Scalar.muli arg4 c8_i32_319
  let v181 : Index := Scalar.indexCast v180
  let c1 : Index := 1#32
  let c0_321 : Index := 0#32
  ![0, v181.toNat, 1, 0]
@[reducible] def k0_t41_loop : Scf.Loop 32 :=
  let c0_i32_173 : BitVec 32 := 0#32
  let c8_i32_174 : BitVec 32 := 8#32
  let v97 : BitVec 32 := Scalar.addi c0_i32_173 c8_i32_174
  let c1_i32_175 : BitVec 32 := 1#32
  ⟨c0_i32_173, v97, c1_i32_175⟩
def k0_off81 (k0_t41 : Fin k0_t41_loop.trips) : Fin 4 → Nat :=
  let c0_317 : Index := 0#32
  let c0_i32_173 : BitVec 32 := 0#32
  let c1_i32_175 : BitVec 32 := 1#32
  let arg4 : BitVec 32 := Scf.iv c0_i32_173 c1_i32_175 k0_t41
  let c8_i32_316 : BitVec 32 := 8#32
  let v176 : BitVec 32 := Scalar.muli arg4 c8_i32_316
  let v177 : Index := Scalar.indexCast v176
  let c33 : Index := 33#32
  let c1 : Index := 1#32
  ![0, v177.toNat, 33, 1]
def k0_off82 (k0_t41 : Fin k0_t41_loop.trips) : Fin 4 → Nat :=
  let c0_319 : Index := 0#32
  let c0_i32_173 : BitVec 32 := 0#32
  let c1_i32_175 : BitVec 32 := 1#32
  let arg4 : BitVec 32 := Scf.iv c0_i32_173 c1_i32_175 k0_t41
  let c8_i32_318 : BitVec 32 := 8#32
  let v180 : BitVec 32 := Scalar.muli arg4 c8_i32_318
  let v181 : Index := Scalar.indexCast v180
  let c1_320 : Index := 1#32
  let c1_321 : Index := 1#32
  ![0, v181.toNat, 1, 1]
@[reducible] def k0_t42_loop : Scf.Loop 32 :=
  let c0_i32_177 : BitVec 32 := 0#32
  let c8_i32_178 : BitVec 32 := 8#32
  let v99 : BitVec 32 := Scalar.addi c0_i32_177 c8_i32_178
  let c1_i32_179 : BitVec 32 := 1#32
  ⟨c0_i32_177, v99, c1_i32_179⟩
def k0_off83 (k0_t42 : Fin k0_t42_loop.trips) : Fin 4 → Nat :=
  let c0_317 : Index := 0#32
  let c0_i32_177 : BitVec 32 := 0#32
  let c1_i32_179 : BitVec 32 := 1#32
  let arg4 : BitVec 32 := Scf.iv c0_i32_177 c1_i32_179 k0_t42
  let c8_i32_316 : BitVec 32 := 8#32
  let v176 : BitVec 32 := Scalar.muli arg4 c8_i32_316
  let v177 : Index := Scalar.indexCast v176
  let c33 : Index := 33#32
  let c2 : Index := 2#32
  ![0, v177.toNat, 33, 2]
def k0_off84 (k0_t42 : Fin k0_t42_loop.trips) : Fin 4 → Nat :=
  let c0_319 : Index := 0#32
  let c0_i32_177 : BitVec 32 := 0#32
  let c1_i32_179 : BitVec 32 := 1#32
  let arg4 : BitVec 32 := Scf.iv c0_i32_177 c1_i32_179 k0_t42
  let c8_i32_318 : BitVec 32 := 8#32
  let v180 : BitVec 32 := Scalar.muli arg4 c8_i32_318
  let v181 : Index := Scalar.indexCast v180
  let c1 : Index := 1#32
  let c2_320 : Index := 2#32
  ![0, v181.toNat, 1, 2]
@[reducible] def k0_t43_loop : Scf.Loop 32 :=
  let c0_i32_181 : BitVec 32 := 0#32
  let c8_i32_182 : BitVec 32 := 8#32
  let v101 : BitVec 32 := Scalar.addi c0_i32_181 c8_i32_182
  let c1_i32_183 : BitVec 32 := 1#32
  ⟨c0_i32_181, v101, c1_i32_183⟩
def k0_off85 (k0_t43 : Fin k0_t43_loop.trips) : Fin 4 → Nat :=
  let c0_317 : Index := 0#32
  let c0_i32_181 : BitVec 32 := 0#32
  let c1_i32_183 : BitVec 32 := 1#32
  let arg4 : BitVec 32 := Scf.iv c0_i32_181 c1_i32_183 k0_t43
  let c8_i32_316 : BitVec 32 := 8#32
  let v176 : BitVec 32 := Scalar.muli arg4 c8_i32_316
  let v177 : Index := Scalar.indexCast v176
  let c34 : Index := 34#32
  let c0_318 : Index := 0#32
  ![0, v177.toNat, 34, 0]
def k0_off86 (k0_t43 : Fin k0_t43_loop.trips) : Fin 4 → Nat :=
  let c0_320 : Index := 0#32
  let c0_i32_181 : BitVec 32 := 0#32
  let c1_i32_183 : BitVec 32 := 1#32
  let arg4 : BitVec 32 := Scf.iv c0_i32_181 c1_i32_183 k0_t43
  let c8_i32_319 : BitVec 32 := 8#32
  let v180 : BitVec 32 := Scalar.muli arg4 c8_i32_319
  let v181 : Index := Scalar.indexCast v180
  let c2 : Index := 2#32
  let c0_321 : Index := 0#32
  ![0, v181.toNat, 2, 0]
@[reducible] def k0_t44_loop : Scf.Loop 32 :=
  let c0_i32_185 : BitVec 32 := 0#32
  let c8_i32_186 : BitVec 32 := 8#32
  let v103 : BitVec 32 := Scalar.addi c0_i32_185 c8_i32_186
  let c1_i32_187 : BitVec 32 := 1#32
  ⟨c0_i32_185, v103, c1_i32_187⟩
def k0_off87 (k0_t44 : Fin k0_t44_loop.trips) : Fin 4 → Nat :=
  let c0_317 : Index := 0#32
  let c0_i32_185 : BitVec 32 := 0#32
  let c1_i32_187 : BitVec 32 := 1#32
  let arg4 : BitVec 32 := Scf.iv c0_i32_185 c1_i32_187 k0_t44
  let c8_i32_316 : BitVec 32 := 8#32
  let v176 : BitVec 32 := Scalar.muli arg4 c8_i32_316
  let v177 : Index := Scalar.indexCast v176
  let c34 : Index := 34#32
  let c1 : Index := 1#32
  ![0, v177.toNat, 34, 1]
def k0_off88 (k0_t44 : Fin k0_t44_loop.trips) : Fin 4 → Nat :=
  let c0_319 : Index := 0#32
  let c0_i32_185 : BitVec 32 := 0#32
  let c1_i32_187 : BitVec 32 := 1#32
  let arg4 : BitVec 32 := Scf.iv c0_i32_185 c1_i32_187 k0_t44
  let c8_i32_318 : BitVec 32 := 8#32
  let v180 : BitVec 32 := Scalar.muli arg4 c8_i32_318
  let v181 : Index := Scalar.indexCast v180
  let c2 : Index := 2#32
  let c1_320 : Index := 1#32
  ![0, v181.toNat, 2, 1]
@[reducible] def k0_t45_loop : Scf.Loop 32 :=
  let c0_i32_189 : BitVec 32 := 0#32
  let c8_i32_190 : BitVec 32 := 8#32
  let v105 : BitVec 32 := Scalar.addi c0_i32_189 c8_i32_190
  let c1_i32_191 : BitVec 32 := 1#32
  ⟨c0_i32_189, v105, c1_i32_191⟩
def k0_off89 (k0_t45 : Fin k0_t45_loop.trips) : Fin 4 → Nat :=
  let c0_317 : Index := 0#32
  let c0_i32_189 : BitVec 32 := 0#32
  let c1_i32_191 : BitVec 32 := 1#32
  let arg4 : BitVec 32 := Scf.iv c0_i32_189 c1_i32_191 k0_t45
  let c8_i32_316 : BitVec 32 := 8#32
  let v176 : BitVec 32 := Scalar.muli arg4 c8_i32_316
  let v177 : Index := Scalar.indexCast v176
  let c34 : Index := 34#32
  let c2 : Index := 2#32
  ![0, v177.toNat, 34, 2]
def k0_off90 (k0_t45 : Fin k0_t45_loop.trips) : Fin 4 → Nat :=
  let c0_319 : Index := 0#32
  let c0_i32_189 : BitVec 32 := 0#32
  let c1_i32_191 : BitVec 32 := 1#32
  let arg4 : BitVec 32 := Scf.iv c0_i32_189 c1_i32_191 k0_t45
  let c8_i32_318 : BitVec 32 := 8#32
  let v180 : BitVec 32 := Scalar.muli arg4 c8_i32_318
  let v181 : Index := Scalar.indexCast v180
  let c2_320 : Index := 2#32
  let c2_321 : Index := 2#32
  ![0, v181.toNat, 2, 2]
@[reducible] def k0_t46_loop : Scf.Loop 32 :=
  let c0_i32_197 : BitVec 32 := 0#32
  let c8_i32_198 : BitVec 32 := 8#32
  let v111 : BitVec 32 := Scalar.addi c0_i32_197 c8_i32_198
  let c1_i32_199 : BitVec 32 := 1#32
  ⟨c0_i32_197, v111, c1_i32_199⟩
def k0_off91 (k0_t46 : Fin k0_t46_loop.trips) : Fin 4 → Nat :=
  let c0_317 : Index := 0#32
  let c0_i32_197 : BitVec 32 := 0#32
  let c1_i32_199 : BitVec 32 := 1#32
  let arg4 : BitVec 32 := Scf.iv c0_i32_197 c1_i32_199 k0_t46
  let c8_i32_316 : BitVec 32 := 8#32
  let v176 : BitVec 32 := Scalar.muli arg4 c8_i32_316
  let v177 : Index := Scalar.indexCast v176
  let c40_318 : Index := 40#32
  let c0_319 : Index := 0#32
  ![0, v177.toNat, 40, 0]
def k0_off92 (k0_t46 : Fin k0_t46_loop.trips) : Fin 4 → Nat :=
  let c0_321 : Index := 0#32
  let c0_i32_197 : BitVec 32 := 0#32
  let c1_i32_199 : BitVec 32 := 1#32
  let arg4 : BitVec 32 := Scf.iv c0_i32_197 c1_i32_199 k0_t46
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t47_loop : Scf.Loop 32 :=
  let c0_i32_201 : BitVec 32 := 0#32
  let c8_i32_202 : BitVec 32 := 8#32
  let v113 : BitVec 32 := Scalar.addi c0_i32_201 c8_i32_202
  let c1_i32_203 : BitVec 32 := 1#32
  ⟨c0_i32_201, v113, c1_i32_203⟩
def k0_off93 (k0_t47 : Fin k0_t47_loop.trips) : Fin 4 → Nat :=
  let c0_317 : Index := 0#32
  let c0_i32_201 : BitVec 32 := 0#32
  let c1_i32_203 : BitVec 32 := 1#32
  let arg4 : BitVec 32 := Scf.iv c0_i32_201 c1_i32_203 k0_t47
  let c8_i32_316 : BitVec 32 := 8#32
  let v176 : BitVec 32 := Scalar.muli arg4 c8_i32_316
  let v177 : Index := Scalar.indexCast v176
  let c40_318 : Index := 40#32
  let c1 : Index := 1#32
  ![0, v177.toNat, 40, 1]
def k0_off94 (k0_t47 : Fin k0_t47_loop.trips) : Fin 4 → Nat :=
  let c0_320 : Index := 0#32
  let c0_i32_201 : BitVec 32 := 0#32
  let c1_i32_203 : BitVec 32 := 1#32
  let arg4 : BitVec 32 := Scf.iv c0_i32_201 c1_i32_203 k0_t47
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t48_loop : Scf.Loop 32 :=
  let c0_i32_205 : BitVec 32 := 0#32
  let c8_i32_206 : BitVec 32 := 8#32
  let v115 : BitVec 32 := Scalar.addi c0_i32_205 c8_i32_206
  let c1_i32_207 : BitVec 32 := 1#32
  ⟨c0_i32_205, v115, c1_i32_207⟩
def k0_off95 (k0_t48 : Fin k0_t48_loop.trips) : Fin 4 → Nat :=
  let c0_317 : Index := 0#32
  let c0_i32_205 : BitVec 32 := 0#32
  let c1_i32_207 : BitVec 32 := 1#32
  let arg4 : BitVec 32 := Scf.iv c0_i32_205 c1_i32_207 k0_t48
  let c8_i32_316 : BitVec 32 := 8#32
  let v176 : BitVec 32 := Scalar.muli arg4 c8_i32_316
  let v177 : Index := Scalar.indexCast v176
  let c40_318 : Index := 40#32
  let c2 : Index := 2#32
  ![0, v177.toNat, 40, 2]
def k0_off96 (k0_t48 : Fin k0_t48_loop.trips) : Fin 4 → Nat :=
  let c0_320 : Index := 0#32
  let c0_i32_205 : BitVec 32 := 0#32
  let c1_i32_207 : BitVec 32 := 1#32
  let arg4 : BitVec 32 := Scf.iv c0_i32_205 c1_i32_207 k0_t48
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t49_loop : Scf.Loop 32 :=
  let c0_i32_209 : BitVec 32 := 0#32
  let c8_i32_210 : BitVec 32 := 8#32
  let v117 : BitVec 32 := Scalar.addi c0_i32_209 c8_i32_210
  let c1_i32_211 : BitVec 32 := 1#32
  ⟨c0_i32_209, v117, c1_i32_211⟩
def k0_off97 (k0_t49 : Fin k0_t49_loop.trips) : Fin 4 → Nat :=
  let c0_317 : Index := 0#32
  let c0_i32_209 : BitVec 32 := 0#32
  let c1_i32_211 : BitVec 32 := 1#32
  let arg4 : BitVec 32 := Scf.iv c0_i32_209 c1_i32_211 k0_t49
  let c8_i32_316 : BitVec 32 := 8#32
  let v176 : BitVec 32 := Scalar.muli arg4 c8_i32_316
  let v177 : Index := Scalar.indexCast v176
  let c41 : Index := 41#32
  let c0_318 : Index := 0#32
  ![0, v177.toNat, 41, 0]
def k0_off98 (k0_t49 : Fin k0_t49_loop.trips) : Fin 4 → Nat :=
  let c0_320 : Index := 0#32
  let c0_i32_209 : BitVec 32 := 0#32
  let c1_i32_211 : BitVec 32 := 1#32
  let arg4 : BitVec 32 := Scf.iv c0_i32_209 c1_i32_211 k0_t49
  let c8_i32_319 : BitVec 32 := 8#32
  let v180 : BitVec 32 := Scalar.muli arg4 c8_i32_319
  let v181 : Index := Scalar.indexCast v180
  let c1 : Index := 1#32
  let c0_321 : Index := 0#32
  ![0, v181.toNat, 1, 0]
@[reducible] def k0_t50_loop : Scf.Loop 32 :=
  let c0_i32_213 : BitVec 32 := 0#32
  let c8_i32_214 : BitVec 32 := 8#32
  let v119 : BitVec 32 := Scalar.addi c0_i32_213 c8_i32_214
  let c1_i32_215 : BitVec 32 := 1#32
  ⟨c0_i32_213, v119, c1_i32_215⟩
def k0_off99 (k0_t50 : Fin k0_t50_loop.trips) : Fin 4 → Nat :=
  let c0_317 : Index := 0#32
  let c0_i32_213 : BitVec 32 := 0#32
  let c1_i32_215 : BitVec 32 := 1#32
  let arg4 : BitVec 32 := Scf.iv c0_i32_213 c1_i32_215 k0_t50
  let c8_i32_316 : BitVec 32 := 8#32
  let v176 : BitVec 32 := Scalar.muli arg4 c8_i32_316
  let v177 : Index := Scalar.indexCast v176
  let c41 : Index := 41#32
  let c1 : Index := 1#32
  ![0, v177.toNat, 41, 1]
def k0_off100 (k0_t50 : Fin k0_t50_loop.trips) : Fin 4 → Nat :=
  let c0_319 : Index := 0#32
  let c0_i32_213 : BitVec 32 := 0#32
  let c1_i32_215 : BitVec 32 := 1#32
  let arg4 : BitVec 32 := Scf.iv c0_i32_213 c1_i32_215 k0_t50
  let c8_i32_318 : BitVec 32 := 8#32
  let v180 : BitVec 32 := Scalar.muli arg4 c8_i32_318
  let v181 : Index := Scalar.indexCast v180
  let c1_320 : Index := 1#32
  let c1_321 : Index := 1#32
  ![0, v181.toNat, 1, 1]
@[reducible] def k0_t51_loop : Scf.Loop 32 :=
  let c0_i32_217 : BitVec 32 := 0#32
  let c8_i32_218 : BitVec 32 := 8#32
  let v121 : BitVec 32 := Scalar.addi c0_i32_217 c8_i32_218
  let c1_i32_219 : BitVec 32 := 1#32
  ⟨c0_i32_217, v121, c1_i32_219⟩
def k0_off101 (k0_t51 : Fin k0_t51_loop.trips) : Fin 4 → Nat :=
  let c0_317 : Index := 0#32
  let c0_i32_217 : BitVec 32 := 0#32
  let c1_i32_219 : BitVec 32 := 1#32
  let arg4 : BitVec 32 := Scf.iv c0_i32_217 c1_i32_219 k0_t51
  let c8_i32_316 : BitVec 32 := 8#32
  let v176 : BitVec 32 := Scalar.muli arg4 c8_i32_316
  let v177 : Index := Scalar.indexCast v176
  let c41 : Index := 41#32
  let c2 : Index := 2#32
  ![0, v177.toNat, 41, 2]
def k0_off102 (k0_t51 : Fin k0_t51_loop.trips) : Fin 4 → Nat :=
  let c0_319 : Index := 0#32
  let c0_i32_217 : BitVec 32 := 0#32
  let c1_i32_219 : BitVec 32 := 1#32
  let arg4 : BitVec 32 := Scf.iv c0_i32_217 c1_i32_219 k0_t51
  let c8_i32_318 : BitVec 32 := 8#32
  let v180 : BitVec 32 := Scalar.muli arg4 c8_i32_318
  let v181 : Index := Scalar.indexCast v180
  let c1 : Index := 1#32
  let c2_320 : Index := 2#32
  ![0, v181.toNat, 1, 2]
@[reducible] def k0_t52_loop : Scf.Loop 32 :=
  let c0_i32_221 : BitVec 32 := 0#32
  let c8_i32_222 : BitVec 32 := 8#32
  let v123 : BitVec 32 := Scalar.addi c0_i32_221 c8_i32_222
  let c1_i32_223 : BitVec 32 := 1#32
  ⟨c0_i32_221, v123, c1_i32_223⟩
def k0_off103 (k0_t52 : Fin k0_t52_loop.trips) : Fin 4 → Nat :=
  let c0_317 : Index := 0#32
  let c0_i32_221 : BitVec 32 := 0#32
  let c1_i32_223 : BitVec 32 := 1#32
  let arg4 : BitVec 32 := Scf.iv c0_i32_221 c1_i32_223 k0_t52
  let c8_i32_316 : BitVec 32 := 8#32
  let v176 : BitVec 32 := Scalar.muli arg4 c8_i32_316
  let v177 : Index := Scalar.indexCast v176
  let c42 : Index := 42#32
  let c0_318 : Index := 0#32
  ![0, v177.toNat, 42, 0]
def k0_off104 (k0_t52 : Fin k0_t52_loop.trips) : Fin 4 → Nat :=
  let c0_320 : Index := 0#32
  let c0_i32_221 : BitVec 32 := 0#32
  let c1_i32_223 : BitVec 32 := 1#32
  let arg4 : BitVec 32 := Scf.iv c0_i32_221 c1_i32_223 k0_t52
  let c8_i32_319 : BitVec 32 := 8#32
  let v180 : BitVec 32 := Scalar.muli arg4 c8_i32_319
  let v181 : Index := Scalar.indexCast v180
  let c2 : Index := 2#32
  let c0_321 : Index := 0#32
  ![0, v181.toNat, 2, 0]
@[reducible] def k0_t53_loop : Scf.Loop 32 :=
  let c0_i32_225 : BitVec 32 := 0#32
  let c8_i32_226 : BitVec 32 := 8#32
  let v125 : BitVec 32 := Scalar.addi c0_i32_225 c8_i32_226
  let c1_i32_227 : BitVec 32 := 1#32
  ⟨c0_i32_225, v125, c1_i32_227⟩
def k0_off105 (k0_t53 : Fin k0_t53_loop.trips) : Fin 4 → Nat :=
  let c0_317 : Index := 0#32
  let c0_i32_225 : BitVec 32 := 0#32
  let c1_i32_227 : BitVec 32 := 1#32
  let arg4 : BitVec 32 := Scf.iv c0_i32_225 c1_i32_227 k0_t53
  let c8_i32_316 : BitVec 32 := 8#32
  let v176 : BitVec 32 := Scalar.muli arg4 c8_i32_316
  let v177 : Index := Scalar.indexCast v176
  let c42 : Index := 42#32
  let c1 : Index := 1#32
  ![0, v177.toNat, 42, 1]
def k0_off106 (k0_t53 : Fin k0_t53_loop.trips) : Fin 4 → Nat :=
  let c0_319 : Index := 0#32
  let c0_i32_225 : BitVec 32 := 0#32
  let c1_i32_227 : BitVec 32 := 1#32
  let arg4 : BitVec 32 := Scf.iv c0_i32_225 c1_i32_227 k0_t53
  let c8_i32_318 : BitVec 32 := 8#32
  let v180 : BitVec 32 := Scalar.muli arg4 c8_i32_318
  let v181 : Index := Scalar.indexCast v180
  let c2 : Index := 2#32
  let c1_320 : Index := 1#32
  ![0, v181.toNat, 2, 1]
@[reducible] def k0_t54_loop : Scf.Loop 32 :=
  let c0_i32_229 : BitVec 32 := 0#32
  let c8_i32_230 : BitVec 32 := 8#32
  let v127 : BitVec 32 := Scalar.addi c0_i32_229 c8_i32_230
  let c1_i32_231 : BitVec 32 := 1#32
  ⟨c0_i32_229, v127, c1_i32_231⟩
def k0_off107 (k0_t54 : Fin k0_t54_loop.trips) : Fin 4 → Nat :=
  let c0_317 : Index := 0#32
  let c0_i32_229 : BitVec 32 := 0#32
  let c1_i32_231 : BitVec 32 := 1#32
  let arg4 : BitVec 32 := Scf.iv c0_i32_229 c1_i32_231 k0_t54
  let c8_i32_316 : BitVec 32 := 8#32
  let v176 : BitVec 32 := Scalar.muli arg4 c8_i32_316
  let v177 : Index := Scalar.indexCast v176
  let c42 : Index := 42#32
  let c2 : Index := 2#32
  ![0, v177.toNat, 42, 2]
def k0_off108 (k0_t54 : Fin k0_t54_loop.trips) : Fin 4 → Nat :=
  let c0_319 : Index := 0#32
  let c0_i32_229 : BitVec 32 := 0#32
  let c1_i32_231 : BitVec 32 := 1#32
  let arg4 : BitVec 32 := Scf.iv c0_i32_229 c1_i32_231 k0_t54
  let c8_i32_318 : BitVec 32 := 8#32
  let v180 : BitVec 32 := Scalar.muli arg4 c8_i32_318
  let v181 : Index := Scalar.indexCast v180
  let c2_320 : Index := 2#32
  let c2_321 : Index := 2#32
  ![0, v181.toNat, 2, 2]
@[reducible] def k0_t55_loop : Scf.Loop 32 :=
  let c0_i32_237 : BitVec 32 := 0#32
  let c8_i32_238 : BitVec 32 := 8#32
  let v133 : BitVec 32 := Scalar.addi c0_i32_237 c8_i32_238
  let c1_i32_239 : BitVec 32 := 1#32
  ⟨c0_i32_237, v133, c1_i32_239⟩
def k0_off109 (k0_t55 : Fin k0_t55_loop.trips) : Fin 4 → Nat :=
  let c0_317 : Index := 0#32
  let c0_i32_237 : BitVec 32 := 0#32
  let c1_i32_239 : BitVec 32 := 1#32
  let arg4 : BitVec 32 := Scf.iv c0_i32_237 c1_i32_239 k0_t55
  let c8_i32_316 : BitVec 32 := 8#32
  let v176 : BitVec 32 := Scalar.muli arg4 c8_i32_316
  let v177 : Index := Scalar.indexCast v176
  let c48_318 : Index := 48#32
  let c0_319 : Index := 0#32
  ![0, v177.toNat, 48, 0]
def k0_off110 (k0_t55 : Fin k0_t55_loop.trips) : Fin 4 → Nat :=
  let c0_321 : Index := 0#32
  let c0_i32_237 : BitVec 32 := 0#32
  let c1_i32_239 : BitVec 32 := 1#32
  let arg4 : BitVec 32 := Scf.iv c0_i32_237 c1_i32_239 k0_t55
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t56_loop : Scf.Loop 32 :=
  let c0_i32_241 : BitVec 32 := 0#32
  let c8_i32_242 : BitVec 32 := 8#32
  let v135 : BitVec 32 := Scalar.addi c0_i32_241 c8_i32_242
  let c1_i32_243 : BitVec 32 := 1#32
  ⟨c0_i32_241, v135, c1_i32_243⟩
def k0_off111 (k0_t56 : Fin k0_t56_loop.trips) : Fin 4 → Nat :=
  let c0_317 : Index := 0#32
  let c0_i32_241 : BitVec 32 := 0#32
  let c1_i32_243 : BitVec 32 := 1#32
  let arg4 : BitVec 32 := Scf.iv c0_i32_241 c1_i32_243 k0_t56
  let c8_i32_316 : BitVec 32 := 8#32
  let v176 : BitVec 32 := Scalar.muli arg4 c8_i32_316
  let v177 : Index := Scalar.indexCast v176
  let c48_318 : Index := 48#32
  let c1 : Index := 1#32
  ![0, v177.toNat, 48, 1]
def k0_off112 (k0_t56 : Fin k0_t56_loop.trips) : Fin 4 → Nat :=
  let c0_320 : Index := 0#32
  let c0_i32_241 : BitVec 32 := 0#32
  let c1_i32_243 : BitVec 32 := 1#32
  let arg4 : BitVec 32 := Scf.iv c0_i32_241 c1_i32_243 k0_t56
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t57_loop : Scf.Loop 32 :=
  let c0_i32_245 : BitVec 32 := 0#32
  let c8_i32_246 : BitVec 32 := 8#32
  let v137 : BitVec 32 := Scalar.addi c0_i32_245 c8_i32_246
  let c1_i32_247 : BitVec 32 := 1#32
  ⟨c0_i32_245, v137, c1_i32_247⟩
def k0_off113 (k0_t57 : Fin k0_t57_loop.trips) : Fin 4 → Nat :=
  let c0_317 : Index := 0#32
  let c0_i32_245 : BitVec 32 := 0#32
  let c1_i32_247 : BitVec 32 := 1#32
  let arg4 : BitVec 32 := Scf.iv c0_i32_245 c1_i32_247 k0_t57
  let c8_i32_316 : BitVec 32 := 8#32
  let v176 : BitVec 32 := Scalar.muli arg4 c8_i32_316
  let v177 : Index := Scalar.indexCast v176
  let c48_318 : Index := 48#32
  let c2 : Index := 2#32
  ![0, v177.toNat, 48, 2]
def k0_off114 (k0_t57 : Fin k0_t57_loop.trips) : Fin 4 → Nat :=
  let c0_320 : Index := 0#32
  let c0_i32_245 : BitVec 32 := 0#32
  let c1_i32_247 : BitVec 32 := 1#32
  let arg4 : BitVec 32 := Scf.iv c0_i32_245 c1_i32_247 k0_t57
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t58_loop : Scf.Loop 32 :=
  let c0_i32_249 : BitVec 32 := 0#32
  let c8_i32_250 : BitVec 32 := 8#32
  let v139 : BitVec 32 := Scalar.addi c0_i32_249 c8_i32_250
  let c1_i32_251 : BitVec 32 := 1#32
  ⟨c0_i32_249, v139, c1_i32_251⟩
def k0_off115 (k0_t58 : Fin k0_t58_loop.trips) : Fin 4 → Nat :=
  let c0_317 : Index := 0#32
  let c0_i32_249 : BitVec 32 := 0#32
  let c1_i32_251 : BitVec 32 := 1#32
  let arg4 : BitVec 32 := Scf.iv c0_i32_249 c1_i32_251 k0_t58
  let c8_i32_316 : BitVec 32 := 8#32
  let v176 : BitVec 32 := Scalar.muli arg4 c8_i32_316
  let v177 : Index := Scalar.indexCast v176
  let c49 : Index := 49#32
  let c0_318 : Index := 0#32
  ![0, v177.toNat, 49, 0]
def k0_off116 (k0_t58 : Fin k0_t58_loop.trips) : Fin 4 → Nat :=
  let c0_320 : Index := 0#32
  let c0_i32_249 : BitVec 32 := 0#32
  let c1_i32_251 : BitVec 32 := 1#32
  let arg4 : BitVec 32 := Scf.iv c0_i32_249 c1_i32_251 k0_t58
  let c8_i32_319 : BitVec 32 := 8#32
  let v180 : BitVec 32 := Scalar.muli arg4 c8_i32_319
  let v181 : Index := Scalar.indexCast v180
  let c1 : Index := 1#32
  let c0_321 : Index := 0#32
  ![0, v181.toNat, 1, 0]
@[reducible] def k0_t59_loop : Scf.Loop 32 :=
  let c0_i32_253 : BitVec 32 := 0#32
  let c8_i32_254 : BitVec 32 := 8#32
  let v141 : BitVec 32 := Scalar.addi c0_i32_253 c8_i32_254
  let c1_i32_255 : BitVec 32 := 1#32
  ⟨c0_i32_253, v141, c1_i32_255⟩
def k0_off117 (k0_t59 : Fin k0_t59_loop.trips) : Fin 4 → Nat :=
  let c0_317 : Index := 0#32
  let c0_i32_253 : BitVec 32 := 0#32
  let c1_i32_255 : BitVec 32 := 1#32
  let arg4 : BitVec 32 := Scf.iv c0_i32_253 c1_i32_255 k0_t59
  let c8_i32_316 : BitVec 32 := 8#32
  let v176 : BitVec 32 := Scalar.muli arg4 c8_i32_316
  let v177 : Index := Scalar.indexCast v176
  let c49 : Index := 49#32
  let c1 : Index := 1#32
  ![0, v177.toNat, 49, 1]
def k0_off118 (k0_t59 : Fin k0_t59_loop.trips) : Fin 4 → Nat :=
  let c0_319 : Index := 0#32
  let c0_i32_253 : BitVec 32 := 0#32
  let c1_i32_255 : BitVec 32 := 1#32
  let arg4 : BitVec 32 := Scf.iv c0_i32_253 c1_i32_255 k0_t59
  let c8_i32_318 : BitVec 32 := 8#32
  let v180 : BitVec 32 := Scalar.muli arg4 c8_i32_318
  let v181 : Index := Scalar.indexCast v180
  let c1_320 : Index := 1#32
  let c1_321 : Index := 1#32
  ![0, v181.toNat, 1, 1]
@[reducible] def k0_t60_loop : Scf.Loop 32 :=
  let c0_i32_257 : BitVec 32 := 0#32
  let c8_i32_258 : BitVec 32 := 8#32
  let v143 : BitVec 32 := Scalar.addi c0_i32_257 c8_i32_258
  let c1_i32_259 : BitVec 32 := 1#32
  ⟨c0_i32_257, v143, c1_i32_259⟩
def k0_off119 (k0_t60 : Fin k0_t60_loop.trips) : Fin 4 → Nat :=
  let c0_317 : Index := 0#32
  let c0_i32_257 : BitVec 32 := 0#32
  let c1_i32_259 : BitVec 32 := 1#32
  let arg4 : BitVec 32 := Scf.iv c0_i32_257 c1_i32_259 k0_t60
  let c8_i32_316 : BitVec 32 := 8#32
  let v176 : BitVec 32 := Scalar.muli arg4 c8_i32_316
  let v177 : Index := Scalar.indexCast v176
  let c49 : Index := 49#32
  let c2 : Index := 2#32
  ![0, v177.toNat, 49, 2]
def k0_off120 (k0_t60 : Fin k0_t60_loop.trips) : Fin 4 → Nat :=
  let c0_319 : Index := 0#32
  let c0_i32_257 : BitVec 32 := 0#32
  let c1_i32_259 : BitVec 32 := 1#32
  let arg4 : BitVec 32 := Scf.iv c0_i32_257 c1_i32_259 k0_t60
  let c8_i32_318 : BitVec 32 := 8#32
  let v180 : BitVec 32 := Scalar.muli arg4 c8_i32_318
  let v181 : Index := Scalar.indexCast v180
  let c1 : Index := 1#32
  let c2_320 : Index := 2#32
  ![0, v181.toNat, 1, 2]
@[reducible] def k0_t61_loop : Scf.Loop 32 :=
  let c0_i32_261 : BitVec 32 := 0#32
  let c8_i32_262 : BitVec 32 := 8#32
  let v145 : BitVec 32 := Scalar.addi c0_i32_261 c8_i32_262
  let c1_i32_263 : BitVec 32 := 1#32
  ⟨c0_i32_261, v145, c1_i32_263⟩
def k0_off121 (k0_t61 : Fin k0_t61_loop.trips) : Fin 4 → Nat :=
  let c0_317 : Index := 0#32
  let c0_i32_261 : BitVec 32 := 0#32
  let c1_i32_263 : BitVec 32 := 1#32
  let arg4 : BitVec 32 := Scf.iv c0_i32_261 c1_i32_263 k0_t61
  let c8_i32_316 : BitVec 32 := 8#32
  let v176 : BitVec 32 := Scalar.muli arg4 c8_i32_316
  let v177 : Index := Scalar.indexCast v176
  let c50 : Index := 50#32
  let c0_318 : Index := 0#32
  ![0, v177.toNat, 50, 0]
def k0_off122 (k0_t61 : Fin k0_t61_loop.trips) : Fin 4 → Nat :=
  let c0_320 : Index := 0#32
  let c0_i32_261 : BitVec 32 := 0#32
  let c1_i32_263 : BitVec 32 := 1#32
  let arg4 : BitVec 32 := Scf.iv c0_i32_261 c1_i32_263 k0_t61
  let c8_i32_319 : BitVec 32 := 8#32
  let v180 : BitVec 32 := Scalar.muli arg4 c8_i32_319
  let v181 : Index := Scalar.indexCast v180
  let c2 : Index := 2#32
  let c0_321 : Index := 0#32
  ![0, v181.toNat, 2, 0]
@[reducible] def k0_t62_loop : Scf.Loop 32 :=
  let c0_i32_265 : BitVec 32 := 0#32
  let c8_i32_266 : BitVec 32 := 8#32
  let v147 : BitVec 32 := Scalar.addi c0_i32_265 c8_i32_266
  let c1_i32_267 : BitVec 32 := 1#32
  ⟨c0_i32_265, v147, c1_i32_267⟩
def k0_off123 (k0_t62 : Fin k0_t62_loop.trips) : Fin 4 → Nat :=
  let c0_317 : Index := 0#32
  let c0_i32_265 : BitVec 32 := 0#32
  let c1_i32_267 : BitVec 32 := 1#32
  let arg4 : BitVec 32 := Scf.iv c0_i32_265 c1_i32_267 k0_t62
  let c8_i32_316 : BitVec 32 := 8#32
  let v176 : BitVec 32 := Scalar.muli arg4 c8_i32_316
  let v177 : Index := Scalar.indexCast v176
  let c50 : Index := 50#32
  let c1 : Index := 1#32
  ![0, v177.toNat, 50, 1]
def k0_off124 (k0_t62 : Fin k0_t62_loop.trips) : Fin 4 → Nat :=
  let c0_319 : Index := 0#32
  let c0_i32_265 : BitVec 32 := 0#32
  let c1_i32_267 : BitVec 32 := 1#32
  let arg4 : BitVec 32 := Scf.iv c0_i32_265 c1_i32_267 k0_t62
  let c8_i32_318 : BitVec 32 := 8#32
  let v180 : BitVec 32 := Scalar.muli arg4 c8_i32_318
  let v181 : Index := Scalar.indexCast v180
  let c2 : Index := 2#32
  let c1_320 : Index := 1#32
  ![0, v181.toNat, 2, 1]
@[reducible] def k0_t63_loop : Scf.Loop 32 :=
  let c0_i32_269 : BitVec 32 := 0#32
  let c8_i32_270 : BitVec 32 := 8#32
  let v149 : BitVec 32 := Scalar.addi c0_i32_269 c8_i32_270
  let c1_i32_271 : BitVec 32 := 1#32
  ⟨c0_i32_269, v149, c1_i32_271⟩
def k0_off125 (k0_t63 : Fin k0_t63_loop.trips) : Fin 4 → Nat :=
  let c0_317 : Index := 0#32
  let c0_i32_269 : BitVec 32 := 0#32
  let c1_i32_271 : BitVec 32 := 1#32
  let arg4 : BitVec 32 := Scf.iv c0_i32_269 c1_i32_271 k0_t63
  let c8_i32_316 : BitVec 32 := 8#32
  let v176 : BitVec 32 := Scalar.muli arg4 c8_i32_316
  let v177 : Index := Scalar.indexCast v176
  let c50 : Index := 50#32
  let c2 : Index := 2#32
  ![0, v177.toNat, 50, 2]
def k0_off126 (k0_t63 : Fin k0_t63_loop.trips) : Fin 4 → Nat :=
  let c0_319 : Index := 0#32
  let c0_i32_269 : BitVec 32 := 0#32
  let c1_i32_271 : BitVec 32 := 1#32
  let arg4 : BitVec 32 := Scf.iv c0_i32_269 c1_i32_271 k0_t63
  let c8_i32_318 : BitVec 32 := 8#32
  let v180 : BitVec 32 := Scalar.muli arg4 c8_i32_318
  let v181 : Index := Scalar.indexCast v180
  let c2_320 : Index := 2#32
  let c2_321 : Index := 2#32
  ![0, v181.toNat, 2, 2]
@[reducible] def k0_t64_loop : Scf.Loop 32 :=
  let c0_i32_277 : BitVec 32 := 0#32
  let c8_i32_278 : BitVec 32 := 8#32
  let v155 : BitVec 32 := Scalar.addi c0_i32_277 c8_i32_278
  let c1_i32_279 : BitVec 32 := 1#32
  ⟨c0_i32_277, v155, c1_i32_279⟩
def k0_off127 (k0_t64 : Fin k0_t64_loop.trips) : Fin 4 → Nat :=
  let c0_317 : Index := 0#32
  let c0_i32_277 : BitVec 32 := 0#32
  let c1_i32_279 : BitVec 32 := 1#32
  let arg4 : BitVec 32 := Scf.iv c0_i32_277 c1_i32_279 k0_t64
  let c8_i32_316 : BitVec 32 := 8#32
  let v176 : BitVec 32 := Scalar.muli arg4 c8_i32_316
  let v177 : Index := Scalar.indexCast v176
  let c56_318 : Index := 56#32
  let c0_319 : Index := 0#32
  ![0, v177.toNat, 56, 0]
def k0_off128 (k0_t64 : Fin k0_t64_loop.trips) : Fin 4 → Nat :=
  let c0_321 : Index := 0#32
  let c0_i32_277 : BitVec 32 := 0#32
  let c1_i32_279 : BitVec 32 := 1#32
  let arg4 : BitVec 32 := Scf.iv c0_i32_277 c1_i32_279 k0_t64
  let c8_i32_320 : BitVec 32 := 8#32
  let v180 : BitVec 32 := Scalar.muli arg4 c8_i32_320
  let v181 : Index := Scalar.indexCast v180
  let c0_322 : Index := 0#32
  let c0_323 : Index := 0#32
  ![0, v181.toNat, 0, 0]
@[reducible] def k0_t65_loop : Scf.Loop 32 :=
  let c0_i32_281 : BitVec 32 := 0#32
  let c8_i32_282 : BitVec 32 := 8#32
  let v157 : BitVec 32 := Scalar.addi c0_i32_281 c8_i32_282
  let c1_i32_283 : BitVec 32 := 1#32
  ⟨c0_i32_281, v157, c1_i32_283⟩
def k0_off129 (k0_t65 : Fin k0_t65_loop.trips) : Fin 4 → Nat :=
  let c0_317 : Index := 0#32
  let c0_i32_281 : BitVec 32 := 0#32
  let c1_i32_283 : BitVec 32 := 1#32
  let arg4 : BitVec 32 := Scf.iv c0_i32_281 c1_i32_283 k0_t65
  let c8_i32_316 : BitVec 32 := 8#32
  let v176 : BitVec 32 := Scalar.muli arg4 c8_i32_316
  let v177 : Index := Scalar.indexCast v176
  let c56_318 : Index := 56#32
  let c1 : Index := 1#32
  ![0, v177.toNat, 56, 1]
def k0_off130 (k0_t65 : Fin k0_t65_loop.trips) : Fin 4 → Nat :=
  let c0_320 : Index := 0#32
  let c0_i32_281 : BitVec 32 := 0#32
  let c1_i32_283 : BitVec 32 := 1#32
  let arg4 : BitVec 32 := Scf.iv c0_i32_281 c1_i32_283 k0_t65
  let c8_i32_319 : BitVec 32 := 8#32
  let v180 : BitVec 32 := Scalar.muli arg4 c8_i32_319
  let v181 : Index := Scalar.indexCast v180
  let c0_321 : Index := 0#32
  let c1_322 : Index := 1#32
  ![0, v181.toNat, 0, 1]
@[reducible] def k0_t66_loop : Scf.Loop 32 :=
  let c0_i32_285 : BitVec 32 := 0#32
  let c8_i32_286 : BitVec 32 := 8#32
  let v159 : BitVec 32 := Scalar.addi c0_i32_285 c8_i32_286
  let c1_i32_287 : BitVec 32 := 1#32
  ⟨c0_i32_285, v159, c1_i32_287⟩
def k0_off131 (k0_t66 : Fin k0_t66_loop.trips) : Fin 4 → Nat :=
  let c0_317 : Index := 0#32
  let c0_i32_285 : BitVec 32 := 0#32
  let c1_i32_287 : BitVec 32 := 1#32
  let arg4 : BitVec 32 := Scf.iv c0_i32_285 c1_i32_287 k0_t66
  let c8_i32_316 : BitVec 32 := 8#32
  let v176 : BitVec 32 := Scalar.muli arg4 c8_i32_316
  let v177 : Index := Scalar.indexCast v176
  let c56_318 : Index := 56#32
  let c2 : Index := 2#32
  ![0, v177.toNat, 56, 2]
def k0_off132 (k0_t66 : Fin k0_t66_loop.trips) : Fin 4 → Nat :=
  let c0_320 : Index := 0#32
  let c0_i32_285 : BitVec 32 := 0#32
  let c1_i32_287 : BitVec 32 := 1#32
  let arg4 : BitVec 32 := Scf.iv c0_i32_285 c1_i32_287 k0_t66
  let c8_i32_319 : BitVec 32 := 8#32
  let v180 : BitVec 32 := Scalar.muli arg4 c8_i32_319
  let v181 : Index := Scalar.indexCast v180
  let c0_321 : Index := 0#32
  let c2_322 : Index := 2#32
  ![0, v181.toNat, 0, 2]
@[reducible] def k0_t67_loop : Scf.Loop 32 :=
  let c0_i32_289 : BitVec 32 := 0#32
  let c8_i32_290 : BitVec 32 := 8#32
  let v161 : BitVec 32 := Scalar.addi c0_i32_289 c8_i32_290
  let c1_i32_291 : BitVec 32 := 1#32
  ⟨c0_i32_289, v161, c1_i32_291⟩
def k0_off133 (k0_t67 : Fin k0_t67_loop.trips) : Fin 4 → Nat :=
  let c0_317 : Index := 0#32
  let c0_i32_289 : BitVec 32 := 0#32
  let c1_i32_291 : BitVec 32 := 1#32
  let arg4 : BitVec 32 := Scf.iv c0_i32_289 c1_i32_291 k0_t67
  let c8_i32_316 : BitVec 32 := 8#32
  let v176 : BitVec 32 := Scalar.muli arg4 c8_i32_316
  let v177 : Index := Scalar.indexCast v176
  let c57 : Index := 57#32
  let c0_318 : Index := 0#32
  ![0, v177.toNat, 57, 0]
def k0_off134 (k0_t67 : Fin k0_t67_loop.trips) : Fin 4 → Nat :=
  let c0_320 : Index := 0#32
  let c0_i32_289 : BitVec 32 := 0#32
  let c1_i32_291 : BitVec 32 := 1#32
  let arg4 : BitVec 32 := Scf.iv c0_i32_289 c1_i32_291 k0_t67
  let c8_i32_319 : BitVec 32 := 8#32
  let v180 : BitVec 32 := Scalar.muli arg4 c8_i32_319
  let v181 : Index := Scalar.indexCast v180
  let c1 : Index := 1#32
  let c0_321 : Index := 0#32
  ![0, v181.toNat, 1, 0]
@[reducible] def k0_t68_loop : Scf.Loop 32 :=
  let c0_i32_293 : BitVec 32 := 0#32
  let c8_i32_294 : BitVec 32 := 8#32
  let v163 : BitVec 32 := Scalar.addi c0_i32_293 c8_i32_294
  let c1_i32_295 : BitVec 32 := 1#32
  ⟨c0_i32_293, v163, c1_i32_295⟩
def k0_off135 (k0_t68 : Fin k0_t68_loop.trips) : Fin 4 → Nat :=
  let c0_317 : Index := 0#32
  let c0_i32_293 : BitVec 32 := 0#32
  let c1_i32_295 : BitVec 32 := 1#32
  let arg4 : BitVec 32 := Scf.iv c0_i32_293 c1_i32_295 k0_t68
  let c8_i32_316 : BitVec 32 := 8#32
  let v176 : BitVec 32 := Scalar.muli arg4 c8_i32_316
  let v177 : Index := Scalar.indexCast v176
  let c57 : Index := 57#32
  let c1 : Index := 1#32
  ![0, v177.toNat, 57, 1]
def k0_off136 (k0_t68 : Fin k0_t68_loop.trips) : Fin 4 → Nat :=
  let c0_319 : Index := 0#32
  let c0_i32_293 : BitVec 32 := 0#32
  let c1_i32_295 : BitVec 32 := 1#32
  let arg4 : BitVec 32 := Scf.iv c0_i32_293 c1_i32_295 k0_t68
  let c8_i32_318 : BitVec 32 := 8#32
  let v180 : BitVec 32 := Scalar.muli arg4 c8_i32_318
  let v181 : Index := Scalar.indexCast v180
  let c1_320 : Index := 1#32
  let c1_321 : Index := 1#32
  ![0, v181.toNat, 1, 1]
@[reducible] def k0_t69_loop : Scf.Loop 32 :=
  let c0_i32_297 : BitVec 32 := 0#32
  let c8_i32_298 : BitVec 32 := 8#32
  let v165 : BitVec 32 := Scalar.addi c0_i32_297 c8_i32_298
  let c1_i32_299 : BitVec 32 := 1#32
  ⟨c0_i32_297, v165, c1_i32_299⟩
def k0_off137 (k0_t69 : Fin k0_t69_loop.trips) : Fin 4 → Nat :=
  let c0_317 : Index := 0#32
  let c0_i32_297 : BitVec 32 := 0#32
  let c1_i32_299 : BitVec 32 := 1#32
  let arg4 : BitVec 32 := Scf.iv c0_i32_297 c1_i32_299 k0_t69
  let c8_i32_316 : BitVec 32 := 8#32
  let v176 : BitVec 32 := Scalar.muli arg4 c8_i32_316
  let v177 : Index := Scalar.indexCast v176
  let c57 : Index := 57#32
  let c2 : Index := 2#32
  ![0, v177.toNat, 57, 2]
def k0_off138 (k0_t69 : Fin k0_t69_loop.trips) : Fin 4 → Nat :=
  let c0_319 : Index := 0#32
  let c0_i32_297 : BitVec 32 := 0#32
  let c1_i32_299 : BitVec 32 := 1#32
  let arg4 : BitVec 32 := Scf.iv c0_i32_297 c1_i32_299 k0_t69
  let c8_i32_318 : BitVec 32 := 8#32
  let v180 : BitVec 32 := Scalar.muli arg4 c8_i32_318
  let v181 : Index := Scalar.indexCast v180
  let c1 : Index := 1#32
  let c2_320 : Index := 2#32
  ![0, v181.toNat, 1, 2]
@[reducible] def k0_t70_loop : Scf.Loop 32 :=
  let c0_i32_301 : BitVec 32 := 0#32
  let c8_i32_302 : BitVec 32 := 8#32
  let v167 : BitVec 32 := Scalar.addi c0_i32_301 c8_i32_302
  let c1_i32_303 : BitVec 32 := 1#32
  ⟨c0_i32_301, v167, c1_i32_303⟩
def k0_off139 (k0_t70 : Fin k0_t70_loop.trips) : Fin 4 → Nat :=
  let c0_317 : Index := 0#32
  let c0_i32_301 : BitVec 32 := 0#32
  let c1_i32_303 : BitVec 32 := 1#32
  let arg4 : BitVec 32 := Scf.iv c0_i32_301 c1_i32_303 k0_t70
  let c8_i32_316 : BitVec 32 := 8#32
  let v176 : BitVec 32 := Scalar.muli arg4 c8_i32_316
  let v177 : Index := Scalar.indexCast v176
  let c58 : Index := 58#32
  let c0_318 : Index := 0#32
  ![0, v177.toNat, 58, 0]
def k0_off140 (k0_t70 : Fin k0_t70_loop.trips) : Fin 4 → Nat :=
  let c0_320 : Index := 0#32
  let c0_i32_301 : BitVec 32 := 0#32
  let c1_i32_303 : BitVec 32 := 1#32
  let arg4 : BitVec 32 := Scf.iv c0_i32_301 c1_i32_303 k0_t70
  let c8_i32_319 : BitVec 32 := 8#32
  let v180 : BitVec 32 := Scalar.muli arg4 c8_i32_319
  let v181 : Index := Scalar.indexCast v180
  let c2 : Index := 2#32
  let c0_321 : Index := 0#32
  ![0, v181.toNat, 2, 0]
@[reducible] def k0_t71_loop : Scf.Loop 32 :=
  let c0_i32_305 : BitVec 32 := 0#32
  let c8_i32_306 : BitVec 32 := 8#32
  let v169 : BitVec 32 := Scalar.addi c0_i32_305 c8_i32_306
  let c1_i32_307 : BitVec 32 := 1#32
  ⟨c0_i32_305, v169, c1_i32_307⟩
def k0_off141 (k0_t71 : Fin k0_t71_loop.trips) : Fin 4 → Nat :=
  let c0_317 : Index := 0#32
  let c0_i32_305 : BitVec 32 := 0#32
  let c1_i32_307 : BitVec 32 := 1#32
  let arg4 : BitVec 32 := Scf.iv c0_i32_305 c1_i32_307 k0_t71
  let c8_i32_316 : BitVec 32 := 8#32
  let v176 : BitVec 32 := Scalar.muli arg4 c8_i32_316
  let v177 : Index := Scalar.indexCast v176
  let c58 : Index := 58#32
  let c1 : Index := 1#32
  ![0, v177.toNat, 58, 1]
def k0_off142 (k0_t71 : Fin k0_t71_loop.trips) : Fin 4 → Nat :=
  let c0_319 : Index := 0#32
  let c0_i32_305 : BitVec 32 := 0#32
  let c1_i32_307 : BitVec 32 := 1#32
  let arg4 : BitVec 32 := Scf.iv c0_i32_305 c1_i32_307 k0_t71
  let c8_i32_318 : BitVec 32 := 8#32
  let v180 : BitVec 32 := Scalar.muli arg4 c8_i32_318
  let v181 : Index := Scalar.indexCast v180
  let c2 : Index := 2#32
  let c1_320 : Index := 1#32
  ![0, v181.toNat, 2, 1]
@[reducible] def k0_t72_loop : Scf.Loop 32 :=
  let c0_i32_309 : BitVec 32 := 0#32
  let c8_i32_310 : BitVec 32 := 8#32
  let v171 : BitVec 32 := Scalar.addi c0_i32_309 c8_i32_310
  let c1_i32_311 : BitVec 32 := 1#32
  ⟨c0_i32_309, v171, c1_i32_311⟩
def k0_off143 (k0_t72 : Fin k0_t72_loop.trips) : Fin 4 → Nat :=
  let c0_317 : Index := 0#32
  let c0_i32_309 : BitVec 32 := 0#32
  let c1_i32_311 : BitVec 32 := 1#32
  let arg4 : BitVec 32 := Scf.iv c0_i32_309 c1_i32_311 k0_t72
  let c8_i32_316 : BitVec 32 := 8#32
  let v176 : BitVec 32 := Scalar.muli arg4 c8_i32_316
  let v177 : Index := Scalar.indexCast v176
  let c58 : Index := 58#32
  let c2 : Index := 2#32
  ![0, v177.toNat, 58, 2]
def k0_off144 (k0_t72 : Fin k0_t72_loop.trips) : Fin 4 → Nat :=
  let c0_319 : Index := 0#32
  let c0_i32_309 : BitVec 32 := 0#32
  let c1_i32_311 : BitVec 32 := 1#32
  let arg4 : BitVec 32 := Scf.iv c0_i32_309 c1_i32_311 k0_t72
  let c8_i32_318 : BitVec 32 := 8#32
  let v180 : BitVec 32 := Scalar.muli arg4 c8_i32_318
  let v181 : Index := Scalar.indexCast v180
  let c2_320 : Index := 2#32
  let c2_321 : Index := 2#32
  ![0, v181.toNat, 2, 2]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x66x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x64x64x64_S8x64x66x66_000_000_110_110 : S8x64x64x64.Pads (![0, 0, 1, 1] : Fin 4 → Nat) ![0, 0, 1, 1] ![0, 0, 0, 0] S8x64x66x66
  h_S_ : 0 < S_.numel
  h_S1x8x8x64 : 0 < S1x8x8x64.numel
  shapeCasts_S1x8x8x64_S8x8x64 : S1x8x8x64.ShapeCasts S8x8x64
  h_S64x8x1x1 : 0 < S64x8x1x1.numel
  shapeCasts_S64x8x1x1_S64x8 : S64x8x1x1.ShapeCasts S64x8
  shapeCasts_S8x8x64_S1x8x8x64 : S8x8x64.ShapeCasts S1x8x8x64
  shapeCasts_S64x8_S64x8x1x1 : S64x8.ShapeCasts S64x8x1x1
  broadcasts_S1x8x8x64_S64x8x8x64 : S1x8x8x64.Broadcasts S64x8x8x64
  broadcasts_S64x8x1x1_S64x8x8x64 : S64x8x1x1.Broadcasts S64x8x8x64
  reduces_S64x8x8x64_S64x8x64 : S64x8x8x64.Reduces [1] S64x8x64
  inb_S1x64x64x64_S1x64x8x64_0_0_0_0 : ∀ a, (![0, 0, 0, 0] : Fin 4 → Nat) a + S1x64x8x64.size a ≤ S1x64x64x64.size a
  h_S1x64x8x64 : 0 < S1x64x8x64.numel
  shapeCasts_S1x64x8x64_S64x8x64 : S1x64x8x64.ShapeCasts S64x8x64
  shapeCasts_S64x8x64_S1x64x8x64 : S64x8x64.ShapeCasts S1x64x8x64
  inb_S1x64x64x64_S1x64x8x64_0_0_8_0 : ∀ a, (![0, 0, 8, 0] : Fin 4 → Nat) a + S1x64x8x64.size a ≤ S1x64x64x64.size a
  inb_S1x64x64x64_S1x64x8x64_0_0_16_0 : ∀ a, (![0, 0, 16, 0] : Fin 4 → Nat) a + S1x64x8x64.size a ≤ S1x64x64x64.size a
  inb_S1x64x64x64_S1x64x8x64_0_0_24_0 : ∀ a, (![0, 0, 24, 0] : Fin 4 → Nat) a + S1x64x8x64.size a ≤ S1x64x64x64.size a
  inb_S1x64x64x64_S1x64x8x64_0_0_32_0 : ∀ a, (![0, 0, 32, 0] : Fin 4 → Nat) a + S1x64x8x64.size a ≤ S1x64x64x64.size a
  inb_S1x64x64x64_S1x64x8x64_0_0_40_0 : ∀ a, (![0, 0, 40, 0] : Fin 4 → Nat) a + S1x64x8x64.size a ≤ S1x64x64x64.size a
  inb_S1x64x64x64_S1x64x8x64_0_0_48_0 : ∀ a, (![0, 0, 48, 0] : Fin 4 → Nat) a + S1x64x8x64.size a ≤ S1x64x64x64.size a
  inb_S1x64x64x64_S1x64x8x64_0_0_56_0 : ∀ a, (![0, 0, 56, 0] : Fin 4 → Nat) a + S1x64x8x64.size a ≤ S1x64x64x64.size a
  hrank0 : 0 < grid0.rank
  k0_t1_ok : k0_t1_loop.OK
  k0_off1_inb : ∀ k0_t1 : Fin k0_t1_loop.trips, ∀ a, (k0_off1 k0_t1) a + S1x8x8x64.size a ≤ S1x64x66x66.size a
  k0_off2_inb : ∀ k0_t1 : Fin k0_t1_loop.trips, ∀ a, (k0_off2 k0_t1) a + S64x8x1x1.size a ≤ S64x64x3x3.size a
  k0_t2_ok : k0_t2_loop.OK
  k0_off3_inb : ∀ k0_t2 : Fin k0_t2_loop.trips, ∀ a, (k0_off3 k0_t2) a + S1x8x8x64.size a ≤ S1x64x66x66.size a
  k0_off4_inb : ∀ k0_t2 : Fin k0_t2_loop.trips, ∀ a, (k0_off4 k0_t2) a + S64x8x1x1.size a ≤ S64x64x3x3.size a
  k0_t3_ok : k0_t3_loop.OK
  k0_off5_inb : ∀ k0_t3 : Fin k0_t3_loop.trips, ∀ a, (k0_off5 k0_t3) a + S1x8x8x64.size a ≤ S1x64x66x66.size a
  k0_off6_inb : ∀ k0_t3 : Fin k0_t3_loop.trips, ∀ a, (k0_off6 k0_t3) a + S64x8x1x1.size a ≤ S64x64x3x3.size a
  k0_t4_ok : k0_t4_loop.OK
  k0_off7_inb : ∀ k0_t4 : Fin k0_t4_loop.trips, ∀ a, (k0_off7 k0_t4) a + S1x8x8x64.size a ≤ S1x64x66x66.size a
  k0_off8_inb : ∀ k0_t4 : Fin k0_t4_loop.trips, ∀ a, (k0_off8 k0_t4) a + S64x8x1x1.size a ≤ S64x64x3x3.size a
  k0_t5_ok : k0_t5_loop.OK
  k0_off9_inb : ∀ k0_t5 : Fin k0_t5_loop.trips, ∀ a, (k0_off9 k0_t5) a + S1x8x8x64.size a ≤ S1x64x66x66.size a
  k0_off10_inb : ∀ k0_t5 : Fin k0_t5_loop.trips, ∀ a, (k0_off10 k0_t5) a + S64x8x1x1.size a ≤ S64x64x3x3.size a
  k0_t6_ok : k0_t6_loop.OK
  k0_off11_inb : ∀ k0_t6 : Fin k0_t6_loop.trips, ∀ a, (k0_off11 k0_t6) a + S1x8x8x64.size a ≤ S1x64x66x66.size a
  k0_off12_inb : ∀ k0_t6 : Fin k0_t6_loop.trips, ∀ a, (k0_off12 k0_t6) a + S64x8x1x1.size a ≤ S64x64x3x3.size a
  k0_t7_ok : k0_t7_loop.OK
  k0_off13_inb : ∀ k0_t7 : Fin k0_t7_loop.trips, ∀ a, (k0_off13 k0_t7) a + S1x8x8x64.size a ≤ S1x64x66x66.size a
  k0_off14_inb : ∀ k0_t7 : Fin k0_t7_loop.trips, ∀ a, (k0_off14 k0_t7) a + S64x8x1x1.size a ≤ S64x64x3x3.size a
  k0_t8_ok : k0_t8_loop.OK
  k0_off15_inb : ∀ k0_t8 : Fin k0_t8_loop.trips, ∀ a, (k0_off15 k0_t8) a + S1x8x8x64.size a ≤ S1x64x66x66.size a
  k0_off16_inb : ∀ k0_t8 : Fin k0_t8_loop.trips, ∀ a, (k0_off16 k0_t8) a + S64x8x1x1.size a ≤ S64x64x3x3.size a
  k0_t9_ok : k0_t9_loop.OK
  k0_off17_inb : ∀ k0_t9 : Fin k0_t9_loop.trips, ∀ a, (k0_off17 k0_t9) a + S1x8x8x64.size a ≤ S1x64x66x66.size a
  k0_off18_inb : ∀ k0_t9 : Fin k0_t9_loop.trips, ∀ a, (k0_off18 k0_t9) a + S64x8x1x1.size a ≤ S64x64x3x3.size a
  k0_t10_ok : k0_t10_loop.OK
  k0_off19_inb : ∀ k0_t10 : Fin k0_t10_loop.trips, ∀ a, (k0_off19 k0_t10) a + S1x8x8x64.size a ≤ S1x64x66x66.size a
  k0_off20_inb : ∀ k0_t10 : Fin k0_t10_loop.trips, ∀ a, (k0_off20 k0_t10) a + S64x8x1x1.size a ≤ S64x64x3x3.size a
  k0_t11_ok : k0_t11_loop.OK
  k0_off21_inb : ∀ k0_t11 : Fin k0_t11_loop.trips, ∀ a, (k0_off21 k0_t11) a + S1x8x8x64.size a ≤ S1x64x66x66.size a
  k0_off22_inb : ∀ k0_t11 : Fin k0_t11_loop.trips, ∀ a, (k0_off22 k0_t11) a + S64x8x1x1.size a ≤ S64x64x3x3.size a
  k0_t12_ok : k0_t12_loop.OK
  k0_off23_inb : ∀ k0_t12 : Fin k0_t12_loop.trips, ∀ a, (k0_off23 k0_t12) a + S1x8x8x64.size a ≤ S1x64x66x66.size a
  k0_off24_inb : ∀ k0_t12 : Fin k0_t12_loop.trips, ∀ a, (k0_off24 k0_t12) a + S64x8x1x1.size a ≤ S64x64x3x3.size a
  k0_t13_ok : k0_t13_loop.OK
  k0_off25_inb : ∀ k0_t13 : Fin k0_t13_loop.trips, ∀ a, (k0_off25 k0_t13) a + S1x8x8x64.size a ≤ S1x64x66x66.size a
  k0_off26_inb : ∀ k0_t13 : Fin k0_t13_loop.trips, ∀ a, (k0_off26 k0_t13) a + S64x8x1x1.size a ≤ S64x64x3x3.size a
  k0_t14_ok : k0_t14_loop.OK
  k0_off27_inb : ∀ k0_t14 : Fin k0_t14_loop.trips, ∀ a, (k0_off27 k0_t14) a + S1x8x8x64.size a ≤ S1x64x66x66.size a
  k0_off28_inb : ∀ k0_t14 : Fin k0_t14_loop.trips, ∀ a, (k0_off28 k0_t14) a + S64x8x1x1.size a ≤ S64x64x3x3.size a
  k0_t15_ok : k0_t15_loop.OK
  k0_off29_inb : ∀ k0_t15 : Fin k0_t15_loop.trips, ∀ a, (k0_off29 k0_t15) a + S1x8x8x64.size a ≤ S1x64x66x66.size a
  k0_off30_inb : ∀ k0_t15 : Fin k0_t15_loop.trips, ∀ a, (k0_off30 k0_t15) a + S64x8x1x1.size a ≤ S64x64x3x3.size a
  k0_t16_ok : k0_t16_loop.OK
  k0_off31_inb : ∀ k0_t16 : Fin k0_t16_loop.trips, ∀ a, (k0_off31 k0_t16) a + S1x8x8x64.size a ≤ S1x64x66x66.size a
  k0_off32_inb : ∀ k0_t16 : Fin k0_t16_loop.trips, ∀ a, (k0_off32 k0_t16) a + S64x8x1x1.size a ≤ S64x64x3x3.size a
  k0_t17_ok : k0_t17_loop.OK
  k0_off33_inb : ∀ k0_t17 : Fin k0_t17_loop.trips, ∀ a, (k0_off33 k0_t17) a + S1x8x8x64.size a ≤ S1x64x66x66.size a
  k0_off34_inb : ∀ k0_t17 : Fin k0_t17_loop.trips, ∀ a, (k0_off34 k0_t17) a + S64x8x1x1.size a ≤ S64x64x3x3.size a
  k0_t18_ok : k0_t18_loop.OK
  k0_off35_inb : ∀ k0_t18 : Fin k0_t18_loop.trips, ∀ a, (k0_off35 k0_t18) a + S1x8x8x64.size a ≤ S1x64x66x66.size a
  k0_off36_inb : ∀ k0_t18 : Fin k0_t18_loop.trips, ∀ a, (k0_off36 k0_t18) a + S64x8x1x1.size a ≤ S64x64x3x3.size a
  k0_t19_ok : k0_t19_loop.OK
  k0_off37_inb : ∀ k0_t19 : Fin k0_t19_loop.trips, ∀ a, (k0_off37 k0_t19) a + S1x8x8x64.size a ≤ S1x64x66x66.size a
  k0_off38_inb : ∀ k0_t19 : Fin k0_t19_loop.trips, ∀ a, (k0_off38 k0_t19) a + S64x8x1x1.size a ≤ S64x64x3x3.size a
  k0_t20_ok : k0_t20_loop.OK
  k0_off39_inb : ∀ k0_t20 : Fin k0_t20_loop.trips, ∀ a, (k0_off39 k0_t20) a + S1x8x8x64.size a ≤ S1x64x66x66.size a
  k0_off40_inb : ∀ k0_t20 : Fin k0_t20_loop.trips, ∀ a, (k0_off40 k0_t20) a + S64x8x1x1.size a ≤ S64x64x3x3.size a
  k0_t21_ok : k0_t21_loop.OK
  k0_off41_inb : ∀ k0_t21 : Fin k0_t21_loop.trips, ∀ a, (k0_off41 k0_t21) a + S1x8x8x64.size a ≤ S1x64x66x66.size a
  k0_off42_inb : ∀ k0_t21 : Fin k0_t21_loop.trips, ∀ a, (k0_off42 k0_t21) a + S64x8x1x1.size a ≤ S64x64x3x3.size a
  k0_t22_ok : k0_t22_loop.OK
  k0_off43_inb : ∀ k0_t22 : Fin k0_t22_loop.trips, ∀ a, (k0_off43 k0_t22) a + S1x8x8x64.size a ≤ S1x64x66x66.size a
  k0_off44_inb : ∀ k0_t22 : Fin k0_t22_loop.trips, ∀ a, (k0_off44 k0_t22) a + S64x8x1x1.size a ≤ S64x64x3x3.size a
  k0_t23_ok : k0_t23_loop.OK
  k0_off45_inb : ∀ k0_t23 : Fin k0_t23_loop.trips, ∀ a, (k0_off45 k0_t23) a + S1x8x8x64.size a ≤ S1x64x66x66.size a
  k0_off46_inb : ∀ k0_t23 : Fin k0_t23_loop.trips, ∀ a, (k0_off46 k0_t23) a + S64x8x1x1.size a ≤ S64x64x3x3.size a
  k0_t24_ok : k0_t24_loop.OK
  k0_off47_inb : ∀ k0_t24 : Fin k0_t24_loop.trips, ∀ a, (k0_off47 k0_t24) a + S1x8x8x64.size a ≤ S1x64x66x66.size a
  k0_off48_inb : ∀ k0_t24 : Fin k0_t24_loop.trips, ∀ a, (k0_off48 k0_t24) a + S64x8x1x1.size a ≤ S64x64x3x3.size a
  k0_t25_ok : k0_t25_loop.OK
  k0_off49_inb : ∀ k0_t25 : Fin k0_t25_loop.trips, ∀ a, (k0_off49 k0_t25) a + S1x8x8x64.size a ≤ S1x64x66x66.size a
  k0_off50_inb : ∀ k0_t25 : Fin k0_t25_loop.trips, ∀ a, (k0_off50 k0_t25) a + S64x8x1x1.size a ≤ S64x64x3x3.size a
  k0_t26_ok : k0_t26_loop.OK
  k0_off51_inb : ∀ k0_t26 : Fin k0_t26_loop.trips, ∀ a, (k0_off51 k0_t26) a + S1x8x8x64.size a ≤ S1x64x66x66.size a
  k0_off52_inb : ∀ k0_t26 : Fin k0_t26_loop.trips, ∀ a, (k0_off52 k0_t26) a + S64x8x1x1.size a ≤ S64x64x3x3.size a
  k0_t27_ok : k0_t27_loop.OK
  k0_off53_inb : ∀ k0_t27 : Fin k0_t27_loop.trips, ∀ a, (k0_off53 k0_t27) a + S1x8x8x64.size a ≤ S1x64x66x66.size a
  k0_off54_inb : ∀ k0_t27 : Fin k0_t27_loop.trips, ∀ a, (k0_off54 k0_t27) a + S64x8x1x1.size a ≤ S64x64x3x3.size a
  k0_t28_ok : k0_t28_loop.OK
  k0_off55_inb : ∀ k0_t28 : Fin k0_t28_loop.trips, ∀ a, (k0_off55 k0_t28) a + S1x8x8x64.size a ≤ S1x64x66x66.size a
  k0_off56_inb : ∀ k0_t28 : Fin k0_t28_loop.trips, ∀ a, (k0_off56 k0_t28) a + S64x8x1x1.size a ≤ S64x64x3x3.size a
  k0_t29_ok : k0_t29_loop.OK
  k0_off57_inb : ∀ k0_t29 : Fin k0_t29_loop.trips, ∀ a, (k0_off57 k0_t29) a + S1x8x8x64.size a ≤ S1x64x66x66.size a
  k0_off58_inb : ∀ k0_t29 : Fin k0_t29_loop.trips, ∀ a, (k0_off58 k0_t29) a + S64x8x1x1.size a ≤ S64x64x3x3.size a
  k0_t30_ok : k0_t30_loop.OK
  k0_off59_inb : ∀ k0_t30 : Fin k0_t30_loop.trips, ∀ a, (k0_off59 k0_t30) a + S1x8x8x64.size a ≤ S1x64x66x66.size a
  k0_off60_inb : ∀ k0_t30 : Fin k0_t30_loop.trips, ∀ a, (k0_off60 k0_t30) a + S64x8x1x1.size a ≤ S64x64x3x3.size a
  k0_t31_ok : k0_t31_loop.OK
  k0_off61_inb : ∀ k0_t31 : Fin k0_t31_loop.trips, ∀ a, (k0_off61 k0_t31) a + S1x8x8x64.size a ≤ S1x64x66x66.size a
  k0_off62_inb : ∀ k0_t31 : Fin k0_t31_loop.trips, ∀ a, (k0_off62 k0_t31) a + S64x8x1x1.size a ≤ S64x64x3x3.size a
  k0_t32_ok : k0_t32_loop.OK
  k0_off63_inb : ∀ k0_t32 : Fin k0_t32_loop.trips, ∀ a, (k0_off63 k0_t32) a + S1x8x8x64.size a ≤ S1x64x66x66.size a
  k0_off64_inb : ∀ k0_t32 : Fin k0_t32_loop.trips, ∀ a, (k0_off64 k0_t32) a + S64x8x1x1.size a ≤ S64x64x3x3.size a
  k0_t33_ok : k0_t33_loop.OK
  k0_off65_inb : ∀ k0_t33 : Fin k0_t33_loop.trips, ∀ a, (k0_off65 k0_t33) a + S1x8x8x64.size a ≤ S1x64x66x66.size a
  k0_off66_inb : ∀ k0_t33 : Fin k0_t33_loop.trips, ∀ a, (k0_off66 k0_t33) a + S64x8x1x1.size a ≤ S64x64x3x3.size a
  k0_t34_ok : k0_t34_loop.OK
  k0_off67_inb : ∀ k0_t34 : Fin k0_t34_loop.trips, ∀ a, (k0_off67 k0_t34) a + S1x8x8x64.size a ≤ S1x64x66x66.size a
  k0_off68_inb : ∀ k0_t34 : Fin k0_t34_loop.trips, ∀ a, (k0_off68 k0_t34) a + S64x8x1x1.size a ≤ S64x64x3x3.size a
  k0_t35_ok : k0_t35_loop.OK
  k0_off69_inb : ∀ k0_t35 : Fin k0_t35_loop.trips, ∀ a, (k0_off69 k0_t35) a + S1x8x8x64.size a ≤ S1x64x66x66.size a
  k0_off70_inb : ∀ k0_t35 : Fin k0_t35_loop.trips, ∀ a, (k0_off70 k0_t35) a + S64x8x1x1.size a ≤ S64x64x3x3.size a
  k0_t36_ok : k0_t36_loop.OK
  k0_off71_inb : ∀ k0_t36 : Fin k0_t36_loop.trips, ∀ a, (k0_off71 k0_t36) a + S1x8x8x64.size a ≤ S1x64x66x66.size a
  k0_off72_inb : ∀ k0_t36 : Fin k0_t36_loop.trips, ∀ a, (k0_off72 k0_t36) a + S64x8x1x1.size a ≤ S64x64x3x3.size a
  k0_t37_ok : k0_t37_loop.OK
  k0_off73_inb : ∀ k0_t37 : Fin k0_t37_loop.trips, ∀ a, (k0_off73 k0_t37) a + S1x8x8x64.size a ≤ S1x64x66x66.size a
  k0_off74_inb : ∀ k0_t37 : Fin k0_t37_loop.trips, ∀ a, (k0_off74 k0_t37) a + S64x8x1x1.size a ≤ S64x64x3x3.size a
  k0_t38_ok : k0_t38_loop.OK
  k0_off75_inb : ∀ k0_t38 : Fin k0_t38_loop.trips, ∀ a, (k0_off75 k0_t38) a + S1x8x8x64.size a ≤ S1x64x66x66.size a
  k0_off76_inb : ∀ k0_t38 : Fin k0_t38_loop.trips, ∀ a, (k0_off76 k0_t38) a + S64x8x1x1.size a ≤ S64x64x3x3.size a
  k0_t39_ok : k0_t39_loop.OK
  k0_off77_inb : ∀ k0_t39 : Fin k0_t39_loop.trips, ∀ a, (k0_off77 k0_t39) a + S1x8x8x64.size a ≤ S1x64x66x66.size a
  k0_off78_inb : ∀ k0_t39 : Fin k0_t39_loop.trips, ∀ a, (k0_off78 k0_t39) a + S64x8x1x1.size a ≤ S64x64x3x3.size a
  k0_t40_ok : k0_t40_loop.OK
  k0_off79_inb : ∀ k0_t40 : Fin k0_t40_loop.trips, ∀ a, (k0_off79 k0_t40) a + S1x8x8x64.size a ≤ S1x64x66x66.size a
  k0_off80_inb : ∀ k0_t40 : Fin k0_t40_loop.trips, ∀ a, (k0_off80 k0_t40) a + S64x8x1x1.size a ≤ S64x64x3x3.size a
  k0_t41_ok : k0_t41_loop.OK
  k0_off81_inb : ∀ k0_t41 : Fin k0_t41_loop.trips, ∀ a, (k0_off81 k0_t41) a + S1x8x8x64.size a ≤ S1x64x66x66.size a
  k0_off82_inb : ∀ k0_t41 : Fin k0_t41_loop.trips, ∀ a, (k0_off82 k0_t41) a + S64x8x1x1.size a ≤ S64x64x3x3.size a
  k0_t42_ok : k0_t42_loop.OK
  k0_off83_inb : ∀ k0_t42 : Fin k0_t42_loop.trips, ∀ a, (k0_off83 k0_t42) a + S1x8x8x64.size a ≤ S1x64x66x66.size a
  k0_off84_inb : ∀ k0_t42 : Fin k0_t42_loop.trips, ∀ a, (k0_off84 k0_t42) a + S64x8x1x1.size a ≤ S64x64x3x3.size a
  k0_t43_ok : k0_t43_loop.OK
  k0_off85_inb : ∀ k0_t43 : Fin k0_t43_loop.trips, ∀ a, (k0_off85 k0_t43) a + S1x8x8x64.size a ≤ S1x64x66x66.size a
  k0_off86_inb : ∀ k0_t43 : Fin k0_t43_loop.trips, ∀ a, (k0_off86 k0_t43) a + S64x8x1x1.size a ≤ S64x64x3x3.size a
  k0_t44_ok : k0_t44_loop.OK
  k0_off87_inb : ∀ k0_t44 : Fin k0_t44_loop.trips, ∀ a, (k0_off87 k0_t44) a + S1x8x8x64.size a ≤ S1x64x66x66.size a
  k0_off88_inb : ∀ k0_t44 : Fin k0_t44_loop.trips, ∀ a, (k0_off88 k0_t44) a + S64x8x1x1.size a ≤ S64x64x3x3.size a
  k0_t45_ok : k0_t45_loop.OK
  k0_off89_inb : ∀ k0_t45 : Fin k0_t45_loop.trips, ∀ a, (k0_off89 k0_t45) a + S1x8x8x64.size a ≤ S1x64x66x66.size a
  k0_off90_inb : ∀ k0_t45 : Fin k0_t45_loop.trips, ∀ a, (k0_off90 k0_t45) a + S64x8x1x1.size a ≤ S64x64x3x3.size a
  k0_t46_ok : k0_t46_loop.OK
  k0_off91_inb : ∀ k0_t46 : Fin k0_t46_loop.trips, ∀ a, (k0_off91 k0_t46) a + S1x8x8x64.size a ≤ S1x64x66x66.size a
  k0_off92_inb : ∀ k0_t46 : Fin k0_t46_loop.trips, ∀ a, (k0_off92 k0_t46) a + S64x8x1x1.size a ≤ S64x64x3x3.size a
  k0_t47_ok : k0_t47_loop.OK
  k0_off93_inb : ∀ k0_t47 : Fin k0_t47_loop.trips, ∀ a, (k0_off93 k0_t47) a + S1x8x8x64.size a ≤ S1x64x66x66.size a
  k0_off94_inb : ∀ k0_t47 : Fin k0_t47_loop.trips, ∀ a, (k0_off94 k0_t47) a + S64x8x1x1.size a ≤ S64x64x3x3.size a
  k0_t48_ok : k0_t48_loop.OK
  k0_off95_inb : ∀ k0_t48 : Fin k0_t48_loop.trips, ∀ a, (k0_off95 k0_t48) a + S1x8x8x64.size a ≤ S1x64x66x66.size a
  k0_off96_inb : ∀ k0_t48 : Fin k0_t48_loop.trips, ∀ a, (k0_off96 k0_t48) a + S64x8x1x1.size a ≤ S64x64x3x3.size a
  k0_t49_ok : k0_t49_loop.OK
  k0_off97_inb : ∀ k0_t49 : Fin k0_t49_loop.trips, ∀ a, (k0_off97 k0_t49) a + S1x8x8x64.size a ≤ S1x64x66x66.size a
  k0_off98_inb : ∀ k0_t49 : Fin k0_t49_loop.trips, ∀ a, (k0_off98 k0_t49) a + S64x8x1x1.size a ≤ S64x64x3x3.size a
  k0_t50_ok : k0_t50_loop.OK
  k0_off99_inb : ∀ k0_t50 : Fin k0_t50_loop.trips, ∀ a, (k0_off99 k0_t50) a + S1x8x8x64.size a ≤ S1x64x66x66.size a
  k0_off100_inb : ∀ k0_t50 : Fin k0_t50_loop.trips, ∀ a, (k0_off100 k0_t50) a + S64x8x1x1.size a ≤ S64x64x3x3.size a
  k0_t51_ok : k0_t51_loop.OK
  k0_off101_inb : ∀ k0_t51 : Fin k0_t51_loop.trips, ∀ a, (k0_off101 k0_t51) a + S1x8x8x64.size a ≤ S1x64x66x66.size a
  k0_off102_inb : ∀ k0_t51 : Fin k0_t51_loop.trips, ∀ a, (k0_off102 k0_t51) a + S64x8x1x1.size a ≤ S64x64x3x3.size a
  k0_t52_ok : k0_t52_loop.OK
  k0_off103_inb : ∀ k0_t52 : Fin k0_t52_loop.trips, ∀ a, (k0_off103 k0_t52) a + S1x8x8x64.size a ≤ S1x64x66x66.size a
  k0_off104_inb : ∀ k0_t52 : Fin k0_t52_loop.trips, ∀ a, (k0_off104 k0_t52) a + S64x8x1x1.size a ≤ S64x64x3x3.size a
  k0_t53_ok : k0_t53_loop.OK
  k0_off105_inb : ∀ k0_t53 : Fin k0_t53_loop.trips, ∀ a, (k0_off105 k0_t53) a + S1x8x8x64.size a ≤ S1x64x66x66.size a
  k0_off106_inb : ∀ k0_t53 : Fin k0_t53_loop.trips, ∀ a, (k0_off106 k0_t53) a + S64x8x1x1.size a ≤ S64x64x3x3.size a
  k0_t54_ok : k0_t54_loop.OK
  k0_off107_inb : ∀ k0_t54 : Fin k0_t54_loop.trips, ∀ a, (k0_off107 k0_t54) a + S1x8x8x64.size a ≤ S1x64x66x66.size a
  k0_off108_inb : ∀ k0_t54 : Fin k0_t54_loop.trips, ∀ a, (k0_off108 k0_t54) a + S64x8x1x1.size a ≤ S64x64x3x3.size a
  k0_t55_ok : k0_t55_loop.OK
  k0_off109_inb : ∀ k0_t55 : Fin k0_t55_loop.trips, ∀ a, (k0_off109 k0_t55) a + S1x8x8x64.size a ≤ S1x64x66x66.size a
  k0_off110_inb : ∀ k0_t55 : Fin k0_t55_loop.trips, ∀ a, (k0_off110 k0_t55) a + S64x8x1x1.size a ≤ S64x64x3x3.size a
  k0_t56_ok : k0_t56_loop.OK
  k0_off111_inb : ∀ k0_t56 : Fin k0_t56_loop.trips, ∀ a, (k0_off111 k0_t56) a + S1x8x8x64.size a ≤ S1x64x66x66.size a
  k0_off112_inb : ∀ k0_t56 : Fin k0_t56_loop.trips, ∀ a, (k0_off112 k0_t56) a + S64x8x1x1.size a ≤ S64x64x3x3.size a
  k0_t57_ok : k0_t57_loop.OK
  k0_off113_inb : ∀ k0_t57 : Fin k0_t57_loop.trips, ∀ a, (k0_off113 k0_t57) a + S1x8x8x64.size a ≤ S1x64x66x66.size a
  k0_off114_inb : ∀ k0_t57 : Fin k0_t57_loop.trips, ∀ a, (k0_off114 k0_t57) a + S64x8x1x1.size a ≤ S64x64x3x3.size a
  k0_t58_ok : k0_t58_loop.OK
  k0_off115_inb : ∀ k0_t58 : Fin k0_t58_loop.trips, ∀ a, (k0_off115 k0_t58) a + S1x8x8x64.size a ≤ S1x64x66x66.size a
  k0_off116_inb : ∀ k0_t58 : Fin k0_t58_loop.trips, ∀ a, (k0_off116 k0_t58) a + S64x8x1x1.size a ≤ S64x64x3x3.size a
  k0_t59_ok : k0_t59_loop.OK
  k0_off117_inb : ∀ k0_t59 : Fin k0_t59_loop.trips, ∀ a, (k0_off117 k0_t59) a + S1x8x8x64.size a ≤ S1x64x66x66.size a
  k0_off118_inb : ∀ k0_t59 : Fin k0_t59_loop.trips, ∀ a, (k0_off118 k0_t59) a + S64x8x1x1.size a ≤ S64x64x3x3.size a
  k0_t60_ok : k0_t60_loop.OK
  k0_off119_inb : ∀ k0_t60 : Fin k0_t60_loop.trips, ∀ a, (k0_off119 k0_t60) a + S1x8x8x64.size a ≤ S1x64x66x66.size a
  k0_off120_inb : ∀ k0_t60 : Fin k0_t60_loop.trips, ∀ a, (k0_off120 k0_t60) a + S64x8x1x1.size a ≤ S64x64x3x3.size a
  k0_t61_ok : k0_t61_loop.OK
  k0_off121_inb : ∀ k0_t61 : Fin k0_t61_loop.trips, ∀ a, (k0_off121 k0_t61) a + S1x8x8x64.size a ≤ S1x64x66x66.size a
  k0_off122_inb : ∀ k0_t61 : Fin k0_t61_loop.trips, ∀ a, (k0_off122 k0_t61) a + S64x8x1x1.size a ≤ S64x64x3x3.size a
  k0_t62_ok : k0_t62_loop.OK
  k0_off123_inb : ∀ k0_t62 : Fin k0_t62_loop.trips, ∀ a, (k0_off123 k0_t62) a + S1x8x8x64.size a ≤ S1x64x66x66.size a
  k0_off124_inb : ∀ k0_t62 : Fin k0_t62_loop.trips, ∀ a, (k0_off124 k0_t62) a + S64x8x1x1.size a ≤ S64x64x3x3.size a
  k0_t63_ok : k0_t63_loop.OK
  k0_off125_inb : ∀ k0_t63 : Fin k0_t63_loop.trips, ∀ a, (k0_off125 k0_t63) a + S1x8x8x64.size a ≤ S1x64x66x66.size a
  k0_off126_inb : ∀ k0_t63 : Fin k0_t63_loop.trips, ∀ a, (k0_off126 k0_t63) a + S64x8x1x1.size a ≤ S64x64x3x3.size a
  k0_t64_ok : k0_t64_loop.OK
  k0_off127_inb : ∀ k0_t64 : Fin k0_t64_loop.trips, ∀ a, (k0_off127 k0_t64) a + S1x8x8x64.size a ≤ S1x64x66x66.size a
  k0_off128_inb : ∀ k0_t64 : Fin k0_t64_loop.trips, ∀ a, (k0_off128 k0_t64) a + S64x8x1x1.size a ≤ S64x64x3x3.size a
  k0_t65_ok : k0_t65_loop.OK
  k0_off129_inb : ∀ k0_t65 : Fin k0_t65_loop.trips, ∀ a, (k0_off129 k0_t65) a + S1x8x8x64.size a ≤ S1x64x66x66.size a
  k0_off130_inb : ∀ k0_t65 : Fin k0_t65_loop.trips, ∀ a, (k0_off130 k0_t65) a + S64x8x1x1.size a ≤ S64x64x3x3.size a
  k0_t66_ok : k0_t66_loop.OK
  k0_off131_inb : ∀ k0_t66 : Fin k0_t66_loop.trips, ∀ a, (k0_off131 k0_t66) a + S1x8x8x64.size a ≤ S1x64x66x66.size a
  k0_off132_inb : ∀ k0_t66 : Fin k0_t66_loop.trips, ∀ a, (k0_off132 k0_t66) a + S64x8x1x1.size a ≤ S64x64x3x3.size a
  k0_t67_ok : k0_t67_loop.OK
  k0_off133_inb : ∀ k0_t67 : Fin k0_t67_loop.trips, ∀ a, (k0_off133 k0_t67) a + S1x8x8x64.size a ≤ S1x64x66x66.size a
  k0_off134_inb : ∀ k0_t67 : Fin k0_t67_loop.trips, ∀ a, (k0_off134 k0_t67) a + S64x8x1x1.size a ≤ S64x64x3x3.size a
  k0_t68_ok : k0_t68_loop.OK
  k0_off135_inb : ∀ k0_t68 : Fin k0_t68_loop.trips, ∀ a, (k0_off135 k0_t68) a + S1x8x8x64.size a ≤ S1x64x66x66.size a
  k0_off136_inb : ∀ k0_t68 : Fin k0_t68_loop.trips, ∀ a, (k0_off136 k0_t68) a + S64x8x1x1.size a ≤ S64x64x3x3.size a
  k0_t69_ok : k0_t69_loop.OK
  k0_off137_inb : ∀ k0_t69 : Fin k0_t69_loop.trips, ∀ a, (k0_off137 k0_t69) a + S1x8x8x64.size a ≤ S1x64x66x66.size a
  k0_off138_inb : ∀ k0_t69 : Fin k0_t69_loop.trips, ∀ a, (k0_off138 k0_t69) a + S64x8x1x1.size a ≤ S64x64x3x3.size a
  k0_t70_ok : k0_t70_loop.OK
  k0_off139_inb : ∀ k0_t70 : Fin k0_t70_loop.trips, ∀ a, (k0_off139 k0_t70) a + S1x8x8x64.size a ≤ S1x64x66x66.size a
  k0_off140_inb : ∀ k0_t70 : Fin k0_t70_loop.trips, ∀ a, (k0_off140 k0_t70) a + S64x8x1x1.size a ≤ S64x64x3x3.size a
  k0_t71_ok : k0_t71_loop.OK
  k0_off141_inb : ∀ k0_t71 : Fin k0_t71_loop.trips, ∀ a, (k0_off141 k0_t71) a + S1x8x8x64.size a ≤ S1x64x66x66.size a
  k0_off142_inb : ∀ k0_t71 : Fin k0_t71_loop.trips, ∀ a, (k0_off142 k0_t71) a + S64x8x1x1.size a ≤ S64x64x3x3.size a
  k0_t72_ok : k0_t72_loop.OK
  k0_off143_inb : ∀ k0_t72 : Fin k0_t72_loop.trips, ∀ a, (k0_off143 k0_t72) a + S1x8x8x64.size a ≤ S1x64x66x66.size a
  k0_off144_inb : ∀ k0_t72 : Fin k0_t72_loop.trips, ∀ a, (k0_off144 k0_t72) a + S64x8x1x1.size a ≤ S64x64x3x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x66x66.size a ≤ S8x64x66x66.size a
  hwx0_0 : ∀ i : grid0.Coords, EltTy.bits .f32 = 32 ∨ (Rect.block (s := S8x64x66x66) S1x64x66x66.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64x3x3.size a ≤ S64x64x3x3.size a
  hwx0_1 : ∀ i : grid0.Coords, EltTy.bits .f32 = 32 ∨ (Rect.block (s := S64x64x3x3) S64x64x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x64.size a ≤ S8x64x64x64.size a
  hwx0_2 : ∀ i : grid0.Coords, EltTy.bits .f32 = 32 ∨ (Rect.block (s := S8x64x64x64) S1x64x64x64.size (cc0_transform_2 i) (hinb0_2 i)).WholeWords (EltTy.packing .f32)

variable [Facts₀]

abbrev win0_0 : Pipeline.Window sig grid0 :=
  Pipeline.Window.ofSpec (Memref.whole main_v0) S1x64x66x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x64x64 : Shape := ⟨4, ![8, 64, 64, 64]⟩
abbrev S64x64x3x3 : Shape := ⟨4, ![64, 64, 3, 3]⟩
abbrev S_ : Shape := ⟨0, ![]⟩
abbrev S8x64x66x66 : Shape := ⟨4, ![8, 64, 66, 66]⟩
abbrev S8x1x64x64x64 : Shape := ⟨5, ![8, 1, 64, 64, 64]⟩
abbrev S64x64x1x1 : Shape := ⟨4, ![64, 64, 1, 1]⟩
abbrev S64x64 : Shape := ⟨2, ![64, 64]⟩
abbrev S1x64x64 : Shape := ⟨3, ![1, 64, 64]⟩
abbrev S1x64x64x1x1 : Shape := ⟨5, ![1, 64, 64, 1, 1]⟩
abbrev S8x64x64x64x64 : Shape := ⟨5, ![8, 64, 64, 64, 64]⟩

abbrev nBuf : Space → Nat
  | .hbm => 115
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S8x64x66x66, .f32⟩
  | .hbm, ⟨5, _⟩ => ⟨S_, .f32⟩
  | .hbm, ⟨6, _⟩ => ⟨S8x64x64x64, .f32⟩
  | .hbm, ⟨7, _⟩ => ⟨S8x64x64x64, .f32⟩
  | .hbm, ⟨8, _⟩ => ⟨S8x1x64x64x64, .f32⟩
  | .hbm, ⟨9, _⟩ => ⟨S64x64x1x1, .f32⟩
  | .hbm, ⟨10, _⟩ => ⟨S64x64, .f32⟩
  | .hbm, ⟨11, _⟩ => ⟨S1x64x64, .f32⟩
  | .hbm, ⟨12, _⟩ => ⟨S1x64x64x1x1, .f32⟩
  | .hbm, ⟨13, _⟩ => ⟨S8x64x64x64x64, .f32⟩
  | .hbm, ⟨14, _⟩ => ⟨S8x64x64x64x64, .f32⟩
  | .hbm, ⟨15, _⟩ => ⟨S8x64x64x64x64, .f32⟩
  | .hbm, ⟨16, _⟩ => ⟨S_, .f32⟩
  | .hbm, ⟨17, _⟩ => ⟨S8x64x64x64, .f32⟩
  | .hbm, ⟨18, _⟩ => ⟨S8x64x64x64, .f32⟩
  | .hbm, ⟨19, _⟩ => ⟨S8x64x64x64, .f32⟩
  | .hbm, ⟨20, _⟩ => ⟨S8x1x64x64x64, .f32⟩
  | .hbm, ⟨21, _⟩ => ⟨S64x64x1x1, .f32⟩
  | .hbm, ⟨22, _⟩ => ⟨S64x64, .f32⟩
  | .hbm, ⟨23, _⟩ => ⟨S1x64x64, .f32⟩
  | .hbm, ⟨24, _⟩ => ⟨S1x64x64x1x1, .f32⟩
  | .hbm, ⟨25, _⟩ => ⟨S8x64x64x64x64, .f32⟩
  | .hbm, ⟨26, _⟩ => ⟨S8x64x64x64x64, .f32⟩
  | .hbm, ⟨27, _⟩ => ⟨S8x64x64x64x64, .f32⟩
  | .hbm, ⟨28, _⟩ => ⟨S_, .f32⟩
  | .hbm, ⟨29, _⟩ => ⟨S8x64x64x64, .f32⟩
  | .hbm, ⟨30, _⟩ => ⟨S8x64x64x64, .f32⟩
  | .hbm, ⟨31, _⟩ => ⟨S8x64x64x64, .f32⟩
  | .hbm, ⟨32, _⟩ => ⟨S8x1x64x64x64, .f32⟩
  | .hbm, ⟨33, _⟩ => ⟨S64x64x1x1, .f32⟩
  | .hbm, ⟨34, _⟩ => ⟨S64x64, .f32⟩
  | .hbm, ⟨35, _⟩ => ⟨S1x64x64, .f32⟩
  | .hbm, ⟨36, _⟩ => ⟨S1x64x64x1x1, .f32⟩
  | .hbm, ⟨37, _⟩ => ⟨S8x64x64x64x64, .f32⟩
  | .hbm, ⟨38, _⟩ => ⟨S8x64x64x64x64, .f32⟩
  | .hbm, ⟨39, _⟩ => ⟨S8x64x64x64x64, .f32⟩
  | .hbm, ⟨40, _⟩ => ⟨S_, .f32⟩
  | .hbm, ⟨41, _⟩ => ⟨S8x64x64x64, .f32⟩
  | .hbm, ⟨42, _⟩ => ⟨S8x64x64x64, .f32⟩
  | .hbm, ⟨43, _⟩ => ⟨S8x64x64x64, .f32⟩
  | .hbm, ⟨44, _⟩ => ⟨S8x1x64x64x64, .f32⟩
  | .hbm, ⟨45, _⟩ => ⟨S64x64x1x1, .f32⟩
  | .hbm, ⟨46, _⟩ => ⟨S64x64, .f32⟩
  | .hbm, ⟨47, _⟩ => ⟨S1x64x64, .f32⟩
  | .hbm, ⟨48, _⟩ => ⟨S1x64x64x1x1, .f32⟩
  | .hbm, ⟨49, _⟩ => ⟨S8x64x64x64x64, .f32⟩
  | .hbm, ⟨50, _⟩ => ⟨S8x64x64x64x64, .f32⟩
  | .hbm, ⟨51, _⟩ => ⟨S8x64x64x64x64, .f32⟩
  | .hbm, ⟨52, _⟩ => ⟨S_, .f32⟩
  | .hbm, ⟨53, _⟩ => ⟨S8x64x64x64, .f32⟩
  | .hbm, ⟨54, _⟩ => ⟨S8x64x64x64, .f32⟩
  | .hbm, ⟨55, _⟩ => ⟨S8x64x64x64, .f32⟩
  | .hbm, ⟨56, _⟩ => ⟨S8x1x64x64x64, .f32⟩
  | .hbm, ⟨57, _⟩ => ⟨S64x64x1x1, .f32⟩
  | .hbm, ⟨58, _⟩ => ⟨S64x64, .f32⟩
  | .hbm, ⟨59, _⟩ => ⟨S1x64x64, .f32⟩
  | .hbm, ⟨60, _⟩ => ⟨S1x64x64x1x1, .f32⟩
  | .hbm, ⟨61, _⟩ => ⟨S8x64x64x64x64, .f32⟩
  | .hbm, ⟨62, _⟩ => ⟨S8x64x64x64x64, .f32⟩
  | .hbm, ⟨63, _⟩ => ⟨S8x64x64x64x64, .f32⟩
  | .hbm, ⟨64, _⟩ => ⟨S_, .f32⟩
  | .hbm, ⟨65, _⟩ => ⟨S8x64x64x64, .f32⟩
  | .hbm, ⟨66, _⟩ => ⟨S8x64x64x64, .f32⟩
  | .hbm, ⟨67, _⟩ => ⟨S8x64x64x64, .f32⟩
  | .hbm, ⟨68, _⟩ => ⟨S8x1x64x64x64, .f32⟩
  | .hbm, ⟨69, _⟩ => ⟨S64x64x1x1, .f32⟩
  | .hbm, ⟨70, _⟩ => ⟨S64x64, .f32⟩
  | .hbm, ⟨71, _⟩ => ⟨S1x64x64, .f32⟩
  | .hbm, ⟨72, _⟩ => ⟨S1x64x64x1x1, .f32⟩
  | .hbm, ⟨73, _⟩ => ⟨S8x64x64x64x64, .f32⟩
  | .hbm, ⟨74, _⟩ => ⟨S8x64x64x64x64, .f32⟩
  | .hbm, ⟨75, _⟩ => ⟨S8x64x64x64x64, .f32⟩
  | .hbm, ⟨76, _⟩ => ⟨S_, .f32⟩
  | .hbm, ⟨77, _⟩ => ⟨S8x64x64x64, .f32⟩
  | .hbm, ⟨78, _⟩ => ⟨S8x64x64x64, .f32⟩
  | .hbm, ⟨79, _⟩ => ⟨S8x64x64x64, .f32⟩
  | .hbm, ⟨80, _⟩ => ⟨S8x1x64x64x64, .f32⟩
  | .hbm, ⟨81, _⟩ => ⟨S64x64x1x1, .f32⟩
  | .hbm, ⟨82, _⟩ => ⟨S64x64, .f32⟩
  | .hbm, ⟨83, _⟩ => ⟨S1x64x64, .f32⟩
  | .hbm, ⟨84, _⟩ => ⟨S1x64x64x1x1, .f32⟩
  | .hbm, ⟨85, _⟩ => ⟨S8x64x64x64x64, .f32⟩
  | .hbm, ⟨86, _⟩ => ⟨S8x64x64x64x64, .f32⟩
  | .hbm, ⟨87, _⟩ => ⟨S8x64x64x64x64, .f32⟩
  | .hbm, ⟨88, _⟩ => ⟨S_, .f32⟩
  | .hbm, ⟨89, _⟩ => ⟨S8x64x64x64, .f32⟩
  | .hbm, ⟨90, _⟩ => ⟨S8x64x64x64, .f32⟩
  | .hbm, ⟨91, _⟩ => ⟨S8x64x64x64, .f32⟩
  | .hbm, ⟨92, _⟩ => ⟨S8x1x64x64x64, .f32⟩
  | .hbm, ⟨93, _⟩ => ⟨S64x64x1x1, .f32⟩
  | .hbm, ⟨94, _⟩ => ⟨S64x64, .f32⟩
  | .hbm, ⟨95, _⟩ => ⟨S1x64x64, .f32⟩
  | .hbm, ⟨96, _⟩ => ⟨S1x64x64x1x1, .f32⟩
  | .hbm, ⟨97, _⟩ => ⟨S8x64x64x64x64, .f32⟩
  | .hbm, ⟨98, _⟩ => ⟨S8x64x64x64x64, .f32⟩
  | .hbm, ⟨99, _⟩ => ⟨S8x64x64x64x64, .f32⟩
  | .hbm, ⟨100, _⟩ => ⟨S_, .f32⟩
  | .hbm, ⟨101, _⟩ => ⟨S8x64x64x64, .f32⟩
  | .hbm, ⟨102, _⟩ => ⟨S8x64x64x64, .f32⟩
  | .hbm, ⟨103, _⟩ => ⟨S8x64x64x64, .f32⟩
  | .hbm, ⟨104, _⟩ => ⟨S8x1x64x64x64, .f32⟩
  | .hbm, ⟨105, _⟩ => ⟨S64x64x1x1, .f32⟩
  | .hbm, ⟨106, _⟩ => ⟨S64x64, .f32⟩
  | .hbm, ⟨107, _⟩ => ⟨S1x64x64, .f32⟩
  | .hbm, ⟨108, _⟩ => ⟨S1x64x64x1x1, .f32⟩
  | .hbm, ⟨109, _⟩ => ⟨S8x64x64x64x64, .f32⟩
  | .hbm, ⟨110, _⟩ => ⟨S8x64x64x64x64, .f32⟩
  | .hbm, ⟨111, _⟩ => ⟨S8x64x64x64x64, .f32⟩
  | .hbm, ⟨112, _⟩ => ⟨S_, .f32⟩
  | .hbm, ⟨113, _⟩ => ⟨S8x64x64x64, .f32⟩
  | .hbm, ⟨114, _⟩ => ⟨S8x64x64x64, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_6 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_cst_7 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_9 : Ref sig .tc := ⟨.hbm, 112, rfl⟩
abbrev main_v99 : Ref sig .tc := ⟨.hbm, 113, rfl⟩
abbrev main_v100 : Ref sig .tc := ⟨.hbm, 114, rfl⟩

abbrev nD : Nat := 1
abbrev τ : Topo := Topo.v7x

variable {F : FTy → Type} [FloatOps F]

class Facts₀ : Prop where
  pads_S8x64x64x64_S8x64x66x66_000_000_110_110 : S8x64x64x64.Pads (![0, 0, 1, 1] : Fin 4 → Nat) ![0, 0, 1, 1] ![0, 0, 0, 0] S8x64x66x66
  h_S_ : 0 < S_.numel
  bcast_S_S8x64x64x64 : S_.BroadcastsInDim S8x64x64x64 (![] : Fin 0 → Fin S8x64x64x64.rank)
  slices_S8x64x66x66_S8x64x64x64_0_0_0_0 : S8x64x66x66.Slices ![0, 0, 0, 0] S8x64x64x64
  bcast_S8x64x64x64_S8x1x64x64x64_0_2_3_4 : S8x64x64x64.BroadcastsInDim S8x1x64x64x64 (![0, 2, 3, 4] : Fin 4 → Fin S8x1x64x64x64.rank)
  slices_S64x64x3x3_S64x64x1x1_0_0_0_0 : S64x64x3x3.Slices ![0, 0, 0, 0] S64x64x1x1
  shapeCasts_S64x64x1x1_S64x64 : S64x64x1x1.ShapeCasts S64x64
  bcast_S64x64_S1x64x64_1_2 : S64x64.BroadcastsInDim S1x64x64 (![1, 2] : Fin 2 → Fin S1x64x64.rank)
  bcast_S1x64x64_S1x64x64x1x1_0_1_2 : S1x64x64.BroadcastsInDim S1x64x64x1x1 (![0, 1, 2] : Fin 3 → Fin S1x64x64x1x1.rank)
  bcast_S8x1x64x64x64_S8x64x64x64x64_0_1_2_3_4 : S8x1x64x64x64.BroadcastsInDim S8x64x64x64x64 (![0, 1, 2, 3, 4] : Fin 5 → Fin S8x64x64x64x64.rank)
  bcast_S1x64x64x1x1_S8x64x64x64x64_0_1_2_3_4 : S1x64x64x1x1.BroadcastsInDim S8x64x64x64x64 (![0, 1, 2, 3, 4] : Fin 5 → Fin S8x64x64x64x64.rank)
  reducesTo_S8x64x64x64x64_S8x64x64x64_d2 : S8x64x64x64x64.ReducesTo [2] S8x64x64x64
  slices_S8x64x66x66_S8x64x64x64_0_0_0_1 : S8x64x66x66.Slices ![0, 0, 0, 1] S8x64x64x64
  slices_S64x64x3x3_S64x64x1x1_0_0_0_1 : S64x64x3x3.Slices ![0, 0, 0, 1] S64x64x1x1
  slices_S8x64x66x66_S8x64x64x64_0_0_0_2 : S8x64x66x66.Slices ![0, 0, 0, 2] S8x64x64x64
  slices_S64x64x3x3_S64x64x1x1_0_0_0_2 : S64x64x3x3.Slices ![0, 0, 0, 2] S64x64x1x1
  slices_S8x64x66x66_S8x64x64x64_0_0_1_0 : S8x64x66x66.Slices ![0, 0, 1, 0] S8x64x64x64
  slices_S64x64x3x3_S64x64x1x1_0_0_1_0 : S64x64x3x3.Slices ![0, 0, 1, 0] S64x64x1x1
  slices_S8x64x66x66_S8x64x64x64_0_0_1_1 : S8x64x66x66.Slices ![0, 0, 1, 1] S8x64x64x64
  slices_S64x64x3x3_S64x64x1x1_0_0_1_1 : S64x64x3x3.Slices ![0, 0, 1, 1] S64x64x1x1
  slices_S8x64x66x66_S8x64x64x64_0_0_1_2 : S8x64x66x66.Slices ![0, 0, 1, 2] S8x64x64x64
  slices_S64x64x3x3_S64x64x1x1_0_0_1_2 : S64x64x3x3.Slices ![0, 0, 1, 2] S64x64x1x1
  slices_S8x64x66x66_S8x64x64x64_0_0_2_0 : S8x64x66x66.Slices ![0, 0, 2, 0] S8x64x64x64
  slices_S64x64x3x3_S64x64x1x1_0_0_2_0 : S64x64x3x3.Slices ![0, 0, 2, 0] S64x64x1x1
  slices_S8x64x66x66_S8x64x64x64_0_0_2_1 : S8x64x66x66.Slices ![0, 0, 2, 1] S8x64x64x64
  slices_S64x64x3x3_S64x64x1x1_0_0_2_1 : S64x64x3x3.Slices ![0, 0, 2, 1] S64x64x1x1
  slices_S8x64x66x66_S8x64x64x64_0_0_2_2 : S8x64x66x66.Slices ![0, 0, 2, 2] S8x64x64x64
  slices_S64x64x3x3_S64x64x1x1_0_0_2_2 : S64x64x3x3.Slices ![0, 0, 2, 2] S64x64x1x1

variable [Facts₀]

class Facts : Prop extends Facts₀ where

variable [Facts]
-- ==== Proof.MaxPlus.lean ====
/-
  The max-plus (tropical) 3×3 convolution over the extended reals.

  Given a padded image stack `xp` of extents [B, 64, 66, 66] and weights `k` of extents [64, 64, 3, 3], the result at
  image `b`, output channel `o`, row `h`, column `w` is the maximum, over the nine taps (ki, kj) and the sixty-four
  input channels c, of  xp[b, c, h + ki, w + kj] + k[o, c, ki, kj].  The maximum over channels of one tap is `tap`;
  the nine taps are joined in row-major order starting from −∞, which is the order both programs take them in
  (any order gives the same value: `max` is associative and commutative, and −∞ is its identity).
  The batch extent `B` is a parameter so that the same definition reads one image's block (B = 1) and the whole
  array (B = 8).
-/
import Idealize.ShloMosaic.Lib.ValueIdx

noncomputable section

namespace Cert.MaxPlus

open Idealize.ShloMosaic Idealize.ShloMosaic.ValueIdx

/-- One tap (ki, kj) at (b, o, h, w): the maximum over the input channels of the shifted padded entry plus the weight. -/
def tap {B : Nat} (xp : (⟨4, ![B, 64, 66, 66]⟩ : Shape).Idx → EReal) (k : (⟨4, ![64, 64, 3, 3]⟩ : Shape).Idx → EReal)
    (ki kj : Fin 3) (b : Fin B) (o h w : Fin 64) : EReal :=
  Finset.univ.sup fun c : Fin 64 =>
    xp (ix4 b c (⟨h.val + ki.val, by have := h.isLt; have := ki.isLt; omega⟩ : Fin 66)
        (⟨w.val + kj.val, by have := w.isLt; have := kj.isLt; omega⟩ : Fin 66))
      + k (ix4 o c ki kj)

/-- The nine taps joined from −∞, by coordinates. -/
def convAt {B : Nat} (xp : (⟨4, ![B, 64, 66, 66]⟩ : Shape).Idx → EReal) (k : (⟨4, ![64, 64, 3, 3]⟩ : Shape).Idx → EReal)
    (b : Fin B) (o h w : Fin 64) : EReal :=
  max (max (max (max (max (max (max (max (max ⊥
    (tap xp k 0 0 b o h w)) (tap xp k 0 1 b o h w)) (tap xp k 0 2 b o h w))
    (tap xp k 1 0 b o h w)) (tap xp k 1 1 b o h w)) (tap xp k 1 2 b o h w))
    (tap xp k 2 0 b o h w)) (tap xp k 2 1 b o h w)) (tap xp k 2 2 b o h w)

/-- The convolution as a whole array. -/
def conv {B : Nat} (xp : (⟨4, ![B, 64, 66, 66]⟩ : Shape).Idx → EReal) (k : (⟨4, ![64, 64, 3, 3]⟩ : Shape).Idx → EReal) :
    (⟨4, ![B, 64, 64, 64]⟩ : Shape).Idx → EReal :=
  fun i => convAt xp k (i 0) (i 1) (i 2) (i 3)

theorem conv_ix4 {B : Nat} (xp : (⟨4, ![B, 64, 66, 66]⟩ : Shape).Idx → EReal) (k : (⟨4, ![64, 64, 3, 3]⟩ : Shape).Idx → EReal)
    (b : Fin B) (o h w : Fin 64) : conv xp k (ix4 b o h w) = convAt xp k b o h w := rfl

end Cert.MaxPlus

end
-- ==== Proof.LibSupChunks.lean ====
/-
  Order facts on the extended reals used to compare two groupings of one maximum:
  a maximum over sixty-four channels taken as eight consecutive chunks of eight.
-/
import Mathlib.Data.EReal.Basic
import Mathlib.Order.Interval.Finset.Fin
import Mathlib.Data.Finset.Lattice.Fold

namespace Cert.SupLaws

/-- A maximum over `Fin 64` is the maximum, over the eight chunks, of each chunk's maximum over its eight members. -/
theorem sup_chunks (f : Fin 64 → EReal) :
    (Finset.univ.sup fun g : Fin 8 => Finset.univ.sup fun r : Fin 8 => f ⟨8 * g.val + r.val, by omega⟩)
      = Finset.univ.sup f := by
  apply le_antisymm
  · exact Finset.sup_le fun g _ => Finset.sup_le fun r _ => Finset.le_sup (f := f) (Finset.mem_univ _)
  · refine Finset.sup_le fun c _ => ?_
    have hc : c = ⟨8 * (c.val / 8) + c.val % 8, by omega⟩ := Fin.ext (by simp only; omega)
    rw [hc]
    exact le_trans (Finset.le_sup (f := fun r : Fin 8 => f ⟨8 * (c.val / 8) + r.val, by omega⟩)
        (Finset.mem_univ (⟨c.val % 8, by omega⟩ : Fin 8)))
      (Finset.le_sup (f := fun g : Fin 8 => Finset.univ.sup fun r : Fin 8 => f ⟨8 * g.val + r.val, by omega⟩)
        (Finset.mem_univ (⟨c.val / 8, by omega⟩ : Fin 8)))

/-- Folding `max` from −∞ over all of a finite type is the supremum. -/
theorem fold_max_bot {ι : Type} [Fintype ι] (f : ι → EReal) : Finset.fold max ⊥ f Finset.univ = Finset.univ.sup f := rfl

end Cert.SupLaws
-- ==== Proof.TripValue.lean ====
/-
  One trip of a tap's channel loop, as arithmetic on the extended reals.

  A trip takes the carried tile `acc` of extents [64, 8, 64] (output channel, row, column), a block `xb` of the padded
  image of extents [1, 8, 8, 64] (eight input channels, eight rows, sixty-four columns) and a block `kb` of the weights of
  extents [64, 8, 1, 1] (every output channel, the same eight input channels, one tap), and yields, at (o, r, w),
      max (acc[o, r, w]) (max over the eight channels cc of  xb[0, cc, r, w] + kb[o, cc, 0, 0]).
  The two blocks are broadcast to [64, 8, 8, 64], added, and the channel axis is reduced by a maximum that starts from −∞.
-/
import proofs.«170215_j15960098472407_2_alg».proof.Proof.Gen.KernelIdeal
import proofs.«170215_j15960098472407_2_alg».proof.Proof.LibSupChunks
import Idealize.ShloMosaic.Lib.ValueIdx
import Idealize.ShloMosaic.Lib.Pipeline.Value
import Idealize.ShloMosaic.PureOps.Ideal.Laws

noncomputable section

namespace Cert.KernelTrip

open Cert.KernelIdeal Cert.KernelIdeal.Facts₀ Idealize.ShloMosaic Idealize.ShloMosaic.ValueIdx

/-- The word of −∞ is the bottom of the extended reals. -/
theorem negInf : Ideal.ofBits .f32 0xFF800000#32 = (⊥ : EReal) := by simp [Ideal.ofBits, Ideal.ieee]

/-- The trip's arithmetic: the carried tile joined with the chunk's channel maximum. -/
def joinChunk (acc : FVec Ideal S64x8x64 .f32) (xb : FVec Ideal S1x8x8x64 .f32) (kb : FVec Ideal S64x8x1x1 .f32) : FVec Ideal S64x8x64 .f32 :=
  maximumf acc (multiReduction .maximumf [1] S64x8x64
    (addf (broadcastTo S64x8x8x64 (shapeCast S1x8x8x64 (shapeCast S8x8x64 xb shapeCasts_S1x8x8x64_S8x8x64) shapeCasts_S8x8x64_S1x8x8x64) broadcasts_S1x8x8x64_S64x8x8x64)
      (broadcastTo S64x8x8x64 (shapeCast S64x8x1x1 (shapeCast S64x8 kb shapeCasts_S64x8x1x1_S64x8) shapeCasts_S64x8_S64x8x1x1) broadcasts_S64x8x1x1_S64x8x8x64))
    0xFF800000#32 reduces_S64x8x8x64_S64x8x64 (.inl rfl) rfl)

/-- The reduced index (o, r, w) with the channel cc put back on axis 1 is (o, cc, r, w). -/
theorem lift_tile (h : S64x8x8x64.Reduces [1] S64x8x64) (o : Fin 64) (r : Fin 8) (w : Fin 64) (cc : Fin (S64x8x8x64.size 1)) :
    h.lift (ix3 o r w) cc = ix4 o (⟨cc.val, cc.isLt⟩ : Fin 8) r w := by
  funext a; apply Fin.ext
  match a with
  | ⟨0, _⟩ => rfl
  | ⟨1, _⟩ => rfl
  | ⟨2, _⟩ => rfl
  | ⟨3, _⟩ => rfl

/-- The image block broadcast over the output channels, read at (o, cc, r, w). -/
theorem bcast_x (xb : FVec Ideal S1x8x8x64 .f32) (o : Fin 64) (cc r : Fin 8) (w : Fin 64) :
    broadcastTo S64x8x8x64 xb broadcasts_S1x8x8x64_S64x8x8x64 (ix4 o cc r w) = xb (ix4 0 cc r w) :=
  broadcastTo_apply xb broadcasts_S1x8x8x64_S64x8x8x64 (ix4 o cc r w) (ix4 0 cc r w) (fun a => match a with
    | ⟨0, _⟩ => by show 0 = if (1 : Nat) = 1 then 0 else o.val; rw [if_pos rfl]
    | ⟨1, _⟩ => by show cc.val = if (8 : Nat) = 1 then 0 else cc.val; rw [if_neg (by decide)]
    | ⟨2, _⟩ => by show r.val = if (8 : Nat) = 1 then 0 else r.val; rw [if_neg (by decide)]
    | ⟨3, _⟩ => by show w.val = if (64 : Nat) = 1 then 0 else w.val; rw [if_neg (by decide)])

/-- The weight block broadcast over rows and columns, read at (o, cc, r, w). -/
theorem bcast_k (kb : FVec Ideal S64x8x1x1 .f32) (o : Fin 64) (cc r : Fin 8) (w : Fin 64) :
    broadcastTo S64x8x8x64 kb broadcasts_S64x8x1x1_S64x8x8x64 (ix4 o cc r w) = kb (ix4 o cc 0 0) :=
  broadcastTo_apply kb broadcasts_S64x8x1x1_S64x8x8x64 (ix4 o cc r w) (ix4 o cc 0 0) (fun a => match a with
    | ⟨0, _⟩ => by show o.val = if (64 : Nat) = 1 then 0 else o.val; rw [if_neg (by decide)]
    | ⟨1, _⟩ => by show cc.val = if (8 : Nat) = 1 then 0 else cc.val; rw [if_neg (by decide)]
    | ⟨2, _⟩ => by show 0 = if (1 : Nat) = 1 then 0 else r.val; rw [if_pos rfl]
    | ⟨3, _⟩ => by show 0 = if (1 : Nat) = 1 then 0 else w.val; rw [if_pos rfl])

/-- A maximum-reduction of the channel axis that starts from the word of −∞, read at (o, r, w): the fold of `max` from that word
    over the eight channels. (The two side conditions are taken as they stand in the printed term.) -/
theorem laneMax_apply (src : FVec Ideal S64x8x8x64 .f32) (hφ : FKind.Formats .f32)
    (hacc : (0xFF800000#32 : BitVec 32) = FKind.maximumf.neutral .f32 hφ) (j : S64x8x64.Idx) :
    multiReduction .maximumf [1] S64x8x64 src 0xFF800000#32 reduces_S64x8x8x64_S64x8x64 hφ hacc j
      = (Finset.univ : Finset (Fin (S64x8x8x64.size 1))).fold max (FloatOps.ofBits .f32 0xFF800000#32)
          (src ∘ reduces_S64x8x8x64_S64x8x64.lift j) :=
  Ideal.multiReduction_maximumf_single src 0xFF800000#32 reduces_S64x8x8x64_S64x8x64 hφ hacc j

/-- The trip at an index. -/
theorem joinChunk_apply (acc : FVec Ideal S64x8x64 .f32) (xb : FVec Ideal S1x8x8x64 .f32) (kb : FVec Ideal S64x8x1x1 .f32)
    (o : Fin 64) (r : Fin 8) (w : Fin 64) :
    joinChunk acc xb kb (ix3 o r w)
      = max (acc (ix3 o r w)) (Finset.univ.sup fun cc : Fin 8 => xb (ix4 0 cc r w) + kb (ix4 o cc 0 0)) := by
  unfold joinChunk
  rw [maximumf_apply, shapeCast_shapeCast, shapeCast_shapeCast]
  refine congrArg (max (acc (ix3 o r w))) ?_
  refine (laneMax_apply _ _ _ (ix3 o r w)).trans ?_
  rw [Ideal.ofBits_def, negInf]
  show Finset.fold max ⊥ (fun cc : Fin 8 => _) Finset.univ = _
  rw [Cert.SupLaws.fold_max_bot]
  refine Finset.sup_congr rfl (fun cc _ => ?_)
  refine (congrArg (addf (broadcastTo S64x8x8x64 xb broadcasts_S1x8x8x64_S64x8x8x64) (broadcastTo S64x8x8x64 kb broadcasts_S64x8x1x1_S64x8x8x64))
    (lift_tile reduces_S64x8x8x64_S64x8x64 o r w cc)).trans ?_
  rw [addf_apply, bcast_x, bcast_k]

end Cert.KernelTrip

end
-- ==== Proof.TapLoop.lean ====
/-
  One tap's channel loop as a value.

  The loop runs eight trips; trip g loads the image block of channels 8g … 8g+7 at the tap's row and column offsets and
  the weight block of the same channels at the tap, and joins the chunk's channel maximum into the carried tile
  (`Cert.KernelTrip.joinChunk`). So whatever recursion `st` gives the carried tile before each trip, after the eighth
  trip the tile holds, at (o, r, w), the maximum of what it started from and the tap's maximum over all sixty-four
  channels: the eight chunks of eight exhaust the channels (`Cert.SupLaws.sup_chunks`).
-/
import proofs.«170215_j15960098472407_2_alg».proof.Proof.TripValue
import proofs.«170215_j15960098472407_2_alg».proof.Proof.MaxPlus
import Idealize.ShloMosaic.Lib.WholeRead

noncomputable section

namespace Cert.KernelTrip

open Cert.KernelIdeal Cert.KernelIdeal.Facts₀ Idealize.ShloMosaic Idealize.ShloMosaic.ValueIdx

/-- An image block loaded at offsets (0, 8g, a, b) from the staged image `x0`, read at (0, cc, r, w): the image at
    channel 8g + cc, row a + r, column b + w. -/
theorem xblock_apply {arg1 : Memref sig .tc .vmem S1x64x66x66 .f32} (harg1 : arg1.IsWhole) (x0 : FVec Ideal S1x64x66x66 .f32)
    (off : Fin 4 → Nat) (inb : ∀ a, off a + S1x8x8x64.size a ≤ S1x64x66x66.size a) (g a b : Nat) (hoff : off = ![0, 8 * g, a, b])
    (cc r : Fin 8) (w : Fin 64) (hc : 8 * g + cc.val < 64) (hr : a + r.val < 66) (hw : b + w.val < 66) :
    View.readAt (Elt Ideal) arg1.view (Rect.unit (s := S1x64x66x66) off S1x8x8x64.size inb).toLoadRect (harg1.unread x0) (ix4 0 cc r w)
      = x0 (ix4 0 ⟨8 * g + cc.val, hc⟩ ⟨a + r.val, hr⟩ ⟨b + w.val, hw⟩) := by
  subst hoff
  have hload := Memref.IsWhole.readAt_unread (Val := Elt Ideal) harg1 x0
    (Rect.unit (s := S1x64x66x66) ![0, 8 * g, a, b] S1x8x8x64.size inb).toLoadRect (ix4 0 cc r w)
  refine hload.trans (congrArg x0 ?_)
  funext d; apply Fin.ext
  match d with
  | ⟨0, _⟩ => rfl
  | ⟨1, _⟩ => show 8 * g + 1 * cc.val = 8 * g + cc.val; omega
  | ⟨2, _⟩ => show a + 1 * r.val = a + r.val; omega
  | ⟨3, _⟩ => show b + 1 * w.val = b + w.val; omega

/-- A weight block loaded at offsets (0, 8g, p, q) from the staged weights `x1`, read at (o, cc, 0, 0): the weight of
    output channel o, input channel 8g + cc, tap (p, q). -/
theorem kblock_apply {arg2 : Memref sig .tc .vmem S64x64x3x3 .f32} (harg2 : arg2.IsWhole) (x1 : FVec Ideal S64x64x3x3 .f32)
    (off : Fin 4 → Nat) (inb : ∀ a, off a + S64x8x1x1.size a ≤ S64x64x3x3.size a) (g p q : Nat) (hoff : off = ![0, 8 * g, p, q])
    (o : Fin 64) (cc : Fin 8) (hc : 8 * g + cc.val < 64) (hp : p < 3) (hq : q < 3) :
    View.readAt (Elt Ideal) arg2.view (Rect.unit (s := S64x64x3x3) off S64x8x1x1.size inb).toLoadRect (harg2.unread x1) (ix4 o cc 0 0)
      = x1 (ix4 o ⟨8 * g + cc.val, hc⟩ ⟨p, hp⟩ ⟨q, hq⟩) := by
  subst hoff
  have hload := Memref.IsWhole.readAt_unread (Val := Elt Ideal) harg2 x1
    (Rect.unit (s := S64x64x3x3) ![0, 8 * g, p, q] S64x8x1x1.size inb).toLoadRect (ix4 o cc 0 0)
  refine hload.trans (congrArg x1 ?_)
  funext d; apply Fin.ext
  match d with
  | ⟨0, _⟩ => show 0 + 1 * o.val = o.val; omega
  | ⟨1, _⟩ => show 8 * g + 1 * cc.val = 8 * g + cc.val; omega
  | ⟨2, _⟩ => show p + 1 * 0 = p; omega
  | ⟨3, _⟩ => show q + 1 * 0 = q; omega

/-- Eight trips, each joining one chunk: the tile after them is the start joined with every chunk's maximum. -/
theorem fold_chunks (st : Nat → FVec Ideal S64x8x64 .f32) (xb : Fin 8 → FVec Ideal S1x8x8x64 .f32) (kb : Fin 8 → FVec Ideal S64x8x1x1 .f32)
    (hs : ∀ g : Fin 8, st (g.val + 1) = joinChunk (st g.val) (xb g) (kb g)) (o : Fin 64) (r : Fin 8) (w : Fin 64) :
    st 8 (ix3 o r w) = max (st 0 (ix3 o r w))
      (Finset.univ.sup fun g : Fin 8 => Finset.univ.sup fun cc : Fin 8 => xb g (ix4 0 cc r w) + kb g (ix4 o cc 0 0)) := by
  have key : ∀ n (hn : n ≤ 8), st n (ix3 o r w) = max (st 0 (ix3 o r w))
      ((Finset.univ.filter fun g : Fin 8 => g.val < n).sup
        fun g => Finset.univ.sup fun cc : Fin 8 => xb g (ix4 0 cc r w) + kb g (ix4 o cc 0 0)) := by
    intro n
    induction n with
    | zero =>
      intro _
      have he : (Finset.univ.filter fun g : Fin 8 => g.val < 0) = ∅ := by
        ext g; simp
      rw [he, Finset.sup_empty]
      exact (max_eq_left bot_le).symm
    | succ n ih =>
      intro hn
      have hn' : n < 8 := hn
      have e : st (n + 1) = joinChunk (st n) (xb ⟨n, hn'⟩) (kb ⟨n, hn'⟩) := hs ⟨n, hn'⟩
      have hf : (Finset.univ.filter fun g : Fin 8 => g.val < n + 1)
          = insert (⟨n, hn'⟩ : Fin 8) (Finset.univ.filter fun g : Fin 8 => g.val < n) := by
        ext g
        simp only [Finset.mem_filter, Finset.mem_univ, true_and, Finset.mem_insert, Fin.ext_iff]
        omega
      rw [e, joinChunk_apply, ih (Nat.le_of_lt hn'), hf, Finset.sup_insert, max_assoc]
      exact congrArg (max (st 0 (ix3 o r w))) (max_comm _ _)
  have h8 := key 8 le_rfl
  have hu : (Finset.univ.filter fun g : Fin 8 => g.val < 8) = Finset.univ := by
    ext g; simp [g.isLt]
  rw [hu] at h8
  exact h8

/-- THE TAP'S LOOP: with the trips' loads at offsets (0, 8g, a, b) of the image and (0, 8g, p, q) of the weights, where
    a = 8t + ki, b = kj, p = ki, q = kj for row tile t and tap (ki, kj), the carried tile after the eight trips is its start
    joined with the tap of the specification at row 8t + r. -/
theorem tap_loop {arg1 : Memref sig .tc .vmem S1x64x66x66 .f32} (harg1 : arg1.IsWhole) {arg2 : Memref sig .tc .vmem S64x64x3x3 .f32} (harg2 : arg2.IsWhole)
    (x0 : FVec Ideal S1x64x66x66 .f32) (x1 : FVec Ideal S64x64x3x3 .f32) (st : Nat → FVec Ideal S64x8x64 .f32)
    (offx offk : Fin 8 → Fin 4 → Nat)
    (inbx : ∀ (g : Fin 8) a, offx g a + S1x8x8x64.size a ≤ S1x64x66x66.size a)
    (inbk : ∀ (g : Fin 8) a, offk g a + S64x8x1x1.size a ≤ S64x64x3x3.size a)
    (t : Fin 8) (ki kj : Fin 3) (a b p q : Nat) (ha : a = 8 * t.val + ki.val) (hb : b = kj.val) (hp : p = ki.val) (hq : q = kj.val)
    (hoffx : ∀ g : Fin 8, offx g = ![0, 8 * g.val, a, b]) (hoffk : ∀ g : Fin 8, offk g = ![0, 8 * g.val, p, q])
    (hs : ∀ g : Fin 8, st (g.val + 1) = joinChunk (st g.val)
      (View.readAt (Elt Ideal) arg1.view (Rect.unit (s := S1x64x66x66) (offx g) S1x8x8x64.size (inbx g)).toLoadRect (harg1.unread x0))
      (View.readAt (Elt Ideal) arg2.view (Rect.unit (s := S64x64x3x3) (offk g) S64x8x1x1.size (inbk g)).toLoadRect (harg2.unread x1)))
    (o : Fin 64) (r : Fin 8) (w : Fin 64) :
    st 8 (ix3 o r w) = max (st 0 (ix3 o r w))
      (Cert.MaxPlus.tap (B := 1) x0 x1 ki kj 0 o (⟨8 * t.val + r.val, by have := t.isLt; have := r.isLt; omega⟩ : Fin 64) w) := by
  subst ha hb hp hq
  refine (fold_chunks st _ _ hs o r w).trans (congrArg (max (st 0 (ix3 o r w))) ?_)
  unfold Cert.MaxPlus.tap
  rw [← Cert.SupLaws.sup_chunks]
  refine Finset.sup_congr rfl (fun g _ => Finset.sup_congr rfl (fun cc _ => ?_))
  have hki := ki.isLt; have hkj := kj.isLt; have ht := t.isLt; have hr := r.isLt; have hw := w.isLt; have hg := g.isLt; have hcc := cc.isLt
  rw [xblock_apply harg1 x0 (offx g) (inbx g) g.val _ _ (hoffx g) cc r w (by omega) (by omega) (by omega),
    kblock_apply harg2 x1 (offk g) (inbk g) g.val _ _ (hoffk g) o cc (by omega) hki hkj]
  refine congrArg₂ (· + ·) (congrArg x0 ?_) (congrArg x1 ?_)
  · funext d; apply Fin.ext
    match d with
    | ⟨0, _⟩ => rfl
    | ⟨1, _⟩ => rfl
    | ⟨2, _⟩ => show 8 * t.val + ki.val + r.val = 8 * t.val + r.val + ki.val; omega
    | ⟨3, _⟩ => show kj.val + w.val = w.val + kj.val; omega
  · funext d; apply Fin.ext
    match d with
    | ⟨0, _⟩ => rfl
    | ⟨1, _⟩ => rfl
    | ⟨2, _⟩ => rfl
    | ⟨3, _⟩ => rfl

end Cert.KernelTrip

end
-- ==== Proof.LoopTable0.lean ====
/- Row tile 0 of the output block (rows 0 … 7): its nine taps are the kernel body's channel loops 1 … 9, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 1: row tile 0, tap (0, 0). One trip is the chunk join of the two blocks it loads. -/
theorem trip_1 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t1_loop.trips) (acc : FVec Ideal S64x8x64 .f32) :
    tripR_k0_t1 (F := Ideal) Variants.none c none i arg1 harg1 arg2 harg2 arg3 harg3 X1 X2 g acc
      = joinChunk acc
          (View.readAt (Elt Ideal) arg1.view (Rect.unit (s := S1x64x66x66) (k0_off1 g) S1x8x8x64.size (Facts₀.k0_off1_inb g)).toLoadRect X1)
          (View.readAt (Elt Ideal) arg2.view (Rect.unit (s := S64x64x3x3) (k0_off2 g) S64x8x1x1.size (Facts₀.k0_off2_inb g)).toLoadRect X2) := by
  unfold tripR_k0_t1 trip_k0_t1
  rfl

/-- Loop 1 as a value: after its eight trips the carried tile is its start joined with tap (0, 0) at rows 0…7. -/
theorem loop_1 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t1 (F := Ideal) Variants.none c none i arg1 harg1 arg2 harg2 arg3 harg3 (harg1.unread x0) (harg2.unread x1) init 8 (ix3 o r w)
      = max (init (ix3 o r w)) (Cert.MaxPlus.tap (B := 1) x0 x1 0 0 0 o (⟨8 * (0 : Fin 8).val + r.val, by have := r.isLt; have := (0 : Fin 8).isLt; omega⟩ : Fin 64) w) :=
  tap_loop harg1 harg2 x0 x1 (st_k0_t1 (F := Ideal) Variants.none c none i arg1 harg1 arg2 harg2 arg3 harg3 (harg1.unread x0) (harg2.unread x1) init)
    (fun g => k0_off1 g) (fun g => k0_off2 g) (fun g => Facts₀.k0_off1_inb g) (fun g => Facts₀.k0_off2_inb g)
    0 0 0 0 0 0 0 rfl rfl rfl rfl (fun g => Gen.k0_off1_eq g) (fun g => Gen.k0_off2_eq g)
    (fun g => (st_k0_t1_succ (F := Ideal) Variants.none c none i arg1 harg1 arg2 harg2 arg3 harg3 (harg1.unread x0) (harg2.unread x1) init g).trans
      (trip_1 c i arg1 harg1 arg2 harg2 arg3 harg3 (harg1.unread x0) (harg2.unread x1) g _)) o r w

/-- Loop 2: row tile 0, tap (0, 1). One trip is the chunk join of the two blocks it loads. -/
theorem trip_2 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t2_loop.trips) (acc : FVec Ideal S64x8x64 .f32) :
    tripR_k0_t2 (F := Ideal) Variants.none c none i arg1 harg1 arg2 harg2 arg3 harg3 X1 X2 g acc
      = joinChunk acc
          (View.readAt (Elt Ideal) arg1.view (Rect.unit (s := S1x64x66x66) (k0_off3 g) S1x8x8x64.size (Facts₀.k0_off3_inb g)).toLoadRect X1)
          (View.readAt (Elt Ideal) arg2.view (Rect.unit (s := S64x64x3x3) (k0_off4 g) S64x8x1x1.size (Facts₀.k0_off4_inb g)).toLoadRect X2) := by
  unfold tripR_k0_t2 trip_k0_t2
  rfl

/-- Loop 2 as a value: after its eight trips the carried tile is its start joined with tap (0, 1) at rows 0…7. -/
theorem loop_2 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t2 (F := Ideal) Variants.none c none i arg1 harg1 arg2 harg2 arg3 harg3 (harg1.unread x0) (harg2.unread x1) init 8 (ix3 o r w)
      = max (init (ix3 o r w)) (Cert.MaxPlus.tap (B := 1) x0 x1 0 1 0 o (⟨8 * (0 : Fin 8).val + r.val, by have := r.isLt; have := (0 : Fin 8).isLt; omega⟩ : Fin 64) w) :=
  tap_loop harg1 harg2 x0 x1 (st_k0_t2 (F := Ideal) Variants.none c none i arg1 harg1 arg2 harg2 arg3 harg3 (harg1.unread x0) (harg2.unread x1) init)
    (fun g => k0_off3 g) (fun g => k0_off4 g) (fun g => Facts₀.k0_off3_inb g) (fun g => Facts₀.k0_off4_inb g)
    0 0 1 0 1 0 1 rfl rfl rfl rfl (fun g => Gen.k0_off3_eq g) (fun g => Gen.k0_off4_eq g)
    (fun g => (st_k0_t2_succ (F := Ideal) Variants.none c none i arg1 harg1 arg2 harg2 arg3 harg3 (harg1.unread x0) (harg2.unread x1) init g).trans
      (trip_2 c i arg1 harg1 arg2 harg2 arg3 harg3 (harg1.unread x0) (harg2.unread x1) g _)) o r w

/-- Loop 3: row tile 0, tap (0, 2). One trip is the chunk join of the two blocks it loads. -/
theorem trip_3 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t3_loop.trips) (acc : FVec Ideal S64x8x64 .f32) :
    tripR_k0_t3 (F := Ideal) Variants.none c none i arg1 harg1 arg2 harg2 arg3 harg3 X1 X2 g acc
      = joinChunk acc
          (View.readAt (Elt Ideal) arg1.view (Rect.unit (s := S1x64x66x66) (k0_off5 g) S1x8x8x64.size (Facts₀.k0_off5_inb g)).toLoadRect X1)
          (View.readAt (Elt Ideal) arg2.view (Rect.unit (s := S64x64x3x3) (k0_off6 g) S64x8x1x1.size (Facts₀.k0_off6_inb g)).toLoadRect X2) := by
  unfold tripR_k0_t3 trip_k0_t3
  rfl

/-- Loop 3 as a value: after its eight trips the carried tile is its start joined with tap (0, 2) at rows 0…7. -/
theorem loop_3 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t3 (F := Ideal) Variants.none c none i arg1 harg1 arg2 harg2 arg3 harg3 (harg1.unread x0) (harg2.unread x1) init 8 (ix3 o r w)
      = max (init (ix3 o r w)) (Cert.MaxPlus.tap (B := 1) x0 x1 0 2 0 o (⟨8 * (0 : Fin 8).val + r.val, by have := r.isLt; have := (0 : Fin 8).isLt; omega⟩ : Fin 64) w) :=
  tap_loop harg1 harg2 x0 x1 (st_k0_t3 (F := Ideal) Variants.none c none i arg1 harg1 arg2 harg2 arg3 harg3 (harg1.unread x0) (harg2.unread x1) init)
    (fun g => k0_off5 g) (fun g => k0_off6 g) (fun g => Facts₀.k0_off5_inb g) (fun g => Facts₀.k0_off6_inb g)
    0 0 2 0 2 0 2 rfl rfl rfl rfl (fun g => Gen.k0_off5_eq g) (fun g => Gen.k0_off6_eq g)
    (fun g => (st_k0_t3_succ (F := Ideal) Variants.none c none i arg1 harg1 arg2 harg2 arg3 harg3 (harg1.unread x0) (harg2.unread x1) init g).trans
      (trip_3 c i arg1 harg1 arg2 harg2 arg3 harg3 (harg1.unread x0) (harg2.unread x1) g _)) o r w

/-- Loop 4: row tile 0, tap (1, 0). One trip is the chunk join of the two blocks it loads. -/
theorem trip_4 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t4_loop.trips) (acc : FVec Ideal S64x8x64 .f32) :
    tripR_k0_t4 (F := Ideal) Variants.none c none i arg1 harg1 arg2 harg2 arg3 harg3 X1 X2 g acc
      = joinChunk acc
          (View.readAt (Elt Ideal) arg1.view (Rect.unit (s := S1x64x66x66) (k0_off7 g) S1x8x8x64.size (Facts₀.k0_off7_inb g)).toLoadRect X1)
          (View.readAt (Elt Ideal) arg2.view (Rect.unit (s := S64x64x3x3) (k0_off8 g) S64x8x1x1.size (Facts₀.k0_off8_inb g)).toLoadRect X2) := by
  unfold tripR_k0_t4 trip_k0_t4
  rfl

/-- Loop 4 as a value: after its eight trips the carried tile is its start joined with tap (1, 0) at rows 0…7. -/
theorem loop_4 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t4 (F := Ideal) Variants.none c none i arg1 harg1 arg2 harg2 arg3 harg3 (harg1.unread x0) (harg2.unread x1) init 8 (ix3 o r w)
      = max (init (ix3 o r w)) (Cert.MaxPlus.tap (B := 1) x0 x1 1 0 0 o (⟨8 * (0 : Fin 8).val + r.val, by have := r.isLt; have := (0 : Fin 8).isLt; omega⟩ : Fin 64) w) :=
  tap_loop harg1 harg2 x0 x1 (st_k0_t4 (F := Ideal) Variants.none c none i arg1 harg1 arg2 harg2 arg3 harg3 (harg1.unread x0) (harg2.unread x1) init)
    (fun g => k0_off7 g) (fun g => k0_off8 g) (fun g => Facts₀.k0_off7_inb g) (fun g => Facts₀.k0_off8_inb g)
    0 1 0 1 0 1 0 rfl rfl rfl rfl (fun g => Gen.k0_off7_eq g) (fun g => Gen.k0_off8_eq g)
    (fun g => (st_k0_t4_succ (F := Ideal) Variants.none c none i arg1 harg1 arg2 harg2 arg3 harg3 (harg1.unread x0) (harg2.unread x1) init g).trans
      (trip_4 c i arg1 harg1 arg2 harg2 arg3 harg3 (harg1.unread x0) (harg2.unread x1) g _)) o r w

/-- Loop 5: row tile 0, tap (1, 1). One trip is the chunk join of the two blocks it loads. -/
theorem trip_5 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t5_loop.trips) (acc : FVec Ideal S64x8x64 .f32) :
    tripR_k0_t5 (F := Ideal) Variants.none c none i arg1 harg1 arg2 harg2 arg3 harg3 X1 X2 g acc
      = joinChunk acc
          (View.readAt (Elt Ideal) arg1.view (Rect.unit (s := S1x64x66x66) (k0_off9 g) S1x8x8x64.size (Facts₀.k0_off9_inb g)).toLoadRect X1)
          (View.readAt (Elt Ideal) arg2.view (Rect.unit (s := S64x64x3x3) (k0_off10 g) S64x8x1x1.size (Facts₀.k0_off10_inb g)).toLoadRect X2) := by
  unfold tripR_k0_t5 trip_k0_t5
  rfl

/-- Loop 5 as a value: after its eight trips the carried tile is its start joined with tap (1, 1) at rows 0…7. -/
theorem loop_5 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t5 (F := Ideal) Variants.none c none i arg1 harg1 arg2 harg2 arg3 harg3 (harg1.unread x0) (harg2.unread x1) init 8 (ix3 o r w)
      = max (init (ix3 o r w)) (Cert.MaxPlus.tap (B := 1) x0 x1 1 1 0 o (⟨8 * (0 : Fin 8).val + r.val, by have := r.isLt; have := (0 : Fin 8).isLt; omega⟩ : Fin 64) w) :=
  tap_loop harg1 harg2 x0 x1 (st_k0_t5 (F := Ideal) Variants.none c none i arg1 harg1 arg2 harg2 arg3 harg3 (harg1.unread x0) (harg2.unread x1) init)
    (fun g => k0_off9 g) (fun g => k0_off10 g) (fun g => Facts₀.k0_off9_inb g) (fun g => Facts₀.k0_off10_inb g)
    0 1 1 1 1 1 1 rfl rfl rfl rfl (fun g => Gen.k0_off9_eq g) (fun g => Gen.k0_off10_eq g)
    (fun g => (st_k0_t5_succ (F := Ideal) Variants.none c none i arg1 harg1 arg2 harg2 arg3 harg3 (harg1.unread x0) (harg2.unread x1) init g).trans
      (trip_5 c i arg1 harg1 arg2 harg2 arg3 harg3 (harg1.unread x0) (harg2.unread x1) g _)) o r w

/-- Loop 6: row tile 0, tap (1, 2). One trip is the chunk join of the two blocks it loads. -/
theorem trip_6 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t6_loop.trips) (acc : FVec Ideal S64x8x64 .f32) :
    tripR_k0_t6 (F := Ideal) Variants.none c none i arg1 harg1 arg2 harg2 arg3 harg3 X1 X2 g acc
      = joinChunk acc
          (View.readAt (Elt Ideal) arg1.view (Rect.unit (s := S1x64x66x66) (k0_off11 g) S1x8x8x64.size (Facts₀.k0_off11_inb g)).toLoadRect X1)
          (View.readAt (Elt Ideal) arg2.view (Rect.unit (s := S64x64x3x3) (k0_off12 g) S64x8x1x1.size (Facts₀.k0_off12_inb g)).toLoadRect X2) := by
  unfold tripR_k0_t6 trip_k0_t6
  rfl

/-- Loop 6 as a value: after its eight trips the carried tile is its start joined with tap (1, 2) at rows 0…7. -/
theorem loop_6 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t6 (F := Ideal) Variants.none c none i arg1 harg1 arg2 harg2 arg3 harg3 (harg1.unread x0) (harg2.unread x1) init 8 (ix3 o r w)
      = max (init (ix3 o r w)) (Cert.MaxPlus.tap (B := 1) x0 x1 1 2 0 o (⟨8 * (0 : Fin 8).val + r.val, by have := r.isLt; have := (0 : Fin 8).isLt; omega⟩ : Fin 64) w) :=
  tap_loop harg1 harg2 x0 x1 (st_k0_t6 (F := Ideal) Variants.none c none i arg1 harg1 arg2 harg2 arg3 harg3 (harg1.unread x0) (harg2.unread x1) init)
    (fun g => k0_off11 g) (fun g => k0_off12 g) (fun g => Facts₀.k0_off11_inb g) (fun g => Facts₀.k0_off12_inb g)
    0 1 2 1 2 1 2 rfl rfl rfl rfl (fun g => Gen.k0_off11_eq g) (fun g => Gen.k0_off12_eq g)
    (fun g => (st_k0_t6_succ (F := Ideal) Variants.none c none i arg1 harg1 arg2 harg2 arg3 harg3 (harg1.unread x0) (harg2.unread x1) init g).trans
      (trip_6 c i arg1 harg1 arg2 harg2 arg3 harg3 (harg1.unread x0) (harg2.unread x1) g _)) o r w

/-- Loop 7: row tile 0, tap (2, 0). One trip is the chunk join of the two blocks it loads. -/
theorem trip_7 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t7_loop.trips) (acc : FVec Ideal S64x8x64 .f32) :
    tripR_k0_t7 (F := Ideal) Variants.none c none i arg1 harg1 arg2 harg2 arg3 harg3 X1 X2 g acc
      = joinChunk acc
          (View.readAt (Elt Ideal) arg1.view (Rect.unit (s := S1x64x66x66) (k0_off13 g) S1x8x8x64.size (Facts₀.k0_off13_inb g)).toLoadRect X1)
          (View.readAt (Elt Ideal) arg2.view (Rect.unit (s := S64x64x3x3) (k0_off14 g) S64x8x1x1.size (Facts₀.k0_off14_inb g)).toLoadRect X2) := by
  unfold tripR_k0_t7 trip_k0_t7
  rfl

/-- Loop 7 as a value: after its eight trips the carried tile is its start joined with tap (2, 0) at rows 0…7. -/
theorem loop_7 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t7 (F := Ideal) Variants.none c none i arg1 harg1 arg2 harg2 arg3 harg3 (harg1.unread x0) (harg2.unread x1) init 8 (ix3 o r w)
      = max (init (ix3 o r w)) (Cert.MaxPlus.tap (B := 1) x0 x1 2 0 0 o (⟨8 * (0 : Fin 8).val + r.val, by have := r.isLt; have := (0 : Fin 8).isLt; omega⟩ : Fin 64) w) :=
  tap_loop harg1 harg2 x0 x1 (st_k0_t7 (F := Ideal) Variants.none c none i arg1 harg1 arg2 harg2 arg3 harg3 (harg1.unread x0) (harg2.unread x1) init)
    (fun g => k0_off13 g) (fun g => k0_off14 g) (fun g => Facts₀.k0_off13_inb g) (fun g => Facts₀.k0_off14_inb g)
    0 2 0 2 0 2 0 rfl rfl rfl rfl (fun g => Gen.k0_off13_eq g) (fun g => Gen.k0_off14_eq g)
    (fun g => (st_k0_t7_succ (F := Ideal) Variants.none c none i arg1 harg1 arg2 harg2 arg3 harg3 (harg1.unread x0) (harg2.unread x1) init g).trans
      (trip_7 c i arg1 harg1 arg2 harg2 arg3 harg3 (harg1.unread x0) (harg2.unread x1) g _)) o r w

/-- Loop 8: row tile 0, tap (2, 1). One trip is the chunk join of the two blocks it loads. -/
theorem trip_8 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t8_loop.trips) (acc : FVec Ideal S64x8x64 .f32) :
    tripR_k0_t8 (F := Ideal) Variants.none c none i arg1 harg1 arg2 harg2 arg3 harg3 X1 X2 g acc
      = joinChunk acc
          (View.readAt (Elt Ideal) arg1.view (Rect.unit (s := S1x64x66x66) (k0_off15 g) S1x8x8x64.size (Facts₀.k0_off15_inb g)).toLoadRect X1)
          (View.readAt (Elt Ideal) arg2.view (Rect.unit (s := S64x64x3x3) (k0_off16 g) S64x8x1x1.size (Facts₀.k0_off16_inb g)).toLoadRect X2) := by
  unfold tripR_k0_t8 trip_k0_t8
  rfl

/-- Loop 8 as a value: after its eight trips the carried tile is its start joined with tap (2, 1) at rows 0…7. -/
theorem loop_8 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t8 (F := Ideal) Variants.none c none i arg1 harg1 arg2 harg2 arg3 harg3 (harg1.unread x0) (harg2.unread x1) init 8 (ix3 o r w)
      = max (init (ix3 o r w)) (Cert.MaxPlus.tap (B := 1) x0 x1 2 1 0 o (⟨8 * (0 : Fin 8).val + r.val, by have := r.isLt; have := (0 : Fin 8).isLt; omega⟩ : Fin 64) w) :=
  tap_loop harg1 harg2 x0 x1 (st_k0_t8 (F := Ideal) Variants.none c none i arg1 harg1 arg2 harg2 arg3 harg3 (harg1.unread x0) (harg2.unread x1) init)
    (fun g => k0_off15 g) (fun g => k0_off16 g) (fun g => Facts₀.k0_off15_inb g) (fun g => Facts₀.k0_off16_inb g)
    0 2 1 2 1 2 1 rfl rfl rfl rfl (fun g => Gen.k0_off15_eq g) (fun g => Gen.k0_off16_eq g)
    (fun g => (st_k0_t8_succ (F := Ideal) Variants.none c none i arg1 harg1 arg2 harg2 arg3 harg3 (harg1.unread x0) (harg2.unread x1) init g).trans
      (trip_8 c i arg1 harg1 arg2 harg2 arg3 harg3 (harg1.unread x0) (harg2.unread x1) g _)) o r w

/-- Loop 9: row tile 0, tap (2, 2). One trip is the chunk join of the two blocks it loads. -/
theorem trip_9 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t9_loop.trips) (acc : FVec Ideal S64x8x64 .f32) :
    tripR_k0_t9 (F := Ideal) Variants.none c none i arg1 harg1 arg2 harg2 arg3 harg3 X1 X2 g acc
      = joinChunk acc
          (View.readAt (Elt Ideal) arg1.view (Rect.unit (s := S1x64x66x66) (k0_off17 g) S1x8x8x64.size (Facts₀.k0_off17_inb g)).toLoadRect X1)
          (View.readAt (Elt Ideal) arg2.view (Rect.unit (s := S64x64x3x3) (k0_off18 g) S64x8x1x1.size (Facts₀.k0_off18_inb g)).toLoadRect X2) := by
  unfold tripR_k0_t9 trip_k0_t9
  rfl

/-- Loop 9 as a value: after its eight trips the carried tile is its start joined with tap (2, 2) at rows 0…7. -/
theorem loop_9 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t9 (F := Ideal) Variants.none c none i arg1 harg1 arg2 harg2 arg3 harg3 (harg1.unread x0) (harg2.unread x1) init 8 (ix3 o r w)
      = max (init (ix3 o r w)) (Cert.MaxPlus.tap (B := 1) x0 x1 2 2 0 o (⟨8 * (0 : Fin 8).val + r.val, by have := r.isLt; have := (0 : Fin 8).isLt; omega⟩ : Fin 64) w) :=
  tap_loop harg1 harg2 x0 x1 (st_k0_t9 (F := Ideal) Variants.none c none i arg1 harg1 arg2 harg2 arg3 harg3 (harg1.unread x0) (harg2.unread x1) init)
    (fun g => k0_off17 g) (fun g => k0_off18 g) (fun g => Facts₀.k0_off17_inb g) (fun g => Facts₀.k0_off18_inb g)
    0 2 2 2 2 2 2 rfl rfl rfl rfl (fun g => Gen.k0_off17_eq g) (fun g => Gen.k0_off18_eq g)
    (fun g => (st_k0_t9_succ (F := Ideal) Variants.none c none i arg1 harg1 arg2 harg2 arg3 harg3 (harg1.unread x0) (harg2.unread x1) init g).trans
      (trip_9 c i arg1 harg1 arg2 harg2 arg3 harg3 (harg1.unread x0) (harg2.unread x1) g _)) o r w

end Cert.KernelTrip

end
-- ==== Proof.LoopTable1.lean ====
/- Row tile 1 of the output block (rows 8 … 15): its nine taps are the kernel body's channel loops 10 … 18, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 10: row tile 1, tap (0, 0). One trip is the chunk join of the two blocks it loads. -/
theorem trip_10 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t10_loop.trips) (acc : FVec Ideal S64x8x64 .f32) :
    tripR_k0_t10 (F := Ideal) Variants.none c none i arg1 harg1 arg2 harg2 arg3 harg3 ve X1 X2 g acc
      = joinChunk acc
          (View.readAt (Elt Ideal) arg1.view (Rect.unit (s := S1x64x66x66) (k0_off19 g) S1x8x8x64.size (Facts₀.k0_off19_inb g)).toLoadRect X1)
          (View.readAt (Elt Ideal) arg2.view (Rect.unit (s := S64x64x3x3) (k0_off20 g) S64x8x1x1.size (Facts₀.k0_off20_inb g)).toLoadRect X2) := by
  unfold tripR_k0_t10 trip_k0_t10
  rfl

/-- Loop 10 as a value: after its eight trips the carried tile is its start joined with tap (0, 0) at rows 8…15. -/
theorem loop_10 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t10 (F := Ideal) Variants.none c none i arg1 harg1 arg2 harg2 arg3 harg3 ve (harg1.unread x0) (harg2.unread x1) init 8 (ix3 o r w)
      = max (init (ix3 o r w)) (Cert.MaxPlus.tap (B := 1) x0 x1 0 0 0 o (⟨8 * (1 : Fin 8).val + r.val, by have := r.isLt; have := (1 : Fin 8).isLt; omega⟩ : Fin 64) w) :=
  tap_loop harg1 harg2 x0 x1 (st_k0_t10 (F := Ideal) Variants.none c none i arg1 harg1 arg2 harg2 arg3 harg3 ve (harg1.unread x0) (harg2.unread x1) init)
    (fun g => k0_off19 g) (fun g => k0_off20 g) (fun g => Facts₀.k0_off19_inb g) (fun g => Facts₀.k0_off20_inb g)
    1 0 0 8 0 0 0 rfl rfl rfl rfl (fun g => Gen.k0_off19_eq g) (fun g => Gen.k0_off20_eq g)
    (fun g => (st_k0_t10_succ (F := Ideal) Variants.none c none i arg1 harg1 arg2 harg2 arg3 harg3 ve (harg1.unread x0) (harg2.unread x1) init g).trans
      (trip_10 c i arg1 harg1 arg2 harg2 arg3 harg3 ve (harg1.unread x0) (harg2.unread x1) g _)) o r w

/-- Loop 11: row tile 1, tap (0, 1). One trip is the chunk join of the two blocks it loads. -/
theorem trip_11 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t11_loop.trips) (acc : FVec Ideal S64x8x64 .f32) :
    tripR_k0_t11 (F := Ideal) Variants.none c none i arg1 harg1 arg2 harg2 arg3 harg3 ve X1 X2 g acc
      = joinChunk acc
          (View.readAt (Elt Ideal) arg1.view (Rect.unit (s := S1x64x66x66) (k0_off21 g) S1x8x8x64.size (Facts₀.k0_off21_inb g)).toLoadRect X1)
          (View.readAt (Elt Ideal) arg2.view (Rect.unit (s := S64x64x3x3) (k0_off22 g) S64x8x1x1.size (Facts₀.k0_off22_inb g)).toLoadRect X2) := by
  unfold tripR_k0_t11 trip_k0_t11
  rfl

/-- Loop 11 as a value: after its eight trips the carried tile is its start joined with tap (0, 1) at rows 8…15. -/
theorem loop_11 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t11 (F := Ideal) Variants.none c none i arg1 harg1 arg2 harg2 arg3 harg3 ve (harg1.unread x0) (harg2.unread x1) init 8 (ix3 o r w)
      = max (init (ix3 o r w)) (Cert.MaxPlus.tap (B := 1) x0 x1 0 1 0 o (⟨8 * (1 : Fin 8).val + r.val, by have := r.isLt; have := (1 : Fin 8).isLt; omega⟩ : Fin 64) w) :=
  tap_loop harg1 harg2 x0 x1 (st_k0_t11 (F := Ideal) Variants.none c none i arg1 harg1 arg2 harg2 arg3 harg3 ve (harg1.unread x0) (harg2.unread x1) init)
    (fun g => k0_off21 g) (fun g => k0_off22 g) (fun g => Facts₀.k0_off21_inb g) (fun g => Facts₀.k0_off22_inb g)
    1 0 1 8 1 0 1 rfl rfl rfl rfl (fun g => Gen.k0_off21_eq g) (fun g => Gen.k0_off22_eq g)
    (fun g => (st_k0_t11_succ (F := Ideal) Variants.none c none i arg1 harg1 arg2 harg2 arg3 harg3 ve (harg1.unread x0) (harg2.unread x1) init g).trans
      (trip_11 c i arg1 harg1 arg2 harg2 arg3 harg3 ve (harg1.unread x0) (harg2.unread x1) g _)) o r w

/-- Loop 12: row tile 1, tap (0, 2). One trip is the chunk join of the two blocks it loads. -/
theorem trip_12 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t12_loop.trips) (acc : FVec Ideal S64x8x64 .f32) :
    tripR_k0_t12 (F := Ideal) Variants.none c none i arg1 harg1 arg2 harg2 arg3 harg3 ve X1 X2 g acc
      = joinChunk acc
          (View.readAt (Elt Ideal) arg1.view (Rect.unit (s := S1x64x66x66) (k0_off23 g) S1x8x8x64.size (Facts₀.k0_off23_inb g)).toLoadRect X1)
          (View.readAt (Elt Ideal) arg2.view (Rect.unit (s := S64x64x3x3) (k0_off24 g) S64x8x1x1.size (Facts₀.k0_off24_inb g)).toLoadRect X2) := by
  unfold tripR_k0_t12 trip_k0_t12
  rfl

/-- Loop 12 as a value: after its eight trips the carried tile is its start joined with tap (0, 2) at rows 8…15. -/
theorem loop_12 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t12 (F := Ideal) Variants.none c none i arg1 harg1 arg2 harg2 arg3 harg3 ve (harg1.unread x0) (harg2.unread x1) init 8 (ix3 o r w)
      = max (init (ix3 o r w)) (Cert.MaxPlus.tap (B := 1) x0 x1 0 2 0 o (⟨8 * (1 : Fin 8).val + r.val, by have := r.isLt; have := (1 : Fin 8).isLt; omega⟩ : Fin 64) w) :=
  tap_loop harg1 harg2 x0 x1 (st_k0_t12 (F := Ideal) Variants.none c none i arg1 harg1 arg2 harg2 arg3 harg3 ve (harg1.unread x0) (harg2.unread x1) init)
    (fun g => k0_off23 g) (fun g => k0_off24 g) (fun g => Facts₀.k0_off23_inb g) (fun g => Facts₀.k0_off24_inb g)
    1 0 2 8 2 0 2 rfl rfl rfl rfl (fun g => Gen.k0_off23_eq g) (fun g => Gen.k0_off24_eq g)
    (fun g => (st_k0_t12_succ (F := Ideal) Variants.none c none i arg1 harg1 arg2 harg2 arg3 harg3 ve (harg1.unread x0) (harg2.unread x1) init g).trans
      (trip_12 c i arg1 harg1 arg2 harg2 arg3 harg3 ve (harg1.unread x0) (harg2.unread x1) g _)) o r w

/-- Loop 13: row tile 1, tap (1, 0). One trip is the chunk join of the two blocks it loads. -/
theorem trip_13 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t13_loop.trips) (acc : FVec Ideal S64x8x64 .f32) :
    tripR_k0_t13 (F := Ideal) Variants.none c none i arg1 harg1 arg2 harg2 arg3 harg3 ve X1 X2 g acc
      = joinChunk acc
          (View.readAt (Elt Ideal) arg1.view (Rect.unit (s := S1x64x66x66) (k0_off25 g) S1x8x8x64.size (Facts₀.k0_off25_inb g)).toLoadRect X1)
          (View.readAt (Elt Ideal) arg2.view (Rect.unit (s := S64x64x3x3) (k0_off26 g) S64x8x1x1.size (Facts₀.k0_off26_inb g)).toLoadRect X2) := by
  unfold tripR_k0_t13 trip_k0_t13
  rfl

/-- Loop 13 as a value: after its eight trips the carried tile is its start joined with tap (1, 0) at rows 8…15. -/
theorem loop_13 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t13 (F := Ideal) Variants.none c none i arg1 harg1 arg2 harg2 arg3 harg3 ve (harg1.unread x0) (harg2.unread x1) init 8 (ix3 o r w)
      = max (init (ix3 o r w)) (Cert.MaxPlus.tap (B := 1) x0 x1 1 0 0 o (⟨8 * (1 : Fin 8).val + r.val, by have := r.isLt; have := (1 : Fin 8).isLt; omega⟩ : Fin 64) w) :=
  tap_loop harg1 harg2 x0 x1 (st_k0_t13 (F := Ideal) Variants.none c none i arg1 harg1 arg2 harg2 arg3 harg3 ve (harg1.unread x0) (harg2.unread x1) init)
    (fun g => k0_off25 g) (fun g => k0_off26 g) (fun g => Facts₀.k0_off25_inb g) (fun g => Facts₀.k0_off26_inb g)
    1 1 0 9 0 1 0 rfl rfl rfl rfl (fun g => Gen.k0_off25_eq g) (fun g => Gen.k0_off26_eq g)
    (fun g => (st_k0_t13_succ (F := Ideal) Variants.none c none i arg1 harg1 arg2 harg2 arg3 harg3 ve (harg1.unread x0) (harg2.unread x1) init g).trans
      (trip_13 c i arg1 harg1 arg2 harg2 arg3 harg3 ve (harg1.unread x0) (harg2.unread x1) g _)) o r w

/-- Loop 14: row tile 1, tap (1, 1). One trip is the chunk join of the two blocks it loads. -/
theorem trip_14 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t14_loop.trips) (acc : FVec Ideal S64x8x64 .f32) :
    tripR_k0_t14 (F := Ideal) Variants.none c none i arg1 harg1 arg2 harg2 arg3 harg3 ve X1 X2 g acc
      = joinChunk acc
          (View.readAt (Elt Ideal) arg1.view (Rect.unit (s := S1x64x66x66) (k0_off27 g) S1x8x8x64.size (Facts₀.k0_off27_inb g)).toLoadRect X1)
          (View.readAt (Elt Ideal) arg2.view (Rect.unit (s := S64x64x3x3) (k0_off28 g) S64x8x1x1.size (Facts₀.k0_off28_inb g)).toLoadRect X2) := by
  unfold tripR_k0_t14 trip_k0_t14
  rfl

/-- Loop 14 as a value: after its eight trips the carried tile is its start joined with tap (1, 1) at rows 8…15. -/
theorem loop_14 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t14 (F := Ideal) Variants.none c none i arg1 harg1 arg2 harg2 arg3 harg3 ve (harg1.unread x0) (harg2.unread x1) init 8 (ix3 o r w)
      = max (init (ix3 o r w)) (Cert.MaxPlus.tap (B := 1) x0 x1 1 1 0 o (⟨8 * (1 : Fin 8).val + r.val, by have := r.isLt; have := (1 : Fin 8).isLt; omega⟩ : Fin 64) w) :=
  tap_loop harg1 harg2 x0 x1 (st_k0_t14 (F := Ideal) Variants.none c none i arg1 harg1 arg2 harg2 arg3 harg3 ve (harg1.unread x0) (harg2.unread x1) init)
    (fun g => k0_off27 g) (fun g => k0_off28 g) (fun g => Facts₀.k0_off27_inb g) (fun g => Facts₀.k0_off28_inb g)
    1 1 1 9 1 1 1 rfl rfl rfl rfl (fun g => Gen.k0_off27_eq g) (fun g => Gen.k0_off28_eq g)
    (fun g => (st_k0_t14_succ (F := Ideal) Variants.none c none i arg1 harg1 arg2 harg2 arg3 harg3 ve (harg1.unread x0) (harg2.unread x1) init g).trans
      (trip_14 c i arg1 harg1 arg2 harg2 arg3 harg3 ve (harg1.unread x0) (harg2.unread x1) g _)) o r w

/-- Loop 15: row tile 1, tap (1, 2). One trip is the chunk join of the two blocks it loads. -/
theorem trip_15 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t15_loop.trips) (acc : FVec Ideal S64x8x64 .f32) :
    tripR_k0_t15 (F := Ideal) Variants.none c none i arg1 harg1 arg2 harg2 arg3 harg3 ve X1 X2 g acc
      = joinChunk acc
          (View.readAt (Elt Ideal) arg1.view (Rect.unit (s := S1x64x66x66) (k0_off29 g) S1x8x8x64.size (Facts₀.k0_off29_inb g)).toLoadRect X1)
          (View.readAt (Elt Ideal) arg2.view (Rect.unit (s := S64x64x3x3) (k0_off30 g) S64x8x1x1.size (Facts₀.k0_off30_inb g)).toLoadRect X2) := by
  unfold tripR_k0_t15 trip_k0_t15
  rfl

/-- Loop 15 as a value: after its eight trips the carried tile is its start joined with tap (1, 2) at rows 8…15. -/
theorem loop_15 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t15 (F := Ideal) Variants.none c none i arg1 harg1 arg2 harg2 arg3 harg3 ve (harg1.unread x0) (harg2.unread x1) init 8 (ix3 o r w)
      = max (init (ix3 o r w)) (Cert.MaxPlus.tap (B := 1) x0 x1 1 2 0 o (⟨8 * (1 : Fin 8).val + r.val, by have := r.isLt; have := (1 : Fin 8).isLt; omega⟩ : Fin 64) w) :=
  tap_loop harg1 harg2 x0 x1 (st_k0_t15 (F := Ideal) Variants.none c none i arg1 harg1 arg2 harg2 arg3 harg3 ve (harg1.unread x0) (harg2.unread x1) init)
    (fun g => k0_off29 g) (fun g => k0_off30 g) (fun g => Facts₀.k0_off29_inb g) (fun g => Facts₀.k0_off30_inb g)
    1 1 2 9 2 1 2 rfl rfl rfl rfl (fun g => Gen.k0_off29_eq g) (fun g => Gen.k0_off30_eq g)
    (fun g => (st_k0_t15_succ (F := Ideal) Variants.none c none i arg1 harg1 arg2 harg2 arg3 harg3 ve (harg1.unread x0) (harg2.unread x1) init g).trans
      (trip_15 c i arg1 harg1 arg2 harg2 arg3 harg3 ve (harg1.unread x0) (harg2.unread x1) g _)) o r w

/-- Loop 16: row tile 1, tap (2, 0). One trip is the chunk join of the two blocks it loads. -/
theorem trip_16 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t16_loop.trips) (acc : FVec Ideal S64x8x64 .f32) :
    tripR_k0_t16 (F := Ideal) Variants.none c none i arg1 harg1 arg2 harg2 arg3 harg3 ve X1 X2 g acc
      = joinChunk acc
          (View.readAt (Elt Ideal) arg1.view (Rect.unit (s := S1x64x66x66) (k0_off31 g) S1x8x8x64.size (Facts₀.k0_off31_inb g)).toLoadRect X1)
          (View.readAt (Elt Ideal) arg2.view (Rect.unit (s := S64x64x3x3) (k0_off32 g) S64x8x1x1.size (Facts₀.k0_off32_inb g)).toLoadRect X2) := by
  unfold tripR_k0_t16 trip_k0_t16
  rfl

/-- Loop 16 as a value: after its eight trips the carried tile is its start joined with tap (2, 0) at rows 8…15. -/
theorem loop_16 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t16 (F := Ideal) Variants.none c none i arg1 harg1 arg2 harg2 arg3 harg3 ve (harg1.unread x0) (harg2.unread x1) init 8 (ix3 o r w)
      = max (init (ix3 o r w)) (Cert.MaxPlus.tap (B := 1) x0 x1 2 0 0 o (⟨8 * (1 : Fin 8).val + r.val, by have := r.isLt; have := (1 : Fin 8).isLt; omega⟩ : Fin 64) w) :=
  tap_loop harg1 harg2 x0 x1 (st_k0_t16 (F := Ideal) Variants.none c none i arg1 harg1 arg2 harg2 arg3 harg3 ve (harg1.unread x0) (harg2.unread x1) init)
    (fun g => k0_off31 g) (fun g => k0_off32 g) (fun g => Facts₀.k0_off31_inb g) (fun g => Facts₀.k0_off32_inb g)
    1 2 0 10 0 2 0 rfl rfl rfl rfl (fun g => Gen.k0_off31_eq g) (fun g => Gen.k0_off32_eq g)
    (fun g => (st_k0_t16_succ (F := Ideal) Variants.none c none i arg1 harg1 arg2 harg2 arg3 harg3 ve (harg1.unread x0) (harg2.unread x1) init g).trans
      (trip_16 c i arg1 harg1 arg2 harg2 arg3 harg3 ve (harg1.unread x0) (harg2.unread x1) g _)) o r w

/-- Loop 17: row tile 1, tap (2, 1). One trip is the chunk join of the two blocks it loads. -/
theorem trip_17 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t17_loop.trips) (acc : FVec Ideal S64x8x64 .f32) :
    tripR_k0_t17 (F := Ideal) Variants.none c none i arg1 harg1 arg2 harg2 arg3 harg3 ve X1 X2 g acc
      = joinChunk acc
          (View.readAt (Elt Ideal) arg1.view (Rect.unit (s := S1x64x66x66) (k0_off33 g) S1x8x8x64.size (Facts₀.k0_off33_inb g)).toLoadRect X1)
          (View.readAt (Elt Ideal) arg2.view (Rect.unit (s := S64x64x3x3) (k0_off34 g) S64x8x1x1.size (Facts₀.k0_off34_inb g)).toLoadRect X2) := by
  unfold tripR_k0_t17 trip_k0_t17
  rfl

/-- Loop 17 as a value: after its eight trips the carried tile is its start joined with tap (2, 1) at rows 8…15. -/
theorem loop_17 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t17 (F := Ideal) Variants.none c none i arg1 harg1 arg2 harg2 arg3 harg3 ve (harg1.unread x0) (harg2.unread x1) init 8 (ix3 o r w)
      = max (init (ix3 o r w)) (Cert.MaxPlus.tap (B := 1) x0 x1 2 1 0 o (⟨8 * (1 : Fin 8).val + r.val, by have := r.isLt; have := (1 : Fin 8).isLt; omega⟩ : Fin 64) w) :=
  tap_loop harg1 harg2 x0 x1 (st_k0_t17 (F := Ideal) Variants.none c none i arg1 harg1 arg2 harg2 arg3 harg3 ve (harg1.unread x0) (harg2.unread x1) init)
    (fun g => k0_off33 g) (fun g => k0_off34 g) (fun g => Facts₀.k0_off33_inb g) (fun g => Facts₀.k0_off34_inb g)
    1 2 1 10 1 2 1 rfl rfl rfl rfl (fun g => Gen.k0_off33_eq g) (fun g => Gen.k0_off34_eq g)
    (fun g => (st_k0_t17_succ (F := Ideal) Variants.none c none i arg1 harg1 arg2 harg2 arg3 harg3 ve (harg1.unread x0) (harg2.unread x1) init g).trans
      (trip_17 c i arg1 harg1 arg2 harg2 arg3 harg3 ve (harg1.unread x0) (harg2.unread x1) g _)) o r w

/-- Loop 18: row tile 1, tap (2, 2). One trip is the chunk join of the two blocks it loads. -/
theorem trip_18 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t18_loop.trips) (acc : FVec Ideal S64x8x64 .f32) :
    tripR_k0_t18 (F := Ideal) Variants.none c none i arg1 harg1 arg2 harg2 arg3 harg3 ve X1 X2 g acc
      = joinChunk acc
          (View.readAt (Elt Ideal) arg1.view (Rect.unit (s := S1x64x66x66) (k0_off35 g) S1x8x8x64.size (Facts₀.k0_off35_inb g)).toLoadRect X1)
          (View.readAt (Elt Ideal) arg2.view (Rect.unit (s := S64x64x3x3) (k0_off36 g) S64x8x1x1.size (Facts₀.k0_off36_inb g)).toLoadRect X2) := by
  unfold tripR_k0_t18 trip_k0_t18
  rfl

/-- Loop 18 as a value: after its eight trips the carried tile is its start joined with tap (2, 2) at rows 8…15. -/
theorem loop_18 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t18 (F := Ideal) Variants.none c none i arg1 harg1 arg2 harg2 arg3 harg3 ve (harg1.unread x0) (harg2.unread x1) init 8 (ix3 o r w)
      = max (init (ix3 o r w)) (Cert.MaxPlus.tap (B := 1) x0 x1 2 2 0 o (⟨8 * (1 : Fin 8).val + r.val, by have := r.isLt; have := (1 : Fin 8).isLt; omega⟩ : Fin 64) w) :=
  tap_loop harg1 harg2 x0 x1 (st_k0_t18 (F := Ideal) Variants.none c none i arg1 harg1 arg2 harg2 arg3 harg3 ve (harg1.unread x0) (harg2.unread x1) init)
    (fun g => k0_off35 g) (fun g => k0_off36 g) (fun g => Facts₀.k0_off35_inb g) (fun g => Facts₀.k0_off36_inb g)
    1 2 2 10 2 2 2 rfl rfl rfl rfl (fun g => Gen.k0_off35_eq g) (fun g => Gen.k0_off36_eq g)
    (fun g => (st_k0_t18_succ (F := Ideal) Variants.none c none i arg1 harg1 arg2 harg2 arg3 harg3 ve (harg1.unread x0) (harg2.unread x1) init g).trans
      (trip_18 c i arg1 harg1 arg2 harg2 arg3 harg3 ve (harg1.unread x0) (harg2.unread x1) g _)) o r w

end Cert.KernelTrip

end
-- ==== Proof.LoopTable2.lean ====
/- Row tile 2 of the output block (rows 16 … 23): its nine taps are the kernel body's channel loops 19 … 27, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 19: row tile 2, tap (0, 0). One trip is the chunk join of the two blocks it loads. -/
theorem trip_19 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t19_loop.trips) (acc : FVec Ideal S64x8x64 .f32) :
    tripR_k0_t19 (F := Ideal) Variants.none c none i arg1 harg1 arg2 harg2 arg3 harg3 ve X1 X2 g acc
      = joinChunk acc
          (View.readAt (Elt Ideal) arg1.view (Rect.unit (s := S1x64x66x66) (k0_off37 g) S1x8x8x64.size (Facts₀.k0_off37_inb g)).toLoadRect X1)
          (View.readAt (Elt Ideal) arg2.view (Rect.unit (s := S64x64x3x3) (k0_off38 g) S64x8x1x1.size (Facts₀.k0_off38_inb g)).toLoadRect X2) := by
  unfold tripR_k0_t19 trip_k0_t19
  rfl

/-- Loop 19 as a value: after its eight trips the carried tile is its start joined with tap (0, 0) at rows 16…23. -/
theorem loop_19 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t19 (F := Ideal) Variants.none c none i arg1 harg1 arg2 harg2 arg3 harg3 ve (harg1.unread x0) (harg2.unread x1) init 8 (ix3 o r w)
      = max (init (ix3 o r w)) (Cert.MaxPlus.tap (B := 1) x0 x1 0 0 0 o (⟨8 * (2 : Fin 8).val + r.val, by have := r.isLt; have := (2 : Fin 8).isLt; omega⟩ : Fin 64) w) :=
  tap_loop harg1 harg2 x0 x1 (st_k0_t19 (F := Ideal) Variants.none c none i arg1 harg1 arg2 harg2 arg3 harg3 ve (harg1.unread x0) (harg2.unread x1) init)
    (fun g => k0_off37 g) (fun g => k0_off38 g) (fun g => Facts₀.k0_off37_inb g) (fun g => Facts₀.k0_off38_inb g)
    2 0 0 16 0 0 0 rfl rfl rfl rfl (fun g => Gen.k0_off37_eq g) (fun g => Gen.k0_off38_eq g)
    (fun g => (st_k0_t19_succ (F := Ideal) Variants.none c none i arg1 harg1 arg2 harg2 arg3 harg3 ve (harg1.unread x0) (harg2.unread x1) init g).trans
      (trip_19 c i arg1 harg1 arg2 harg2 arg3 harg3 ve (harg1.unread x0) (harg2.unread x1) g _)) o r w

/-- Loop 20: row tile 2, tap (0, 1). One trip is the chunk join of the two blocks it loads. -/
theorem trip_20 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t20_loop.trips) (acc : FVec Ideal S64x8x64 .f32) :
    tripR_k0_t20 (F := Ideal) Variants.none c none i arg1 harg1 arg2 harg2 arg3 harg3 ve X1 X2 g acc
      = joinChunk acc
          (View.readAt (Elt Ideal) arg1.view (Rect.unit (s := S1x64x66x66) (k0_off39 g) S1x8x8x64.size (Facts₀.k0_off39_inb g)).toLoadRect X1)
          (View.readAt (Elt Ideal) arg2.view (Rect.unit (s := S64x64x3x3) (k0_off40 g) S64x8x1x1.size (Facts₀.k0_off40_inb g)).toLoadRect X2) := by
  unfold tripR_k0_t20 trip_k0_t20
  rfl

/-- Loop 20 as a value: after its eight trips the carried tile is its start joined with tap (0, 1) at rows 16…23. -/
theorem loop_20 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t20 (F := Ideal) Variants.none c none i arg1 harg1 arg2 harg2 arg3 harg3 ve (harg1.unread x0) (harg2.unread x1) init 8 (ix3 o r w)
      = max (init (ix3 o r w)) (Cert.MaxPlus.tap (B := 1) x0 x1 0 1 0 o (⟨8 * (2 : Fin 8).val + r.val, by have := r.isLt; have := (2 : Fin 8).isLt; omega⟩ : Fin 64) w) :=
  tap_loop harg1 harg2 x0 x1 (st_k0_t20 (F := Ideal) Variants.none c none i arg1 harg1 arg2 harg2 arg3 harg3 ve (harg1.unread x0) (harg2.unread x1) init)
    (fun g => k0_off39 g) (fun g => k0_off40 g) (fun g => Facts₀.k0_off39_inb g) (fun g => Facts₀.k0_off40_inb g)
    2 0 1 16 1 0 1 rfl rfl rfl rfl (fun g => Gen.k0_off39_eq g) (fun g => Gen.k0_off40_eq g)
    (fun g => (st_k0_t20_succ (F := Ideal) Variants.none c none i arg1 harg1 arg2 harg2 arg3 harg3 ve (harg1.unread x0) (harg2.unread x1) init g).trans
      (trip_20 c i arg1 harg1 arg2 harg2 arg3 harg3 ve (harg1.unread x0) (harg2.unread x1) g _)) o r w

/-- Loop 21: row tile 2, tap (0, 2). One trip is the chunk join of the two blocks it loads. -/
theorem trip_21 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t21_loop.trips) (acc : FVec Ideal S64x8x64 .f32) :
    tripR_k0_t21 (F := Ideal) Variants.none c none i arg1 harg1 arg2 harg2 arg3 harg3 ve X1 X2 g acc
      = joinChunk acc
          (View.readAt (Elt Ideal) arg1.view (Rect.unit (s := S1x64x66x66) (k0_off41 g) S1x8x8x64.size (Facts₀.k0_off41_inb g)).toLoadRect X1)
          (View.readAt (Elt Ideal) arg2.view (Rect.unit (s := S64x64x3x3) (k0_off42 g) S64x8x1x1.size (Facts₀.k0_off42_inb g)).toLoadRect X2) := by
  unfold tripR_k0_t21 trip_k0_t21
  rfl

/-- Loop 21 as a value: after its eight trips the carried tile is its start joined with tap (0, 2) at rows 16…23. -/
theorem loop_21 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t21 (F := Ideal) Variants.none c none i arg1 harg1 arg2 harg2 arg3 harg3 ve (harg1.unread x0) (harg2.unread x1) init 8 (ix3 o r w)
      = max (init (ix3 o r w)) (Cert.MaxPlus.tap (B := 1) x0 x1 0 2 0 o (⟨8 * (2 : Fin 8).val + r.val, by have := r.isLt; have := (2 : Fin 8).isLt; omega⟩ : Fin 64) w) :=
  tap_loop harg1 harg2 x0 x1 (st_k0_t21 (F := Ideal) Variants.none c none i arg1 harg1 arg2 harg2 arg3 harg3 ve (harg1.unread x0) (harg2.unread x1) init)
    (fun g => k0_off41 g) (fun g => k0_off42 g) (fun g => Facts₀.k0_off41_inb g) (fun g => Facts₀.k0_off42_inb g)
    2 0 2 16 2 0 2 rfl rfl rfl rfl (fun g => Gen.k0_off41_eq g) (fun g => Gen.k0_off42_eq g)
    (fun g => (st_k0_t21_succ (F := Ideal) Variants.none c none i arg1 harg1 arg2 harg2 arg3 harg3 ve (harg1.unread x0) (harg2.unread x1) init g).trans
      (trip_21 c i arg1 harg1 arg2 harg2 arg3 harg3 ve (harg1.unread x0) (harg2.unread x1) g _)) o r w

/-- Loop 22: row tile 2, tap (1, 0). One trip is the chunk join of the two blocks it loads. -/
theorem trip_22 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t22_loop.trips) (acc : FVec Ideal S64x8x64 .f32) :
    tripR_k0_t22 (F := Ideal) Variants.none c none i arg1 harg1 arg2 harg2 arg3 harg3 ve X1 X2 g acc
      = joinChunk acc
          (View.readAt (Elt Ideal) arg1.view (Rect.unit (s := S1x64x66x66) (k0_off43 g) S1x8x8x64.size (Facts₀.k0_off43_inb g)).toLoadRect X1)
          (View.readAt (Elt Ideal) arg2.view (Rect.unit (s := S64x64x3x3) (k0_off44 g) S64x8x1x1.size (Facts₀.k0_off44_inb g)).toLoadRect X2) := by
  unfold tripR_k0_t22 trip_k0_t22
  rfl

/-- Loop 22 as a value: after its eight trips the carried tile is its start joined with tap (1, 0) at rows 16…23. -/
theorem loop_22 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t22 (F := Ideal) Variants.none c none i arg1 harg1 arg2 harg2 arg3 harg3 ve (harg1.unread x0) (harg2.unread x1) init 8 (ix3 o r w)
      = max (init (ix3 o r w)) (Cert.MaxPlus.tap (B := 1) x0 x1 1 0 0 o (⟨8 * (2 : Fin 8).val + r.val, by have := r.isLt; have := (2 : Fin 8).isLt; omega⟩ : Fin 64) w) :=
  tap_loop harg1 harg2 x0 x1 (st_k0_t22 (F := Ideal) Variants.none c none i arg1 harg1 arg2 harg2 arg3 harg3 ve (harg1.unread x0) (harg2.unread x1) init)
    (fun g => k0_off43 g) (fun g => k0_off44 g) (fun g => Facts₀.k0_off43_inb g) (fun g => Facts₀.k0_off44_inb g)
    2 1 0 17 0 1 0 rfl rfl rfl rfl (fun g => Gen.k0_off43_eq g) (fun g => Gen.k0_off44_eq g)
    (fun g => (st_k0_t22_succ (F := Ideal) Variants.none c none i arg1 harg1 arg2 harg2 arg3 harg3 ve (harg1.unread x0) (harg2.unread x1) init g).trans
      (trip_22 c i arg1 harg1 arg2 harg2 arg3 harg3 ve (harg1.unread x0) (harg2.unread x1) g _)) o r w

/-- Loop 23: row tile 2, tap (1, 1). One trip is the chunk join of the two blocks it loads. -/
theorem trip_23 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t23_loop.trips) (acc : FVec Ideal S64x8x64 .f32) :
    tripR_k0_t23 (F := Ideal) Variants.none c none i arg1 harg1 arg2 harg2 arg3 harg3 ve X1 X2 g acc
      = joinChunk acc
          (View.readAt (Elt Ideal) arg1.view (Rect.unit (s := S1x64x66x66) (k0_off45 g) S1x8x8x64.size (Facts₀.k0_off45_inb g)).toLoadRect X1)
          (View.readAt (Elt Ideal) arg2.view (Rect.unit (s := S64x64x3x3) (k0_off46 g) S64x8x1x1.size (Facts₀.k0_off46_inb g)).toLoadRect X2) := by
  unfold tripR_k0_t23 trip_k0_t23
  rfl

/-- Loop 23 as a value: after its eight trips the carried tile is its start joined with tap (1, 1) at rows 16…23. -/
theorem loop_23 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t23 (F := Ideal) Variants.none c none i arg1 harg1 arg2 harg2 arg3 harg3 ve (harg1.unread x0) (harg2.unread x1) init 8 (ix3 o r w)
      = max (init (ix3 o r w)) (Cert.MaxPlus.tap (B := 1) x0 x1 1 1 0 o (⟨8 * (2 : Fin 8).val + r.val, by have := r.isLt; have := (2 : Fin 8).isLt; omega⟩ : Fin 64) w) :=
  tap_loop harg1 harg2 x0 x1 (st_k0_t23 (F := Ideal) Variants.none c none i arg1 harg1 arg2 harg2 arg3 harg3 ve (harg1.unread x0) (harg2.unread x1) init)
    (fun g => k0_off45 g) (fun g => k0_off46 g) (fun g => Facts₀.k0_off45_inb g) (fun g => Facts₀.k0_off46_inb g)
    2 1 1 17 1 1 1 rfl rfl rfl rfl (fun g => Gen.k0_off45_eq g) (fun g => Gen.k0_off46_eq g)
    (fun g => (st_k0_t23_succ (F := Ideal) Variants.none c none i arg1 harg1 arg2 harg2 arg3 harg3 ve (harg1.unread x0) (harg2.unread x1) init g).trans
      (trip_23 c i arg1 harg1 arg2 harg2 arg3 harg3 ve (harg1.unread x0) (harg2.unread x1) g _)) o r w

/-- Loop 24: row tile 2, tap (1, 2). One trip is the chunk join of the two blocks it loads. -/
theorem trip_24 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t24_loop.trips) (acc : FVec Ideal S64x8x64 .f32) :
    tripR_k0_t24 (F := Ideal) Variants.none c none i arg1 harg1 arg2 harg2 arg3 harg3 ve X1 X2 g acc
      = joinChunk acc
          (View.readAt (Elt Ideal) arg1.view (Rect.unit (s := S1x64x66x66) (k0_off47 g) S1x8x8x64.size (Facts₀.k0_off47_inb g)).toLoadRect X1)
          (View.readAt (Elt Ideal) arg2.view (Rect.unit (s := S64x64x3x3) (k0_off48 g) S64x8x1x1.size (Facts₀.k0_off48_inb g)).toLoadRect X2) := by
  unfold tripR_k0_t24 trip_k0_t24
  rfl

/-- Loop 24 as a value: after its eight trips the carried tile is its start joined with tap (1, 2) at rows 16…23. -/
theorem loop_24 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t24 (F := Ideal) Variants.none c none i arg1 harg1 arg2 harg2 arg3 harg3 ve (harg1.unread x0) (harg2.unread x1) init 8 (ix3 o r w)
      = max (init (ix3 o r w)) (Cert.MaxPlus.tap (B := 1) x0 x1 1 2 0 o (⟨8 * (2 : Fin 8).val + r.val, by have := r.isLt; have := (2 : Fin 8).isLt; omega⟩ : Fin 64) w) :=
  tap_loop harg1 harg2 x0 x1 (st_k0_t24 (F := Ideal) Variants.none c none i arg1 harg1 arg2 harg2 arg3 harg3 ve (harg1.unread x0) (harg2.unread x1) init)
    (fun g => k0_off47 g) (fun g => k0_off48 g) (fun g => Facts₀.k0_off47_inb g) (fun g => Facts₀.k0_off48_inb g)
    2 1 2 17 2 1 2 rfl rfl rfl rfl (fun g => Gen.k0_off47_eq g) (fun g => Gen.k0_off48_eq g)
    (fun g => (st_k0_t24_succ (F := Ideal) Variants.none c none i arg1 harg1 arg2 harg2 arg3 harg3 ve (harg1.unread x0) (harg2.unread x1) init g).trans
      (trip_24 c i arg1 harg1 arg2 harg2 arg3 harg3 ve (harg1.unread x0) (harg2.unread x1) g _)) o r w

/-- Loop 25: row tile 2, tap (2, 0). One trip is the chunk join of the two blocks it loads. -/
theorem trip_25 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t25_loop.trips) (acc : FVec Ideal S64x8x64 .f32) :
    tripR_k0_t25 (F := Ideal) Variants.none c none i arg1 harg1 arg2 harg2 arg3 harg3 ve X1 X2 g acc
      = joinChunk acc
          (View.readAt (Elt Ideal) arg1.view (Rect.unit (s := S1x64x66x66) (k0_off49 g) S1x8x8x64.size (Facts₀.k0_off49_inb g)).toLoadRect X1)
          (View.readAt (Elt Ideal) arg2.view (Rect.unit (s := S64x64x3x3) (k0_off50 g) S64x8x1x1.size (Facts₀.k0_off50_inb g)).toLoadRect X2) := by
  unfold tripR_k0_t25 trip_k0_t25
  rfl

/-- Loop 25 as a value: after its eight trips the carried tile is its start joined with tap (2, 0) at rows 16…23. -/
theorem loop_25 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t25 (F := Ideal) Variants.none c none i arg1 harg1 arg2 harg2 arg3 harg3 ve (harg1.unread x0) (harg2.unread x1) init 8 (ix3 o r w)
      = max (init (ix3 o r w)) (Cert.MaxPlus.tap (B := 1) x0 x1 2 0 0 o (⟨8 * (2 : Fin 8).val + r.val, by have := r.isLt; have := (2 : Fin 8).isLt; omega⟩ : Fin 64) w) :=
  tap_loop harg1 harg2 x0 x1 (st_k0_t25 (F := Ideal) Variants.none c none i arg1 harg1 arg2 harg2 arg3 harg3 ve (harg1.unread x0) (harg2.unread x1) init)
    (fun g => k0_off49 g) (fun g => k0_off50 g) (fun g => Facts₀.k0_off49_inb g) (fun g => Facts₀.k0_off50_inb g)
    2 2 0 18 0 2 0 rfl rfl rfl rfl (fun g => Gen.k0_off49_eq g) (fun g => Gen.k0_off50_eq g)
    (fun g => (st_k0_t25_succ (F := Ideal) Variants.none c none i arg1 harg1 arg2 harg2 arg3 harg3 ve (harg1.unread x0) (harg2.unread x1) init g).trans
      (trip_25 c i arg1 harg1 arg2 harg2 arg3 harg3 ve (harg1.unread x0) (harg2.unread x1) g _)) o r w

/-- Loop 26: row tile 2, tap (2, 1). One trip is the chunk join of the two blocks it loads. -/
theorem trip_26 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t26_loop.trips) (acc : FVec Ideal S64x8x64 .f32) :
    tripR_k0_t26 (F := Ideal) Variants.none c none i arg1 harg1 arg2 harg2 arg3 harg3 ve X1 X2 g acc
      = joinChunk acc
          (View.readAt (Elt Ideal) arg1.view (Rect.unit (s := S1x64x66x66) (k0_off51 g) S1x8x8x64.size (Facts₀.k0_off51_inb g)).toLoadRect X1)
          (View.readAt (Elt Ideal) arg2.view (Rect.unit (s := S64x64x3x3) (k0_off52 g) S64x8x1x1.size (Facts₀.k0_off52_inb g)).toLoadRect X2) := by
  unfold tripR_k0_t26 trip_k0_t26
  rfl

/-- Loop 26 as a value: after its eight trips the carried tile is its start joined with tap (2, 1) at rows 16…23. -/
theorem loop_26 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t26 (F := Ideal) Variants.none c none i arg1 harg1 arg2 harg2 arg3 harg3 ve (harg1.unread x0) (harg2.unread x1) init 8 (ix3 o r w)
      = max (init (ix3 o r w)) (Cert.MaxPlus.tap (B := 1) x0 x1 2 1 0 o (⟨8 * (2 : Fin 8).val + r.val, by have := r.isLt; have := (2 : Fin 8).isLt; omega⟩ : Fin 64) w) :=
  tap_loop harg1 harg2 x0 x1 (st_k0_t26 (F := Ideal) Variants.none c none i arg1 harg1 arg2 harg2 arg3 harg3 ve (harg1.unread x0) (harg2.unread x1) init)
    (fun g => k0_off51 g) (fun g => k0_off52 g) (fun g => Facts₀.k0_off51_inb g) (fun g => Facts₀.k0_off52_inb g)
    2 2 1 18 1 2 1 rfl rfl rfl rfl (fun g => Gen.k0_off51_eq g) (fun g => Gen.k0_off52_eq g)
    (fun g => (st_k0_t26_succ (F := Ideal) Variants.none c none i arg1 harg1 arg2 harg2 arg3 harg3 ve (harg1.unread x0) (harg2.unread x1) init g).trans
      (trip_26 c i arg1 harg1 arg2 harg2 arg3 harg3 ve (harg1.unread x0) (harg2.unread x1) g _)) o r w

/-- Loop 27: row tile 2, tap (2, 2). One trip is the chunk join of the two blocks it loads. -/
theorem trip_27 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t27_loop.trips) (acc : FVec Ideal S64x8x64 .f32) :
    tripR_k0_t27 (F := Ideal) Variants.none c none i arg1 harg1 arg2 harg2 arg3 harg3 ve we X1 X2 g acc
      = joinChunk acc
          (View.readAt (Elt Ideal) arg1.view (Rect.unit (s := S1x64x66x66) (k0_off53 g) S1x8x8x64.size (Facts₀.k0_off53_inb g)).toLoadRect X1)
          (View.readAt (Elt Ideal) arg2.view (Rect.unit (s := S64x64x3x3) (k0_off54 g) S64x8x1x1.size (Facts₀.k0_off54_inb g)).toLoadRect X2) := by
  unfold tripR_k0_t27 trip_k0_t27
  rfl

/-- Loop 27 as a value: after its eight trips the carried tile is its start joined with tap (2, 2) at rows 16…23. -/
theorem loop_27 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t27 (F := Ideal) Variants.none c none i arg1 harg1 arg2 harg2 arg3 harg3 ve we (harg1.unread x0) (harg2.unread x1) init 8 (ix3 o r w)
      = max (init (ix3 o r w)) (Cert.MaxPlus.tap (B := 1) x0 x1 2 2 0 o (⟨8 * (2 : Fin 8).val + r.val, by have := r.isLt; have := (2 : Fin 8).isLt; omega⟩ : Fin 64) w) :=
  tap_loop harg1 harg2 x0 x1 (st_k0_t27 (F := Ideal) Variants.none c none i arg1 harg1 arg2 harg2 arg3 harg3 ve we (harg1.unread x0) (harg2.unread x1) init)
    (fun g => k0_off53 g) (fun g => k0_off54 g) (fun g => Facts₀.k0_off53_inb g) (fun g => Facts₀.k0_off54_inb g)
    2 2 2 18 2 2 2 rfl rfl rfl rfl (fun g => Gen.k0_off53_eq g) (fun g => Gen.k0_off54_eq g)
    (fun g => (st_k0_t27_succ (F := Ideal) Variants.none c none i arg1 harg1 arg2 harg2 arg3 harg3 ve we (harg1.unread x0) (harg2.unread x1) init g).trans
      (trip_27 c i arg1 harg1 arg2 harg2 arg3 harg3 ve we (harg1.unread x0) (harg2.unread x1) g _)) o r w

end Cert.KernelTrip

end
-- ==== Proof.LoopTable3.lean ====
/- Row tile 3 of the output block (rows 24 … 31): its nine taps are the kernel body's channel loops 28 … 36, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 28: row tile 3, tap (0, 0). One trip is the chunk join of the two blocks it loads. -/
theorem trip_28 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t28_loop.trips) (acc : FVec Ideal S64x8x64 .f32) :
    tripR_k0_t28 (F := Ideal) Variants.none c none i arg1 harg1 arg2 harg2 arg3 harg3 ve we X1 X2 g acc
      = joinChunk acc
          (View.readAt (Elt Ideal) arg1.view (Rect.unit (s := S1x64x66x66) (k0_off55 g) S1x8x8x64.size (Facts₀.k0_off55_inb g)).toLoadRect X1)
          (View.readAt (Elt Ideal) arg2.view (Rect.unit (s := S64x64x3x3) (k0_off56 g) S64x8x1x1.size (Facts₀.k0_off56_inb g)).toLoadRect X2) := by
  unfold tripR_k0_t28 trip_k0_t28
  rfl

/-- Loop 28 as a value: after its eight trips the carried tile is its start joined with tap (0, 0) at rows 24…31. -/
theorem loop_28 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t28 (F := Ideal) Variants.none c none i arg1 harg1 arg2 harg2 arg3 harg3 ve we (harg1.unread x0) (harg2.unread x1) init 8 (ix3 o r w)
      = max (init (ix3 o r w)) (Cert.MaxPlus.tap (B := 1) x0 x1 0 0 0 o (⟨8 * (3 : Fin 8).val + r.val, by have := r.isLt; have := (3 : Fin 8).isLt; omega⟩ : Fin 64) w) :=
  tap_loop harg1 harg2 x0 x1 (st_k0_t28 (F := Ideal) Variants.none c none i arg1 harg1 arg2 harg2 arg3 harg3 ve we (harg1.unread x0) (harg2.unread x1) init)
    (fun g => k0_off55 g) (fun g => k0_off56 g) (fun g => Facts₀.k0_off55_inb g) (fun g => Facts₀.k0_off56_inb g)
    3 0 0 24 0 0 0 rfl rfl rfl rfl (fun g => Gen.k0_off55_eq g) (fun g => Gen.k0_off56_eq g)
    (fun g => (st_k0_t28_succ (F := Ideal) Variants.none c none i arg1 harg1 arg2 harg2 arg3 harg3 ve we (harg1.unread x0) (harg2.unread x1) init g).trans
      (trip_28 c i arg1 harg1 arg2 harg2 arg3 harg3 ve we (harg1.unread x0) (harg2.unread x1) g _)) o r w

/-- Loop 29: row tile 3, tap (0, 1). One trip is the chunk join of the two blocks it loads. -/
theorem trip_29 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t29_loop.trips) (acc : FVec Ideal S64x8x64 .f32) :
    tripR_k0_t29 (F := Ideal) Variants.none c none i arg1 harg1 arg2 harg2 arg3 harg3 ve we X1 X2 g acc
      = joinChunk acc
          (View.readAt (Elt Ideal) arg1.view (Rect.unit (s := S1x64x66x66) (k0_off57 g) S1x8x8x64.size (Facts₀.k0_off57_inb g)).toLoadRect X1)
          (View.readAt (Elt Ideal) arg2.view (Rect.unit (s := S64x64x3x3) (k0_off58 g) S64x8x1x1.size (Facts₀.k0_off58_inb g)).toLoadRect X2) := by
  unfold tripR_k0_t29 trip_k0_t29
  rfl

/-- Loop 29 as a value: after its eight trips the carried tile is its start joined with tap (0, 1) at rows 24…31. -/
theorem loop_29 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t29 (F := Ideal) Variants.none c none i arg1 harg1 arg2 harg2 arg3 harg3 ve we (harg1.unread x0) (harg2.unread x1) init 8 (ix3 o r w)
      = max (init (ix3 o r w)) (Cert.MaxPlus.tap (B := 1) x0 x1 0 1 0 o (⟨8 * (3 : Fin 8).val + r.val, by have := r.isLt; have := (3 : Fin 8).isLt; omega⟩ : Fin 64) w) :=
  tap_loop harg1 harg2 x0 x1 (st_k0_t29 (F := Ideal) Variants.none c none i arg1 harg1 arg2 harg2 arg3 harg3 ve we (harg1.unread x0) (harg2.unread x1) init)
    (fun g => k0_off57 g) (fun g => k0_off58 g) (fun g => Facts₀.k0_off57_inb g) (fun g => Facts₀.k0_off58_inb g)
    3 0 1 24 1 0 1 rfl rfl rfl rfl (fun g => Gen.k0_off57_eq g) (fun g => Gen.k0_off58_eq g)
    (fun g => (st_k0_t29_succ (F := Ideal) Variants.none c none i arg1 harg1 arg2 harg2 arg3 harg3 ve we (harg1.unread x0) (harg2.unread x1) init g).trans
      (trip_29 c i arg1 harg1 arg2 harg2 arg3 harg3 ve we (harg1.unread x0) (harg2.unread x1) g _)) o r w

/-- Loop 30: row tile 3, tap (0, 2). One trip is the chunk join of the two blocks it loads. -/
theorem trip_30 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t30_loop.trips) (acc : FVec Ideal S64x8x64 .f32) :
    tripR_k0_t30 (F := Ideal) Variants.none c none i arg1 harg1 arg2 harg2 arg3 harg3 ve we X1 X2 g acc
      = joinChunk acc
          (View.readAt (Elt Ideal) arg1.view (Rect.unit (s := S1x64x66x66) (k0_off59 g) S1x8x8x64.size (Facts₀.k0_off59_inb g)).toLoadRect X1)
          (View.readAt (Elt Ideal) arg2.view (Rect.unit (s := S64x64x3x3) (k0_off60 g) S64x8x1x1.size (Facts₀.k0_off60_inb g)).toLoadRect X2) := by
  unfold tripR_k0_t30 trip_k0_t30
  rfl

/-- Loop 30 as a value: after its eight trips the carried tile is its start joined with tap (0, 2) at rows 24…31. -/
theorem loop_30 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t30 (F := Ideal) Variants.none c none i arg1 harg1 arg2 harg2 arg3 harg3 ve we (harg1.unread x0) (harg2.unread x1) init 8 (ix3 o r w)
      = max (init (ix3 o r w)) (Cert.MaxPlus.tap (B := 1) x0 x1 0 2 0 o (⟨8 * (3 : Fin 8).val + r.val, by have := r.isLt; have := (3 : Fin 8).isLt; omega⟩ : Fin 64) w) :=
  tap_loop harg1 harg2 x0 x1 (st_k0_t30 (F := Ideal) Variants.none c none i arg1 harg1 arg2 harg2 arg3 harg3 ve we (harg1.unread x0) (harg2.unread x1) init)
    (fun g => k0_off59 g) (fun g => k0_off60 g) (fun g => Facts₀.k0_off59_inb g) (fun g => Facts₀.k0_off60_inb g)
    3 0 2 24 2 0 2 rfl rfl rfl rfl (fun g => Gen.k0_off59_eq g) (fun g => Gen.k0_off60_eq g)
    (fun g => (st_k0_t30_succ (F := Ideal) Variants.none c none i arg1 harg1 arg2 harg2 arg3 harg3 ve we (harg1.unread x0) (harg2.unread x1) init g).trans
      (trip_30 c i arg1 harg1 arg2 harg2 arg3 harg3 ve we (harg1.unread x0) (harg2.unread x1) g _)) o r w

/-- Loop 31: row tile 3, tap (1, 0). One trip is the chunk join of the two blocks it loads. -/
theorem trip_31 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t31_loop.trips) (acc : FVec Ideal S64x8x64 .f32) :
    tripR_k0_t31 (F := Ideal) Variants.none c none i arg1 harg1 arg2 harg2 arg3 harg3 ve we X1 X2 g acc
      = joinChunk acc
          (View.readAt (Elt Ideal) arg1.view (Rect.unit (s := S1x64x66x66) (k0_off61 g) S1x8x8x64.size (Facts₀.k0_off61_inb g)).toLoadRect X1)
          (View.readAt (Elt Ideal) arg2.view (Rect.unit (s := S64x64x3x3) (k0_off62 g) S64x8x1x1.size (Facts₀.k0_off62_inb g)).toLoadRect X2) := by
  unfold tripR_k0_t31 trip_k0_t31
  rfl

/-- Loop 31 as a value: after its eight trips the carried tile is its start joined with tap (1, 0) at rows 24…31. -/
theorem loop_31 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t31 (F := Ideal) Variants.none c none i arg1 harg1 arg2 harg2 arg3 harg3 ve we (harg1.unread x0) (harg2.unread x1) init 8 (ix3 o r w)
      = max (init (ix3 o r w)) (Cert.MaxPlus.tap (B := 1) x0 x1 1 0 0 o (⟨8 * (3 : Fin 8).val + r.val, by have := r.isLt; have := (3 : Fin 8).isLt; omega⟩ : Fin 64) w) :=
  tap_loop harg1 harg2 x0 x1 (st_k0_t31 (F := Ideal) Variants.none c none i arg1 harg1 arg2 harg2 arg3 harg3 ve we (harg1.unread x0) (harg2.unread x1) init)
    (fun g => k0_off61 g) (fun g => k0_off62 g) (fun g => Facts₀.k0_off61_inb g) (fun g => Facts₀.k0_off62_inb g)
    3 1 0 25 0 1 0 rfl rfl rfl rfl (fun g => Gen.k0_off61_eq g) (fun g => Gen.k0_off62_eq g)
    (fun g => (st_k0_t31_succ (F := Ideal) Variants.none c none i arg1 harg1 arg2 harg2 arg3 harg3 ve we (harg1.unread x0) (harg2.unread x1) init g).trans
      (trip_31 c i arg1 harg1 arg2 harg2 arg3 harg3 ve we (harg1.unread x0) (harg2.unread x1) g _)) o r w

/-- Loop 32: row tile 3, tap (1, 1). One trip is the chunk join of the two blocks it loads. -/
theorem trip_32 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t32_loop.trips) (acc : FVec Ideal S64x8x64 .f32) :
    tripR_k0_t32 (F := Ideal) Variants.none c none i arg1 harg1 arg2 harg2 arg3 harg3 ve we X1 X2 g acc
      = joinChunk acc
          (View.readAt (Elt Ideal) arg1.view (Rect.unit (s := S1x64x66x66) (k0_off63 g) S1x8x8x64.size (Facts₀.k0_off63_inb g)).toLoadRect X1)
          (View.readAt (Elt Ideal) arg2.view (Rect.unit (s := S64x64x3x3) (k0_off64 g) S64x8x1x1.size (Facts₀.k0_off64_inb g)).toLoadRect X2) := by
  unfold tripR_k0_t32 trip_k0_t32
  rfl

/-- Loop 32 as a value: after its eight trips the carried tile is its start joined with tap (1, 1) at rows 24…31. -/
theorem loop_32 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t32 (F := Ideal) Variants.none c none i arg1 harg1 arg2 harg2 arg3 harg3 ve we (harg1.unread x0) (harg2.unread x1) init 8 (ix3 o r w)
      = max (init (ix3 o r w)) (Cert.MaxPlus.tap (B := 1) x0 x1 1 1 0 o (⟨8 * (3 : Fin 8).val + r.val, by have := r.isLt; have := (3 : Fin 8).isLt; omega⟩ : Fin 64) w) :=
  tap_loop harg1 harg2 x0 x1 (st_k0_t32 (F := Ideal) Variants.none c none i arg1 harg1 arg2 harg2 arg3 harg3 ve we (harg1.unread x0) (harg2.unread x1) init)
    (fun g => k0_off63 g) (fun g => k0_off64 g) (fun g => Facts₀.k0_off63_inb g) (fun g => Facts₀.k0_off64_inb g)
    3 1 1 25 1 1 1 rfl rfl rfl rfl (fun g => Gen.k0_off63_eq g) (fun g => Gen.k0_off64_eq g)
    (fun g => (st_k0_t32_succ (F := Ideal) Variants.none c none i arg1 harg1 arg2 harg2 arg3 harg3 ve we (harg1.unread x0) (harg2.unread x1) init g).trans
      (trip_32 c i arg1 harg1 arg2 harg2 arg3 harg3 ve we (harg1.unread x0) (harg2.unread x1) g _)) o r w

/-- Loop 33: row tile 3, tap (1, 2). One trip is the chunk join of the two blocks it loads. -/
theorem trip_33 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t33_loop.trips) (acc : FVec Ideal S64x8x64 .f32) :
    tripR_k0_t33 (F := Ideal) Variants.none c none i arg1 harg1 arg2 harg2 arg3 harg3 ve we X1 X2 g acc
      = joinChunk acc
          (View.readAt (Elt Ideal) arg1.view (Rect.unit (s := S1x64x66x66) (k0_off65 g) S1x8x8x64.size (Facts₀.k0_off65_inb g)).toLoadRect X1)
          (View.readAt (Elt Ideal) arg2.view (Rect.unit (s := S64x64x3x3) (k0_off66 g) S64x8x1x1.size (Facts₀.k0_off66_inb g)).toLoadRect X2) := by
  unfold tripR_k0_t33 trip_k0_t33
  rfl

/-- Loop 33 as a value: after its eight trips the carried tile is its start joined with tap (1, 2) at rows 24…31. -/
theorem loop_33 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t33 (F := Ideal) Variants.none c none i arg1 harg1 arg2 harg2 arg3 harg3 ve we (harg1.unread x0) (harg2.unread x1) init 8 (ix3 o r w)
      = max (init (ix3 o r w)) (Cert.MaxPlus.tap (B := 1) x0 x1 1 2 0 o (⟨8 * (3 : Fin 8).val + r.val, by have := r.isLt; have := (3 : Fin 8).isLt; omega⟩ : Fin 64) w) :=
  tap_loop harg1 harg2 x0 x1 (st_k0_t33 (F := Ideal) Variants.none c none i arg1 harg1 arg2 harg2 arg3 harg3 ve we (harg1.unread x0) (harg2.unread x1) init)
    (fun g => k0_off65 g) (fun g => k0_off66 g) (fun g => Facts₀.k0_off65_inb g) (fun g => Facts₀.k0_off66_inb g)
    3 1 2 25 2 1 2 rfl rfl rfl rfl (fun g => Gen.k0_off65_eq g) (fun g => Gen.k0_off66_eq g)
    (fun g => (st_k0_t33_succ (F := Ideal) Variants.none c none i arg1 harg1 arg2 harg2 arg3 harg3 ve we (harg1.unread x0) (harg2.unread x1) init g).trans
      (trip_33 c i arg1 harg1 arg2 harg2 arg3 harg3 ve we (harg1.unread x0) (harg2.unread x1) g _)) o r w

/-- Loop 34: row tile 3, tap (2, 0). One trip is the chunk join of the two blocks it loads. -/
theorem trip_34 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t34_loop.trips) (acc : FVec Ideal S64x8x64 .f32) :
    tripR_k0_t34 (F := Ideal) Variants.none c none i arg1 harg1 arg2 harg2 arg3 harg3 ve we X1 X2 g acc
      = joinChunk acc
          (View.readAt (Elt Ideal) arg1.view (Rect.unit (s := S1x64x66x66) (k0_off67 g) S1x8x8x64.size (Facts₀.k0_off67_inb g)).toLoadRect X1)
          (View.readAt (Elt Ideal) arg2.view (Rect.unit (s := S64x64x3x3) (k0_off68 g) S64x8x1x1.size (Facts₀.k0_off68_inb g)).toLoadRect X2) := by
  unfold tripR_k0_t34 trip_k0_t34
  rfl

/-- Loop 34 as a value: after its eight trips the carried tile is its start joined with tap (2, 0) at rows 24…31. -/
theorem loop_34 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t34 (F := Ideal) Variants.none c none i arg1 harg1 arg2 harg2 arg3 harg3 ve we (harg1.unread x0) (harg2.unread x1) init 8 (ix3 o r w)
      = max (init (ix3 o r w)) (Cert.MaxPlus.tap (B := 1) x0 x1 2 0 0 o (⟨8 * (3 : Fin 8).val + r.val, by have := r.isLt; have := (3 : Fin 8).isLt; omega⟩ : Fin 64) w) :=
  tap_loop harg1 harg2 x0 x1 (st_k0_t34 (F := Ideal) Variants.none c none i arg1 harg1 arg2 harg2 arg3 harg3 ve we (harg1.unread x0) (harg2.unread x1) init)
    (fun g => k0_off67 g) (fun g => k0_off68 g) (fun g => Facts₀.k0_off67_inb g) (fun g => Facts₀.k0_off68_inb g)
    3 2 0 26 0 2 0 rfl rfl rfl rfl (fun g => Gen.k0_off67_eq g) (fun g => Gen.k0_off68_eq g)
    (fun g => (st_k0_t34_succ (F := Ideal) Variants.none c none i arg1 harg1 arg2 harg2 arg3 harg3 ve we (harg1.unread x0) (harg2.unread x1) init g).trans
      (trip_34 c i arg1 harg1 arg2 harg2 arg3 harg3 ve we (harg1.unread x0) (harg2.unread x1) g _)) o r w

/-- Loop 35: row tile 3, tap (2, 1). One trip is the chunk join of the two blocks it loads. -/
theorem trip_35 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t35_loop.trips) (acc : FVec Ideal S64x8x64 .f32) :
    tripR_k0_t35 (F := Ideal) Variants.none c none i arg1 harg1 arg2 harg2 arg3 harg3 ve we X1 X2 g acc
      = joinChunk acc
          (View.readAt (Elt Ideal) arg1.view (Rect.unit (s := S1x64x66x66) (k0_off69 g) S1x8x8x64.size (Facts₀.k0_off69_inb g)).toLoadRect X1)
          (View.readAt (Elt Ideal) arg2.view (Rect.unit (s := S64x64x3x3) (k0_off70 g) S64x8x1x1.size (Facts₀.k0_off70_inb g)).toLoadRect X2) := by
  unfold tripR_k0_t35 trip_k0_t35
  rfl

/-- Loop 35 as a value: after its eight trips the carried tile is its start joined with tap (2, 1) at rows 24…31. -/
theorem loop_35 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t35 (F := Ideal) Variants.none c none i arg1 harg1 arg2 harg2 arg3 harg3 ve we (harg1.unread x0) (harg2.unread x1) init 8 (ix3 o r w)
      = max (init (ix3 o r w)) (Cert.MaxPlus.tap (B := 1) x0 x1 2 1 0 o (⟨8 * (3 : Fin 8).val + r.val, by have := r.isLt; have := (3 : Fin 8).isLt; omega⟩ : Fin 64) w) :=
  tap_loop harg1 harg2 x0 x1 (st_k0_t35 (F := Ideal) Variants.none c none i arg1 harg1 arg2 harg2 arg3 harg3 ve we (harg1.unread x0) (harg2.unread x1) init)
    (fun g => k0_off69 g) (fun g => k0_off70 g) (fun g => Facts₀.k0_off69_inb g) (fun g => Facts₀.k0_off70_inb g)
    3 2 1 26 1 2 1 rfl rfl rfl rfl (fun g => Gen.k0_off69_eq g) (fun g => Gen.k0_off70_eq g)
    (fun g => (st_k0_t35_succ (F := Ideal) Variants.none c none i arg1 harg1 arg2 harg2 arg3 harg3 ve we (harg1.unread x0) (harg2.unread x1) init g).trans
      (trip_35 c i arg1 harg1 arg2 harg2 arg3 harg3 ve we (harg1.unread x0) (harg2.unread x1) g _)) o r w

/-- Loop 36: row tile 3, tap (2, 2). One trip is the chunk join of the two blocks it loads. -/
theorem trip_36 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t36_loop.trips) (acc : FVec Ideal S64x8x64 .f32) :
    tripR_k0_t36 (F := Ideal) Variants.none c none i arg1 harg1 arg2 harg2 arg3 harg3 ve we X1 X2 g acc
      = joinChunk acc
          (View.readAt (Elt Ideal) arg1.view (Rect.unit (s := S1x64x66x66) (k0_off71 g) S1x8x8x64.size (Facts₀.k0_off71_inb g)).toLoadRect X1)
          (View.readAt (Elt Ideal) arg2.view (Rect.unit (s := S64x64x3x3) (k0_off72 g) S64x8x1x1.size (Facts₀.k0_off72_inb g)).toLoadRect X2) := by
  unfold tripR_k0_t36 trip_k0_t36
  rfl

/-- Loop 36 as a value: after its eight trips the carried tile is its start joined with tap (2, 2) at rows 24…31. -/
theorem loop_36 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t36 (F := Ideal) Variants.none c none i arg1 harg1 arg2 harg2 arg3 harg3 ve we (harg1.unread x0) (harg2.unread x1) init 8 (ix3 o r w)
      = max (init (ix3 o r w)) (Cert.MaxPlus.tap (B := 1) x0 x1 2 2 0 o (⟨8 * (3 : Fin 8).val + r.val, by have := r.isLt; have := (3 : Fin 8).isLt; omega⟩ : Fin 64) w) :=
  tap_loop harg1 harg2 x0 x1 (st_k0_t36 (F := Ideal) Variants.none c none i arg1 harg1 arg2 harg2 arg3 harg3 ve we (harg1.unread x0) (harg2.unread x1) init)
    (fun g => k0_off71 g) (fun g => k0_off72 g) (fun g => Facts₀.k0_off71_inb g) (fun g => Facts₀.k0_off72_inb g)
    3 2 2 26 2 2 2 rfl rfl rfl rfl (fun g => Gen.k0_off71_eq g) (fun g => Gen.k0_off72_eq g)
    (fun g => (st_k0_t36_succ (F := Ideal) Variants.none c none i arg1 harg1 arg2 harg2 arg3 harg3 ve we (harg1.unread x0) (harg2.unread x1) init g).trans
      (trip_36 c i arg1 harg1 arg2 harg2 arg3 harg3 ve we (harg1.unread x0) (harg2.unread x1) g _)) o r w

end Cert.KernelTrip

end
-- ==== Proof.LoopTable4.lean ====
/- Row tile 4 of the output block (rows 32 … 39): its nine taps are the kernel body's channel loops 37 … 45, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 37: row tile 4, tap (0, 0). One trip is the chunk join of the two blocks it loads. -/
theorem trip_37 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t37_loop.trips) (acc : FVec Ideal S64x8x64 .f32) :
    tripR_k0_t37 (F := Ideal) Variants.none c none i arg1 harg1 arg2 harg2 arg3 harg3 ve we X1 X2 g acc
      = joinChunk acc
          (View.readAt (Elt Ideal) arg1.view (Rect.unit (s := S1x64x66x66) (k0_off73 g) S1x8x8x64.size (Facts₀.k0_off73_inb g)).toLoadRect X1)
          (View.readAt (Elt Ideal) arg2.view (Rect.unit (s := S64x64x3x3) (k0_off74 g) S64x8x1x1.size (Facts₀.k0_off74_inb g)).toLoadRect X2) := by
  unfold tripR_k0_t37 trip_k0_t37
  rfl

/-- Loop 37 as a value: after its eight trips the carried tile is its start joined with tap (0, 0) at rows 32…39. -/
theorem loop_37 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t37 (F := Ideal) Variants.none c none i arg1 harg1 arg2 harg2 arg3 harg3 ve we (harg1.unread x0) (harg2.unread x1) init 8 (ix3 o r w)
      = max (init (ix3 o r w)) (Cert.MaxPlus.tap (B := 1) x0 x1 0 0 0 o (⟨8 * (4 : Fin 8).val + r.val, by have := r.isLt; have := (4 : Fin 8).isLt; omega⟩ : Fin 64) w) :=
  tap_loop harg1 harg2 x0 x1 (st_k0_t37 (F := Ideal) Variants.none c none i arg1 harg1 arg2 harg2 arg3 harg3 ve we (harg1.unread x0) (harg2.unread x1) init)
    (fun g => k0_off73 g) (fun g => k0_off74 g) (fun g => Facts₀.k0_off73_inb g) (fun g => Facts₀.k0_off74_inb g)
    4 0 0 32 0 0 0 rfl rfl rfl rfl (fun g => Gen.k0_off73_eq g) (fun g => Gen.k0_off74_eq g)
    (fun g => (st_k0_t37_succ (F := Ideal) Variants.none c none i arg1 harg1 arg2 harg2 arg3 harg3 ve we (harg1.unread x0) (harg2.unread x1) init g).trans
      (trip_37 c i arg1 harg1 arg2 harg2 arg3 harg3 ve we (harg1.unread x0) (harg2.unread x1) g _)) o r w

/-- Loop 38: row tile 4, tap (0, 1). One trip is the chunk join of the two blocks it loads. -/
theorem trip_38 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t38_loop.trips) (acc : FVec Ideal S64x8x64 .f32) :
    tripR_k0_t38 (F := Ideal) Variants.none c none i arg1 harg1 arg2 harg2 arg3 harg3 ve we X1 X2 g acc
      = joinChunk acc
          (View.readAt (Elt Ideal) arg1.view (Rect.unit (s := S1x64x66x66) (k0_off75 g) S1x8x8x64.size (Facts₀.k0_off75_inb g)).toLoadRect X1)
          (View.readAt (Elt Ideal) arg2.view (Rect.unit (s := S64x64x3x3) (k0_off76 g) S64x8x1x1.size (Facts₀.k0_off76_inb g)).toLoadRect X2) := by
  unfold tripR_k0_t38 trip_k0_t38
  rfl

/-- Loop 38 as a value: after its eight trips the carried tile is its start joined with tap (0, 1) at rows 32…39. -/
theorem loop_38 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t38 (F := Ideal) Variants.none c none i arg1 harg1 arg2 harg2 arg3 harg3 ve we (harg1.unread x0) (harg2.unread x1) init 8 (ix3 o r w)
      = max (init (ix3 o r w)) (Cert.MaxPlus.tap (B := 1) x0 x1 0 1 0 o (⟨8 * (4 : Fin 8).val + r.val, by have := r.isLt; have := (4 : Fin 8).isLt; omega⟩ : Fin 64) w) :=
  tap_loop harg1 harg2 x0 x1 (st_k0_t38 (F := Ideal) Variants.none c none i arg1 harg1 arg2 harg2 arg3 harg3 ve we (harg1.unread x0) (harg2.unread x1) init)
    (fun g => k0_off75 g) (fun g => k0_off76 g) (fun g => Facts₀.k0_off75_inb g) (fun g => Facts₀.k0_off76_inb g)
    4 0 1 32 1 0 1 rfl rfl rfl rfl (fun g => Gen.k0_off75_eq g) (fun g => Gen.k0_off76_eq g)
    (fun g => (st_k0_t38_succ (F := Ideal) Variants.none c none i arg1 harg1 arg2 harg2 arg3 harg3 ve we (harg1.unread x0) (harg2.unread x1) init g).trans
      (trip_38 c i arg1 harg1 arg2 harg2 arg3 harg3 ve we (harg1.unread x0) (harg2.unread x1) g _)) o r w

/-- Loop 39: row tile 4, tap (0, 2). One trip is the chunk join of the two blocks it loads. -/
theorem trip_39 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t39_loop.trips) (acc : FVec Ideal S64x8x64 .f32) :
    tripR_k0_t39 (F := Ideal) Variants.none c none i arg1 harg1 arg2 harg2 arg3 harg3 ve we X1 X2 g acc
      = joinChunk acc
          (View.readAt (Elt Ideal) arg1.view (Rect.unit (s := S1x64x66x66) (k0_off77 g) S1x8x8x64.size (Facts₀.k0_off77_inb g)).toLoadRect X1)
          (View.readAt (Elt Ideal) arg2.view (Rect.unit (s := S64x64x3x3) (k0_off78 g) S64x8x1x1.size (Facts₀.k0_off78_inb g)).toLoadRect X2) := by
  unfold tripR_k0_t39 trip_k0_t39
  rfl

/-- Loop 39 as a value: after its eight trips the carried tile is its start joined with tap (0, 2) at rows 32…39. -/
theorem loop_39 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t39 (F := Ideal) Variants.none c none i arg1 harg1 arg2 harg2 arg3 harg3 ve we (harg1.unread x0) (harg2.unread x1) init 8 (ix3 o r w)
      = max (init (ix3 o r w)) (Cert.MaxPlus.tap (B := 1) x0 x1 0 2 0 o (⟨8 * (4 : Fin 8).val + r.val, by have := r.isLt; have := (4 : Fin 8).isLt; omega⟩ : Fin 64) w) :=
  tap_loop harg1 harg2 x0 x1 (st_k0_t39 (F := Ideal) Variants.none c none i arg1 harg1 arg2 harg2 arg3 harg3 ve we (harg1.unread x0) (harg2.unread x1) init)
    (fun g => k0_off77 g) (fun g => k0_off78 g) (fun g => Facts₀.k0_off77_inb g) (fun g => Facts₀.k0_off78_inb g)
    4 0 2 32 2 0 2 rfl rfl rfl rfl (fun g => Gen.k0_off77_eq g) (fun g => Gen.k0_off78_eq g)
    (fun g => (st_k0_t39_succ (F := Ideal) Variants.none c none i arg1 harg1 arg2 harg2 arg3 harg3 ve we (harg1.unread x0) (harg2.unread x1) init g).trans
      (trip_39 c i arg1 harg1 arg2 harg2 arg3 harg3 ve we (harg1.unread x0) (harg2.unread x1) g _)) o r w

/-- Loop 40: row tile 4, tap (1, 0). One trip is the chunk join of the two blocks it loads. -/
theorem trip_40 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t40_loop.trips) (acc : FVec Ideal S64x8x64 .f32) :
    tripR_k0_t40 (F := Ideal) Variants.none c none i arg1 harg1 arg2 harg2 arg3 harg3 ve we X1 X2 g acc
      = joinChunk acc
          (View.readAt (Elt Ideal) arg1.view (Rect.unit (s := S1x64x66x66) (k0_off79 g) S1x8x8x64.size (Facts₀.k0_off79_inb g)).toLoadRect X1)
          (View.readAt (Elt Ideal) arg2.view (Rect.unit (s := S64x64x3x3) (k0_off80 g) S64x8x1x1.size (Facts₀.k0_off80_inb g)).toLoadRect X2) := by
  unfold tripR_k0_t40 trip_k0_t40
  rfl

/-- Loop 40 as a value: after its eight trips the carried tile is its start joined with tap (1, 0) at rows 32…39. -/
theorem loop_40 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t40 (F := Ideal) Variants.none c none i arg1 harg1 arg2 harg2 arg3 harg3 ve we (harg1.unread x0) (harg2.unread x1) init 8 (ix3 o r w)
      = max (init (ix3 o r w)) (Cert.MaxPlus.tap (B := 1) x0 x1 1 0 0 o (⟨8 * (4 : Fin 8).val + r.val, by have := r.isLt; have := (4 : Fin 8).isLt; omega⟩ : Fin 64) w) :=
  tap_loop harg1 harg2 x0 x1 (st_k0_t40 (F := Ideal) Variants.none c none i arg1 harg1 arg2 harg2 arg3 harg3 ve we (harg1.unread x0) (harg2.unread x1) init)
    (fun g => k0_off79 g) (fun g => k0_off80 g) (fun g => Facts₀.k0_off79_inb g) (fun g => Facts₀.k0_off80_inb g)
    4 1 0 33 0 1 0 rfl rfl rfl rfl (fun g => Gen.k0_off79_eq g) (fun g => Gen.k0_off80_eq g)
    (fun g => (st_k0_t40_succ (F := Ideal) Variants.none c none i arg1 harg1 arg2 harg2 arg3 harg3 ve we (harg1.unread x0) (harg2.unread x1) init g).trans
      (trip_40 c i arg1 harg1 arg2 harg2 arg3 harg3 ve we (harg1.unread x0) (harg2.unread x1) g _)) o r w

/-- Loop 41: row tile 4, tap (1, 1). One trip is the chunk join of the two blocks it loads. -/
theorem trip_41 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t41_loop.trips) (acc : FVec Ideal S64x8x64 .f32) :
    tripR_k0_t41 (F := Ideal) Variants.none c none i arg1 harg1 arg2 harg2 arg3 harg3 ve we X1 X2 g acc
      = joinChunk acc
          (View.readAt (Elt Ideal) arg1.view (Rect.unit (s := S1x64x66x66) (k0_off81 g) S1x8x8x64.size (Facts₀.k0_off81_inb g)).toLoadRect X1)
          (View.readAt (Elt Ideal) arg2.view (Rect.unit (s := S64x64x3x3) (k0_off82 g) S64x8x1x1.size (Facts₀.k0_off82_inb g)).toLoadRect X2) := by
  unfold tripR_k0_t41 trip_k0_t41
  rfl

/-- Loop 41 as a value: after its eight trips the carried tile is its start joined with tap (1, 1) at rows 32…39. -/
theorem loop_41 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t41 (F := Ideal) Variants.none c none i arg1 harg1 arg2 harg2 arg3 harg3 ve we (harg1.unread x0) (harg2.unread x1) init 8 (ix3 o r w)
      = max (init (ix3 o r w)) (Cert.MaxPlus.tap (B := 1) x0 x1 1 1 0 o (⟨8 * (4 : Fin 8).val + r.val, by have := r.isLt; have := (4 : Fin 8).isLt; omega⟩ : Fin 64) w) :=
  tap_loop harg1 harg2 x0 x1 (st_k0_t41 (F := Ideal) Variants.none c none i arg1 harg1 arg2 harg2 arg3 harg3 ve we (harg1.unread x0) (harg2.unread x1) init)
    (fun g => k0_off81 g) (fun g => k0_off82 g) (fun g => Facts₀.k0_off81_inb g) (fun g => Facts₀.k0_off82_inb g)
    4 1 1 33 1 1 1 rfl rfl rfl rfl (fun g => Gen.k0_off81_eq g) (fun g => Gen.k0_off82_eq g)
    (fun g => (st_k0_t41_succ (F := Ideal) Variants.none c none i arg1 harg1 arg2 harg2 arg3 harg3 ve we (harg1.unread x0) (harg2.unread x1) init g).trans
      (trip_41 c i arg1 harg1 arg2 harg2 arg3 harg3 ve we (harg1.unread x0) (harg2.unread x1) g _)) o r w

/-- Loop 42: row tile 4, tap (1, 2). One trip is the chunk join of the two blocks it loads. -/
theorem trip_42 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t42_loop.trips) (acc : FVec Ideal S64x8x64 .f32) :
    tripR_k0_t42 (F := Ideal) Variants.none c none i arg1 harg1 arg2 harg2 arg3 harg3 ve we X1 X2 g acc
      = joinChunk acc
          (View.readAt (Elt Ideal) arg1.view (Rect.unit (s := S1x64x66x66) (k0_off83 g) S1x8x8x64.size (Facts₀.k0_off83_inb g)).toLoadRect X1)
          (View.readAt (Elt Ideal) arg2.view (Rect.unit (s := S64x64x3x3) (k0_off84 g) S64x8x1x1.size (Facts₀.k0_off84_inb g)).toLoadRect X2) := by
  unfold tripR_k0_t42 trip_k0_t42
  rfl

/-- Loop 42 as a value: after its eight trips the carried tile is its start joined with tap (1, 2) at rows 32…39. -/
theorem loop_42 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t42 (F := Ideal) Variants.none c none i arg1 harg1 arg2 harg2 arg3 harg3 ve we (harg1.unread x0) (harg2.unread x1) init 8 (ix3 o r w)
      = max (init (ix3 o r w)) (Cert.MaxPlus.tap (B := 1) x0 x1 1 2 0 o (⟨8 * (4 : Fin 8).val + r.val, by have := r.isLt; have := (4 : Fin 8).isLt; omega⟩ : Fin 64) w) :=
  tap_loop harg1 harg2 x0 x1 (st_k0_t42 (F := Ideal) Variants.none c none i arg1 harg1 arg2 harg2 arg3 harg3 ve we (harg1.unread x0) (harg2.unread x1) init)
    (fun g => k0_off83 g) (fun g => k0_off84 g) (fun g => Facts₀.k0_off83_inb g) (fun g => Facts₀.k0_off84_inb g)
    4 1 2 33 2 1 2 rfl rfl rfl rfl (fun g => Gen.k0_off83_eq g) (fun g => Gen.k0_off84_eq g)
    (fun g => (st_k0_t42_succ (F := Ideal) Variants.none c none i arg1 harg1 arg2 harg2 arg3 harg3 ve we (harg1.unread x0) (harg2.unread x1) init g).trans
      (trip_42 c i arg1 harg1 arg2 harg2 arg3 harg3 ve we (harg1.unread x0) (harg2.unread x1) g _)) o r w

/-- Loop 43: row tile 4, tap (2, 0). One trip is the chunk join of the two blocks it loads. -/
theorem trip_43 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t43_loop.trips) (acc : FVec Ideal S64x8x64 .f32) :
    tripR_k0_t43 (F := Ideal) Variants.none c none i arg1 harg1 arg2 harg2 arg3 harg3 ve we X1 X2 g acc
      = joinChunk acc
          (View.readAt (Elt Ideal) arg1.view (Rect.unit (s := S1x64x66x66) (k0_off85 g) S1x8x8x64.size (Facts₀.k0_off85_inb g)).toLoadRect X1)
          (View.readAt (Elt Ideal) arg2.view (Rect.unit (s := S64x64x3x3) (k0_off86 g) S64x8x1x1.size (Facts₀.k0_off86_inb g)).toLoadRect X2) := by
  unfold tripR_k0_t43 trip_k0_t43
  rfl

/-- Loop 43 as a value: after its eight trips the carried tile is its start joined with tap (2, 0) at rows 32…39. -/
theorem loop_43 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t43 (F := Ideal) Variants.none c none i arg1 harg1 arg2 harg2 arg3 harg3 ve we (harg1.unread x0) (harg2.unread x1) init 8 (ix3 o r w)
      = max (init (ix3 o r w)) (Cert.MaxPlus.tap (B := 1) x0 x1 2 0 0 o (⟨8 * (4 : Fin 8).val + r.val, by have := r.isLt; have := (4 : Fin 8).isLt; omega⟩ : Fin 64) w) :=
  tap_loop harg1 harg2 x0 x1 (st_k0_t43 (F := Ideal) Variants.none c none i arg1 harg1 arg2 harg2 arg3 harg3 ve we (harg1.unread x0) (harg2.unread x1) init)
    (fun g => k0_off85 g) (fun g => k0_off86 g) (fun g => Facts₀.k0_off85_inb g) (fun g => Facts₀.k0_off86_inb g)
    4 2 0 34 0 2 0 rfl rfl rfl rfl (fun g => Gen.k0_off85_eq g) (fun g => Gen.k0_off86_eq g)
    (fun g => (st_k0_t43_succ (F := Ideal) Variants.none c none i arg1 harg1 arg2 harg2 arg3 harg3 ve we (harg1.unread x0) (harg2.unread x1) init g).trans
      (trip_43 c i arg1 harg1 arg2 harg2 arg3 harg3 ve we (harg1.unread x0) (harg2.unread x1) g _)) o r w

/-- Loop 44: row tile 4, tap (2, 1). One trip is the chunk join of the two blocks it loads. -/
theorem trip_44 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t44_loop.trips) (acc : FVec Ideal S64x8x64 .f32) :
    tripR_k0_t44 (F := Ideal) Variants.none c none i arg1 harg1 arg2 harg2 arg3 harg3 ve X1 X2 g acc
      = joinChunk acc
          (View.readAt (Elt Ideal) arg1.view (Rect.unit (s := S1x64x66x66) (k0_off87 g) S1x8x8x64.size (Facts₀.k0_off87_inb g)).toLoadRect X1)
          (View.readAt (Elt Ideal) arg2.view (Rect.unit (s := S64x64x3x3) (k0_off88 g) S64x8x1x1.size (Facts₀.k0_off88_inb g)).toLoadRect X2) := by
  unfold tripR_k0_t44 trip_k0_t44
  rfl

/-- Loop 44 as a value: after its eight trips the carried tile is its start joined with tap (2, 1) at rows 32…39. -/
theorem loop_44 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t44 (F := Ideal) Variants.none c none i arg1 harg1 arg2 harg2 arg3 harg3 ve (harg1.unread x0) (harg2.unread x1) init 8 (ix3 o r w)
      = max (init (ix3 o r w)) (Cert.MaxPlus.tap (B := 1) x0 x1 2 1 0 o (⟨8 * (4 : Fin 8).val + r.val, by have := r.isLt; have := (4 : Fin 8).isLt; omega⟩ : Fin 64) w) :=
  tap_loop harg1 harg2 x0 x1 (st_k0_t44 (F := Ideal) Variants.none c none i arg1 harg1 arg2 harg2 arg3 harg3 ve (harg1.unread x0) (harg2.unread x1) init)
    (fun g => k0_off87 g) (fun g => k0_off88 g) (fun g => Facts₀.k0_off87_inb g) (fun g => Facts₀.k0_off88_inb g)
    4 2 1 34 1 2 1 rfl rfl rfl rfl (fun g => Gen.k0_off87_eq g) (fun g => Gen.k0_off88_eq g)
    (fun g => (st_k0_t44_succ (F := Ideal) Variants.none c none i arg1 harg1 arg2 harg2 arg3 harg3 ve (harg1.unread x0) (harg2.unread x1) init g).trans
      (trip_44 c i arg1 harg1 arg2 harg2 arg3 harg3 ve (harg1.unread x0) (harg2.unread x1) g _)) o r w

/-- Loop 45: row tile 4, tap (2, 2). One trip is the chunk join of the two blocks it loads. -/
theorem trip_45 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t45_loop.trips) (acc : FVec Ideal S64x8x64 .f32) :
    tripR_k0_t45 (F := Ideal) Variants.none c none i arg1 harg1 arg2 harg2 arg3 harg3 ve X1 X2 g acc
      = joinChunk acc
          (View.readAt (Elt Ideal) arg1.view (Rect.unit (s := S1x64x66x66) (k0_off89 g) S1x8x8x64.size (Facts₀.k0_off89_inb g)).toLoadRect X1)
          (View.readAt (Elt Ideal) arg2.view (Rect.unit (s := S64x64x3x3) (k0_off90 g) S64x8x1x1.size (Facts₀.k0_off90_inb g)).toLoadRect X2) := by
  unfold tripR_k0_t45 trip_k0_t45
  rfl

/-- Loop 45 as a value: after its eight trips the carried tile is its start joined with tap (2, 2) at rows 32…39. -/
theorem loop_45 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t45 (F := Ideal) Variants.none c none i arg1 harg1 arg2 harg2 arg3 harg3 ve (harg1.unread x0) (harg2.unread x1) init 8 (ix3 o r w)
      = max (init (ix3 o r w)) (Cert.MaxPlus.tap (B := 1) x0 x1 2 2 0 o (⟨8 * (4 : Fin 8).val + r.val, by have := r.isLt; have := (4 : Fin 8).isLt; omega⟩ : Fin 64) w) :=
  tap_loop harg1 harg2 x0 x1 (st_k0_t45 (F := Ideal) Variants.none c none i arg1 harg1 arg2 harg2 arg3 harg3 ve (harg1.unread x0) (harg2.unread x1) init)
    (fun g => k0_off89 g) (fun g => k0_off90 g) (fun g => Facts₀.k0_off89_inb g) (fun g => Facts₀.k0_off90_inb g)
    4 2 2 34 2 2 2 rfl rfl rfl rfl (fun g => Gen.k0_off89_eq g) (fun g => Gen.k0_off90_eq g)
    (fun g => (st_k0_t45_succ (F := Ideal) Variants.none c none i arg1 harg1 arg2 harg2 arg3 harg3 ve (harg1.unread x0) (harg2.unread x1) init g).trans
      (trip_45 c i arg1 harg1 arg2 harg2 arg3 harg3 ve (harg1.unread x0) (harg2.unread x1) g _)) o r w

end Cert.KernelTrip

end
-- ==== Proof.LoopTable5.lean ====
/- Row tile 5 of the output block (rows 40 … 47): its nine taps are the kernel body's channel loops 46 … 54, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 46: row tile 5, tap (0, 0). One trip is the chunk join of the two blocks it loads. -/
theorem trip_46 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t46_loop.trips) (acc : FVec Ideal S64x8x64 .f32) :
    tripR_k0_t46 (F := Ideal) Variants.none c none i arg1 harg1 arg2 harg2 arg3 harg3 ve X1 X2 g acc
      = joinChunk acc
          (View.readAt (Elt Ideal) arg1.view (Rect.unit (s := S1x64x66x66) (k0_off91 g) S1x8x8x64.size (Facts₀.k0_off91_inb g)).toLoadRect X1)
          (View.readAt (Elt Ideal) arg2.view (Rect.unit (s := S64x64x3x3) (k0_off92 g) S64x8x1x1.size (Facts₀.k0_off92_inb g)).toLoadRect X2) := by
  unfold tripR_k0_t46 trip_k0_t46
  rfl

/-- Loop 46 as a value: after its eight trips the carried tile is its start joined with tap (0, 0) at rows 40…47. -/
theorem loop_46 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t46 (F := Ideal) Variants.none c none i arg1 harg1 arg2 harg2 arg3 harg3 ve (harg1.unread x0) (harg2.unread x1) init 8 (ix3 o r w)
      = max (init (ix3 o r w)) (Cert.MaxPlus.tap (B := 1) x0 x1 0 0 0 o (⟨8 * (5 : Fin 8).val + r.val, by have := r.isLt; have := (5 : Fin 8).isLt; omega⟩ : Fin 64) w) :=
  tap_loop harg1 harg2 x0 x1 (st_k0_t46 (F := Ideal) Variants.none c none i arg1 harg1 arg2 harg2 arg3 harg3 ve (harg1.unread x0) (harg2.unread x1) init)
    (fun g => k0_off91 g) (fun g => k0_off92 g) (fun g => Facts₀.k0_off91_inb g) (fun g => Facts₀.k0_off92_inb g)
    5 0 0 40 0 0 0 rfl rfl rfl rfl (fun g => Gen.k0_off91_eq g) (fun g => Gen.k0_off92_eq g)
    (fun g => (st_k0_t46_succ (F := Ideal) Variants.none c none i arg1 harg1 arg2 harg2 arg3 harg3 ve (harg1.unread x0) (harg2.unread x1) init g).trans
      (trip_46 c i arg1 harg1 arg2 harg2 arg3 harg3 ve (harg1.unread x0) (harg2.unread x1) g _)) o r w

/-- Loop 47: row tile 5, tap (0, 1). One trip is the chunk join of the two blocks it loads. -/
theorem trip_47 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t47_loop.trips) (acc : FVec Ideal S64x8x64 .f32) :
    tripR_k0_t47 (F := Ideal) Variants.none c none i arg1 harg1 arg2 harg2 arg3 harg3 ve X1 X2 g acc
      = joinChunk acc
          (View.readAt (Elt Ideal) arg1.view (Rect.unit (s := S1x64x66x66) (k0_off93 g) S1x8x8x64.size (Facts₀.k0_off93_inb g)).toLoadRect X1)
          (View.readAt (Elt Ideal) arg2.view (Rect.unit (s := S64x64x3x3) (k0_off94 g) S64x8x1x1.size (Facts₀.k0_off94_inb g)).toLoadRect X2) := by
  unfold tripR_k0_t47 trip_k0_t47
  rfl

/-- Loop 47 as a value: after its eight trips the carried tile is its start joined with tap (0, 1) at rows 40…47. -/
theorem loop_47 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t47 (F := Ideal) Variants.none c none i arg1 harg1 arg2 harg2 arg3 harg3 ve (harg1.unread x0) (harg2.unread x1) init 8 (ix3 o r w)
      = max (init (ix3 o r w)) (Cert.MaxPlus.tap (B := 1) x0 x1 0 1 0 o (⟨8 * (5 : Fin 8).val + r.val, by have := r.isLt; have := (5 : Fin 8).isLt; omega⟩ : Fin 64) w) :=
  tap_loop harg1 harg2 x0 x1 (st_k0_t47 (F := Ideal) Variants.none c none i arg1 harg1 arg2 harg2 arg3 harg3 ve (harg1.unread x0) (harg2.unread x1) init)
    (fun g => k0_off93 g) (fun g => k0_off94 g) (fun g => Facts₀.k0_off93_inb g) (fun g => Facts₀.k0_off94_inb g)
    5 0 1 40 1 0 1 rfl rfl rfl rfl (fun g => Gen.k0_off93_eq g) (fun g => Gen.k0_off94_eq g)
    (fun g => (st_k0_t47_succ (F := Ideal) Variants.none c none i arg1 harg1 arg2 harg2 arg3 harg3 ve (harg1.unread x0) (harg2.unread x1) init g).trans
      (trip_47 c i arg1 harg1 arg2 harg2 arg3 harg3 ve (harg1.unread x0) (harg2.unread x1) g _)) o r w

/-- Loop 48: row tile 5, tap (0, 2). One trip is the chunk join of the two blocks it loads. -/
theorem trip_48 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t48_loop.trips) (acc : FVec Ideal S64x8x64 .f32) :
    tripR_k0_t48 (F := Ideal) Variants.none c none i arg1 harg1 arg2 harg2 arg3 harg3 ve X1 X2 g acc
      = joinChunk acc
          (View.readAt (Elt Ideal) arg1.view (Rect.unit (s := S1x64x66x66) (k0_off95 g) S1x8x8x64.size (Facts₀.k0_off95_inb g)).toLoadRect X1)
          (View.readAt (Elt Ideal) arg2.view (Rect.unit (s := S64x64x3x3) (k0_off96 g) S64x8x1x1.size (Facts₀.k0_off96_inb g)).toLoadRect X2) := by
  unfold tripR_k0_t48 trip_k0_t48
  rfl

/-- Loop 48 as a value: after its eight trips the carried tile is its start joined with tap (0, 2) at rows 40…47. -/
theorem loop_48 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t48 (F := Ideal) Variants.none c none i arg1 harg1 arg2 harg2 arg3 harg3 ve (harg1.unread x0) (harg2.unread x1) init 8 (ix3 o r w)
      = max (init (ix3 o r w)) (Cert.MaxPlus.tap (B := 1) x0 x1 0 2 0 o (⟨8 * (5 : Fin 8).val + r.val, by have := r.isLt; have := (5 : Fin 8).isLt; omega⟩ : Fin 64) w) :=
  tap_loop harg1 harg2 x0 x1 (st_k0_t48 (F := Ideal) Variants.none c none i arg1 harg1 arg2 harg2 arg3 harg3 ve (harg1.unread x0) (harg2.unread x1) init)
    (fun g => k0_off95 g) (fun g => k0_off96 g) (fun g => Facts₀.k0_off95_inb g) (fun g => Facts₀.k0_off96_inb g)
    5 0 2 40 2 0 2 rfl rfl rfl rfl (fun g => Gen.k0_off95_eq g) (fun g => Gen.k0_off96_eq g)
    (fun g => (st_k0_t48_succ (F := Ideal) Variants.none c none i arg1 harg1 arg2 harg2 arg3 harg3 ve (harg1.unread x0) (harg2.unread x1) init g).trans
      (trip_48 c i arg1 harg1 arg2 harg2 arg3 harg3 ve (harg1.unread x0) (harg2.unread x1) g _)) o r w

/-- Loop 49: row tile 5, tap (1, 0). One trip is the chunk join of the two blocks it loads. -/
theorem trip_49 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t49_loop.trips) (acc : FVec Ideal S64x8x64 .f32) :
    tripR_k0_t49 (F := Ideal) Variants.none c none i arg1 harg1 arg2 harg2 arg3 harg3 ve X1 X2 g acc
      = joinChunk acc
          (View.readAt (Elt Ideal) arg1.view (Rect.unit (s := S1x64x66x66) (k0_off97 g) S1x8x8x64.size (Facts₀.k0_off97_inb g)).toLoadRect X1)
          (View.readAt (Elt Ideal) arg2.view (Rect.unit (s := S64x64x3x3) (k0_off98 g) S64x8x1x1.size (Facts₀.k0_off98_inb g)).toLoadRect X2) := by
  unfold tripR_k0_t49 trip_k0_t49
  rfl

/-- Loop 49 as a value: after its eight trips the carried tile is its start joined with tap (1, 0) at rows 40…47. -/
theorem loop_49 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t49 (F := Ideal) Variants.none c none i arg1 harg1 arg2 harg2 arg3 harg3 ve (harg1.unread x0) (harg2.unread x1) init 8 (ix3 o r w)
      = max (init (ix3 o r w)) (Cert.MaxPlus.tap (B := 1) x0 x1 1 0 0 o (⟨8 * (5 : Fin 8).val + r.val, by have := r.isLt; have := (5 : Fin 8).isLt; omega⟩ : Fin 64) w) :=
  tap_loop harg1 harg2 x0 x1 (st_k0_t49 (F := Ideal) Variants.none c none i arg1 harg1 arg2 harg2 arg3 harg3 ve (harg1.unread x0) (harg2.unread x1) init)
    (fun g => k0_off97 g) (fun g => k0_off98 g) (fun g => Facts₀.k0_off97_inb g) (fun g => Facts₀.k0_off98_inb g)
    5 1 0 41 0 1 0 rfl rfl rfl rfl (fun g => Gen.k0_off97_eq g) (fun g => Gen.k0_off98_eq g)
    (fun g => (st_k0_t49_succ (F := Ideal) Variants.none c none i arg1 harg1 arg2 harg2 arg3 harg3 ve (harg1.unread x0) (harg2.unread x1) init g).trans
      (trip_49 c i arg1 harg1 arg2 harg2 arg3 harg3 ve (harg1.unread x0) (harg2.unread x1) g _)) o r w

/-- Loop 50: row tile 5, tap (1, 1). One trip is the chunk join of the two blocks it loads. -/
theorem trip_50 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t50_loop.trips) (acc : FVec Ideal S64x8x64 .f32) :
    tripR_k0_t50 (F := Ideal) Variants.none c none i arg1 harg1 arg2 harg2 arg3 harg3 ve X1 X2 g acc
      = joinChunk acc
          (View.readAt (Elt Ideal) arg1.view (Rect.unit (s := S1x64x66x66) (k0_off99 g) S1x8x8x64.size (Facts₀.k0_off99_inb g)).toLoadRect X1)
          (View.readAt (Elt Ideal) arg2.view (Rect.unit (s := S64x64x3x3) (k0_off100 g) S64x8x1x1.size (Facts₀.k0_off100_inb g)).toLoadRect X2) := by
  unfold tripR_k0_t50 trip_k0_t50
  rfl

/-- Loop 50 as a value: after its eight trips the carried tile is its start joined with tap (1, 1) at rows 40…47. -/
theorem loop_50 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t50 (F := Ideal) Variants.none c none i arg1 harg1 arg2 harg2 arg3 harg3 ve (harg1.unread x0) (harg2.unread x1) init 8 (ix3 o r w)
      = max (init (ix3 o r w)) (Cert.MaxPlus.tap (B := 1) x0 x1 1 1 0 o (⟨8 * (5 : Fin 8).val + r.val, by have := r.isLt; have := (5 : Fin 8).isLt; omega⟩ : Fin 64) w) :=
  tap_loop harg1 harg2 x0 x1 (st_k0_t50 (F := Ideal) Variants.none c none i arg1 harg1 arg2 harg2 arg3 harg3 ve (harg1.unread x0) (harg2.unread x1) init)
    (fun g => k0_off99 g) (fun g => k0_off100 g) (fun g => Facts₀.k0_off99_inb g) (fun g => Facts₀.k0_off100_inb g)
    5 1 1 41 1 1 1 rfl rfl rfl rfl (fun g => Gen.k0_off99_eq g) (fun g => Gen.k0_off100_eq g)
    (fun g => (st_k0_t50_succ (F := Ideal) Variants.none c none i arg1 harg1 arg2 harg2 arg3 harg3 ve (harg1.unread x0) (harg2.unread x1) init g).trans
      (trip_50 c i arg1 harg1 arg2 harg2 arg3 harg3 ve (harg1.unread x0) (harg2.unread x1) g _)) o r w

/-- Loop 51: row tile 5, tap (1, 2). One trip is the chunk join of the two blocks it loads. -/
theorem trip_51 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (X1 : BufTy.Contents (Elt Ideal) arg1.view.ty) (X2 : BufTy.Contents (Elt Ideal) arg2.view.ty) (g : Fin k0_t51_loop.trips) (acc : FVec Ideal S64x8x64 .f32) :
    tripR_k0_t51 (F := Ideal) Variants.none c none i arg1 harg1 arg2 harg2 arg3 harg3 ve X1 X2 g acc
      = joinChunk acc
          (View.readAt (Elt Ideal) arg1.view (Rect.unit (s := S1x64x66x66) (k0_off101 g) S1x8x8x64.size (Facts₀.k0_off101_inb g)).toLoadRect X1)
          (View.readAt (Elt Ideal) arg2.view (Rect.unit (s := S64x64x3x3) (k0_off102 g) S64x8x1x1.size (Facts₀.k0_off102_inb g)).toLoadRect X2) := by
  unfold tripR_k0_t51 trip_k0_t51
  rfl

/-- Loop 51 as a value: after its eight trips the carried tile is its start joined with tap (1, 2) at rows 40…47. -/
theorem loop_51 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32)
    (x0 : FVec Ideal S1x64x66x66 .f32) (x1 : FVec Ideal S64x64x3x3 .f32) (init : FVec Ideal S64x8x64 .f32) (o : Fin 64) (r : Fin 8) (w : Fin 64) :
    st_k0_t51 (F := Ideal) Variants.none c none i arg1 harg1 arg2 harg2 arg3 harg3 ve (harg1.unread x0) (harg2.unread x1) init 8 (ix3 o r w)
      = max (init (ix3 o r w)) (Cert.MaxPlus.tap (B := 1) x0 x1 1 2 0 o (⟨8 * (5 : Fin 8).val + r.val, by have := r.isLt; have := (5 : Fin 8).isLt; omega⟩ : Fin 64) w) :=
  tap_loop harg1 harg2 x0 x1 (st_k0_t51 (F := Ideal) Variants.none c none i arg1 harg1 arg2 harg2 arg3 harg3 ve (harg1.unread x0) (harg2.unread x1) init)
    (fun g => k0_off101 g) (fun g => k0_off102 g) (fun g => Facts₀.k0_off101_inb g) (fun g => Facts₀.k0_off102_inb g)
    5 1 2 41 2 1 2 rfl rfl rfl rfl (fun g => Gen.k0_off101_eq g) (fun g => Gen.k0_off102_eq g)
    (fun g => (st_k0_t51_succ (F := Ideal) Variants.none c none i arg1 harg1 arg2 harg2 arg3 harg3 ve (harg1.unread x0) (harg2.unread x1) init g).trans
      (trip_51 c i arg1 harg1 arg2 harg2 arg3 harg3 ve (harg1.unread x0) (harg2.unread x1) g _)) o r w

/-- Loop 52: row tile 5, tap (2, 0). One trip is the chunk join of the two blocks it loads. -/
theorem trip_52 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t52_loop.trips) (acc : FVec Ideal S64x8x64 .f32) :
    tripR_k0_t52 (F := Ideal) Variants.none c none i arg1 harg1 arg2 harg2 arg3 harg3 ve we X1 X2 g acc
      = joinChunk acc
          (View.readAt (Elt Ideal) arg1.view (Rect.unit (s := S1x64x66x66) (k0_off103 g) S1x8x8x64.size (Facts₀.k0_off103_inb g)).toLoadRect X1)
          (View.readAt (Elt Ideal) arg2.view (Rect.unit (s := S64x64x3x3) (k0_off104 g) S64x8x1x1.size (Facts₀.k0_off104_inb g)).toLoadRect X2) := by
  unfold tripR_k0_t52 trip_k0_t52
  rfl

/-- Loop 52 as a value: after its eight trips the carried tile is its start joined with tap (2, 0) at rows 40…47. -/
theorem loop_52 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t52 (F := Ideal) Variants.none c none i arg1 harg1 arg2 harg2 arg3 harg3 ve we (harg1.unread x0) (harg2.unread x1) init 8 (ix3 o r w)
      = max (init (ix3 o r w)) (Cert.MaxPlus.tap (B := 1) x0 x1 2 0 0 o (⟨8 * (5 : Fin 8).val + r.val, by have := r.isLt; have := (5 : Fin 8).isLt; omega⟩ : Fin 64) w) :=
  tap_loop harg1 harg2 x0 x1 (st_k0_t52 (F := Ideal) Variants.none c none i arg1 harg1 arg2 harg2 arg3 harg3 ve we (harg1.unread x0) (harg2.unread x1) init)
    (fun g => k0_off103 g) (fun g => k0_off104 g) (fun g => Facts₀.k0_off103_inb g) (fun g => Facts₀.k0_off104_inb g)
    5 2 0 42 0 2 0 rfl rfl rfl rfl (fun g => Gen.k0_off103_eq g) (fun g => Gen.k0_off104_eq g)
    (fun g => (st_k0_t52_succ (F := Ideal) Variants.none c none i arg1 harg1 arg2 harg2 arg3 harg3 ve we (harg1.unread x0) (harg2.unread x1) init g).trans
      (trip_52 c i arg1 harg1 arg2 harg2 arg3 harg3 ve we (harg1.unread x0) (harg2.unread x1) g _)) o r w

/-- Loop 53: row tile 5, tap (2, 1). One trip is the chunk join of the two blocks it loads. -/
theorem trip_53 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t53_loop.trips) (acc : FVec Ideal S64x8x64 .f32) :
    tripR_k0_t53 (F := Ideal) Variants.none c none i arg1 harg1 arg2 harg2 arg3 harg3 ve we X1 X2 g acc
      = joinChunk acc
          (View.readAt (Elt Ideal) arg1.view (Rect.unit (s := S1x64x66x66) (k0_off105 g) S1x8x8x64.size (Facts₀.k0_off105_inb g)).toLoadRect X1)
          (View.readAt (Elt Ideal) arg2.view (Rect.unit (s := S64x64x3x3) (k0_off106 g) S64x8x1x1.size (Facts₀.k0_off106_inb g)).toLoadRect X2) := by
  unfold tripR_k0_t53 trip_k0_t53
  rfl

/-- Loop 53 as a value: after its eight trips the carried tile is its start joined with tap (2, 1) at rows 40…47. -/
theorem loop_53 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t53 (F := Ideal) Variants.none c none i arg1 harg1 arg2 harg2 arg3 harg3 ve we (harg1.unread x0) (harg2.unread x1) init 8 (ix3 o r w)
      = max (init (ix3 o r w)) (Cert.MaxPlus.tap (B := 1) x0 x1 2 1 0 o (⟨8 * (5 : Fin 8).val + r.val, by have := r.isLt; have := (5 : Fin 8).isLt; omega⟩ : Fin 64) w) :=
  tap_loop harg1 harg2 x0 x1 (st_k0_t53 (F := Ideal) Variants.none c none i arg1 harg1 arg2 harg2 arg3 harg3 ve we (harg1.unread x0) (harg2.unread x1) init)
    (fun g => k0_off105 g) (fun g => k0_off106 g) (fun g => Facts₀.k0_off105_inb g) (fun g => Facts₀.k0_off106_inb g)
    5 2 1 42 1 2 1 rfl rfl rfl rfl (fun g => Gen.k0_off105_eq g) (fun g => Gen.k0_off106_eq g)
    (fun g => (st_k0_t53_succ (F := Ideal) Variants.none c none i arg1 harg1 arg2 harg2 arg3 harg3 ve we (harg1.unread x0) (harg2.unread x1) init g).trans
      (trip_53 c i arg1 harg1 arg2 harg2 arg3 harg3 ve we (harg1.unread x0) (harg2.unread x1) g _)) o r w

/-- Loop 54: row tile 5, tap (2, 2). One trip is the chunk join of the two blocks it loads. -/
theorem trip_54 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t54_loop.trips) (acc : FVec Ideal S64x8x64 .f32) :
    tripR_k0_t54 (F := Ideal) Variants.none c none i arg1 harg1 arg2 harg2 arg3 harg3 ve we X1 X2 g acc
      = joinChunk acc
          (View.readAt (Elt Ideal) arg1.view (Rect.unit (s := S1x64x66x66) (k0_off107 g) S1x8x8x64.size (Facts₀.k0_off107_inb g)).toLoadRect X1)
          (View.readAt (Elt Ideal) arg2.view (Rect.unit (s := S64x64x3x3) (k0_off108 g) S64x8x1x1.size (Facts₀.k0_off108_inb g)).toLoadRect X2) := by
  unfold tripR_k0_t54 trip_k0_t54
  rfl

/-- Loop 54 as a value: after its eight trips the carried tile is its start joined with tap (2, 2) at rows 40…47. -/
theorem loop_54 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t54 (F := Ideal) Variants.none c none i arg1 harg1 arg2 harg2 arg3 harg3 ve we (harg1.unread x0) (harg2.unread x1) init 8 (ix3 o r w)
      = max (init (ix3 o r w)) (Cert.MaxPlus.tap (B := 1) x0 x1 2 2 0 o (⟨8 * (5 : Fin 8).val + r.val, by have := r.isLt; have := (5 : Fin 8).isLt; omega⟩ : Fin 64) w) :=
  tap_loop harg1 harg2 x0 x1 (st_k0_t54 (F := Ideal) Variants.none c none i arg1 harg1 arg2 harg2 arg3 harg3 ve we (harg1.unread x0) (harg2.unread x1) init)
    (fun g => k0_off107 g) (fun g => k0_off108 g) (fun g => Facts₀.k0_off107_inb g) (fun g => Facts₀.k0_off108_inb g)
    5 2 2 42 2 2 2 rfl rfl rfl rfl (fun g => Gen.k0_off107_eq g) (fun g => Gen.k0_off108_eq g)
    (fun g => (st_k0_t54_succ (F := Ideal) Variants.none c none i arg1 harg1 arg2 harg2 arg3 harg3 ve we (harg1.unread x0) (harg2.unread x1) init g).trans
      (trip_54 c i arg1 harg1 arg2 harg2 arg3 harg3 ve we (harg1.unread x0) (harg2.unread x1) g _)) o r w

end Cert.KernelTrip

end
-- ==== Proof.LoopTable6.lean ====
/- Row tile 6 of the output block (rows 48 … 55): its nine taps are the kernel body's channel loops 55 … 63, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 55: row tile 6, tap (0, 0). One trip is the chunk join of the two blocks it loads. -/
theorem trip_55 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t55_loop.trips) (acc : FVec Ideal S64x8x64 .f32) :
    tripR_k0_t55 (F := Ideal) Variants.none c none i arg1 harg1 arg2 harg2 arg3 harg3 ve we X1 X2 g acc
      = joinChunk acc
          (View.readAt (Elt Ideal) arg1.view (Rect.unit (s := S1x64x66x66) (k0_off109 g) S1x8x8x64.size (Facts₀.k0_off109_inb g)).toLoadRect X1)
          (View.readAt (Elt Ideal) arg2.view (Rect.unit (s := S64x64x3x3) (k0_off110 g) S64x8x1x1.size (Facts₀.k0_off110_inb g)).toLoadRect X2) := by
  unfold tripR_k0_t55 trip_k0_t55
  rfl

/-- Loop 55 as a value: after its eight trips the carried tile is its start joined with tap (0, 0) at rows 48…55. -/
theorem loop_55 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t55 (F := Ideal) Variants.none c none i arg1 harg1 arg2 harg2 arg3 harg3 ve we (harg1.unread x0) (harg2.unread x1) init 8 (ix3 o r w)
      = max (init (ix3 o r w)) (Cert.MaxPlus.tap (B := 1) x0 x1 0 0 0 o (⟨8 * (6 : Fin 8).val + r.val, by have := r.isLt; have := (6 : Fin 8).isLt; omega⟩ : Fin 64) w) :=
  tap_loop harg1 harg2 x0 x1 (st_k0_t55 (F := Ideal) Variants.none c none i arg1 harg1 arg2 harg2 arg3 harg3 ve we (harg1.unread x0) (harg2.unread x1) init)
    (fun g => k0_off109 g) (fun g => k0_off110 g) (fun g => Facts₀.k0_off109_inb g) (fun g => Facts₀.k0_off110_inb g)
    6 0 0 48 0 0 0 rfl rfl rfl rfl (fun g => Gen.k0_off109_eq g) (fun g => Gen.k0_off110_eq g)
    (fun g => (st_k0_t55_succ (F := Ideal) Variants.none c none i arg1 harg1 arg2 harg2 arg3 harg3 ve we (harg1.unread x0) (harg2.unread x1) init g).trans
      (trip_55 c i arg1 harg1 arg2 harg2 arg3 harg3 ve we (harg1.unread x0) (harg2.unread x1) g _)) o r w

/-- Loop 56: row tile 6, tap (0, 1). One trip is the chunk join of the two blocks it loads. -/
theorem trip_56 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t56_loop.trips) (acc : FVec Ideal S64x8x64 .f32) :
    tripR_k0_t56 (F := Ideal) Variants.none c none i arg1 harg1 arg2 harg2 arg3 harg3 ve we X1 X2 g acc
      = joinChunk acc
          (View.readAt (Elt Ideal) arg1.view (Rect.unit (s := S1x64x66x66) (k0_off111 g) S1x8x8x64.size (Facts₀.k0_off111_inb g)).toLoadRect X1)
          (View.readAt (Elt Ideal) arg2.view (Rect.unit (s := S64x64x3x3) (k0_off112 g) S64x8x1x1.size (Facts₀.k0_off112_inb g)).toLoadRect X2) := by
  unfold tripR_k0_t56 trip_k0_t56
  rfl

/-- Loop 56 as a value: after its eight trips the carried tile is its start joined with tap (0, 1) at rows 48…55. -/
theorem loop_56 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t56 (F := Ideal) Variants.none c none i arg1 harg1 arg2 harg2 arg3 harg3 ve we (harg1.unread x0) (harg2.unread x1) init 8 (ix3 o r w)
      = max (init (ix3 o r w)) (Cert.MaxPlus.tap (B := 1) x0 x1 0 1 0 o (⟨8 * (6 : Fin 8).val + r.val, by have := r.isLt; have := (6 : Fin 8).isLt; omega⟩ : Fin 64) w) :=
  tap_loop harg1 harg2 x0 x1 (st_k0_t56 (F := Ideal) Variants.none c none i arg1 harg1 arg2 harg2 arg3 harg3 ve we (harg1.unread x0) (harg2.unread x1) init)
    (fun g => k0_off111 g) (fun g => k0_off112 g) (fun g => Facts₀.k0_off111_inb g) (fun g => Facts₀.k0_off112_inb g)
    6 0 1 48 1 0 1 rfl rfl rfl rfl (fun g => Gen.k0_off111_eq g) (fun g => Gen.k0_off112_eq g)
    (fun g => (st_k0_t56_succ (F := Ideal) Variants.none c none i arg1 harg1 arg2 harg2 arg3 harg3 ve we (harg1.unread x0) (harg2.unread x1) init g).trans
      (trip_56 c i arg1 harg1 arg2 harg2 arg3 harg3 ve we (harg1.unread x0) (harg2.unread x1) g _)) o r w

/-- Loop 57: row tile 6, tap (0, 2). One trip is the chunk join of the two blocks it loads. -/
theorem trip_57 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t57_loop.trips) (acc : FVec Ideal S64x8x64 .f32) :
    tripR_k0_t57 (F := Ideal) Variants.none c none i arg1 harg1 arg2 harg2 arg3 harg3 ve we X1 X2 g acc
      = joinChunk acc
          (View.readAt (Elt Ideal) arg1.view (Rect.unit (s := S1x64x66x66) (k0_off113 g) S1x8x8x64.size (Facts₀.k0_off113_inb g)).toLoadRect X1)
          (View.readAt (Elt Ideal) arg2.view (Rect.unit (s := S64x64x3x3) (k0_off114 g) S64x8x1x1.size (Facts₀.k0_off114_inb g)).toLoadRect X2) := by
  unfold tripR_k0_t57 trip_k0_t57
  rfl

/-- Loop 57 as a value: after its eight trips the carried tile is its start joined with tap (0, 2) at rows 48…55. -/
theorem loop_57 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t57 (F := Ideal) Variants.none c none i arg1 harg1 arg2 harg2 arg3 harg3 ve we (harg1.unread x0) (harg2.unread x1) init 8 (ix3 o r w)
      = max (init (ix3 o r w)) (Cert.MaxPlus.tap (B := 1) x0 x1 0 2 0 o (⟨8 * (6 : Fin 8).val + r.val, by have := r.isLt; have := (6 : Fin 8).isLt; omega⟩ : Fin 64) w) :=
  tap_loop harg1 harg2 x0 x1 (st_k0_t57 (F := Ideal) Variants.none c none i arg1 harg1 arg2 harg2 arg3 harg3 ve we (harg1.unread x0) (harg2.unread x1) init)
    (fun g => k0_off113 g) (fun g => k0_off114 g) (fun g => Facts₀.k0_off113_inb g) (fun g => Facts₀.k0_off114_inb g)
    6 0 2 48 2 0 2 rfl rfl rfl rfl (fun g => Gen.k0_off113_eq g) (fun g => Gen.k0_off114_eq g)
    (fun g => (st_k0_t57_succ (F := Ideal) Variants.none c none i arg1 harg1 arg2 harg2 arg3 harg3 ve we (harg1.unread x0) (harg2.unread x1) init g).trans
      (trip_57 c i arg1 harg1 arg2 harg2 arg3 harg3 ve we (harg1.unread x0) (harg2.unread x1) g _)) o r w

/-- Loop 58: row tile 6, tap (1, 0). One trip is the chunk join of the two blocks it loads. -/
theorem trip_58 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t58_loop.trips) (acc : FVec Ideal S64x8x64 .f32) :
    tripR_k0_t58 (F := Ideal) Variants.none c none i arg1 harg1 arg2 harg2 arg3 harg3 ve we X1 X2 g acc
      = joinChunk acc
          (View.readAt (Elt Ideal) arg1.view (Rect.unit (s := S1x64x66x66) (k0_off115 g) S1x8x8x64.size (Facts₀.k0_off115_inb g)).toLoadRect X1)
          (View.readAt (Elt Ideal) arg2.view (Rect.unit (s := S64x64x3x3) (k0_off116 g) S64x8x1x1.size (Facts₀.k0_off116_inb g)).toLoadRect X2) := by
  unfold tripR_k0_t58 trip_k0_t58
  rfl

/-- Loop 58 as a value: after its eight trips the carried tile is its start joined with tap (1, 0) at rows 48…55. -/
theorem loop_58 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t58 (F := Ideal) Variants.none c none i arg1 harg1 arg2 harg2 arg3 harg3 ve we (harg1.unread x0) (harg2.unread x1) init 8 (ix3 o r w)
      = max (init (ix3 o r w)) (Cert.MaxPlus.tap (B := 1) x0 x1 1 0 0 o (⟨8 * (6 : Fin 8).val + r.val, by have := r.isLt; have := (6 : Fin 8).isLt; omega⟩ : Fin 64) w) :=
  tap_loop harg1 harg2 x0 x1 (st_k0_t58 (F := Ideal) Variants.none c none i arg1 harg1 arg2 harg2 arg3 harg3 ve we (harg1.unread x0) (harg2.unread x1) init)
    (fun g => k0_off115 g) (fun g => k0_off116 g) (fun g => Facts₀.k0_off115_inb g) (fun g => Facts₀.k0_off116_inb g)
    6 1 0 49 0 1 0 rfl rfl rfl rfl (fun g => Gen.k0_off115_eq g) (fun g => Gen.k0_off116_eq g)
    (fun g => (st_k0_t58_succ (F := Ideal) Variants.none c none i arg1 harg1 arg2 harg2 arg3 harg3 ve we (harg1.unread x0) (harg2.unread x1) init g).trans
      (trip_58 c i arg1 harg1 arg2 harg2 arg3 harg3 ve we (harg1.unread x0) (harg2.unread x1) g _)) o r w

/-- Loop 59: row tile 6, tap (1, 1). One trip is the chunk join of the two blocks it loads. -/
theorem trip_59 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t59_loop.trips) (acc : FVec Ideal S64x8x64 .f32) :
    tripR_k0_t59 (F := Ideal) Variants.none c none i arg1 harg1 arg2 harg2 arg3 harg3 ve we X1 X2 g acc
      = joinChunk acc
          (View.readAt (Elt Ideal) arg1.view (Rect.unit (s := S1x64x66x66) (k0_off117 g) S1x8x8x64.size (Facts₀.k0_off117_inb g)).toLoadRect X1)
          (View.readAt (Elt Ideal) arg2.view (Rect.unit (s := S64x64x3x3) (k0_off118 g) S64x8x1x1.size (Facts₀.k0_off118_inb g)).toLoadRect X2) := by
  unfold tripR_k0_t59 trip_k0_t59
  rfl

/-- Loop 59 as a value: after its eight trips the carried tile is its start joined with tap (1, 1) at rows 48…55. -/
theorem loop_59 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t59 (F := Ideal) Variants.none c none i arg1 harg1 arg2 harg2 arg3 harg3 ve we (harg1.unread x0) (harg2.unread x1) init 8 (ix3 o r w)
      = max (init (ix3 o r w)) (Cert.MaxPlus.tap (B := 1) x0 x1 1 1 0 o (⟨8 * (6 : Fin 8).val + r.val, by have := r.isLt; have := (6 : Fin 8).isLt; omega⟩ : Fin 64) w) :=
  tap_loop harg1 harg2 x0 x1 (st_k0_t59 (F := Ideal) Variants.none c none i arg1 harg1 arg2 harg2 arg3 harg3 ve we (harg1.unread x0) (harg2.unread x1) init)
    (fun g => k0_off117 g) (fun g => k0_off118 g) (fun g => Facts₀.k0_off117_inb g) (fun g => Facts₀.k0_off118_inb g)
    6 1 1 49 1 1 1 rfl rfl rfl rfl (fun g => Gen.k0_off117_eq g) (fun g => Gen.k0_off118_eq g)
    (fun g => (st_k0_t59_succ (F := Ideal) Variants.none c none i arg1 harg1 arg2 harg2 arg3 harg3 ve we (harg1.unread x0) (harg2.unread x1) init g).trans
      (trip_59 c i arg1 harg1 arg2 harg2 arg3 harg3 ve we (harg1.unread x0) (harg2.unread x1) g _)) o r w

/-- Loop 60: row tile 6, tap (1, 2). One trip is the chunk join of the two blocks it loads. -/
theorem trip_60 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t60_loop.trips) (acc : FVec Ideal S64x8x64 .f32) :
    tripR_k0_t60 (F := Ideal) Variants.none c none i arg1 harg1 arg2 harg2 arg3 harg3 ve we X1 X2 g acc
      = joinChunk acc
          (View.readAt (Elt Ideal) arg1.view (Rect.unit (s := S1x64x66x66) (k0_off119 g) S1x8x8x64.size (Facts₀.k0_off119_inb g)).toLoadRect X1)
          (View.readAt (Elt Ideal) arg2.view (Rect.unit (s := S64x64x3x3) (k0_off120 g) S64x8x1x1.size (Facts₀.k0_off120_inb g)).toLoadRect X2) := by
  unfold tripR_k0_t60 trip_k0_t60
  rfl

/-- Loop 60 as a value: after its eight trips the carried tile is its start joined with tap (1, 2) at rows 48…55. -/
theorem loop_60 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t60 (F := Ideal) Variants.none c none i arg1 harg1 arg2 harg2 arg3 harg3 ve we (harg1.unread x0) (harg2.unread x1) init 8 (ix3 o r w)
      = max (init (ix3 o r w)) (Cert.MaxPlus.tap (B := 1) x0 x1 1 2 0 o (⟨8 * (6 : Fin 8).val + r.val, by have := r.isLt; have := (6 : Fin 8).isLt; omega⟩ : Fin 64) w) :=
  tap_loop harg1 harg2 x0 x1 (st_k0_t60 (F := Ideal) Variants.none c none i arg1 harg1 arg2 harg2 arg3 harg3 ve we (harg1.unread x0) (harg2.unread x1) init)
    (fun g => k0_off119 g) (fun g => k0_off120 g) (fun g => Facts₀.k0_off119_inb g) (fun g => Facts₀.k0_off120_inb g)
    6 1 2 49 2 1 2 rfl rfl rfl rfl (fun g => Gen.k0_off119_eq g) (fun g => Gen.k0_off120_eq g)
    (fun g => (st_k0_t60_succ (F := Ideal) Variants.none c none i arg1 harg1 arg2 harg2 arg3 harg3 ve we (harg1.unread x0) (harg2.unread x1) init g).trans
      (trip_60 c i arg1 harg1 arg2 harg2 arg3 harg3 ve we (harg1.unread x0) (harg2.unread x1) g _)) o r w

/-- Loop 61: row tile 6, tap (2, 0). One trip is the chunk join of the two blocks it loads. -/
theorem trip_61 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t61_loop.trips) (acc : FVec Ideal S64x8x64 .f32) :
    tripR_k0_t61 (F := Ideal) Variants.none c none i arg1 harg1 arg2 harg2 arg3 harg3 ve we X1 X2 g acc
      = joinChunk acc
          (View.readAt (Elt Ideal) arg1.view (Rect.unit (s := S1x64x66x66) (k0_off121 g) S1x8x8x64.size (Facts₀.k0_off121_inb g)).toLoadRect X1)
          (View.readAt (Elt Ideal) arg2.view (Rect.unit (s := S64x64x3x3) (k0_off122 g) S64x8x1x1.size (Facts₀.k0_off122_inb g)).toLoadRect X2) := by
  unfold tripR_k0_t61 trip_k0_t61
  rfl

/-- Loop 61 as a value: after its eight trips the carried tile is its start joined with tap (2, 0) at rows 48…55. -/
theorem loop_61 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t61 (F := Ideal) Variants.none c none i arg1 harg1 arg2 harg2 arg3 harg3 ve we (harg1.unread x0) (harg2.unread x1) init 8 (ix3 o r w)
      = max (init (ix3 o r w)) (Cert.MaxPlus.tap (B := 1) x0 x1 2 0 0 o (⟨8 * (6 : Fin 8).val + r.val, by have := r.isLt; have := (6 : Fin 8).isLt; omega⟩ : Fin 64) w) :=
  tap_loop harg1 harg2 x0 x1 (st_k0_t61 (F := Ideal) Variants.none c none i arg1 harg1 arg2 harg2 arg3 harg3 ve we (harg1.unread x0) (harg2.unread x1) init)
    (fun g => k0_off121 g) (fun g => k0_off122 g) (fun g => Facts₀.k0_off121_inb g) (fun g => Facts₀.k0_off122_inb g)
    6 2 0 50 0 2 0 rfl rfl rfl rfl (fun g => Gen.k0_off121_eq g) (fun g => Gen.k0_off122_eq g)
    (fun g => (st_k0_t61_succ (F := Ideal) Variants.none c none i arg1 harg1 arg2 harg2 arg3 harg3 ve we (harg1.unread x0) (harg2.unread x1) init g).trans
      (trip_61 c i arg1 harg1 arg2 harg2 arg3 harg3 ve we (harg1.unread x0) (harg2.unread x1) g _)) o r w

/-- Loop 62: row tile 6, tap (2, 1). One trip is the chunk join of the two blocks it loads. -/
theorem trip_62 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t62_loop.trips) (acc : FVec Ideal S64x8x64 .f32) :
    tripR_k0_t62 (F := Ideal) Variants.none c none i arg1 harg1 arg2 harg2 arg3 harg3 ve we X1 X2 g acc
      = joinChunk acc
          (View.readAt (Elt Ideal) arg1.view (Rect.unit (s := S1x64x66x66) (k0_off123 g) S1x8x8x64.size (Facts₀.k0_off123_inb g)).toLoadRect X1)
          (View.readAt (Elt Ideal) arg2.view (Rect.unit (s := S64x64x3x3) (k0_off124 g) S64x8x1x1.size (Facts₀.k0_off124_inb g)).toLoadRect X2) := by
  unfold tripR_k0_t62 trip_k0_t62
  rfl

/-- Loop 62 as a value: after its eight trips the carried tile is its start joined with tap (2, 1) at rows 48…55. -/
theorem loop_62 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t62 (F := Ideal) Variants.none c none i arg1 harg1 arg2 harg2 arg3 harg3 ve we (harg1.unread x0) (harg2.unread x1) init 8 (ix3 o r w)
      = max (init (ix3 o r w)) (Cert.MaxPlus.tap (B := 1) x0 x1 2 1 0 o (⟨8 * (6 : Fin 8).val + r.val, by have := r.isLt; have := (6 : Fin 8).isLt; omega⟩ : Fin 64) w) :=
  tap_loop harg1 harg2 x0 x1 (st_k0_t62 (F := Ideal) Variants.none c none i arg1 harg1 arg2 harg2 arg3 harg3 ve we (harg1.unread x0) (harg2.unread x1) init)
    (fun g => k0_off123 g) (fun g => k0_off124 g) (fun g => Facts₀.k0_off123_inb g) (fun g => Facts₀.k0_off124_inb g)
    6 2 1 50 1 2 1 rfl rfl rfl rfl (fun g => Gen.k0_off123_eq g) (fun g => Gen.k0_off124_eq g)
    (fun g => (st_k0_t62_succ (F := Ideal) Variants.none c none i arg1 harg1 arg2 harg2 arg3 harg3 ve we (harg1.unread x0) (harg2.unread x1) init g).trans
      (trip_62 c i arg1 harg1 arg2 harg2 arg3 harg3 ve we (harg1.unread x0) (harg2.unread x1) g _)) o r w

/-- Loop 63: row tile 6, tap (2, 2). One trip is the chunk join of the two blocks it loads. -/
theorem trip_63 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t63_loop.trips) (acc : FVec Ideal S64x8x64 .f32) :
    tripR_k0_t63 (F := Ideal) Variants.none c none i arg1 harg1 arg2 harg2 arg3 harg3 ve we X1 X2 g acc
      = joinChunk acc
          (View.readAt (Elt Ideal) arg1.view (Rect.unit (s := S1x64x66x66) (k0_off125 g) S1x8x8x64.size (Facts₀.k0_off125_inb g)).toLoadRect X1)
          (View.readAt (Elt Ideal) arg2.view (Rect.unit (s := S64x64x3x3) (k0_off126 g) S64x8x1x1.size (Facts₀.k0_off126_inb g)).toLoadRect X2) := by
  unfold tripR_k0_t63 trip_k0_t63
  rfl

/-- Loop 63 as a value: after its eight trips the carried tile is its start joined with tap (2, 2) at rows 48…55. -/
theorem loop_63 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t63 (F := Ideal) Variants.none c none i arg1 harg1 arg2 harg2 arg3 harg3 ve we (harg1.unread x0) (harg2.unread x1) init 8 (ix3 o r w)
      = max (init (ix3 o r w)) (Cert.MaxPlus.tap (B := 1) x0 x1 2 2 0 o (⟨8 * (6 : Fin 8).val + r.val, by have := r.isLt; have := (6 : Fin 8).isLt; omega⟩ : Fin 64) w) :=
  tap_loop harg1 harg2 x0 x1 (st_k0_t63 (F := Ideal) Variants.none c none i arg1 harg1 arg2 harg2 arg3 harg3 ve we (harg1.unread x0) (harg2.unread x1) init)
    (fun g => k0_off125 g) (fun g => k0_off126 g) (fun g => Facts₀.k0_off125_inb g) (fun g => Facts₀.k0_off126_inb g)
    6 2 2 50 2 2 2 rfl rfl rfl rfl (fun g => Gen.k0_off125_eq g) (fun g => Gen.k0_off126_eq g)
    (fun g => (st_k0_t63_succ (F := Ideal) Variants.none c none i arg1 harg1 arg2 harg2 arg3 harg3 ve we (harg1.unread x0) (harg2.unread x1) init g).trans
      (trip_63 c i arg1 harg1 arg2 harg2 arg3 harg3 ve we (harg1.unread x0) (harg2.unread x1) g _)) o r w

end Cert.KernelTrip

end
-- ==== Proof.LoopTable7.lean ====
/- Row tile 7 of the output block (rows 56 … 63): its nine taps are the kernel body's channel loops 64 … 72, in row-major
   order of the tap. For each loop the same two statements: a trip yields the carried tile joined with the chunk's channel maximum
   (the run's own value of the trip, opened once), and after its eight trips the loop has joined the whole tap into the carried tile
   (the general statement about such a loop, at this loop's offsets). -/
import proofs.«170215_j15960098472407_2_alg».proof.Proof.GenP.KernelIdeal.Loops
import proofs.«170215_j15960098472407_2_alg».proof.Proof.TapLoop

noncomputable section

namespace Cert.KernelTrip

open Cert.KernelIdeal Cert.KernelIdeal.Gen Cert.KernelIdeal.GenP Cert.KernelIdeal.Facts₀ Idealize.ShloMosaic Idealize.ShloMosaic.TcCoe Idealize.SL.Sem Idealize.ShloMosaic.ValueIdx

/-- Loop 64: row tile 7, tap (0, 0). One trip is the chunk join of the two blocks it loads. -/
theorem trip_64 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t64_loop.trips) (acc : FVec Ideal S64x8x64 .f32) :
    tripR_k0_t64 (F := Ideal) Variants.none c none i arg1 harg1 arg2 harg2 arg3 harg3 ve we X1 X2 g acc
      = joinChunk acc
          (View.readAt (Elt Ideal) arg1.view (Rect.unit (s := S1x64x66x66) (k0_off127 g) S1x8x8x64.size (Facts₀.k0_off127_inb g)).toLoadRect X1)
          (View.readAt (Elt Ideal) arg2.view (Rect.unit (s := S64x64x3x3) (k0_off128 g) S64x8x1x1.size (Facts₀.k0_off128_inb g)).toLoadRect X2) := by
  unfold tripR_k0_t64 trip_k0_t64
  rfl

/-- Loop 64 as a value: after its eight trips the carried tile is its start joined with tap (0, 0) at rows 56…63. -/
theorem loop_64 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t64 (F := Ideal) Variants.none c none i arg1 harg1 arg2 harg2 arg3 harg3 ve we (harg1.unread x0) (harg2.unread x1) init 8 (ix3 o r w)
      = max (init (ix3 o r w)) (Cert.MaxPlus.tap (B := 1) x0 x1 0 0 0 o (⟨8 * (7 : Fin 8).val + r.val, by have := r.isLt; have := (7 : Fin 8).isLt; omega⟩ : Fin 64) w) :=
  tap_loop harg1 harg2 x0 x1 (st_k0_t64 (F := Ideal) Variants.none c none i arg1 harg1 arg2 harg2 arg3 harg3 ve we (harg1.unread x0) (harg2.unread x1) init)
    (fun g => k0_off127 g) (fun g => k0_off128 g) (fun g => Facts₀.k0_off127_inb g) (fun g => Facts₀.k0_off128_inb g)
    7 0 0 56 0 0 0 rfl rfl rfl rfl (fun g => Gen.k0_off127_eq g) (fun g => Gen.k0_off128_eq g)
    (fun g => (st_k0_t64_succ (F := Ideal) Variants.none c none i arg1 harg1 arg2 harg2 arg3 harg3 ve we (harg1.unread x0) (harg2.unread x1) init g).trans
      (trip_64 c i arg1 harg1 arg2 harg2 arg3 harg3 ve we (harg1.unread x0) (harg2.unread x1) g _)) o r w

/-- Loop 65: row tile 7, tap (0, 1). One trip is the chunk join of the two blocks it loads. -/
theorem trip_65 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t65_loop.trips) (acc : FVec Ideal S64x8x64 .f32) :
    tripR_k0_t65 (F := Ideal) Variants.none c none i arg1 harg1 arg2 harg2 arg3 harg3 ve we X1 X2 g acc
      = joinChunk acc
          (View.readAt (Elt Ideal) arg1.view (Rect.unit (s := S1x64x66x66) (k0_off129 g) S1x8x8x64.size (Facts₀.k0_off129_inb g)).toLoadRect X1)
          (View.readAt (Elt Ideal) arg2.view (Rect.unit (s := S64x64x3x3) (k0_off130 g) S64x8x1x1.size (Facts₀.k0_off130_inb g)).toLoadRect X2) := by
  unfold tripR_k0_t65 trip_k0_t65
  rfl

/-- Loop 65 as a value: after its eight trips the carried tile is its start joined with tap (0, 1) at rows 56…63. -/
theorem loop_65 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t65 (F := Ideal) Variants.none c none i arg1 harg1 arg2 harg2 arg3 harg3 ve we (harg1.unread x0) (harg2.unread x1) init 8 (ix3 o r w)
      = max (init (ix3 o r w)) (Cert.MaxPlus.tap (B := 1) x0 x1 0 1 0 o (⟨8 * (7 : Fin 8).val + r.val, by have := r.isLt; have := (7 : Fin 8).isLt; omega⟩ : Fin 64) w) :=
  tap_loop harg1 harg2 x0 x1 (st_k0_t65 (F := Ideal) Variants.none c none i arg1 harg1 arg2 harg2 arg3 harg3 ve we (harg1.unread x0) (harg2.unread x1) init)
    (fun g => k0_off129 g) (fun g => k0_off130 g) (fun g => Facts₀.k0_off129_inb g) (fun g => Facts₀.k0_off130_inb g)
    7 0 1 56 1 0 1 rfl rfl rfl rfl (fun g => Gen.k0_off129_eq g) (fun g => Gen.k0_off130_eq g)
    (fun g => (st_k0_t65_succ (F := Ideal) Variants.none c none i arg1 harg1 arg2 harg2 arg3 harg3 ve we (harg1.unread x0) (harg2.unread x1) init g).trans
      (trip_65 c i arg1 harg1 arg2 harg2 arg3 harg3 ve we (harg1.unread x0) (harg2.unread x1) g _)) o r w

/-- Loop 66: row tile 7, tap (0, 2). One trip is the chunk join of the two blocks it loads. -/
theorem trip_66 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t66_loop.trips) (acc : FVec Ideal S64x8x64 .f32) :
    tripR_k0_t66 (F := Ideal) Variants.none c none i arg1 harg1 arg2 harg2 arg3 harg3 ve we X1 X2 g acc
      = joinChunk acc
          (View.readAt (Elt Ideal) arg1.view (Rect.unit (s := S1x64x66x66) (k0_off131 g) S1x8x8x64.size (Facts₀.k0_off131_inb g)).toLoadRect X1)
          (View.readAt (Elt Ideal) arg2.view (Rect.unit (s := S64x64x3x3) (k0_off132 g) S64x8x1x1.size (Facts₀.k0_off132_inb g)).toLoadRect X2) := by
  unfold tripR_k0_t66 trip_k0_t66
  rfl

/-- Loop 66 as a value: after its eight trips the carried tile is its start joined with tap (0, 2) at rows 56…63. -/
theorem loop_66 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t66 (F := Ideal) Variants.none c none i arg1 harg1 arg2 harg2 arg3 harg3 ve we (harg1.unread x0) (harg2.unread x1) init 8 (ix3 o r w)
      = max (init (ix3 o r w)) (Cert.MaxPlus.tap (B := 1) x0 x1 0 2 0 o (⟨8 * (7 : Fin 8).val + r.val, by have := r.isLt; have := (7 : Fin 8).isLt; omega⟩ : Fin 64) w) :=
  tap_loop harg1 harg2 x0 x1 (st_k0_t66 (F := Ideal) Variants.none c none i arg1 harg1 arg2 harg2 arg3 harg3 ve we (harg1.unread x0) (harg2.unread x1) init)
    (fun g => k0_off131 g) (fun g => k0_off132 g) (fun g => Facts₀.k0_off131_inb g) (fun g => Facts₀.k0_off132_inb g)
    7 0 2 56 2 0 2 rfl rfl rfl rfl (fun g => Gen.k0_off131_eq g) (fun g => Gen.k0_off132_eq g)
    (fun g => (st_k0_t66_succ (F := Ideal) Variants.none c none i arg1 harg1 arg2 harg2 arg3 harg3 ve we (harg1.unread x0) (harg2.unread x1) init g).trans
      (trip_66 c i arg1 harg1 arg2 harg2 arg3 harg3 ve we (harg1.unread x0) (harg2.unread x1) g _)) o r w

/-- Loop 67: row tile 7, tap (1, 0). One trip is the chunk join of the two blocks it loads. -/
theorem trip_67 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t67_loop.trips) (acc : FVec Ideal S64x8x64 .f32) :
    tripR_k0_t67 (F := Ideal) Variants.none c none i arg1 harg1 arg2 harg2 arg3 harg3 ve we X1 X2 g acc
      = joinChunk acc
          (View.readAt (Elt Ideal) arg1.view (Rect.unit (s := S1x64x66x66) (k0_off133 g) S1x8x8x64.size (Facts₀.k0_off133_inb g)).toLoadRect X1)
          (View.readAt (Elt Ideal) arg2.view (Rect.unit (s := S64x64x3x3) (k0_off134 g) S64x8x1x1.size (Facts₀.k0_off134_inb g)).toLoadRect X2) := by
  unfold tripR_k0_t67 trip_k0_t67
  rfl

/-- Loop 67 as a value: after its eight trips the carried tile is its start joined with tap (1, 0) at rows 56…63. -/
theorem loop_67 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t67 (F := Ideal) Variants.none c none i arg1 harg1 arg2 harg2 arg3 harg3 ve we (harg1.unread x0) (harg2.unread x1) init 8 (ix3 o r w)
      = max (init (ix3 o r w)) (Cert.MaxPlus.tap (B := 1) x0 x1 1 0 0 o (⟨8 * (7 : Fin 8).val + r.val, by have := r.isLt; have := (7 : Fin 8).isLt; omega⟩ : Fin 64) w) :=
  tap_loop harg1 harg2 x0 x1 (st_k0_t67 (F := Ideal) Variants.none c none i arg1 harg1 arg2 harg2 arg3 harg3 ve we (harg1.unread x0) (harg2.unread x1) init)
    (fun g => k0_off133 g) (fun g => k0_off134 g) (fun g => Facts₀.k0_off133_inb g) (fun g => Facts₀.k0_off134_inb g)
    7 1 0 57 0 1 0 rfl rfl rfl rfl (fun g => Gen.k0_off133_eq g) (fun g => Gen.k0_off134_eq g)
    (fun g => (st_k0_t67_succ (F := Ideal) Variants.none c none i arg1 harg1 arg2 harg2 arg3 harg3 ve we (harg1.unread x0) (harg2.unread x1) init g).trans
      (trip_67 c i arg1 harg1 arg2 harg2 arg3 harg3 ve we (harg1.unread x0) (harg2.unread x1) g _)) o r w

/-- Loop 68: row tile 7, tap (1, 1). One trip is the chunk join of the two blocks it loads. -/
theorem trip_68 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (X1 : BufTy.Contents (Elt Ideal) arg1.view.ty) (X2 : BufTy.Contents (Elt Ideal) arg2.view.ty) (g : Fin k0_t68_loop.trips) (acc : FVec Ideal S64x8x64 .f32) :
    tripR_k0_t68 (F := Ideal) Variants.none c none i arg1 harg1 arg2 harg2 arg3 harg3 ve we X1 X2 g acc
      = joinChunk acc
          (View.readAt (Elt Ideal) arg1.view (Rect.unit (s := S1x64x66x66) (k0_off135 g) S1x8x8x64.size (Facts₀.k0_off135_inb g)).toLoadRect X1)
          (View.readAt (Elt Ideal) arg2.view (Rect.unit (s := S64x64x3x3) (k0_off136 g) S64x8x1x1.size (Facts₀.k0_off136_inb g)).toLoadRect X2) := by
  unfold tripR_k0_t68 trip_k0_t68
  rfl

/-- Loop 68 as a value: after its eight trips the carried tile is its start joined with tap (1, 1) at rows 56…63. -/
theorem loop_68 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole) (ve : FVec Ideal S64x8x64 .f32) (we : BitVec 32)
    (x0 : FVec Ideal S1x64x66x66 .f32) (x1 : FVec Ideal S64x64x3x3 .f32) (init : FVec Ideal S64x8x64 .f32) (o : Fin 64) (r : Fin 8) (w : Fin 64) :
    st_k0_t68 (F := Ideal) Variants.none c none i arg1 harg1 arg2 harg2 arg3 harg3 ve we (harg1.unread x0) (harg2.unread x1) init 8 (ix3 o r w)
      = max (init (ix3 o r w)) (Cert.MaxPlus.tap (B := 1) x0 x1 1 1 0 o (⟨8 * (7 : Fin 8).val + r.val, by have := r.isLt; have := (7 : Fin 8).isLt; omega⟩ : Fin 64) w) :=
  tap_loop harg1 harg2 x0 x1 (st_k0_t68 (F := Ideal) Variants.none c none i arg1 harg1 arg2 harg2 arg3 harg3 ve we (harg1.unread x0) (harg2.unread x1) init)
    (fun g => k0_off135 g) (fun g => k0_off136 g) (fun g => Facts₀.k0_off135_inb g) (fun g => Facts₀.k0_off136_inb g)
    7 1 1 57 1 1 1 rfl rfl rfl rfl (fun g => Gen.k0_off135_eq g) (fun g => Gen.k0_off136_eq g)
    (fun g => (st_k0_t68_succ (F := Ideal) Variants.none c none i arg1 harg1 arg2 harg2 arg3 harg3 ve we (harg1.unread x0) (harg2.unread x1) init g).trans
      (trip_68 c i arg1 harg1 arg2 harg2 arg3 harg3 ve we (harg1.unread x0) (harg2.unread x1) g _)) o r w

/-- Loop 69: row tile 7, tap (1, 2). One trip is the chunk join of the two blocks it loads. -/
theorem trip_69 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t69_loop.trips) (acc : FVec Ideal S64x8x64 .f32) :
    tripR_k0_t69 (F := Ideal) Variants.none c none i arg1 harg1 arg2 harg2 arg3 harg3 X1 X2 g acc
      = joinChunk acc
          (View.readAt (Elt Ideal) arg1.view (Rect.unit (s := S1x64x66x66) (k0_off137 g) S1x8x8x64.size (Facts₀.k0_off137_inb g)).toLoadRect X1)
          (View.readAt (Elt Ideal) arg2.view (Rect.unit (s := S64x64x3x3) (k0_off138 g) S64x8x1x1.size (Facts₀.k0_off138_inb g)).toLoadRect X2) := by
  unfold tripR_k0_t69 trip_k0_t69
  rfl

/-- Loop 69 as a value: after its eight trips the carried tile is its start joined with tap (1, 2) at rows 56…63. -/
theorem loop_69 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t69 (F := Ideal) Variants.none c none i arg1 harg1 arg2 harg2 arg3 harg3 (harg1.unread x0) (harg2.unread x1) init 8 (ix3 o r w)
      = max (init (ix3 o r w)) (Cert.MaxPlus.tap (B := 1) x0 x1 1 2 0 o (⟨8 * (7 : Fin 8).val + r.val, by have := r.isLt; have := (7 : Fin 8).isLt; omega⟩ : Fin 64) w) :=
  tap_loop harg1 harg2 x0 x1 (st_k0_t69 (F := Ideal) Variants.none c none i arg1 harg1 arg2 harg2 arg3 harg3 (harg1.unread x0) (harg2.unread x1) init)
    (fun g => k0_off137 g) (fun g => k0_off138 g) (fun g => Facts₀.k0_off137_inb g) (fun g => Facts₀.k0_off138_inb g)
    7 1 2 57 2 1 2 rfl rfl rfl rfl (fun g => Gen.k0_off137_eq g) (fun g => Gen.k0_off138_eq g)
    (fun g => (st_k0_t69_succ (F := Ideal) Variants.none c none i arg1 harg1 arg2 harg2 arg3 harg3 (harg1.unread x0) (harg2.unread x1) init g).trans
      (trip_69 c i arg1 harg1 arg2 harg2 arg3 harg3 (harg1.unread x0) (harg2.unread x1) g _)) o r w

/-- Loop 70: row tile 7, tap (2, 0). One trip is the chunk join of the two blocks it loads. -/
theorem trip_70 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t70_loop.trips) (acc : FVec Ideal S64x8x64 .f32) :
    tripR_k0_t70 (F := Ideal) Variants.none c none i arg1 harg1 arg2 harg2 arg3 harg3 X1 X2 g acc
      = joinChunk acc
          (View.readAt (Elt Ideal) arg1.view (Rect.unit (s := S1x64x66x66) (k0_off139 g) S1x8x8x64.size (Facts₀.k0_off139_inb g)).toLoadRect X1)
          (View.readAt (Elt Ideal) arg2.view (Rect.unit (s := S64x64x3x3) (k0_off140 g) S64x8x1x1.size (Facts₀.k0_off140_inb g)).toLoadRect X2) := by
  unfold tripR_k0_t70 trip_k0_t70
  rfl

/-- Loop 70 as a value: after its eight trips the carried tile is its start joined with tap (2, 0) at rows 56…63. -/
theorem loop_70 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t70 (F := Ideal) Variants.none c none i arg1 harg1 arg2 harg2 arg3 harg3 (harg1.unread x0) (harg2.unread x1) init 8 (ix3 o r w)
      = max (init (ix3 o r w)) (Cert.MaxPlus.tap (B := 1) x0 x1 2 0 0 o (⟨8 * (7 : Fin 8).val + r.val, by have := r.isLt; have := (7 : Fin 8).isLt; omega⟩ : Fin 64) w) :=
  tap_loop harg1 harg2 x0 x1 (st_k0_t70 (F := Ideal) Variants.none c none i arg1 harg1 arg2 harg2 arg3 harg3 (harg1.unread x0) (harg2.unread x1) init)
    (fun g => k0_off139 g) (fun g => k0_off140 g) (fun g => Facts₀.k0_off139_inb g) (fun g => Facts₀.k0_off140_inb g)
    7 2 0 58 0 2 0 rfl rfl rfl rfl (fun g => Gen.k0_off139_eq g) (fun g => Gen.k0_off140_eq g)
    (fun g => (st_k0_t70_succ (F := Ideal) Variants.none c none i arg1 harg1 arg2 harg2 arg3 harg3 (harg1.unread x0) (harg2.unread x1) init g).trans
      (trip_70 c i arg1 harg1 arg2 harg2 arg3 harg3 (harg1.unread x0) (harg2.unread x1) g _)) o r w

/-- Loop 71: row tile 7, tap (2, 1). One trip is the chunk join of the two blocks it loads. -/
theorem trip_71 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t71_loop.trips) (acc : FVec Ideal S64x8x64 .f32) :
    tripR_k0_t71 (F := Ideal) Variants.none c none i arg1 harg1 arg2 harg2 arg3 harg3 X1 X2 g acc
      = joinChunk acc
          (View.readAt (Elt Ideal) arg1.view (Rect.unit (s := S1x64x66x66) (k0_off141 g) S1x8x8x64.size (Facts₀.k0_off141_inb g)).toLoadRect X1)
          (View.readAt (Elt Ideal) arg2.view (Rect.unit (s := S64x64x3x3) (k0_off142 g) S64x8x1x1.size (Facts₀.k0_off142_inb g)).toLoadRect X2) := by
  unfold tripR_k0_t71 trip_k0_t71
  rfl

/-- Loop 71 as a value: after its eight trips the carried tile is its start joined with tap (2, 1) at rows 56…63. -/
theorem loop_71 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t71 (F := Ideal) Variants.none c none i arg1 harg1 arg2 harg2 arg3 harg3 (harg1.unread x0) (harg2.unread x1) init 8 (ix3 o r w)
      = max (init (ix3 o r w)) (Cert.MaxPlus.tap (B := 1) x0 x1 2 1 0 o (⟨8 * (7 : Fin 8).val + r.val, by have := r.isLt; have := (7 : Fin 8).isLt; omega⟩ : Fin 64) w) :=
  tap_loop harg1 harg2 x0 x1 (st_k0_t71 (F := Ideal) Variants.none c none i arg1 harg1 arg2 harg2 arg3 harg3 (harg1.unread x0) (harg2.unread x1) init)
    (fun g => k0_off141 g) (fun g => k0_off142 g) (fun g => Facts₀.k0_off141_inb g) (fun g => Facts₀.k0_off142_inb g)
    7 2 1 58 1 2 1 rfl rfl rfl rfl (fun g => Gen.k0_off141_eq g) (fun g => Gen.k0_off142_eq g)
    (fun g => (st_k0_t71_succ (F := Ideal) Variants.none c none i arg1 harg1 arg2 harg2 arg3 harg3 (harg1.unread x0) (harg2.unread x1) init g).trans
      (trip_71 c i arg1 harg1 arg2 harg2 arg3 harg3 (harg1.unread x0) (harg2.unread x1) g _)) o r w

/-- Loop 72: row tile 7, tap (2, 2). One trip is the chunk join of the two blocks it loads. -/
theorem trip_72 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (X1 : BufTy.Contents (Elt Ideal) arg1.view.ty) (X2 : BufTy.Contents (Elt Ideal) arg2.view.ty) (g : Fin k0_t72_loop.trips) (acc : FVec Ideal S64x8x64 .f32) :
    tripR_k0_t72 (F := Ideal) Variants.none c none i arg1 harg1 arg2 harg2 arg3 harg3 X1 X2 g acc
      = joinChunk acc
          (View.readAt (Elt Ideal) arg1.view (Rect.unit (s := S1x64x66x66) (k0_off143 g) S1x8x8x64.size (Facts₀.k0_off143_inb g)).toLoadRect X1)
          (View.readAt (Elt Ideal) arg2.view (Rect.unit (s := S64x64x3x3) (k0_off144 g) S64x8x1x1.size (Facts₀.k0_off144_inb g)).toLoadRect X2) := by
  unfold tripR_k0_t72 trip_k0_t72
  rfl

/-- Loop 72 as a value: after its eight trips the carried tile is its start joined with tap (2, 2) at rows 56…63. -/
theorem loop_72 (c : Dev nD) (i : grid0.Coords) (arg1 : Memref sig .tc .vmem S1x64x66x66 .f32) (harg1 : arg1.IsWhole) (arg2 : Memref sig .tc .vmem S64x64x3x3 .f32) (harg2 : arg2.IsWhole) (arg3 : Memref sig .tc .vmem S1x64x64x64 .f32) (harg3 : arg3.IsWhole)
    (x0 : FVec Ideal S1x64x66x66 .f32) (x1 : FVec Ideal S64x64x3x3 .f32) (init : FVec Ideal S64x8x64 .f32) (o : Fin 64) (r : Fin 8) (w : Fin 64) :
    st_k0_t72 (F := Ideal) Variants.none c none i arg1 harg1 arg2 harg2 arg3 harg3 (harg1.unread x0) (harg2.unread x1) init 8 (ix3 o r w)
      = max (init (ix3 o r w)) (Cert.MaxPlus.tap (B := 1) x0 x1 2 2 0 o (⟨8 * (7 : Fin 8).val + r.val, by have := r.isLt; have := (7 : Fin 8).isLt; omega⟩ : Fin 64) w) :=
  tap_loop harg1 harg2 x0 x1 (st_k0_t72 (F := Ideal) Variants.none c none i arg1 harg1 arg2 harg2 arg3 harg3 (harg1.unread x0) (harg2.unread x1) init)
    (fun g => k0_off143 g) (fun g => k0_off144 g) (fun g => Facts₀.k0_off143_inb g) (fun g => Facts₀.k0_off144_inb g)
    7 2 2 58 2 2 2 rfl rfl rfl rfl (fun g => Gen.k0_off143_eq g) (fun g => Gen.k0_off144_eq g)
    (fun g => (st_k0_t72_succ (F := Ideal) Variants.none c none i arg1 harg1 arg2 harg2 arg3 harg3 (harg1.unread x0) (harg2.unread x1) init g).trans
      (trip_72 c i arg1 harg1 arg2 harg2 arg3 harg3 (harg1.unread x0) (harg2.unread x1) g _)) o r w

end Cert.KernelTrip

end
-- ==== Proof.Pieces.lean ====
/-
  From the eight stored row tiles to one image's output block.

  The output block of one image has extents [1, 64, 64, 64] (unit axis, output channel, row, column). It is written as
  eight tiles of extents [1, 64, 8, 64]: tile j holds rows 8j … 8j + 7 of every channel and column, and is a [64, 8, 64]
  array given a leading unit axis. If tile j at (o, r, w) is the max-plus convolution at (0, o, 8j + r, w), then each
  tile is the restriction of ONE function of the block's index, the convolution, to its rectangle; the tiles cover the
  block, so the block read back is the convolution at every index, whatever the order of the stores.
-/
import proofs.«170215_j15960098472407_2_alg».proof.Proof.GenP.KernelIdeal.Frame
import proofs.«170215_j15960098472407_2_alg».proof.Proof.MaxPlus
import Idealize.ShloMosaic.Lib.Pipeline.Value
import Idealize.ShloMosaic.Lib.ValueIdx

noncomputable section

namespace Cert.KernelPieces

open Cert.KernelIdeal Cert.KernelIdeal.Gen Cert.KernelIdeal.GenP Idealize.ShloMosaic Idealize.ShloMosaic.TcCoe
  Idealize.SL.Sem Idealize.ShloMosaic.ValueIdx

/-- A [64, 8, 64] tile given a leading unit axis reads, at (z, o, r, w), the tile at (o, r, w). -/
theorem addUnit_tile (v : FVec Ideal S64x8x64 .f32) (hc : S64x8x64.ShapeCasts S1x64x8x64) (z : Fin 1) (o : Fin 64) (r : Fin 8)
    (w : Fin 64) : shapeCast S1x64x8x64 v hc (ix4 z o r w) = v (ix3 o r w) :=
  (shapeCast_addUnit_apply ![64, 8, 64] v hc (ix4 z o r w)).trans
    (congrArg v (funext fun a => by match a with | ⟨0, _⟩ => rfl | ⟨1, _⟩ => rfl | ⟨2, _⟩ => rfl))

/-- The block of eight rows from row 8j, of all channels and columns, places its entry (z, o, r, w) at (0, o, 8j + r, w). -/
theorem rowBlock_emb (j : Fin 8) (off : Fin 4 → Nat) (hoff : off = ![0, 0, 8 * j.val, 0])
    (inb : ∀ a, off a + (![1, 64, 8, 64] : Fin 4 → Nat) a ≤ S1x64x64x64.size a) (z : Fin 1) (o : Fin 64) (r : Fin 8) (w : Fin 64) :
    (Rect.unit (s := S1x64x64x64) off ![1, 64, 8, 64] inb).emb (ix4 z o r w)
      = ix4 (0 : Fin 1) o (⟨8 * j.val + r.val, by have := j.isLt; have := r.isLt; omega⟩ : Fin 64) w := by
  subst hoff
  funext a; apply Fin.ext
  match a with
  | ⟨0, _⟩ => show 0 + 1 * z.val = 0; have := z.isLt; omega
  | ⟨1, _⟩ => show 0 + 1 * o.val = o.val; omega
  | ⟨2, _⟩ => show 8 * j.val + 1 * r.val = 8 * j.val + r.val; omega
  | ⟨3, _⟩ => show 0 + 1 * w.val = w.val; omega

/-- A stored tile that holds rows 8j … 8j + 7 of the convolution is, entry by entry, the convolution at the place its
    rectangle gives the entry. -/
theorem tile_eq_conv (x0 : Vec Ideal S1x64x66x66 .f32) (x1 : Vec Ideal S64x64x3x3 .f32) (j : Fin 8) (v : FVec Ideal S64x8x64 .f32)
    (hv : ∀ (o : Fin 64) (r : Fin 8) (w : Fin 64), v (ix3 o r w) = Cert.MaxPlus.convAt (B := 1) x0 x1 0 o
      (⟨8 * j.val + r.val, by have := j.isLt; have := r.isLt; omega⟩ : Fin 64) w)
    (hc : S64x8x64.ShapeCasts S1x64x8x64) (off : Fin 4 → Nat) (hoff : off = ![0, 0, 8 * j.val, 0])
    (inb : ∀ a, off a + (![1, 64, 8, 64] : Fin 4 → Nat) a ≤ S1x64x64x64.size a)
    (x : (Rect.unit (s := S1x64x64x64) off ![1, 64, 8, 64] inb).shape.Idx) :
    shapeCast S1x64x8x64 v hc x = Cert.MaxPlus.conv (B := 1) x0 x1 ((Rect.unit (s := S1x64x64x64) off ![1, 64, 8, 64] inb).emb x) := by
  obtain ⟨z, o, r, w, rfl⟩ : ∃ (z : Fin 1) (o : Fin 64) (r : Fin 8) (w : Fin 64), x = ix4 z o r w :=
    ⟨x 0, x 1, x 2, x 3, eq_ix4 (n0 := 1) (n1 := 64) (n2 := 8) (n3 := 64) x⟩
  rw [rowBlock_emb j off hoff inb z o r w, Cert.MaxPlus.conv_ix4, addUnit_tile v hc z o r w, hv]

/-- The eight stored row tiles, each holding its eight rows of the convolution, read back as the whole block's convolution. -/
theorem block_of_tiles (c : Dev nD) (i : grid0.Coords) (arg1 : Memref sig .tc .vmem S1x64x66x66 .f32) (harg1 : arg1.IsWhole)
    (arg2 : Memref sig .tc .vmem S64x64x3x3 .f32) (harg2 : arg2.IsWhole) (arg3 : Memref sig .tc .vmem S1x64x64x64 .f32) (harg3 : arg3.IsWhole)
    (x0 : Vec Ideal S1x64x66x66 .f32) (x1 : Vec Ideal S64x64x3x3 .f32) (T : Fin 8 → FVec Ideal S64x8x64 .f32)
    (hT : ∀ (j : Fin 8) (o : Fin 64) (r : Fin 8) (w : Fin 64), T j (ix3 o r w) = Cert.MaxPlus.convAt (B := 1) x0 x1 0 o
      (⟨8 * j.val + r.val, by have := j.isLt; have := r.isLt; omega⟩ : Fin 64) w)
    (hL : (kernelRun0_A (F := Ideal) c i arg1 harg1 arg2 harg2 arg3 harg3 x0 x1).1 =
        [⟨Rect.unit (s := S1x64x64x64) ![0, 0, 56, 0] ![1, 64, 8, 64] inb_S1x64x64x64_S1x64x8x64_0_0_56_0, k0_pay5 (T 7)⟩,
         ⟨Rect.unit (s := S1x64x64x64) ![0, 0, 48, 0] ![1, 64, 8, 64] inb_S1x64x64x64_S1x64x8x64_0_0_48_0, k0_pay82 (T 6)⟩,
         ⟨Rect.unit (s := S1x64x64x64) ![0, 0, 40, 0] ![1, 64, 8, 64] inb_S1x64x64x64_S1x64x8x64_0_0_40_0, k0_pay71 (T 5)⟩,
         ⟨Rect.unit (s := S1x64x64x64) ![0, 0, 32, 0] ![1, 64, 8, 64] inb_S1x64x64x64_S1x64x8x64_0_0_32_0, k0_pay60 (T 4)⟩,
         ⟨Rect.unit (s := S1x64x64x64) ![0, 0, 24, 0] ![1, 64, 8, 64] inb_S1x64x64x64_S1x64x8x64_0_0_24_0, k0_pay49 (T 3)⟩,
         ⟨Rect.unit (s := S1x64x64x64) ![0, 0, 16, 0] ![1, 64, 8, 64] inb_S1x64x64x64_S1x64x8x64_0_0_16_0, k0_pay38 (T 2)⟩,
         ⟨Rect.unit (s := S1x64x64x64) ![0, 0, 8, 0] ![1, 64, 8, 64] inb_S1x64x64x64_S1x64x8x64_0_0_8_0, k0_pay27 (T 1)⟩,
         ⟨Rect.unit (s := S1x64x64x64) ![0, 0, 0, 0] ![1, 64, 8, 64] inb_S1x64x64x64_S1x64x8x64_0_0_0_0, k0_pay16 (T 0)⟩]) :
    out0_A_2 (F := Ideal) c i arg1 harg1 arg2 harg2 arg3 harg3 x0 x1 = Cert.MaxPlus.conv (B := 1) x0 x1 := by
  unfold out0_A_2
  rw [View.read_writes_junk_eq_canon]
  funext y
  have hcover := cover0_A_2 (F := Ideal) c i arg1 harg1 arg2 harg2 arg3 harg3 x0 x1 y
  rw [hL] at hcover ⊢
  refine View.canon_apply_of_pieces (Cert.MaxPlus.conv (B := 1) x0 x1) _ ?_ y hcover
  intro p hp
  simp only [List.mem_cons, List.not_mem_nil, or_false] at hp
  rcases hp with rfl | rfl | rfl | rfl | rfl | rfl | rfl | rfl
  · exact tile_eq_conv x0 x1 7 (T 7) (hT 7) _ ![0, 0, 56, 0] rfl inb_S1x64x64x64_S1x64x8x64_0_0_56_0
  · exact tile_eq_conv x0 x1 6 (T 6) (hT 6) _ ![0, 0, 48, 0] rfl inb_S1x64x64x64_S1x64x8x64_0_0_48_0
  · exact tile_eq_conv x0 x1 5 (T 5) (hT 5) _ ![0, 0, 40, 0] rfl inb_S1x64x64x64_S1x64x8x64_0_0_40_0
  · exact tile_eq_conv x0 x1 4 (T 4) (hT 4) _ ![0, 0, 32, 0] rfl inb_S1x64x64x64_S1x64x8x64_0_0_32_0
  · exact tile_eq_conv x0 x1 3 (T 3) (hT 3) _ ![0, 0, 24, 0] rfl inb_S1x64x64x64_S1x64x8x64_0_0_24_0
  · exact tile_eq_conv x0 x1 2 (T 2) (hT 2) _ ![0, 0, 16, 0] rfl inb_S1x64x64x64_S1x64x8x64_0_0_16_0
  · exact tile_eq_conv x0 x1 1 (T 1) (hT 1) _ ![0, 0, 8, 0] rfl inb_S1x64x64x64_S1x64x8x64_0_0_8_0
  · exact tile_eq_conv x0 x1 0 (T 0) (hT 0) _ ![0, 0, 0, 0] rfl inb_S1x64x64x64_S1x64x8x64_0_0_0_0

end Cert.KernelPieces

end
-- ==== Proof.KernelBlock.lean ====
/-
  One image's output block of the idealized kernel, as a value: whatever the two staged input blocks hold — the padded
  image `x0` of extents [1, 64, 66, 66] and the weights `x1` of extents [64, 64, 3, 3] — the body leaves in the output's
  staging buffer the max-plus convolution of the two (`Cert.MaxPlus.conv` at batch extent 1).

  The body takes the eight row tiles one after the other. A tile starts from the splat of −∞ and passes through nine
  channel loops, one per tap in row-major order; each loop joins its tap (the maximum over all sixty-four channels, taken in
  eight chunks of eight) into the carried tile. So the stored tile holds, at (o, r, w), the nine taps joined from −∞ at row
  8j + r: the specification's `convAt`. Where the body's text was cut between two loops of one tile, the value carried
  across the cut has a name of its own (`kernelRun0_A.sl.r`, `.r_1`, `.r_2`, `.r_3`); each is the tile's first few taps joined
  from −∞, and the tile's remaining loops continue from it. The eight stored tiles are the eight row blocks of the
  convolution, which is what `Cert.KernelPieces.block_of_tiles` asks.
-/
import proofs.«170215_j15960098472407_2_alg».proof.Proof.GenP.KernelIdeal.Frame
import proofs.«170215_j15960098472407_2_alg».proof.Proof.MaxPlus
import proofs.«170215_j15960098472407_2_alg».proof.Proof.TapLoop
import proofs.«170215_j15960098472407_2_alg».proof.Proof.LoopTable0
import proofs.«170215_j15960098472407_2_alg».proof.Proof.LoopTable1
import proofs.«170215_j15960098472407_2_alg».proof.Proof.LoopTable2
import proofs.«170215_j15960098472407_2_alg».proof.Proof.LoopTable3
import proofs.«170215_j15960098472407_2_alg».proof.Proof.LoopTable4
import proofs.«170215_j15960098472407_2_alg».proof.Proof.LoopTable5
import proofs.«170215_j15960098472407_2_alg».proof.Proof.LoopTable6
import proofs.«170215_j15960098472407_2_alg».proof.Proof.LoopTable7
import proofs.«170215_j15960098472407_2_alg».proof.Proof.Pieces

noncomputable section

namespace Cert.KernelBlock

open Cert.KernelIdeal Cert.KernelIdeal.Gen Cert.KernelIdeal.GenP Idealize.ShloMosaic Idealize.ShloMosaic.TcCoe Idealize.SL.Sem
open Idealize.ShloMosaic.ValueIdx Cert.KernelTrip Cert.MaxPlus

/-- Every channel loop of the body runs eight trips. -/
theorem trips8 : Scf.trips (0#32) (Scalar.addi 0#32 8#32) 1#32 = 8 := rfl

/-! ## A tile starts from −∞ -/

theorem start_6 (o : Fin 64) (r : Fin 8) (w : Fin 64) : k0_pay6 (F := Ideal) (ix3 o r w) = (⊥ : EReal) := negInf
theorem start_17 (o : Fin 64) (r : Fin 8) (w : Fin 64) : k0_pay17 (F := Ideal) (ix3 o r w) = (⊥ : EReal) := negInf
theorem start_28 (o : Fin 64) (r : Fin 8) (w : Fin 64) : k0_pay28 (F := Ideal) (ix3 o r w) = (⊥ : EReal) := negInf
theorem start_39 (o : Fin 64) (r : Fin 8) (w : Fin 64) : k0_pay39 (F := Ideal) (ix3 o r w) = (⊥ : EReal) := negInf
theorem start_50 (o : Fin 64) (r : Fin 8) (w : Fin 64) : k0_pay50 (F := Ideal) (ix3 o r w) = (⊥ : EReal) := negInf
theorem start_61 (o : Fin 64) (r : Fin 8) (w : Fin 64) : k0_pay61 (F := Ideal) (ix3 o r w) = (⊥ : EReal) := negInf
theorem start_72 (o : Fin 64) (r : Fin 8) (w : Fin 64) : k0_pay72 (F := Ideal) (ix3 o r w) = (⊥ : EReal) := negInf
theorem start_83 (o : Fin 64) (r : Fin 8) (w : Fin 64) : k0_pay83 (F := Ideal) (ix3 o r w) = (⊥ : EReal) := negInf

/-! ## The values carried across a cut of the body's text -/

/-- Tile 2 after its first eight taps. -/
theorem carried_r (c : Dev nD) (i : grid0.Coords) (arg1 : Memref sig .tc .vmem S1x64x66x66 .f32) (harg1 : arg1.IsWhole)
    (arg2 : Memref sig .tc .vmem S64x64x3x3 .f32) (harg2 : arg2.IsWhole) (arg3 : Memref sig .tc .vmem S1x64x64x64 .f32) (harg3 : arg3.IsWhole)
    (x0 : Vec Ideal S1x64x66x66 .f32) (x1 : Vec Ideal S64x64x3x3 .f32) (o : Fin 64) (r : Fin 8) (w : Fin 64) :
    kernelRun0_A.sl.r (F := Ideal) c i arg1 harg1 arg2 harg2 arg3 harg3 x0 x1 (ix3 o r w) = max (max (max (max (max (max (max (max (⊥) (tap (B := 1) x0 x1 0 0 0 o (⟨8 * (2 : Fin 8).val + r.val, by have := r.isLt; have := (2 : Fin 8).isLt; omega⟩ : Fin 64) w)) (tap (B := 1) x0 x1 0 1 0 o (⟨8 * (2 : Fin 8).val + r.val, by have := r.isLt; have := (2 : Fin 8).isLt; omega⟩ : Fin 64) w)) (tap (B := 1) x0 x1 0 2 0 o (⟨8 * (2 : Fin 8).val + r.val, by have := r.isLt; have := (2 : Fin 8).isLt; omega⟩ : Fin 64) w)) (tap (B := 1) x0 x1 1 0 0 o (⟨8 * (2 : Fin 8).val + r.val, by have := r.isLt; have := (2 : Fin 8).isLt; omega⟩ : Fin 64) w)) (tap (B := 1) x0 x1 1 1 0 o (⟨8 * (2 : Fin 8).val + r.val, by have := r.isLt; have := (2 : Fin 8).isLt; omega⟩ : Fin 64) w)) (tap (B := 1) x0 x1 1 2 0 o (⟨8 * (2 : Fin 8).val + r.val, by have := r.isLt; have := (2 : Fin 8).isLt; omega⟩ : Fin 64) w)) (tap (B := 1) x0 x1 2 0 0 o (⟨8 * (2 : Fin 8).val + r.val, by have := r.isLt; have := (2 : Fin 8).isLt; omega⟩ : Fin 64) w)) (tap (B := 1) x0 x1 2 1 0 o (⟨8 * (2 : Fin 8).val + r.val, by have := r.isLt; have := (2 : Fin 8).isLt; omega⟩ : Fin 64) w) := by
  unfold kernelRun0_A.sl.r
  dsimp only
  rw [trips8]
  rw [loop_26, loop_25, loop_24, loop_23, loop_22, loop_21, loop_20, loop_19, start_28]

/-- Tile 3 after its first seven taps. -/
theorem carried_r1 (c : Dev nD) (i : grid0.Coords) (arg1 : Memref sig .tc .vmem S1x64x66x66 .f32) (harg1 : arg1.IsWhole)
    (arg2 : Memref sig .tc .vmem S64x64x3x3 .f32) (harg2 : arg2.IsWhole) (arg3 : Memref sig .tc .vmem S1x64x64x64 .f32) (harg3 : arg3.IsWhole)
    (x0 : Vec Ideal S1x64x66x66 .f32) (x1 : Vec Ideal S64x64x3x3 .f32) (o : Fin 64) (r : Fin 8) (w : Fin 64) :
    kernelRun0_A.sl.r_1 (F := Ideal) c i arg1 harg1 arg2 harg2 arg3 harg3 x0 x1 (ix3 o r w) = max (max (max (max (max (max (max (⊥) (tap (B := 1) x0 x1 0 0 0 o (⟨8 * (3 : Fin 8).val + r.val, by have := r.isLt; have := (3 : Fin 8).isLt; omega⟩ : Fin 64) w)) (tap (B := 1) x0 x1 0 1 0 o (⟨8 * (3 : Fin 8).val + r.val, by have := r.isLt; have := (3 : Fin 8).isLt; omega⟩ : Fin 64) w)) (tap (B := 1) x0 x1 0 2 0 o (⟨8 * (3 : Fin 8).val + r.val, by have := r.isLt; have := (3 : Fin 8).isLt; omega⟩ : Fin 64) w)) (tap (B := 1) x0 x1 1 0 0 o (⟨8 * (3 : Fin 8).val + r.val, by have := r.isLt; have := (3 : Fin 8).isLt; omega⟩ : Fin 64) w)) (tap (B := 1) x0 x1 1 1 0 o (⟨8 * (3 : Fin 8).val + r.val, by have := r.isLt; have := (3 : Fin 8).isLt; omega⟩ : Fin 64) w)) (tap (B := 1) x0 x1 1 2 0 o (⟨8 * (3 : Fin 8).val + r.val, by have := r.isLt; have := (3 : Fin 8).isLt; omega⟩ : Fin 64) w)) (tap (B := 1) x0 x1 2 0 0 o (⟨8 * (3 : Fin 8).val + r.val, by have := r.isLt; have := (3 : Fin 8).isLt; omega⟩ : Fin 64) w) := by
  unfold kernelRun0_A.sl.r_1
  dsimp only
  rw [trips8]
  rw [loop_34, loop_33, loop_32, loop_31, loop_30, loop_29, loop_28, start_39]

/-- Tile 5 after its first six taps. -/
theorem carried_r2 (c : Dev nD) (i : grid0.Coords) (arg1 : Memref sig .tc .vmem S1x64x66x66 .f32) (harg1 : arg1.IsWhole)
    (arg2 : Memref sig .tc .vmem S64x64x3x3 .f32) (harg2 : arg2.IsWhole) (arg3 : Memref sig .tc .vmem S1x64x64x64 .f32) (harg3 : arg3.IsWhole)
    (x0 : Vec Ideal S1x64x66x66 .f32) (x1 : Vec Ideal S64x64x3x3 .f32) (o : Fin 64) (r : Fin 8) (w : Fin 64) :
    kernelRun0_A.sl.r_2 (F := Ideal) c i arg1 harg1 arg2 harg2 arg3 harg3 x0 x1 (ix3 o r w) = max (max (max (max (max (max (⊥) (tap (B := 1) x0 x1 0 0 0 o (⟨8 * (5 : Fin 8).val + r.val, by have := r.isLt; have := (5 : Fin 8).isLt; omega⟩ : Fin 64) w)) (tap (B := 1) x0 x1 0 1 0 o (⟨8 * (5 : Fin 8).val + r.val, by have := r.isLt; have := (5 : Fin 8).isLt; omega⟩ : Fin 64) w)) (tap (B := 1) x0 x1 0 2 0 o (⟨8 * (5 : Fin 8).val + r.val, by have := r.isLt; have := (5 : Fin 8).isLt; omega⟩ : Fin 64) w)) (tap (B := 1) x0 x1 1 0 0 o (⟨8 * (5 : Fin 8).val + r.val, by have := r.isLt; have := (5 : Fin 8).isLt; omega⟩ : Fin 64) w)) (tap (B := 1) x0 x1 1 1 0 o (⟨8 * (5 : Fin 8).val + r.val, by have := r.isLt; have := (5 : Fin 8).isLt; omega⟩ : Fin 64) w)) (tap (B := 1) x0 x1 1 2 0 o (⟨8 * (5 : Fin 8).val + r.val, by have := r.isLt; have := (5 : Fin 8).isLt; omega⟩ : Fin 64) w) := by
  unfold kernelRun0_A.sl.r_2
  dsimp only
  rw [trips8]
  rw [loop_51, loop_50, loop_49, loop_48, loop_47, loop_46, start_61]

/-- Tile 6 after its first five taps. -/
theorem carried_r3 (c : Dev nD) (i : grid0.Coords) (arg1 : Memref sig .tc .vmem S1x64x66x66 .f32) (harg1 : arg1.IsWhole)
    (arg2 : Memref sig .tc .vmem S64x64x3x3 .f32) (harg2 : arg2.IsWhole) (arg3 : Memref sig .tc .vmem S1x64x64x64 .f32) (harg3 : arg3.IsWhole)
    (x0 : Vec Ideal S1x64x66x66 .f32) (x1 : Vec Ideal S64x64x3x3 .f32) (o : Fin 64) (r : Fin 8) (w : Fin 64) :
    kernelRun0_A.sl.r_3 (F := Ideal) c i arg1 harg1 arg2 harg2 arg3 harg3 x0 x1 (ix3 o r w) = max (max (max (max (max (⊥) (tap (B := 1) x0 x1 0 0 0 o (⟨8 * (6 : Fin 8).val + r.val, by have := r.isLt; have := (6 : Fin 8).isLt; omega⟩ : Fin 64) w)) (tap (B := 1) x0 x1 0 1 0 o (⟨8 * (6 : Fin 8).val + r.val, by have := r.isLt; have := (6 : Fin 8).isLt; omega⟩ : Fin 64) w)) (tap (B := 1) x0 x1 0 2 0 o (⟨8 * (6 : Fin 8).val + r.val, by have := r.isLt; have := (6 : Fin 8).isLt; omega⟩ : Fin 64) w)) (tap (B := 1) x0 x1 1 0 0 o (⟨8 * (6 : Fin 8).val + r.val, by have := r.isLt; have := (6 : Fin 8).isLt; omega⟩ : Fin 64) w)) (tap (B := 1) x0 x1 1 1 0 o (⟨8 * (6 : Fin 8).val + r.val, by have := r.isLt; have := (6 : Fin 8).isLt; omega⟩ : Fin 64) w) := by
  unfold kernelRun0_A.sl.r_3
  dsimp only
  rw [trips8]
  rw [loop_59, loop_58, loop_57, loop_56, loop_55, start_72]

/-! ## The eight stored tiles -/

/-- The run's pieces are eight stored tiles, last store first, and each tile is the convolution's row block. -/
theorem tiles (c : Dev nD) (i : grid0.Coords) (arg1 : Memref sig .tc .vmem S1x64x66x66 .f32) (harg1 : arg1.IsWhole)
    (arg2 : Memref sig .tc .vmem S64x64x3x3 .f32) (harg2 : arg2.IsWhole) (arg3 : Memref sig .tc .vmem S1x64x64x64 .f32) (harg3 : arg3.IsWhole)
    (x0 : Vec Ideal S1x64x66x66 .f32) (x1 : Vec Ideal S64x64x3x3 .f32) :
    ∃ t0 t1 t2 t3 t4 t5 t6 t7 : FVec Ideal S64x8x64 .f32,
      (kernelRun0_A (F := Ideal) c i arg1 harg1 arg2 harg2 arg3 harg3 x0 x1).1 =
        [⟨Rect.unit (s := S1x64x64x64) ![0, 0, 56, 0] ![1, 64, 8, 64] inb_S1x64x64x64_S1x64x8x64_0_0_56_0, k0_pay5 t7⟩,
         ⟨Rect.unit (s := S1x64x64x64) ![0, 0, 48, 0] ![1, 64, 8, 64] inb_S1x64x64x64_S1x64x8x64_0_0_48_0, k0_pay82 t6⟩,
         ⟨Rect.unit (s := S1x64x64x64) ![0, 0, 40, 0] ![1, 64, 8, 64] inb_S1x64x64x64_S1x64x8x64_0_0_40_0, k0_pay71 t5⟩,
         ⟨Rect.unit (s := S1x64x64x64) ![0, 0, 32, 0] ![1, 64, 8, 64] inb_S1x64x64x64_S1x64x8x64_0_0_32_0, k0_pay60 t4⟩,
         ⟨Rect.unit (s := S1x64x64x64) ![0, 0, 24, 0] ![1, 64, 8, 64] inb_S1x64x64x64_S1x64x8x64_0_0_24_0, k0_pay49 t3⟩,
         ⟨Rect.unit (s := S1x64x64x64) ![0, 0, 16, 0] ![1, 64, 8, 64] inb_S1x64x64x64_S1x64x8x64_0_0_16_0, k0_pay38 t2⟩,
         ⟨Rect.unit (s := S1x64x64x64) ![0, 0, 8, 0] ![1, 64, 8, 64] inb_S1x64x64x64_S1x64x8x64_0_0_8_0, k0_pay27 t1⟩,
         ⟨Rect.unit (s := S1x64x64x64) ![0, 0, 0, 0] ![1, 64, 8, 64] inb_S1x64x64x64_S1x64x8x64_0_0_0_0, k0_pay16 t0⟩]
      ∧ (∀ (o : Fin 64) (r : Fin 8) (w : Fin 64), t0 (ix3 o r w) = convAt (B := 1) x0 x1 0 o (⟨8 * (0 : Fin 8).val + r.val, by have := r.isLt; have := (0 : Fin 8).isLt; omega⟩ : Fin 64) w)
      ∧ (∀ (o : Fin 64) (r : Fin 8) (w : Fin 64), t1 (ix3 o r w) = convAt (B := 1) x0 x1 0 o (⟨8 * (1 : Fin 8).val + r.val, by have := r.isLt; have := (1 : Fin 8).isLt; omega⟩ : Fin 64) w)
      ∧ (∀ (o : Fin 64) (r : Fin 8) (w : Fin 64), t2 (ix3 o r w) = convAt (B := 1) x0 x1 0 o (⟨8 * (2 : Fin 8).val + r.val, by have := r.isLt; have := (2 : Fin 8).isLt; omega⟩ : Fin 64) w)
      ∧ (∀ (o : Fin 64) (r : Fin 8) (w : Fin 64), t3 (ix3 o r w) = convAt (B := 1) x0 x1 0 o (⟨8 * (3 : Fin 8).val + r.val, by have := r.isLt; have := (3 : Fin 8).isLt; omega⟩ : Fin 64) w)
      ∧ (∀ (o : Fin 64) (r : Fin 8) (w : Fin 64), t4 (ix3 o r w) = convAt (B := 1) x0 x1 0 o (⟨8 * (4 : Fin 8).val + r.val, by have := r.isLt; have := (4 : Fin 8).isLt; omega⟩ : Fin 64) w)
      ∧ (∀ (o : Fin 64) (r : Fin 8) (w : Fin 64), t5 (ix3 o r w) = convAt (B := 1) x0 x1 0 o (⟨8 * (5 : Fin 8).val + r.val, by have := r.isLt; have := (5 : Fin 8).isLt; omega⟩ : Fin 64) w)
      ∧ (∀ (o : Fin 64) (r : Fin 8) (w : Fin 64), t6 (ix3 o r w) = convAt (B := 1) x0 x1 0 o (⟨8 * (6 : Fin 8).val + r.val, by have := r.isLt; have := (6 : Fin 8).isLt; omega⟩ : Fin 64) w)
      ∧ (∀ (o : Fin 64) (r : Fin 8) (w : Fin 64), t7 (ix3 o r w) = convAt (B := 1) x0 x1 0 o (⟨8 * (7 : Fin 8).val + r.val, by have := r.isLt; have := (7 : Fin 8).isLt; omega⟩ : Fin 64) w) := by
  unfold kernelRun0_A
  dsimp only
  rw [trips8]
  refine ⟨_, _, _, _, _, _, _, _, rfl, ?_, ?_, ?_, ?_, ?_, ?_, ?_, ?_⟩
  · intro o r w
    rw [loop_9, loop_8, loop_7, loop_6, loop_5, loop_4, loop_3, loop_2, loop_1, start_6]
    rfl
  · intro o r w
    rw [loop_18, loop_17, loop_16, loop_15, loop_14, loop_13, loop_12, loop_11, loop_10, start_17]
    rfl
  · intro o r w
    rw [loop_27, carried_r]
    rfl
  · intro o r w
    rw [loop_36, loop_35, carried_r1]
    rfl
  · intro o r w
    rw [loop_45, loop_44, loop_43, loop_42, loop_41, loop_40, loop_39, loop_38, loop_37, start_50]
    rfl
  · intro o r w
    rw [loop_54, loop_53, loop_52, carried_r2]
    rfl
  · intro o r w
    rw [loop_63, loop_62, loop_61, loop_60, carried_r3]
    rfl
  · intro o r w
    rw [loop_72, loop_71, loop_70, loop_69, loop_68, loop_67, loop_66, loop_65, loop_64, start_83]
    rfl

/-- The output block the body leaves is the max-plus convolution of the two input blocks. -/
theorem out_eq (c : Dev nD) (i : grid0.Coords) (arg1 : Memref sig .tc .vmem S1x64x66x66 .f32) (harg1 : arg1.IsWhole)
    (arg2 : Memref sig .tc .vmem S64x64x3x3 .f32) (harg2 : arg2.IsWhole) (arg3 : Memref sig .tc .vmem S1x64x64x64 .f32) (harg3 : arg3.IsWhole)
    (x0 : Vec Ideal S1x64x66x66 .f32) (x1 : Vec Ideal S64x64x3x3 .f32) :
    out0_A_2 (F := Ideal) c i arg1 harg1 arg2 harg2 arg3 harg3 x0 x1 = Cert.MaxPlus.conv (B := 1) x0 x1 := by
  obtain ⟨t0, t1, t2, t3, t4, t5, t6, t7, hL, h0, h1, h2, h3, h4, h5, h6, h7⟩ := tiles c i arg1 harg1 arg2 harg2 arg3 harg3 x0 x1
  refine Cert.KernelPieces.block_of_tiles c i arg1 harg1 arg2 harg2 arg3 harg3 x0 x1 ![t0, t1, t2, t3, t4, t5, t6, t7] ?_ hL
  intro j o r w
  match j with
  | ⟨0, _⟩ => exact h0 o r w
  | ⟨1, _⟩ => exact h1 o r w
  | ⟨2, _⟩ => exact h2 o r w
  | ⟨3, _⟩ => exact h3 o r w
  | ⟨4, _⟩ => exact h4 o r w
  | ⟨5, _⟩ => exact h5 o r w
  | ⟨6, _⟩ => exact h6 o r w
  | ⟨7, _⟩ => exact h7 o r w

end Cert.KernelBlock

end
-- ==== Proof.KernelArray.lean ====
/-
  From one image's block to the whole output array.

  The kernel runs on a grid of eight points. Point t stages image t of the padded input (extents [1, 64, 66, 66] out of
  [8, 64, 66, 66]), the whole weights array ([64, 64, 3, 3], the same block at every point), and writes back image t of
  the result ([1, 64, 64, 64] out of [8, 64, 64, 64]). One point's block of the result is the max-plus convolution of
  its two input blocks. Here: a tap of the convolution at image t reads only image t of the padded input, so what point t
  writes back is block t of the convolution of the WHOLE padded array with the weights; the eight blocks tile the result,
  so the result array after the run is that convolution; and the padded array, as the region finds it, is argument 0
  padded with −∞ by one row and one column on each side of its last two axes.
-/
import proofs.«170215_j15960098472407_2_alg».proof.Proof.GenP.KernelIdeal.Value
import proofs.«170215_j15960098472407_2_alg».proof.Proof.KernelBlock
import proofs.«170215_j15960098472407_2_alg».proof.Proof.MaxPlus
import Idealize.ShloMosaic.Lib.Pipeline.Value
import Idealize.ShloMosaic.Lib.ValueIdx
import Idealize.ShloMosaic.Lib.StableHlo.Run

noncomputable section

namespace Cert.KernelArray

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open Cert.MaxPlus

variable (m : (ℓ : Loc nD τ sig) → Buf (Elt Ideal) ℓ) (ρ : Dev nD → PrngReg)

/-! ## Where each point's blocks sit -/

/-- The three index maps, decided over the eight grid points: point t reads image t of the padded array and writes
    image t of the result (block index t on the image axis, 0 on the other three); the weights' block index is 0 on
    every axis at every point. -/
theorem idx_facts : ∀ t : Fin cfg0.N,
    win0_0.index t = ![t.val, 0, 0, 0] ∧ win0_1.index t = ![0, 0, 0, 0] ∧ win0_2.index t = ![t.val, 0, 0, 0] :=
  (by decide +kernel : ∀ t : Fin grid0.N,
    win0_0.index t = ![t.val, 0, 0, 0] ∧ win0_1.index t = ![0, 0, 0, 0] ∧ win0_2.index t = ![t.val, 0, 0, 0])

/-! ## The convolution of one image is one image of the convolution -/

/-- Every tap at image `tt` reads the padded stack at image `tt` only. So if `x0` is image `tt` of the stack `X`
    (`hx`) and the weights are the same (`hk`), the one-image convolution at (0, o, h, w) is the stack's convolution at
    (tt, o, h, w); the two indices are given by their coordinates (`h0` … `h3`). -/
theorem conv_block (X : (⟨4, ![8, 64, 66, 66]⟩ : Shape).Idx → EReal) (K k1 : (⟨4, ![64, 64, 3, 3]⟩ : Shape).Idx → EReal)
    (x0 : (⟨4, ![1, 64, 66, 66]⟩ : Shape).Idx → EReal) (tt : Fin 8)
    (hx : ∀ (c' : Fin 64) (h' w' : Fin 66), x0 (ix4 (0 : Fin 1) c' h' w') = X (ix4 tt c' h' w'))
    (hk : k1 = K)
    (y : (⟨4, ![1, 64, 64, 64]⟩ : Shape).Idx) (i : (⟨4, ![8, 64, 64, 64]⟩ : Shape).Idx)
    (h0 : (i 0).val = tt.val) (h1 : (i 1).val = (y 1).val) (h2 : (i 2).val = (y 2).val) (h3 : (i 3).val = (y 3).val) :
    conv (B := 1) x0 k1 y = conv (B := 8) X K i := by
  subst hk
  obtain ⟨b, o, h, w, rfl⟩ : ∃ (b : Fin 1) (o h w : Fin 64), y = ix4 b o h w := ⟨y 0, y 1, y 2, y 3, eq_ix4 y⟩
  obtain ⟨b', o', h', w', rfl⟩ : ∃ (b' : Fin 8) (o' h' w' : Fin 64), i = ix4 b' o' h' w' := ⟨i 0, i 1, i 2, i 3, eq_ix4 i⟩
  obtain rfl : b' = tt := Fin.ext h0
  obtain rfl : o' = o := Fin.ext h1
  obtain rfl : h' = h := Fin.ext h2
  obtain rfl : w' = w := Fin.ext h3
  obtain rfl : b = 0 := Subsingleton.elim _ _
  rw [conv_ix4, conv_ix4]
  unfold convAt tap
  simp only [hx]

/-! ## The input blocks, read off the arrays -/

/-- The weights' block is the whole weights array at every point: its block index is 0 on every axis and the block's
    extents are the array's, so coordinate j of the block sits at 0 × extent + 1 × j = j. -/
theorem iblk1_eq (c : Dev nD) (t : Fin cfg0.N) :
    (iblk m c 1 t : S64x64x3x3.Idx → EReal) = (V m c main_arg1 : S64x64x3x3.Idx → EReal) := by
  have e1 := (idx_facts t).2.1
  have q0 : win0_1.index t (0 : Fin 4) = 0 := congrFun e1 0
  have q1 : win0_1.index t (1 : Fin 4) = 0 := congrFun e1 1
  have q2 : win0_1.index t (2 : Fin 4) = 0 := congrFun e1 2
  have q3 : win0_1.index t (3 : Fin 4) = 0 := congrFun e1 3
  funext y
  unfold iblk
  rw [View.read_apply]
  show V m c main_arg1 (((cfg0.win 1).blk t).view.emb y) = V m c main_arg1 y
  refine congrArg _ (funext fun a => Fin.ext ?_)
  match a with
  | ⟨0, _⟩ => show win0_1.index t (0 : Fin 4) * 64 + 1 * (y 0).val = (y 0).val; omega
  | ⟨1, _⟩ => show win0_1.index t (1 : Fin 4) * 64 + 1 * (y 1).val = (y 1).val; omega
  | ⟨2, _⟩ => show win0_1.index t (2 : Fin 4) * 3 + 1 * (y 2).val = (y 2).val; omega
  | ⟨3, _⟩ => show win0_1.index t (3 : Fin 4) * 3 + 1 * (y 3).val = (y 3).val; omega

/-- Entry (0, c', h', w') of the padded array's block at point t is entry (t, c', h', w') of the padded array: on each
    axis the array's coordinate is block index × block extent + 1 × the coordinate inside the block, and the block
    index is (t, 0, 0, 0) with block extents (1, 64, 66, 66). -/
theorem iblk0_apply (c : Dev nD) (t : Fin cfg0.N) (tt : Fin 8) (ht : tt.val = t.val) (c' : Fin 64) (h' w' : Fin 66) :
    (iblk m c 0 t : S1x64x66x66.Idx → EReal) (ix4 (0 : Fin 1) c' h' w')
      = (V m c main_v0 : S8x64x66x66.Idx → EReal) (ix4 tt c' h' w') := by
  have e0 := (idx_facts t).1
  have q0 : win0_0.index t (0 : Fin 4) = t.val := congrFun e0 0
  have q1 : win0_0.index t (1 : Fin 4) = 0 := congrFun e0 1
  have q2 : win0_0.index t (2 : Fin 4) = 0 := congrFun e0 2
  have q3 : win0_0.index t (3 : Fin 4) = 0 := congrFun e0 3
  unfold iblk
  rw [View.read_apply]
  show V m c main_v0 (((cfg0.win 0).blk t).view.emb (ix4 (0 : Fin 1) c' h' w')) = V m c main_v0 (ix4 tt c' h' w')
  refine congrArg _ (funext fun a => Fin.ext ?_)
  match a with
  | ⟨0, _⟩ => show win0_0.index t (0 : Fin 4) * 1 + 1 * 0 = tt.val; omega
  | ⟨1, _⟩ => show win0_0.index t (1 : Fin 4) * 64 + 1 * c'.val = c'.val; omega
  | ⟨2, _⟩ => show win0_0.index t (2 : Fin 4) * 66 + 1 * h'.val = h'.val; omega
  | ⟨3, _⟩ => show win0_0.index t (3 : Fin 4) * 66 + 1 * w'.val = w'.val; omega

/-! ## What a point writes back is its block of the whole array's convolution -/

/-- WHAT POINT t WRITES BACK is block t of the max-plus convolution of the whole padded array with the weights, both as
    the region finds them: the point's result is the convolution of its two input blocks, the padded block is image t
    of the padded array, the weights' block is the weights, and entry (0, o, h, w) of the result's block sits at
    (t, o, h, w) of the result. -/
theorem flushed_eq (c : Dev nD) (t : Fin cfg0.N) :
    (dats m 0 c).flushed 2 t
      = ((cfg0.win 2).blk t).view.read (Elt Ideal) (conv (B := 8) (V m c main_v0) (V m c main_arg1)) := by
  rw [ValueP.flushed2_A, Cert.KernelBlock.out_eq]
  have hN : cfg0.N = 8 := N_0
  have ht : t.val < 8 := hN ▸ t.isLt
  have e2 := (idx_facts t).2.2
  have q0 : win0_2.index t (0 : Fin 4) = t.val := congrFun e2 0
  have q1 : win0_2.index t (1 : Fin 4) = 0 := congrFun e2 1
  have q2 : win0_2.index t (2 : Fin 4) = 0 := congrFun e2 2
  have q3 : win0_2.index t (3 : Fin 4) = 0 := congrFun e2 3
  funext y
  rw [View.read_apply]
  show conv (B := 1) (iblk m c 0 t) (iblk m c 1 t) y
    = conv (B := 8) (V m c main_v0) (V m c main_arg1) (((cfg0.win 2).blk t).view.emb y)
  have y0 : (y 0).val < 1 := (y 0).isLt
  refine conv_block _ _ _ _ ⟨t.val, ht⟩ (fun c' h' w' => iblk0_apply m c t _ rfl c' h' w') (iblk1_eq m c t) y _ ?_ ?_ ?_ ?_
  · show win0_2.index t (0 : Fin 4) * 1 + 1 * (y 0).val = t.val; omega
  · show win0_2.index t (1 : Fin 4) * 64 + 1 * (y 1).val = (y 1).val; omega
  · show win0_2.index t (2 : Fin 4) * 64 + 1 * (y 2).val = (y 2).val; omega
  · show win0_2.index t (3 : Fin 4) * 64 + 1 * (y 3).val = (y 3).val; omega

/-! ## The padded array -/

/-- Argument 0 padded with −∞ (the f32 word 0xFF800000) by one row and one column on each side of its last two axes:
    extents [8, 64, 64, 64] to [8, 64, 66, 66]. -/
def padded (x0 : S8x64x64x64.Idx → EReal) : S8x64x66x66.Idx → EReal :=
  pad S8x64x66x66 ![0, 0, 1, 1] ![0, 0, 1, 1] ![0, 0, 0, 0] x0 (id (constant (F := Ideal) S_ .f32 0xFF800000#32))
    pads_S8x64x64x64_S8x64x66x66_000_000_110_110 h_S_

/-- The padded array as the region finds it: the host pad of argument 0 with −∞ (the constant, its copy into the pad's
    operand, the pad). -/
theorem padded_eq (c : Dev nD) :
    (V m c main_v0 : S8x64x66x66.Idx → EReal) = padded (m ((c : Thread nD τ).loc main_arg0)) := by
  dsimp only [V]
  simp only [hostOps0, hostOps0_1, List.flatten_cons, List.flatten_nil, List.append_nil, List.cons_append,
    List.nil_append]
  after_results
  rfl

/-! ## The eight blocks tile the result -/

/-- An index of the result is in point t's block iff on each axis its coordinate lies in the block's range. -/
theorem mem_blk (t : Fin cfg0.N) (i : S8x64x64x64.Idx) :
    i ∈ ((cfg0.win 2).blk t).view.set ↔ ∀ a : Fin 4, win0_2.index t a * S1x64x64x64.size a ≤ (i a).val
      ∧ (i a).val < win0_2.index t a * S1x64x64x64.size a + S1x64x64x64.size a := by
  show i ∈ ((View.whole main_v1).slice (win0_2.rect t)).set ↔ _
  rw [View.set_slice_whole, Rect.mem_set_unit]
  exact Iff.rfl

/-- Every index (b, o, h, w) of the result is in the block of point b, which writes back. -/
theorem cover (i : S8x64x64x64.Idx) :
    ∃ t : Fin cfg0.N, (cfg0.win 2).flush t = true ∧ i ∈ ((cfg0.win 2).blk t).view.set := by
  have hN : cfg0.N = 8 := N_0
  have i0 : (i 0).val < 8 := (i 0).isLt
  have i1 : (i 1).val < 64 := (i 1).isLt
  have i2 : (i 2).val < 64 := (i 2).isLt
  have i3 : (i 3).val < 64 := (i 3).isLt
  obtain ⟨t, ht⟩ : ∃ t : Fin cfg0.N, t.val = (i 0).val := ⟨⟨(i 0).val, by omega⟩, rfl⟩
  have e2 := (idx_facts t).2.2
  have q0 : win0_2.index t (0 : Fin 4) = t.val := congrFun e2 0
  have q1 : win0_2.index t (1 : Fin 4) = 0 := congrFun e2 1
  have q2 : win0_2.index t (2 : Fin 4) = 0 := congrFun e2 2
  have q3 : win0_2.index t (3 : Fin 4) = 0 := congrFun e2 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- THE RESULT ARRAY after the run: the max-plus convolution of the padded array with the weights, both as the region
    finds them: every point writes back its block of that one array, and the blocks cover it. -/
theorem final (c : Dev nD) :
    (dats m 0 c).arrAt 2 cfg0.N = conv (B := 8) (V m c main_v0) (V m c main_arg1) :=
  (dats m 0 c).arrAt_eq_of_cover 2 (conv (B := 8) (V m c main_v0) (V m c main_arg1)) (fun t _ => flushed_eq m c t) cover

/-! ## The run, as a value -/

/-- From any memory with zero counters every weakly fair execution terminates with, on every core, the result array at
    the max-plus convolution of argument 0 padded with −∞ with argument 1, and both arguments as launched. -/
theorem run : θ_run defs (onTc (τ := τ) (main (F := Ideal))) ⟨m, fun _ => 0, ρ⟩ fun r => ∀ c : Dev nD,
      r.2.mem ((c : Thread nD τ).loc main_v1)
        = Cert.MaxPlus.conv (B := 8) (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (by rw [final, padded_eq, V_main_arg1]), (h c).2⟩)
    (ValueP.run_blocks m ρ)

end Cert.KernelArray

end
-- ==== Proof.RefValue.lean ====
/-
  The reference program computes the max-plus 3×3 convolution.

  The reference takes the nine taps (ki, kj) of the 3×3 window in row-major order. For each tap it slices the padded
  array at offsets (ki, kj), slices the weights at (ki, kj), spreads both over a common [8, 64, 64, 64, 64] index set
  (image b, output channel o, input channel c, row h, column w), adds them, takes the maximum over the input-channel
  axis from −∞, and joins the result to the running maximum, which starts at −∞. Entry (b, o, c, h, w) of the sum is
  xp[b, c, h + ki, w + kj] + k[o, c, ki, kj], so the maximum over c is the specification's tap, and the nine running
  maxima are the specification's nested maximum. The padded array enters only as an opaque function of its index.
-/
import proofs.«170215_j15960098472407_2_alg».proof.Proof.Gen.ReferenceIdeal.Read
import proofs.«170215_j15960098472407_2_alg».proof.Proof.MaxPlus
import Idealize.ShloMosaic.Lib.ValueIdx
import Idealize.ShloMosaic.PureOps.Reduce
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
  Idealize.ShloMosaic.StableHlo

/-- The word 0xFF800000 denotes −∞. -/
theorem negInf_eq_bot : (FloatOps.ofBits (F := Ideal) .f32 0xFF800000#32 : EReal) = ⊥ := by
  simp [Ideal.ofBits, Ideal.ieee]

/-- Dropping the channel axis (axis 2) of a [8, 64, 64, 64, 64] array leaves a [8, 64, 64, 64] one. -/
theorem reduces_channel : S8x64x64x64x64.Reduces [2] S8x64x64x64 := by decide

/-- The reduced index (b, o, h, w) with channel c put back on axis 2 is (b, o, c, h, w). -/
theorem lift_channel (hr : S8x64x64x64x64.Reduces [2] S8x64x64x64) (b : Fin 8) (o h w : Fin 64)
    (c : Fin (S8x64x64x64x64.size 2)) :
    hr.lift (ix4 b o h w) c = ix5 b o (⟨c.val, c.isLt⟩ : Fin 64) h w := by
  funext a; apply Fin.ext
  fin_cases a <;> rfl

/-- A fold of max from −∞ over a finite type is the supremum. -/
theorem fold_max_bot_eq_sup {ι : Type} [Fintype ι] (f : ι → EReal) :
    (Finset.univ : Finset ι).fold max ⊥ f = Finset.univ.sup f := rfl

/-- The host's reduce with a maximum body from −∞ over the channel axis, at (b, o, h, w), is the supremum over the
    channels of the operand at (b, o, c, h, w). -/
theorem reduce_channel_max (y : S8x64x64x64x64.Idx → Ideal .f32)
    (init : S_.Idx → Ideal .f32) (hinit : ∀ i, init i = (⊥ : EReal))
    (b : Fin 8) (o h w : Fin 64) :
    Host.reduce (FloatOps.maximumf (F := Ideal) (φ := .f32)) y init reducesTo_S8x64x64x64x64_S8x64x64x64_d2 h_S_ (ix4 b o h w)
      = Finset.univ.sup fun c : Fin 64 => (y (ix5 b o c h w) : EReal) := by
  rw [Host.reduce_eq_fold_single (FloatOps.maximumf (F := Ideal) (φ := .f32)) y init _ reduces_channel h_S_, hinit]
  have hf : (y ∘ reduces_channel.lift (ix4 b o h w)) = fun c : Fin 64 => y (ix5 b o c h w) :=
    funext fun c => congrArg y (lift_channel reduces_channel b o h w c)
  rw [hf]
  exact fold_max_bot_eq_sup _

/-! ### Tap (0, 0) -/

/-- Through the two broadcasts and the slice at offsets (0, 0), entry (b, o, c, h, w) of the image operand reads the
    padded array at (b, c, h + 0, w + 0). -/
theorem imageIdx_00 (b : Fin 8) (o c h w : Fin 64) :
    idx_main_v2 (idx_main_v3 (idx_main_v8 (ix5 b o c h w)))
      = ix4 b c (⟨h.val + (0 : Fin 3).val, by have := h.isLt; have := (0 : Fin 3).isLt; omega⟩ : Fin 66)
          (⟨w.val + (0 : Fin 3).val, by have := w.isLt; have := (0 : Fin 3).isLt; omega⟩ : Fin 66) := by
  funext a; apply Fin.ext
  match a with
  | ⟨0, _⟩ => rfl
  | ⟨1, _⟩ => rfl
  | ⟨2, _⟩ => show h.val = h.val + 0; omega
  | ⟨3, _⟩ => show w.val = w.val + 0; omega

/-- Through the three broadcasts, the reshape and the 1×1 slice at (0, 0), entry (b, o, c, h, w) of the weight operand
    reads the weights at (o, c, 0, 0). -/
theorem weightIdx_00 (b : Fin 8) (o c h w : Fin 64) :
    idx_main_v4 (idx_main_v5 (idx_main_v6 (idx_main_v7 (idx_main_v9 (ix5 b o c h w)))))
      = ix4 o c (0 : Fin 3) (0 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (0, 0) at (b, o, h, w) is the specification's tap. -/
theorem tap_00 (x0 : (⟨S8x64x64x64, .f32⟩ : BufTy).Contents (Elt Ideal)) (x1 : (⟨S64x64x3x3, .f32⟩ : BufTy).Contents (Elt Ideal))
    (b : Fin 8) (o h w : Fin 64) :
    val_main_v11 (F := Ideal) x0 x1 (ix4 b o h w)
      = Cert.MaxPlus.tap (val_main_v0 (F := Ideal) x0) x1 0 0 b o h w := by
  unfold val_main_v11
  rw [reduce_channel_max _ _ (fun i => (val_main_cst_1_apply (F := Ideal) i).trans negInf_eq_bot)]
  unfold Cert.MaxPlus.tap
  refine congrArg (Finset.univ.sup) (funext fun c => ?_)
  rw [val_main_v10_apply, val_main_v8_apply, val_main_v3_apply, val_main_v2_apply, val_main_v9_apply,
    val_main_v7_apply, val_main_v6_apply, val_main_v5_apply, val_main_v4_apply, imageIdx_00, weightIdx_00]
  exact Ideal.addf_def _ _

/-! ### Tap (0, 1) -/

/-- Through the two broadcasts and the slice at offsets (0, 1), entry (b, o, c, h, w) of the image operand reads the
    padded array at (b, c, h + 0, w + 1). -/
theorem imageIdx_01 (b : Fin 8) (o c h w : Fin 64) :
    idx_main_v13 (idx_main_v14 (idx_main_v19 (ix5 b o c h w)))
      = ix4 b c (⟨h.val + (0 : Fin 3).val, by have := h.isLt; have := (0 : Fin 3).isLt; omega⟩ : Fin 66)
          (⟨w.val + (1 : Fin 3).val, by have := w.isLt; have := (1 : Fin 3).isLt; omega⟩ : Fin 66) := by
  funext a; apply Fin.ext
  match a with
  | ⟨0, _⟩ => rfl
  | ⟨1, _⟩ => rfl
  | ⟨2, _⟩ => show h.val = h.val + 0; omega
  | ⟨3, _⟩ => show 1 + w.val = w.val + 1; omega

/-- Through the three broadcasts, the reshape and the 1×1 slice at (0, 1), entry (b, o, c, h, w) of the weight operand
    reads the weights at (o, c, 0, 1). -/
theorem weightIdx_01 (b : Fin 8) (o c h w : Fin 64) :
    idx_main_v15 (idx_main_v16 (idx_main_v17 (idx_main_v18 (idx_main_v20 (ix5 b o c h w)))))
      = ix4 o c (0 : Fin 3) (1 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (0, 1) at (b, o, h, w) is the specification's tap. -/
theorem tap_01 (x0 : (⟨S8x64x64x64, .f32⟩ : BufTy).Contents (Elt Ideal)) (x1 : (⟨S64x64x3x3, .f32⟩ : BufTy).Contents (Elt Ideal))
    (b : Fin 8) (o h w : Fin 64) :
    val_main_v22 (F := Ideal) x0 x1 (ix4 b o h w)
      = Cert.MaxPlus.tap (val_main_v0 (F := Ideal) x0) x1 0 1 b o h w := by
  unfold val_main_v22
  rw [reduce_channel_max _ _ (fun i => (val_main_cst_2_apply (F := Ideal) i).trans negInf_eq_bot)]
  unfold Cert.MaxPlus.tap
  refine congrArg (Finset.univ.sup) (funext fun c => ?_)
  rw [val_main_v21_apply, val_main_v19_apply, val_main_v14_apply, val_main_v13_apply, val_main_v20_apply,
    val_main_v18_apply, val_main_v17_apply, val_main_v16_apply, val_main_v15_apply, imageIdx_01, weightIdx_01]
  exact Ideal.addf_def _ _

/-! ### Tap (0, 2) -/

/-- Through the two broadcasts and the slice at offsets (0, 2), entry (b, o, c, h, w) of the image operand reads the
    padded array at (b, c, h + 0, w + 2). -/
theorem imageIdx_02 (b : Fin 8) (o c h w : Fin 64) :
    idx_main_v24 (idx_main_v25 (idx_main_v30 (ix5 b o c h w)))
      = ix4 b c (⟨h.val + (0 : Fin 3).val, by have := h.isLt; have := (0 : Fin 3).isLt; omega⟩ : Fin 66)
          (⟨w.val + (2 : Fin 3).val, by have := w.isLt; have := (2 : Fin 3).isLt; omega⟩ : Fin 66) := by
  funext a; apply Fin.ext
  match a with
  | ⟨0, _⟩ => rfl
  | ⟨1, _⟩ => rfl
  | ⟨2, _⟩ => show h.val = h.val + 0; omega
  | ⟨3, _⟩ => show 2 + w.val = w.val + 2; omega

/-- Through the three broadcasts, the reshape and the 1×1 slice at (0, 2), entry (b, o, c, h, w) of the weight operand
    reads the weights at (o, c, 0, 2). -/
theorem weightIdx_02 (b : Fin 8) (o c h w : Fin 64) :
    idx_main_v26 (idx_main_v27 (idx_main_v28 (idx_main_v29 (idx_main_v31 (ix5 b o c h w)))))
      = ix4 o c (0 : Fin 3) (2 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (0, 2) at (b, o, h, w) is the specification's tap. -/
theorem tap_02 (x0 : (⟨S8x64x64x64, .f32⟩ : BufTy).Contents (Elt Ideal)) (x1 : (⟨S64x64x3x3, .f32⟩ : BufTy).Contents (Elt Ideal))
    (b : Fin 8) (o h w : Fin 64) :
    val_main_v33 (F := Ideal) x0 x1 (ix4 b o h w)
      = Cert.MaxPlus.tap (val_main_v0 (F := Ideal) x0) x1 0 2 b o h w := by
  unfold val_main_v33
  rw [reduce_channel_max _ _ (fun i => (val_main_cst_3_apply (F := Ideal) i).trans negInf_eq_bot)]
  unfold Cert.MaxPlus.tap
  refine congrArg (Finset.univ.sup) (funext fun c => ?_)
  rw [val_main_v32_apply, val_main_v30_apply, val_main_v25_apply, val_main_v24_apply, val_main_v31_apply,
    val_main_v29_apply, val_main_v28_apply, val_main_v27_apply, val_main_v26_apply, imageIdx_02, weightIdx_02]
  exact Ideal.addf_def _ _

/-! ### Tap (1, 0) -/

/-- Through the two broadcasts and the slice at offsets (1, 0), entry (b, o, c, h, w) of the image operand reads the
    padded array at (b, c, h + 1, w + 0). -/
theorem imageIdx_10 (b : Fin 8) (o c h w : Fin 64) :
    idx_main_v35 (idx_main_v36 (idx_main_v41 (ix5 b o c h w)))
      = ix4 b c (⟨h.val + (1 : Fin 3).val, by have := h.isLt; have := (1 : Fin 3).isLt; omega⟩ : Fin 66)
          (⟨w.val + (0 : Fin 3).val, by have := w.isLt; have := (0 : Fin 3).isLt; omega⟩ : Fin 66) := by
  funext a; apply Fin.ext
  match a with
  | ⟨0, _⟩ => rfl
  | ⟨1, _⟩ => rfl
  | ⟨2, _⟩ => show 1 + h.val = h.val + 1; omega
  | ⟨3, _⟩ => show w.val = w.val + 0; omega

/-- Through the three broadcasts, the reshape and the 1×1 slice at (1, 0), entry (b, o, c, h, w) of the weight operand
    reads the weights at (o, c, 1, 0). -/
theorem weightIdx_10 (b : Fin 8) (o c h w : Fin 64) :
    idx_main_v37 (idx_main_v38 (idx_main_v39 (idx_main_v40 (idx_main_v42 (ix5 b o c h w)))))
      = ix4 o c (1 : Fin 3) (0 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (1, 0) at (b, o, h, w) is the specification's tap. -/
theorem tap_10 (x0 : (⟨S8x64x64x64, .f32⟩ : BufTy).Contents (Elt Ideal)) (x1 : (⟨S64x64x3x3, .f32⟩ : BufTy).Contents (Elt Ideal))
    (b : Fin 8) (o h w : Fin 64) :
    val_main_v44 (F := Ideal) x0 x1 (ix4 b o h w)
      = Cert.MaxPlus.tap (val_main_v0 (F := Ideal) x0) x1 1 0 b o h w := by
  unfold val_main_v44
  rw [reduce_channel_max _ _ (fun i => (val_main_cst_4_apply (F := Ideal) i).trans negInf_eq_bot)]
  unfold Cert.MaxPlus.tap
  refine congrArg (Finset.univ.sup) (funext fun c => ?_)
  rw [val_main_v43_apply, val_main_v41_apply, val_main_v36_apply, val_main_v35_apply, val_main_v42_apply,
    val_main_v40_apply, val_main_v39_apply, val_main_v38_apply, val_main_v37_apply, imageIdx_10, weightIdx_10]
  exact Ideal.addf_def _ _

/-! ### Tap (1, 1) -/

/-- Through the two broadcasts and the slice at offsets (1, 1), entry (b, o, c, h, w) of the image operand reads the
    padded array at (b, c, h + 1, w + 1). -/
theorem imageIdx_11 (b : Fin 8) (o c h w : Fin 64) :
    idx_main_v46 (idx_main_v47 (idx_main_v52 (ix5 b o c h w)))
      = ix4 b c (⟨h.val + (1 : Fin 3).val, by have := h.isLt; have := (1 : Fin 3).isLt; omega⟩ : Fin 66)
          (⟨w.val + (1 : Fin 3).val, by have := w.isLt; have := (1 : Fin 3).isLt; omega⟩ : Fin 66) := by
  funext a; apply Fin.ext
  match a with
  | ⟨0, _⟩ => rfl
  | ⟨1, _⟩ => rfl
  | ⟨2, _⟩ => show 1 + h.val = h.val + 1; omega
  | ⟨3, _⟩ => show 1 + w.val = w.val + 1; omega

/-- Through the three broadcasts, the reshape and the 1×1 slice at (1, 1), entry (b, o, c, h, w) of the weight operand
    reads the weights at (o, c, 1, 1). -/
theorem weightIdx_11 (b : Fin 8) (o c h w : Fin 64) :
    idx_main_v48 (idx_main_v49 (idx_main_v50 (idx_main_v51 (idx_main_v53 (ix5 b o c h w)))))
      = ix4 o c (1 : Fin 3) (1 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (1, 1) at (b, o, h, w) is the specification's tap. -/
theorem tap_11 (x0 : (⟨S8x64x64x64, .f32⟩ : BufTy).Contents (Elt Ideal)) (x1 : (⟨S64x64x3x3, .f32⟩ : BufTy).Contents (Elt Ideal))
    (b : Fin 8) (o h w : Fin 64) :
    val_main_v55 (F := Ideal) x0 x1 (ix4 b o h w)
      = Cert.MaxPlus.tap (val_main_v0 (F := Ideal) x0) x1 1 1 b o h w := by
  unfold val_main_v55
  rw [reduce_channel_max _ _ (fun i => (val_main_cst_5_apply (F := Ideal) i).trans negInf_eq_bot)]
  unfold Cert.MaxPlus.tap
  refine congrArg (Finset.univ.sup) (funext fun c => ?_)
  rw [val_main_v54_apply, val_main_v52_apply, val_main_v47_apply, val_main_v46_apply, val_main_v53_apply,
    val_main_v51_apply, val_main_v50_apply, val_main_v49_apply, val_main_v48_apply, imageIdx_11, weightIdx_11]
  exact Ideal.addf_def _ _

/-! ### Tap (1, 2) -/

/-- Through the two broadcasts and the slice at offsets (1, 2), entry (b, o, c, h, w) of the image operand reads the
    padded array at (b, c, h + 1, w + 2). -/
theorem imageIdx_12 (b : Fin 8) (o c h w : Fin 64) :
    idx_main_v57 (idx_main_v58 (idx_main_v63 (ix5 b o c h w)))
      = ix4 b c (⟨h.val + (1 : Fin 3).val, by have := h.isLt; have := (1 : Fin 3).isLt; omega⟩ : Fin 66)
          (⟨w.val + (2 : Fin 3).val, by have := w.isLt; have := (2 : Fin 3).isLt; omega⟩ : Fin 66) := by
  funext a; apply Fin.ext
  match a with
  | ⟨0, _⟩ => rfl
  | ⟨1, _⟩ => rfl
  | ⟨2, _⟩ => show 1 + h.val = h.val + 1; omega
  | ⟨3, _⟩ => show 2 + w.val = w.val + 2; omega

/-- Through the three broadcasts, the reshape and the 1×1 slice at (1, 2), entry (b, o, c, h, w) of the weight operand
    reads the weights at (o, c, 1, 2). -/
theorem weightIdx_12 (b : Fin 8) (o c h w : Fin 64) :
    idx_main_v59 (idx_main_v60 (idx_main_v61 (idx_main_v62 (idx_main_v64 (ix5 b o c h w)))))
      = ix4 o c (1 : Fin 3) (2 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (1, 2) at (b, o, h, w) is the specification's tap. -/
theorem tap_12 (x0 : (⟨S8x64x64x64, .f32⟩ : BufTy).Contents (Elt Ideal)) (x1 : (⟨S64x64x3x3, .f32⟩ : BufTy).Contents (Elt Ideal))
    (b : Fin 8) (o h w : Fin 64) :
    val_main_v66 (F := Ideal) x0 x1 (ix4 b o h w)
      = Cert.MaxPlus.tap (val_main_v0 (F := Ideal) x0) x1 1 2 b o h w := by
  unfold val_main_v66
  rw [reduce_channel_max _ _ (fun i => (val_main_cst_6_apply (F := Ideal) i).trans negInf_eq_bot)]
  unfold Cert.MaxPlus.tap
  refine congrArg (Finset.univ.sup) (funext fun c => ?_)
  rw [val_main_v65_apply, val_main_v63_apply, val_main_v58_apply, val_main_v57_apply, val_main_v64_apply,
    val_main_v62_apply, val_main_v61_apply, val_main_v60_apply, val_main_v59_apply, imageIdx_12, weightIdx_12]
  exact Ideal.addf_def _ _

/-! ### Tap (2, 0) -/

/-- Through the two broadcasts and the slice at offsets (2, 0), entry (b, o, c, h, w) of the image operand reads the
    padded array at (b, c, h + 2, w + 0). -/
theorem imageIdx_20 (b : Fin 8) (o c h w : Fin 64) :
    idx_main_v68 (idx_main_v69 (idx_main_v74 (ix5 b o c h w)))
      = ix4 b c (⟨h.val + (2 : Fin 3).val, by have := h.isLt; have := (2 : Fin 3).isLt; omega⟩ : Fin 66)
          (⟨w.val + (0 : Fin 3).val, by have := w.isLt; have := (0 : Fin 3).isLt; omega⟩ : Fin 66) := by
  funext a; apply Fin.ext
  match a with
  | ⟨0, _⟩ => rfl
  | ⟨1, _⟩ => rfl
  | ⟨2, _⟩ => show 2 + h.val = h.val + 2; omega
  | ⟨3, _⟩ => show w.val = w.val + 0; omega

/-- Through the three broadcasts, the reshape and the 1×1 slice at (2, 0), entry (b, o, c, h, w) of the weight operand
    reads the weights at (o, c, 2, 0). -/
theorem weightIdx_20 (b : Fin 8) (o c h w : Fin 64) :
    idx_main_v70 (idx_main_v71 (idx_main_v72 (idx_main_v73 (idx_main_v75 (ix5 b o c h w)))))
      = ix4 o c (2 : Fin 3) (0 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (2, 0) at (b, o, h, w) is the specification's tap. -/
theorem tap_20 (x0 : (⟨S8x64x64x64, .f32⟩ : BufTy).Contents (Elt Ideal)) (x1 : (⟨S64x64x3x3, .f32⟩ : BufTy).Contents (Elt Ideal))
    (b : Fin 8) (o h w : Fin 64) :
    val_main_v77 (F := Ideal) x0 x1 (ix4 b o h w)
      = Cert.MaxPlus.tap (val_main_v0 (F := Ideal) x0) x1 2 0 b o h w := by
  unfold val_main_v77
  rw [reduce_channel_max _ _ (fun i => (val_main_cst_7_apply (F := Ideal) i).trans negInf_eq_bot)]
  unfold Cert.MaxPlus.tap
  refine congrArg (Finset.univ.sup) (funext fun c => ?_)
  rw [val_main_v76_apply, val_main_v74_apply, val_main_v69_apply, val_main_v68_apply, val_main_v75_apply,
    val_main_v73_apply, val_main_v72_apply, val_main_v71_apply, val_main_v70_apply, imageIdx_20, weightIdx_20]
  exact Ideal.addf_def _ _

/-! ### Tap (2, 1) -/

/-- Through the two broadcasts and the slice at offsets (2, 1), entry (b, o, c, h, w) of the image operand reads the
    padded array at (b, c, h + 2, w + 1). -/
theorem imageIdx_21 (b : Fin 8) (o c h w : Fin 64) :
    idx_main_v79 (idx_main_v80 (idx_main_v85 (ix5 b o c h w)))
      = ix4 b c (⟨h.val + (2 : Fin 3).val, by have := h.isLt; have := (2 : Fin 3).isLt; omega⟩ : Fin 66)
          (⟨w.val + (1 : Fin 3).val, by have := w.isLt; have := (1 : Fin 3).isLt; omega⟩ : Fin 66) := by
  funext a; apply Fin.ext
  match a with
  | ⟨0, _⟩ => rfl
  | ⟨1, _⟩ => rfl
  | ⟨2, _⟩ => show 2 + h.val = h.val + 2; omega
  | ⟨3, _⟩ => show 1 + w.val = w.val + 1; omega

/-- Through the three broadcasts, the reshape and the 1×1 slice at (2, 1), entry (b, o, c, h, w) of the weight operand
    reads the weights at (o, c, 2, 1). -/
theorem weightIdx_21 (b : Fin 8) (o c h w : Fin 64) :
    idx_main_v81 (idx_main_v82 (idx_main_v83 (idx_main_v84 (idx_main_v86 (ix5 b o c h w)))))
      = ix4 o c (2 : Fin 3) (1 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (2, 1) at (b, o, h, w) is the specification's tap. -/
theorem tap_21 (x0 : (⟨S8x64x64x64, .f32⟩ : BufTy).Contents (Elt Ideal)) (x1 : (⟨S64x64x3x3, .f32⟩ : BufTy).Contents (Elt Ideal))
    (b : Fin 8) (o h w : Fin 64) :
    val_main_v88 (F := Ideal) x0 x1 (ix4 b o h w)
      = Cert.MaxPlus.tap (val_main_v0 (F := Ideal) x0) x1 2 1 b o h w := by
  unfold val_main_v88
  rw [reduce_channel_max _ _ (fun i => (val_main_cst_8_apply (F := Ideal) i).trans negInf_eq_bot)]
  unfold Cert.MaxPlus.tap
  refine congrArg (Finset.univ.sup) (funext fun c => ?_)
  rw [val_main_v87_apply, val_main_v85_apply, val_main_v80_apply, val_main_v79_apply, val_main_v86_apply,
    val_main_v84_apply, val_main_v83_apply, val_main_v82_apply, val_main_v81_apply, imageIdx_21, weightIdx_21]
  exact Ideal.addf_def _ _

/-! ### Tap (2, 2) -/

/-- Through the two broadcasts and the slice at offsets (2, 2), entry (b, o, c, h, w) of the image operand reads the
    padded array at (b, c, h + 2, w + 2). -/
theorem imageIdx_22 (b : Fin 8) (o c h w : Fin 64) :
    idx_main_v90 (idx_main_v91 (idx_main_v96 (ix5 b o c h w)))
      = ix4 b c (⟨h.val + (2 : Fin 3).val, by have := h.isLt; have := (2 : Fin 3).isLt; omega⟩ : Fin 66)
          (⟨w.val + (2 : Fin 3).val, by have := w.isLt; have := (2 : Fin 3).isLt; omega⟩ : Fin 66) := by
  funext a; apply Fin.ext
  match a with
  | ⟨0, _⟩ => rfl
  | ⟨1, _⟩ => rfl
  | ⟨2, _⟩ => show 2 + h.val = h.val + 2; omega
  | ⟨3, _⟩ => show 2 + w.val = w.val + 2; omega

/-- Through the three broadcasts, the reshape and the 1×1 slice at (2, 2), entry (b, o, c, h, w) of the weight operand
    reads the weights at (o, c, 2, 2). -/
theorem weightIdx_22 (b : Fin 8) (o c h w : Fin 64) :
    idx_main_v92 (idx_main_v93 (idx_main_v94 (idx_main_v95 (idx_main_v97 (ix5 b o c h w)))))
      = ix4 o c (2 : Fin 3) (2 : Fin 3) := by
  funext a; apply Fin.ext
  match a with
  | ⟨0, _⟩ => show (o.val * 64 + c.val) / 64 = o.val; have := c.isLt; omega
  | ⟨1, _⟩ => show (o.val * 64 + c.val) / 1 % 64 = c.val; have := c.isLt; omega
  | ⟨2, _⟩ => rfl
  | ⟨3, _⟩ => rfl

/-- The reduce of tap (2, 2) at (b, o, h, w) is the specification's tap. -/
theorem tap_22 (x0 : (⟨S8x64x64x64, .f32⟩ : BufTy).Contents (Elt Ideal)) (x1 : (⟨S64x64x3x3, .f32⟩ : BufTy).Contents (Elt Ideal))
    (b : Fin 8) (o h w : Fin 64) :
    val_main_v99 (F := Ideal) x0 x1 (ix4 b o h w)
      = Cert.MaxPlus.tap (val_main_v0 (F := Ideal) x0) x1 2 2 b o h w := by
  unfold val_main_v99
  rw [reduce_channel_max _ _ (fun i => (val_main_cst_9_apply (F := Ideal) i).trans negInf_eq_bot)]
  unfold Cert.MaxPlus.tap
  refine congrArg (Finset.univ.sup) (funext fun c => ?_)
  rw [val_main_v98_apply, val_main_v96_apply, val_main_v91_apply, val_main_v90_apply, val_main_v97_apply,
    val_main_v95_apply, val_main_v94_apply, val_main_v93_apply, val_main_v92_apply, imageIdx_22, weightIdx_22]
  exact Ideal.addf_def _ _

/-! ### The nine running maxima -/

/-- The broadcast of −∞ is −∞ everywhere. -/
theorem start_eq_bot (i : S8x64x64x64.Idx) : (val_main_v1 (F := Ideal) i : EReal) = ⊥ := by
  rw [val_main_v1_apply, val_main_cst_0_apply]; exact negInf_eq_bot

/-- The reference's result is the max-plus convolution of the padded array with the weights. -/
theorem ref_eq (x0 : (⟨Cert.ReferenceIdeal.S8x64x64x64, .f32⟩ : BufTy).Contents (Elt Ideal))
    (x1 : (⟨Cert.ReferenceIdeal.S64x64x3x3, .f32⟩ : BufTy).Contents (Elt Ideal)) :
    Cert.ReferenceIdeal.Read.val_main_v100 (F := Ideal) x0 x1
      = Cert.MaxPlus.conv (B := 8) (Cert.ReferenceIdeal.Read.val_main_v0 (F := Ideal) x0) x1 := by
  funext i
  obtain ⟨b, o, h, w, rfl⟩ : ∃ (b : Fin 8) (o h w : Fin 64), i = ix4 b o h w := ⟨i 0, i 1, i 2, i 3, eq_ix4 i⟩
  rw [Cert.MaxPlus.conv_ix4]
  unfold Cert.MaxPlus.convAt
  rw [val_main_v100_apply, val_main_v89_apply, val_main_v78_apply, val_main_v67_apply, val_main_v56_apply, val_main_v45_apply,
    val_main_v34_apply, val_main_v23_apply, val_main_v12_apply, start_eq_bot,
    tap_00, tap_01, tap_02, tap_10, tap_11, tap_12, tap_20, tap_21, tap_22]
  simp only [Ideal.maximumf_def]

end Cert.RefValue

end
-- ==== Proof.lean ====
/-
  The certificate's five claims.

  Both programs compute the max-plus 3×3 convolution of the input, padded with −∞ by one row and one column on each
  side of its last two axes, with the weights: at image b, output channel o, row h, column w, the maximum over the nine
  taps (ki, kj) and the sixty-four input channels c of  padded[b, c, h + ki, w + kj] + weights[o, c, ki, kj].
  The kernel takes it image by image, one grid point per image: eight row tiles per image, nine taps per tile, and the
  maximum over the channels in eight chunks of eight. The reference takes the nine taps over the whole array, each one
  a maximum over all sixty-four channels at once. Maximum is associative and commutative and −∞ is its identity, so
  every grouping gives the same value on the extended reals; no sum is ever regrouped. No finiteness is needed: the
  precondition is never opened.
  The frames: each program terminates and leaves its arguments as launched — the kernel, in both readings, by its
  pipeline's frame; the reference by its run. The idealized kernel is the kernel's own text read over the extended
  reals: no operation was rewritten, so there is nothing to preserve.
-/
import proofs.«170215_j15960098472407_2_alg».proof.Defs
import proofs.«170215_j15960098472407_2_alg».proof.Proof.Gen.Kernel
import proofs.«170215_j15960098472407_2_alg».proof.Proof.GenP.Kernel.Skeleton
import proofs.«170215_j15960098472407_2_alg».proof.Proof.GenP.Kernel.Loops
import proofs.«170215_j15960098472407_2_alg».proof.Proof.Gen.Kernel.Launch
import proofs.«170215_j15960098472407_2_alg».proof.Proof.Gen.Kernel.Points
import proofs.«170215_j15960098472407_2_alg».proof.Proof.GenP.Kernel.Frame
import proofs.«170215_j15960098472407_2_alg».proof.Proof.Gen.KernelIdeal
import proofs.«170215_j15960098472407_2_alg».proof.Proof.GenP.KernelIdeal.Skeleton
import proofs.«170215_j15960098472407_2_alg».proof.Proof.GenP.KernelIdeal.Loops
import proofs.«170215_j15960098472407_2_alg».proof.Proof.Gen.KernelIdeal.Launch
import proofs.«170215_j15960098472407_2_alg».proof.Proof.Gen.KernelIdeal.Points
import proofs.«170215_j15960098472407_2_alg».proof.Proof.GenP.KernelIdeal.Frame
import proofs.«170215_j15960098472407_2_alg».proof.Proof.Gen.ReferenceIdeal
import proofs.«170215_j15960098472407_2_alg».proof.Proof.Gen.Pre_finite_inputs
import proofs.«170215_j15960098472407_2_alg».proof.Proof.GenP.KernelIdeal.Value
import proofs.«170215_j15960098472407_2_alg».proof.Proof.Gen.ReferenceIdeal.Run
import proofs.«170215_j15960098472407_2_alg».proof.Proof.Gen.ReferenceIdeal.Read
import proofs.«170215_j15960098472407_2_alg».proof.Proof.KernelArray
import proofs.«170215_j15960098472407_2_alg».proof.Proof.RefValue
import Idealize.ShloMosaic.Adequacy
import Idealize.ShloMosaic.Init

noncomputable section

namespace Cert.Proof

open Idealize.ShloMosaic Idealize.SL.Sem Cert.Kernel

/-- The reference pads argument 0 as the kernel's program does: the same pad, by one row and one column on each side of
    the last two axes, with the same −∞ word. -/
theorem ref_padded (x0 : (⟨Cert.ReferenceIdeal.S8x64x64x64, .f32⟩ : BufTy).Contents (Elt Ideal)) :
    Cert.ReferenceIdeal.Read.val_main_v0 (F := Ideal) x0 = Cert.KernelArray.padded x0 := rfl

/-- The kernel as printed terminates and leaves its arguments as launched. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Over the extended reals, from memories that agree on the two arguments, the kernel's result array and the
    reference's both end at the max-plus convolution of argument 0 padded with −∞ with argument 1: the kernel's by its
    run read image by image, the reference's by its nine whole-array taps, each a maximum over all channels, and the
    two pads are one term. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.RefValue.ref_eq, ref_padded, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
